-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x8 : Shape := ⟨2, ![262144, 8]⟩
abbrev S_ : Shape := ⟨0, ![]⟩

class Facts : Prop where
  bcast_S_S262144x8 : S_.BroadcastsInDim S262144x8 (![] : Fin 0 → Fin S262144x8.rank)
  reducesTo_S262144x8_S_d0_1 : S262144x8.ReducesTo [0, 1] S_
  h_S_ : 0 < S_.numel

variable [Facts]

def fn {F : FTy → Type} [FloatOps F] (main_arg0 : FVec F S262144x8 .f32) : IVec S_ 1 :=
  let main_v0 : FVec F S262144x8 .f32 := Host.absf main_arg0
  let main_cst : FVec F S_ .f32 := constant S_ .f32 0x7F800000#32
  let main_v1 : FVec F S262144x8 .f32 := broadcastInDim S262144x8 ![] bcast_S_S262144x8 main_cst
  let main_v2 : IVec S262144x8 1 := cmpf .olt main_v0 main_v1
  let main_c : IVec S_ 1 := constantI S_ 1 1#1
  let main_v3 : IVec S_ 1 := (fun x v => Host.reduce IntOp.andi x v reducesTo_S262144x8_S_d0_1 h_S_) main_v2 main_c
  main_v3
-- ==== Kernel.lean ====
abbrev S262144x8 : Shape := ⟨2, ![262144, 8]⟩
abbrev S16384x8 : Shape := ⟨2, ![16384, 8]⟩
abbrev S16384x1 : Shape := ⟨2, ![16384, 1]⟩

abbrev nBuf : Space → Nat
  | .hbm => 2
  | .vmem => 4
  | .smem => 0
  | _ => 0

abbrev bufTy : (tb : Table) → Fin (tcTables nBuf tb) → BufTy
  | .hbm, ⟨0, _⟩ => ⟨S262144x8, .f32⟩
  | .hbm, ⟨1, _⟩ => ⟨S262144x8, .f32⟩
  | .local _ .vmem, ⟨0, _⟩ => ⟨S16384x8, .f32⟩
  | .local _ .vmem, ⟨1, _⟩ => ⟨S16384x8, .f32⟩
  | .local _ .vmem, ⟨2, _⟩ => ⟨S16384x8, .f32⟩
  | .local _ .vmem, ⟨3, _⟩ => ⟨S16384x8, .f32⟩
  | _, _ => ⟨S262144x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x8_S16384x8_0_0 : ∀ a, (![0, 0] : Fin 2 → Nat) a + S16384x8.size a ≤ S16384x8.size a
  h_S16384x8 : 0 < S16384x8.numel
  slices_S16384x8_o0_1_S16384x1 : S16384x8.Slices ![0, 1] S16384x1
  slices_S16384x8_o0_2_S16384x1 : S16384x8.Slices ![0, 2] S16384x1
  slices_S16384x8_o0_3_S16384x1 : S16384x8.Slices ![0, 3] S16384x1
  slices_S16384x8_o0_4_S16384x1 : S16384x8.Slices ![0, 4] S16384x1
  slices_S16384x8_o0_5_S16384x1 : S16384x8.Slices ![0, 5] S16384x1
  slices_S16384x8_o0_6_S16384x1 : S16384x8.Slices ![0, 6] S16384x1
  slices_S16384x8_o0_7_S16384x1 : S16384x8.Slices ![0, 7] S16384x1
  slices_S16384x8_o0_0_S16384x1 : S16384x8.Slices ![0, 0] S16384x1
  concatenates_S16384x1_S16384x1_S16384x1_S16384x1_S16384x1_S16384x1_S16384x1_S16384x1_S16384x8_d1 : Shape.Concatenates [S16384x1, S16384x1, S16384x1, S16384x1, S16384x1, S16384x1, S16384x1, S16384x1] S16384x8 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x8.size a ≤ S262144x8.size a
  hwx0_0 : ∀ i : grid0.Coords, EltTy.bits .f32 = 32 ∨ (Rect.block (s := S262144x8) S16384x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x8.size a ≤ S262144x8.size a
  hwx0_1 : ∀ i : grid0.Coords, EltTy.bits .f32 = 32 ∨ (Rect.block (s := S262144x8) S16384x8.size (cc0_transform_1 i) (hinb0_1 i)).WholeWords (EltTy.packing .f32)

variable [Facts₀]

abbrev win0_0 : Pipeline.Window sig grid0 :=
  Pipeline.Window.ofSpec (Memref.whole main_arg0) S16384x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S262144x8 : Shape := ⟨2, ![262144, 8]⟩
abbrev S_ : Shape := ⟨0, ![]⟩
abbrev S262144x1 : Shape := ⟨2, ![262144, 1]⟩
abbrev S262144 : Shape := ⟨1, ![262144]⟩
abbrev S262144x2 : Shape := ⟨2, ![262144, 2]⟩
abbrev S262144x1x1 : Shape := ⟨3, ![262144, 1, 1]⟩
abbrev S262144x1x2 : Shape := ⟨3, ![262144, 1, 2]⟩
abbrev S262144x2x1 : Shape := ⟨3, ![262144, 2, 1]⟩
abbrev S262144x2x2 : Shape := ⟨3, ![262144, 2, 2]⟩
abbrev S262144x4 : Shape := ⟨2, ![262144, 4]⟩
abbrev S262144x4x1 : Shape := ⟨3, ![262144, 4, 1]⟩
abbrev S262144x4x2 : Shape := ⟨3, ![262144, 4, 2]⟩
abbrev S262144x8x1 : Shape := ⟨3, ![262144, 8, 1]⟩
abbrev S262144x8x2 : Shape := ⟨3, ![262144, 8, 2]⟩
abbrev S262144x16 : Shape := ⟨2, ![262144, 16]⟩
abbrev S262144x16x1 : Shape := ⟨3, ![262144, 16, 1]⟩
abbrev S262144x16x2 : Shape := ⟨3, ![262144, 16, 2]⟩
abbrev S262144x32 : Shape := ⟨2, ![262144, 32]⟩
abbrev S262144x32x1 : Shape := ⟨3, ![262144, 32, 1]⟩
abbrev S262144x32x2 : Shape := ⟨3, ![262144, 32, 2]⟩
abbrev S262144x64 : Shape := ⟨2, ![262144, 64]⟩
abbrev S262144x64x1 : Shape := ⟨3, ![262144, 64, 1]⟩
abbrev S262144x64x2 : Shape := ⟨3, ![262144, 64, 2]⟩
abbrev S262144x128 : Shape := ⟨2, ![262144, 128]⟩
abbrev S262144x128x1 : Shape := ⟨3, ![262144, 128, 1]⟩
abbrev S262144x128x2 : Shape := ⟨3, ![262144, 128, 2]⟩
abbrev S262144x256 : Shape := ⟨2, ![262144, 256]⟩
abbrev S262144x2x2x2x2x2x2x2x2 : Shape := ⟨9, ![262144, 2, 2, 2, 2, 2, 2, 2, 2]⟩
abbrev S262144x1x2x2x2x2x2x2x2 : Shape := ⟨9, ![262144, 1, 2, 2, 2, 2, 2, 2, 2]⟩
abbrev S262144x2x1x2x2x2x2x2x2 : Shape := ⟨9, ![262144, 2, 1, 2, 2, 2, 2, 2, 2]⟩
abbrev S262144x2x2x1x2x2x2x2x2 : Shape := ⟨9, ![262144, 2, 2, 1, 2, 2, 2, 2, 2]⟩
abbrev S262144x2x2x2x1x2x2x2x2 : Shape := ⟨9, ![262144, 2, 2, 2, 1, 2, 2, 2, 2]⟩
abbrev S262144x2x2x2x2x1x2x2x2 : Shape := ⟨9, ![262144, 2, 2, 2, 2, 1, 2, 2, 2]⟩
abbrev S262144x2x2x2x2x2x1x2x2 : Shape := ⟨9, ![262144, 2, 2, 2, 2, 2, 1, 2, 2]⟩
abbrev S262144x2x2x2x2x2x2x1x2 : Shape := ⟨9, ![262144, 2, 2, 2, 2, 2, 2, 1, 2]⟩
abbrev S262144x2x2x2x2x2x2x2x1 : Shape := ⟨9, ![262144, 2, 2, 2, 2, 2, 2, 2, 1]⟩

abbrev nBuf : Space → Nat
  | .hbm => 218
  | .vmem => 0
  | .smem => 0
  | _ => 0

abbrev hbmTy0_0 (i : Nat) : BufTy := match i % 128 with
  | 0 => ⟨S262144x8, .f32⟩
  | 1 => ⟨S_, .f32⟩
  | 2 => ⟨S_, .f32⟩
  | 3 => ⟨S_, .f32⟩
  | 4 => ⟨S262144x8, .f32⟩
  | 5 => ⟨S262144x8, .f32⟩
  | 6 => ⟨S_, .f32⟩
  | 7 => ⟨S262144x8, .f32⟩
  | 8 => ⟨S262144x8, .f32⟩
  | 9 => ⟨S_, .f32⟩
  | 10 => ⟨S262144x8, .f32⟩
  | 11 => ⟨S262144x8, .f32⟩
  | 12 => ⟨S262144x8, .f32⟩
  | 13 => ⟨S262144x8, .f32⟩
  | 14 => ⟨S_, .f32⟩
  | 15 => ⟨S262144x1, .f32⟩
  | 16 => ⟨S262144x1, .f32⟩
  | 17 => ⟨S262144, .f32⟩
  | 18 => ⟨S262144x1, .f32⟩
  | 19 => ⟨S262144, .f32⟩
  | 20 => ⟨S262144x1, .f32⟩
  | 21 => ⟨S262144x1, .f32⟩
  | 22 => ⟨S262144x2, .f32⟩
  | 23 => ⟨S262144x1x1, .f32⟩
  | 24 => ⟨S262144x1x2, .f32⟩
  | 25 => ⟨S262144x1x2, .f32⟩
  | 26 => ⟨S262144x1x2, .f32⟩
  | 27 => ⟨S262144x2, .f32⟩
  | 28 => ⟨S262144x1, .f32⟩
  | 29 => ⟨S262144, .f32⟩
  | 30 => ⟨S262144x1, .f32⟩
  | 31 => ⟨S262144, .f32⟩
  | 32 => ⟨S262144x1, .f32⟩
  | 33 => ⟨S262144x1, .f32⟩
  | 34 => ⟨S262144x2, .f32⟩
  | 35 => ⟨S262144x2x1, .f32⟩
  | 36 => ⟨S262144x1x2, .f32⟩
  | 37 => ⟨S262144x2x2, .f32⟩
  | 38 => ⟨S262144x2x2, .f32⟩
  | 39 => ⟨S262144x2x2, .f32⟩
  | 40 => ⟨S262144x4, .f32⟩
  | 41 => ⟨S262144x1, .f32⟩
  | 42 => ⟨S262144, .f32⟩
  | 43 => ⟨S262144x1, .f32⟩
  | 44 => ⟨S262144, .f32⟩
  | 45 => ⟨S262144x1, .f32⟩
  | 46 => ⟨S262144x1, .f32⟩
  | 47 => ⟨S262144x2, .f32⟩
  | 48 => ⟨S262144x4x1, .f32⟩
  | 49 => ⟨S262144x1x2, .f32⟩
  | 50 => ⟨S262144x4x2, .f32⟩
  | 51 => ⟨S262144x4x2, .f32⟩
  | 52 => ⟨S262144x4x2, .f32⟩
  | 53 => ⟨S262144x8, .f32⟩
  | 54 => ⟨S262144x1, .f32⟩
  | 55 => ⟨S262144, .f32⟩
  | 56 => ⟨S262144x1, .f32⟩
  | 57 => ⟨S262144, .f32⟩
  | 58 => ⟨S262144x1, .f32⟩
  | 59 => ⟨S262144x1, .f32⟩
  | 60 => ⟨S262144x2, .f32⟩
  | 61 => ⟨S262144x8x1, .f32⟩
  | 62 => ⟨S262144x1x2, .f32⟩
  | 63 => ⟨S262144x8x2, .f32⟩
  | 64 => ⟨S262144x8x2, .f32⟩
  | 65 => ⟨S262144x8x2, .f32⟩
  | 66 => ⟨S262144x16, .f32⟩
  | 67 => ⟨S262144x1, .f32⟩
  | 68 => ⟨S262144, .f32⟩
  | 69 => ⟨S262144x1, .f32⟩
  | 70 => ⟨S262144, .f32⟩
  | 71 => ⟨S262144x1, .f32⟩
  | 72 => ⟨S262144x1, .f32⟩
  | 73 => ⟨S262144x2, .f32⟩
  | 74 => ⟨S262144x16x1, .f32⟩
  | 75 => ⟨S262144x1x2, .f32⟩
  | 76 => ⟨S262144x16x2, .f32⟩
  | 77 => ⟨S262144x16x2, .f32⟩
  | 78 => ⟨S262144x16x2, .f32⟩
  | 79 => ⟨S262144x32, .f32⟩
  | 80 => ⟨S262144x1, .f32⟩
  | 81 => ⟨S262144, .f32⟩
  | 82 => ⟨S262144x1, .f32⟩
  | 83 => ⟨S262144, .f32⟩
  | 84 => ⟨S262144x1, .f32⟩
  | 85 => ⟨S262144x1, .f32⟩
  | 86 => ⟨S262144x2, .f32⟩
  | 87 => ⟨S262144x32x1, .f32⟩
  | 88 => ⟨S262144x1x2, .f32⟩
  | 89 => ⟨S262144x32x2, .f32⟩
  | 90 => ⟨S262144x32x2, .f32⟩
  | 91 => ⟨S262144x32x2, .f32⟩
  | 92 => ⟨S262144x64, .f32⟩
  | 93 => ⟨S262144x1, .f32⟩
  | 94 => ⟨S262144, .f32⟩
  | 95 => ⟨S262144x1, .f32⟩
  | 96 => ⟨S262144, .f32⟩
  | 97 => ⟨S262144x1, .f32⟩
  | 98 => ⟨S262144x1, .f32⟩
  | 99 => ⟨S262144x2, .f32⟩
  | 100 => ⟨S262144x64x1, .f32⟩
  | 101 => ⟨S262144x1x2, .f32⟩
  | 102 => ⟨S262144x64x2, .f32⟩
  | 103 => ⟨S262144x64x2, .f32⟩
  | 104 => ⟨S262144x64x2, .f32⟩
  | 105 => ⟨S262144x128, .f32⟩
  | 106 => ⟨S262144x1, .f32⟩
  | 107 => ⟨S262144, .f32⟩
  | 108 => ⟨S262144x1, .f32⟩
  | 109 => ⟨S262144, .f32⟩
  | 110 => ⟨S262144x1, .f32⟩
  | 111 => ⟨S262144x1, .f32⟩
  | 112 => ⟨S262144x2, .f32⟩
  | 113 => ⟨S262144x128x1, .f32⟩
  | 114 => ⟨S262144x1x2, .f32⟩
  | 115 => ⟨S262144x128x2, .f32⟩
  | 116 => ⟨S262144x128x2, .f32⟩
  | 117 => ⟨S262144x128x2, .f32⟩
  | 118 => ⟨S262144x256, .f32⟩
  | 119 => ⟨S262144x2x2x2x2x2x2x2x2, .f32⟩
  | 120 => ⟨S262144x1x2x2x2x2x2x2x2, .f32⟩
  | 121 => ⟨S262144x1x2x2x2x2x2x2x2, .f32⟩
  | 122 => ⟨S262144x1x2x2x2x2x2x2x2, .f32⟩
  | 123 => ⟨S262144x2x2x2x2x2x2x2x2, .f32⟩
  | 124 => ⟨S262144x2x1x2x2x2x2x2x2, .f32⟩
  | 125 => ⟨S262144x2x1x2x2x2x2x2x2, .f32⟩
  | 126 => ⟨S262144x2x1x2x2x2x2x2x2, .f32⟩
  | 127 => ⟨S262144x2x2x2x2x2x2x2x2, .f32⟩
  | _ => ⟨S262144x8, .f32⟩

abbrev hbmTy0_1 (i : Nat) : BufTy := match i % 128 with
  | 0 => ⟨S262144x2x2x1x2x2x2x2x2, .f32⟩
  | 1 => ⟨S262144x2x2x1x2x2x2x2x2, .f32⟩
  | 2 => ⟨S262144x2x2x1x2x2x2x2x2, .f32⟩
  | 3 => ⟨S262144x2x2x2x2x2x2x2x2, .f32⟩
  | 4 => ⟨S262144x2x2x2x1x2x2x2x2, .f32⟩
  | 5 => ⟨S262144x2x2x2x1x2x2x2x2, .f32⟩
  | 6 => ⟨S262144x2x2x2x1x2x2x2x2, .f32⟩
  | 7 => ⟨S262144x2x2x2x2x2x2x2x2, .f32⟩
  | 8 => ⟨S262144x2x2x2x2x1x2x2x2, .f32⟩
  | 9 => ⟨S262144x2x2x2x2x1x2x2x2, .f32⟩
  | 10 => ⟨S262144x2x2x2x2x1x2x2x2, .f32⟩
  | 11 => ⟨S262144x2x2x2x2x2x2x2x2, .f32⟩
  | 12 => ⟨S262144x2x2x2x2x2x1x2x2, .f32⟩
  | 13 => ⟨S262144x2x2x2x2x2x1x2x2, .f32⟩
  | 14 => ⟨S262144x2x2x2x2x2x1x2x2, .f32⟩
  | 15 => ⟨S262144x2x2x2x2x2x2x2x2, .f32⟩
  | 16 => ⟨S262144x2x2x2x2x2x2x1x2, .f32⟩
  | 17 => ⟨S262144x2x2x2x2x2x2x1x2, .f32⟩
  | 18 => ⟨S262144x2x2x2x2x2x2x1x2, .f32⟩
  | 19 => ⟨S262144x2x2x2x2x2x2x2x2, .f32⟩
  | 20 => ⟨S262144x2x2x2x2x2x2x2x1, .f32⟩
  | 21 => ⟨S262144x2x2x2x2x2x2x2x1, .f32⟩
  | 22 => ⟨S262144x2x2x2x2x2x2x2x1, .f32⟩
  | 23 => ⟨S262144x2x2x2x2x2x2x2x2, .f32⟩
  | 24 => ⟨S262144x2x2x2x2x2x2x2x2, .f32⟩
  | 25 => ⟨S_, .f32⟩
  | 26 => ⟨S262144x2, .f32⟩
  | 27 => ⟨S262144x1, .f32⟩
  | 28 => ⟨S262144, .f32⟩
  | 29 => ⟨S262144x1, .f32⟩
  | 30 => ⟨S262144, .f32⟩
  | 31 => ⟨S262144, .f32⟩
  | 32 => ⟨S_, .f32⟩
  | 33 => ⟨S262144x2, .f32⟩
  | 34 => ⟨S262144x1, .f32⟩
  | 35 => ⟨S262144, .f32⟩
  | 36 => ⟨S262144x1, .f32⟩
  | 37 => ⟨S262144, .f32⟩
  | 38 => ⟨S262144, .f32⟩
  | 39 => ⟨S_, .f32⟩
  | 40 => ⟨S262144x2, .f32⟩
  | 41 => ⟨S262144x1, .f32⟩
  | 42 => ⟨S262144, .f32⟩
  | 43 => ⟨S262144x1, .f32⟩
  | 44 => ⟨S262144, .f32⟩
  | 45 => ⟨S262144, .f32⟩
  | 46 => ⟨S_, .f32⟩
  | 47 => ⟨S262144x2, .f32⟩
  | 48 => ⟨S262144x1, .f32⟩
  | 49 => ⟨S262144, .f32⟩
  | 50 => ⟨S262144x1, .f32⟩
  | 51 => ⟨S262144, .f32⟩
  | 52 => ⟨S262144, .f32⟩
  | 53 => ⟨S_, .f32⟩
  | 54 => ⟨S262144x2, .f32⟩
  | 55 => ⟨S262144x1, .f32⟩
  | 56 => ⟨S262144, .f32⟩
  | 57 => ⟨S262144x1, .f32⟩
  | 58 => ⟨S262144, .f32⟩
  | 59 => ⟨S262144, .f32⟩
  | 60 => ⟨S_, .f32⟩
  | 61 => ⟨S262144x2, .f32⟩
  | 62 => ⟨S262144x1, .f32⟩
  | 63 => ⟨S262144, .f32⟩
  | 64 => ⟨S262144x1, .f32⟩
  | 65 => ⟨S262144, .f32⟩
  | 66 => ⟨S262144, .f32⟩
  | 67 => ⟨S_, .f32⟩
  | 68 => ⟨S262144x2, .f32⟩
  | 69 => ⟨S262144x1, .f32⟩
  | 70 => ⟨S262144, .f32⟩
  | 71 => ⟨S262144x1, .f32⟩
  | 72 => ⟨S262144, .f32⟩
  | 73 => ⟨S262144, .f32⟩
  | 74 => ⟨S_, .f32⟩
  | 75 => ⟨S262144x2, .f32⟩
  | 76 => ⟨S262144x1, .f32⟩
  | 77 => ⟨S262144, .f32⟩
  | 78 => ⟨S262144x1, .f32⟩
  | 79 => ⟨S262144, .f32⟩
  | 80 => ⟨S262144, .f32⟩
  | 81 => ⟨S262144x1, .f32⟩
  | 82 => ⟨S262144x1, .f32⟩
  | 83 => ⟨S262144x1, .f32⟩
  | 84 => ⟨S262144x1, .f32⟩
  | 85 => ⟨S262144x1, .f32⟩
  | 86 => ⟨S262144x1, .f32⟩
  | 87 => ⟨S262144x1, .f32⟩
  | 88 => ⟨S262144x1, .f32⟩
  | 89 => ⟨S262144x8, .f32⟩
  | _ => ⟨S262144x8, .f32⟩

abbrev hbmTy (i : Nat) : BufTy := match i / 128 with
  | 0 => hbmTy0_0 i
  | 1 => hbmTy0_1 i
  | _ => ⟨S262144x8, .f32⟩

abbrev bufTy : (tb : Table) → Fin (tcTables nBuf tb) → BufTy
  | .hbm, ⟨i, _⟩ => hbmTy i
  | _, _ => ⟨S262144x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_cst_3 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_cst_4 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_cst_5 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_cst_6 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_cst_7 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_cst_8 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_cst_9 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_cst_10 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩

abbrev nD : Nat := 1
abbrev τ : Topo := Topo.v7x

variable {F : FTy → Type} [FloatOps F]

class Facts₀ : Prop where
  bcast_S_S262144x8 : S_.BroadcastsInDim S262144x8 (![] : Fin 0 → Fin S262144x8.rank)
  bcast_S_S262144x1 : S_.BroadcastsInDim S262144x1 (![] : Fin 0 → Fin S262144x1.rank)
  slices_S262144x8_S262144x1_0_0 : S262144x8.Slices ![0, 0] S262144x1
  shapeCasts_S262144x1_S262144 : S262144x1.ShapeCasts S262144
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S262144x1_S262144x1x1_0_1 : S262144x1.BroadcastsInDim S262144x1x1 (![0, 1] : Fin 2 → Fin S262144x1x1.rank)
  bcast_S262144x2_S262144x1x2_0_2 : S262144x2.BroadcastsInDim S262144x1x2 (![0, 2] : Fin 2 → Fin S262144x1x2.rank)
  bcast_S262144x1x1_S262144x1x2_0_1_2 : S262144x1x1.BroadcastsInDim S262144x1x2 (![0, 1, 2] : Fin 3 → Fin S262144x1x2.rank)
  shapeCasts_S262144x1x2_S262144x2 : S262144x1x2.ShapeCasts S262144x2
  slices_S262144x8_S262144x1_0_1 : S262144x8.Slices ![0, 1] S262144x1
  bcast_S262144x2_S262144x2x1_0_1 : S262144x2.BroadcastsInDim S262144x2x1 (![0, 1] : Fin 2 → Fin S262144x2x1.rank)
  bcast_S262144x2x1_S262144x2x2_0_1_2 : S262144x2x1.BroadcastsInDim S262144x2x2 (![0, 1, 2] : Fin 3 → Fin S262144x2x2.rank)
  bcast_S262144x1x2_S262144x2x2_0_1_2 : S262144x1x2.BroadcastsInDim S262144x2x2 (![0, 1, 2] : Fin 3 → Fin S262144x2x2.rank)
  shapeCasts_S262144x2x2_S262144x4 : S262144x2x2.ShapeCasts S262144x4
  slices_S262144x8_S262144x1_0_2 : S262144x8.Slices ![0, 2] S262144x1
  bcast_S262144x4_S262144x4x1_0_1 : S262144x4.BroadcastsInDim S262144x4x1 (![0, 1] : Fin 2 → Fin S262144x4x1.rank)
  bcast_S262144x4x1_S262144x4x2_0_1_2 : S262144x4x1.BroadcastsInDim S262144x4x2 (![0, 1, 2] : Fin 3 → Fin S262144x4x2.rank)
  bcast_S262144x1x2_S262144x4x2_0_1_2 : S262144x1x2.BroadcastsInDim S262144x4x2 (![0, 1, 2] : Fin 3 → Fin S262144x4x2.rank)
  shapeCasts_S262144x4x2_S262144x8 : S262144x4x2.ShapeCasts S262144x8
  slices_S262144x8_S262144x1_0_3 : S262144x8.Slices ![0, 3] S262144x1
  bcast_S262144x8_S262144x8x1_0_1 : S262144x8.BroadcastsInDim S262144x8x1 (![0, 1] : Fin 2 → Fin S262144x8x1.rank)
  bcast_S262144x8x1_S262144x8x2_0_1_2 : S262144x8x1.BroadcastsInDim S262144x8x2 (![0, 1, 2] : Fin 3 → Fin S262144x8x2.rank)
  bcast_S262144x1x2_S262144x8x2_0_1_2 : S262144x1x2.BroadcastsInDim S262144x8x2 (![0, 1, 2] : Fin 3 → Fin S262144x8x2.rank)
  shapeCasts_S262144x8x2_S262144x16 : S262144x8x2.ShapeCasts S262144x16
  slices_S262144x8_S262144x1_0_4 : S262144x8.Slices ![0, 4] S262144x1
  bcast_S262144x16_S262144x16x1_0_1 : S262144x16.BroadcastsInDim S262144x16x1 (![0, 1] : Fin 2 → Fin S262144x16x1.rank)
  bcast_S262144x16x1_S262144x16x2_0_1_2 : S262144x16x1.BroadcastsInDim S262144x16x2 (![0, 1, 2] : Fin 3 → Fin S262144x16x2.rank)
  bcast_S262144x1x2_S262144x16x2_0_1_2 : S262144x1x2.BroadcastsInDim S262144x16x2 (![0, 1, 2] : Fin 3 → Fin S262144x16x2.rank)
  shapeCasts_S262144x16x2_S262144x32 : S262144x16x2.ShapeCasts S262144x32
  slices_S262144x8_S262144x1_0_5 : S262144x8.Slices ![0, 5] S262144x1
  bcast_S262144x32_S262144x32x1_0_1 : S262144x32.BroadcastsInDim S262144x32x1 (![0, 1] : Fin 2 → Fin S262144x32x1.rank)
  bcast_S262144x32x1_S262144x32x2_0_1_2 : S262144x32x1.BroadcastsInDim S262144x32x2 (![0, 1, 2] : Fin 3 → Fin S262144x32x2.rank)
  bcast_S262144x1x2_S262144x32x2_0_1_2 : S262144x1x2.BroadcastsInDim S262144x32x2 (![0, 1, 2] : Fin 3 → Fin S262144x32x2.rank)
  shapeCasts_S262144x32x2_S262144x64 : S262144x32x2.ShapeCasts S262144x64
  slices_S262144x8_S262144x1_0_6 : S262144x8.Slices ![0, 6] S262144x1
  bcast_S262144x64_S262144x64x1_0_1 : S262144x64.BroadcastsInDim S262144x64x1 (![0, 1] : Fin 2 → Fin S262144x64x1.rank)
  bcast_S262144x64x1_S262144x64x2_0_1_2 : S262144x64x1.BroadcastsInDim S262144x64x2 (![0, 1, 2] : Fin 3 → Fin S262144x64x2.rank)
  bcast_S262144x1x2_S262144x64x2_0_1_2 : S262144x1x2.BroadcastsInDim S262144x64x2 (![0, 1, 2] : Fin 3 → Fin S262144x64x2.rank)
  shapeCasts_S262144x64x2_S262144x128 : S262144x64x2.ShapeCasts S262144x128
  slices_S262144x8_S262144x1_0_7 : S262144x8.Slices ![0, 7] S262144x1
  bcast_S262144x128_S262144x128x1_0_1 : S262144x128.BroadcastsInDim S262144x128x1 (![0, 1] : Fin 2 → Fin S262144x128x1.rank)
  bcast_S262144x128x1_S262144x128x2_0_1_2 : S262144x128x1.BroadcastsInDim S262144x128x2 (![0, 1, 2] : Fin 3 → Fin S262144x128x2.rank)
  bcast_S262144x1x2_S262144x128x2_0_1_2 : S262144x1x2.BroadcastsInDim S262144x128x2 (![0, 1, 2] : Fin 3 → Fin S262144x128x2.rank)
  shapeCasts_S262144x128x2_S262144x256 : S262144x128x2.ShapeCasts S262144x256
  shapeCasts_S262144x256_S262144x2x2x2x2x2x2x2x2 : S262144x256.ShapeCasts S262144x2x2x2x2x2x2x2x2
  slices_S262144x2x2x2x2x2x2x2x2_S262144x1x2x2x2x2x2x2x2_0_0_0_0_0_0_0_0_0 : S262144x2x2x2x2x2x2x2x2.Slices ![0, 0, 0, 0, 0, 0, 0, 0, 0] S262144x1x2x2x2x2x2x2x2
  slices_S262144x2x2x2x2x2x2x2x2_S262144x1x2x2x2x2x2x2x2_0_1_0_0_0_0_0_0_0 : S262144x2x2x2x2x2x2x2x2.Slices ![0, 1, 0, 0, 0, 0, 0, 0, 0] S262144x1x2x2x2x2x2x2x2
  concatenates_S262144x1x2x2x2x2x2x2x2_S262144x1x2x2x2x2x2x2x2_S262144x2x2x2x2x2x2x2x2_d1 : Shape.Concatenates [S262144x1x2x2x2x2x2x2x2, S262144x1x2x2x2x2x2x2x2] S262144x2x2x2x2x2x2x2x2 1
  slices_S262144x2x2x2x2x2x2x2x2_S262144x2x1x2x2x2x2x2x2_0_0_0_0_0_0_0_0_0 : S262144x2x2x2x2x2x2x2x2.Slices ![0, 0, 0, 0, 0, 0, 0, 0, 0] S262144x2x1x2x2x2x2x2x2
  slices_S262144x2x2x2x2x2x2x2x2_S262144x2x1x2x2x2x2x2x2_0_0_1_0_0_0_0_0_0 : S262144x2x2x2x2x2x2x2x2.Slices ![0, 0, 1, 0, 0, 0, 0, 0, 0] S262144x2x1x2x2x2x2x2x2
  concatenates_S262144x2x1x2x2x2x2x2x2_S262144x2x1x2x2x2x2x2x2_S262144x2x2x2x2x2x2x2x2_d2 : Shape.Concatenates [S262144x2x1x2x2x2x2x2x2, S262144x2x1x2x2x2x2x2x2] S262144x2x2x2x2x2x2x2x2 2
  slices_S262144x2x2x2x2x2x2x2x2_S262144x2x2x1x2x2x2x2x2_0_0_0_0_0_0_0_0_0 : S262144x2x2x2x2x2x2x2x2.Slices ![0, 0, 0, 0, 0, 0, 0, 0, 0] S262144x2x2x1x2x2x2x2x2
  slices_S262144x2x2x2x2x2x2x2x2_S262144x2x2x1x2x2x2x2x2_0_0_0_1_0_0_0_0_0 : S262144x2x2x2x2x2x2x2x2.Slices ![0, 0, 0, 1, 0, 0, 0, 0, 0] S262144x2x2x1x2x2x2x2x2
  concatenates_S262144x2x2x1x2x2x2x2x2_S262144x2x2x1x2x2x2x2x2_S262144x2x2x2x2x2x2x2x2_d3 : Shape.Concatenates [S262144x2x2x1x2x2x2x2x2, S262144x2x2x1x2x2x2x2x2] S262144x2x2x2x2x2x2x2x2 3
  slices_S262144x2x2x2x2x2x2x2x2_S262144x2x2x2x1x2x2x2x2_0_0_0_0_0_0_0_0_0 : S262144x2x2x2x2x2x2x2x2.Slices ![0, 0, 0, 0, 0, 0, 0, 0, 0] S262144x2x2x2x1x2x2x2x2
  slices_S262144x2x2x2x2x2x2x2x2_S262144x2x2x2x1x2x2x2x2_0_0_0_0_1_0_0_0_0 : S262144x2x2x2x2x2x2x2x2.Slices ![0, 0, 0, 0, 1, 0, 0, 0, 0] S262144x2x2x2x1x2x2x2x2
  concatenates_S262144x2x2x2x1x2x2x2x2_S262144x2x2x2x1x2x2x2x2_S262144x2x2x2x2x2x2x2x2_d4 : Shape.Concatenates [S262144x2x2x2x1x2x2x2x2, S262144x2x2x2x1x2x2x2x2] S262144x2x2x2x2x2x2x2x2 4
  slices_S262144x2x2x2x2x2x2x2x2_S262144x2x2x2x2x1x2x2x2_0_0_0_0_0_0_0_0_0 : S262144x2x2x2x2x2x2x2x2.Slices ![0, 0, 0, 0, 0, 0, 0, 0, 0] S262144x2x2x2x2x1x2x2x2
  slices_S262144x2x2x2x2x2x2x2x2_S262144x2x2x2x2x1x2x2x2_0_0_0_0_0_1_0_0_0 : S262144x2x2x2x2x2x2x2x2.Slices ![0, 0, 0, 0, 0, 1, 0, 0, 0] S262144x2x2x2x2x1x2x2x2
  concatenates_S262144x2x2x2x2x1x2x2x2_S262144x2x2x2x2x1x2x2x2_S262144x2x2x2x2x2x2x2x2_d5 : Shape.Concatenates [S262144x2x2x2x2x1x2x2x2, S262144x2x2x2x2x1x2x2x2] S262144x2x2x2x2x2x2x2x2 5
  slices_S262144x2x2x2x2x2x2x2x2_S262144x2x2x2x2x2x1x2x2_0_0_0_0_0_0_0_0_0 : S262144x2x2x2x2x2x2x2x2.Slices ![0, 0, 0, 0, 0, 0, 0, 0, 0] S262144x2x2x2x2x2x1x2x2
  slices_S262144x2x2x2x2x2x2x2x2_S262144x2x2x2x2x2x1x2x2_0_0_0_0_0_0_1_0_0 : S262144x2x2x2x2x2x2x2x2.Slices ![0, 0, 0, 0, 0, 0, 1, 0, 0] S262144x2x2x2x2x2x1x2x2
  concatenates_S262144x2x2x2x2x2x1x2x2_S262144x2x2x2x2x2x1x2x2_S262144x2x2x2x2x2x2x2x2_d6 : Shape.Concatenates [S262144x2x2x2x2x2x1x2x2, S262144x2x2x2x2x2x1x2x2] S262144x2x2x2x2x2x2x2x2 6
  slices_S262144x2x2x2x2x2x2x2x2_S262144x2x2x2x2x2x2x1x2_0_0_0_0_0_0_0_0_0 : S262144x2x2x2x2x2x2x2x2.Slices ![0, 0, 0, 0, 0, 0, 0, 0, 0] S262144x2x2x2x2x2x2x1x2
  slices_S262144x2x2x2x2x2x2x2x2_S262144x2x2x2x2x2x2x1x2_0_0_0_0_0_0_0_1_0 : S262144x2x2x2x2x2x2x2x2.Slices ![0, 0, 0, 0, 0, 0, 0, 1, 0] S262144x2x2x2x2x2x2x1x2
  concatenates_S262144x2x2x2x2x2x2x1x2_S262144x2x2x2x2x2x2x1x2_S262144x2x2x2x2x2x2x2x2_d7 : Shape.Concatenates [S262144x2x2x2x2x2x2x1x2, S262144x2x2x2x2x2x2x1x2] S262144x2x2x2x2x2x2x2x2 7
  slices_S262144x2x2x2x2x2x2x2x2_S262144x2x2x2x2x2x2x2x1_0_0_0_0_0_0_0_0_0 : S262144x2x2x2x2x2x2x2x2.Slices ![0, 0, 0, 0, 0, 0, 0, 0, 0] S262144x2x2x2x2x2x2x2x1
  slices_S262144x2x2x2x2x2x2x2x2_S262144x2x2x2x2x2x2x2x1_0_0_0_0_0_0_0_0_1 : S262144x2x2x2x2x2x2x2x2.Slices ![0, 0, 0, 0, 0, 0, 0, 0, 1] S262144x2x2x2x2x2x2x2x1
  concatenates_S262144x2x2x2x2x2x2x2x1_S262144x2x2x2x2x2x2x2x1_S262144x2x2x2x2x2x2x2x2_d8 : Shape.Concatenates [S262144x2x2x2x2x2x2x2x1, S262144x2x2x2x2x2x2x2x1] S262144x2x2x2x2x2x2x2x2 8
  reducesTo_S262144x2x2x2x2x2x2x2x2_S262144x2_d2_3_4_5_6_7_8 : S262144x2x2x2x2x2x2x2x2.ReducesTo [2, 3, 4, 5, 6, 7, 8] S262144x2
  h_S_ : 0 < S_.numel
  slices_S262144x2_S262144x1_0_0 : S262144x2.Slices ![0, 0] S262144x1
  slices_S262144x2_S262144x1_0_1 : S262144x2.Slices ![0, 1] S262144x1
  reducesTo_S262144x2x2x2x2x2x2x2x2_S262144x2_d1_3_4_5_6_7_8 : S262144x2x2x2x2x2x2x2x2.ReducesTo [1, 3, 4, 5, 6, 7, 8] S262144x2
  reducesTo_S262144x2x2x2x2x2x2x2x2_S262144x2_d1_2_4_5_6_7_8 : S262144x2x2x2x2x2x2x2x2.ReducesTo [1, 2, 4, 5, 6, 7, 8] S262144x2
  reducesTo_S262144x2x2x2x2x2x2x2x2_S262144x2_d1_2_3_5_6_7_8 : S262144x2x2x2x2x2x2x2x2.ReducesTo [1, 2, 3, 5, 6, 7, 8] S262144x2
  reducesTo_S262144x2x2x2x2x2x2x2x2_S262144x2_d1_2_3_4_6_7_8 : S262144x2x2x2x2x2x2x2x2.ReducesTo [1, 2, 3, 4, 6, 7, 8] S262144x2
  reducesTo_S262144x2x2x2x2x2x2x2x2_S262144x2_d1_2_3_4_5_7_8 : S262144x2x2x2x2x2x2x2x2.ReducesTo [1, 2, 3, 4, 5, 7, 8] S262144x2
  reducesTo_S262144x2x2x2x2x2x2x2x2_S262144x2_d1_2_3_4_5_6_8 : S262144x2x2x2x2x2x2x2x2.ReducesTo [1, 2, 3, 4, 5, 6, 8] S262144x2
  reducesTo_S262144x2x2x2x2x2x2x2x2_S262144x2_d1_2_3_4_5_6_7 : S262144x2x2x2x2x2x2x2x2.ReducesTo [1, 2, 3, 4, 5, 6, 7] S262144x2
  concatenates_S262144x1_S262144x1_S262144x1_S262144x1_S262144x1_S262144x1_S262144x1_S262144x1_S262144x8_d1 : Shape.Concatenates [S262144x1, S262144x1, S262144x1, S262144x1, S262144x1, S262144x1, S262144x1, S262144x1] S262144x8 1

variable [Facts₀]

class Facts : Prop extends Facts₀ where

variable [Facts]
-- ==== Proof.Spec.lean ====
/-
  The result both programs compute, as one function of the input array.

  For a row `r` of the input `x : [262144, 8]` write `θ i = π₃₂ · min 1 (max 0 (x r i))`, where `π₃₂` is the
  binary value of the f32 word `0x40490FDB`.  A register of eight qubits is prepared in the product state
  `⊗ᵢ (cos (θ i / 2) |0⟩ + sin (θ i / 2) |1⟩)` and a chain of controlled-NOT gates `0→1, 1→2, …, 6→7, 7→0`
  is applied.  A controlled-NOT permutes the basis labels linearly over GF(2), so after the chain bit `j` of a
  label is the sum mod 2 of the original bits in a fixed set `S j`: `S 0 = {1,…,7}` and `S j = {0,…,j}` for
  `j ≥ 1`.  The expectation of `Z` on wire `j` is therefore `∏_{i ∈ S j} cos (θ i)`: the function `G` below,
  the products written in the order the kernel multiplies them.
-/
import Idealize.ShloMosaic.PureOps.Ideal
import Idealize.ShloMosaic.Lib.ValueIdx

noncomputable section

namespace Cert.Spec

open Idealize.ShloMosaic Idealize.ShloMosaic.ValueIdx

/-- The shape of the input and of the result. -/
abbrev SIO : Shape := ⟨2, ![262144, 8]⟩

/-- `cos (π₃₂ · clip (x r i) 0 1)` on the extended reals: the cosine of qubit `i`'s full rotation angle in row `r`. -/
def cosAngle (x : SIO.Idx → EReal) (r : Fin 262144) (i : Fin 8) : EReal :=
  Ideal.cos (Ideal.ofBits .f32 0x40490FDB#32 *
    min (Ideal.ofBits .f32 0x3F800000#32) (max (Ideal.ofBits .f32 0x00000000#32) (x (ix2 r i))))

/-- The expectation of `Z` on wire `j` in row `r`: the product of the cosines over the wires whose original bit
    reaches wire `j` through the chain. -/
def expZ (x : SIO.Idx → EReal) (r : Fin 262144) : Fin 8 → EReal
  | ⟨0, _⟩ => cosAngle x r 1 * cosAngle x r 2 * cosAngle x r 3 * cosAngle x r 4 * cosAngle x r 5 * cosAngle x r 6 * cosAngle x r 7
  | ⟨1, _⟩ => cosAngle x r 0 * cosAngle x r 1
  | ⟨2, _⟩ => cosAngle x r 0 * cosAngle x r 1 * cosAngle x r 2
  | ⟨3, _⟩ => cosAngle x r 0 * cosAngle x r 1 * cosAngle x r 2 * cosAngle x r 3
  | ⟨4, _⟩ => cosAngle x r 0 * cosAngle x r 1 * cosAngle x r 2 * cosAngle x r 3 * cosAngle x r 4
  | ⟨5, _⟩ => cosAngle x r 0 * cosAngle x r 1 * cosAngle x r 2 * cosAngle x r 3 * cosAngle x r 4 * cosAngle x r 5
  | ⟨6, _⟩ => cosAngle x r 0 * cosAngle x r 1 * cosAngle x r 2 * cosAngle x r 3 * cosAngle x r 4 * cosAngle x r 5 * cosAngle x r 6
  | ⟨7, _⟩ => cosAngle x r 0 * cosAngle x r 1 * cosAngle x r 2 * cosAngle x r 3 * cosAngle x r 4 * cosAngle x r 5 * cosAngle x r 6 * cosAngle x r 7

/-- The whole result array: entry `(r, j)` is the expectation of `Z` on wire `j` for row `r`. -/
def G (x : SIO.Idx → EReal) : SIO.Idx → EReal := fun j => expZ x (j 0) (j 1)

end Cert.Spec

end
-- ==== Proof.KernelValue.lean ====
/-
  The kernel's run, read as one function of its argument array.

  The kernel works on a grid of 16 points. Point `t` loads rows `16384·t … 16384·t + 16383` of the argument
  `x : [262144, 8]` as a block `P`, takes `cos (π₃₂ · min 1 (max 0 ·))` of every entry, and stores the concatenation
  of eight `[16384, 1]` columns: column `0` is the product of the cosines of columns `1, …, 7`, column `q ≥ 1` the
  product of the cosines of columns `0, …, q`, each product taken from the left. So entry `(p, q)` of the block point
  `t` writes back depends on row `p` of `P` only, which is row `16384·t + p` of `x`, and it is
  `Cert.Spec.expZ x (16384·t + p) q`: the block is block `t` of `Cert.Spec.G x`. The sixteen blocks tile the
  result array (row `r` lies in the block of point `r / 16384`), so after the run the result array is
  `Cert.Spec.G x`, and the argument is as launched.

  In order: one column of the cosines at a row (`col_apply`), one operand of the concatenation at a row
  (`cat_entry`), the stored block at an entry (`E1_entry`, `out_entry`), a row of the input block as a row of
  the array (`iblk_entry`), what a point writes back (`flushed_eq`), the cover (`mem_blk`, `cover`), the array
  after the run (`final`) and the run (`run`). Every per-entry statement is over an arbitrary block `P0` and an
  arbitrary array `x` related by `hP`; the input window's block enters only in `flushed_eq`.
-/
import proofs.«115797_j9835475108036_1_alg».proof.Proof.Gen.KernelIdeal.Value
import proofs.«115797_j9835475108036_1_alg».proof.Proof.Spec
import Idealize.ShloMosaic.Lib.ValueIdx
import Idealize.ShloMosaic.Lib.Pipeline.Value

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Spec (SIO cosAngle expZ G)

/-! ## One entry of the block the body stores -/

/-- The body's first value: the cosine of `π₃₂ · min 1 (max 0 ·)` of every entry of the loaded block. -/
abbrev cosBlock (P0 : Vec Ideal S16384x8 .f32) : Vec Ideal S16384x8 .f32 :=
  cos (F := Ideal) (mulf (broadcast S16384x8 (Scalar.ofBits (F := Ideal) .f32 0x40490FDB#32)) (minimumf (broadcast S16384x8 (Scalar.ofBits (F := Ideal) .f32 0x3F800000#32)) (maximumf (broadcast S16384x8 (Scalar.ofBits (F := Ideal) .f32 0x00000000#32)) P0)))

/-- Column `n` of the cosines, a [16384, 1] slice, read at row `p`: when row `p` of the block is row `r` of the
    array `x`, it is the cosine of wire `n`'s angle in row `r`. -/
theorem col_apply (P0 : Vec Ideal S16384x8 .f32) (x : SIO.Idx → EReal) (p : Fin 16384) (r : Fin 262144)
    (hP : ∀ i : Fin 8, P0 (ix2 p i) = x (ix2 r i)) (n : Nat) (hn : n < 8) (h : S16384x8.Slices ![0, n] S16384x1) :
    extractStridedSlice S16384x1 ![0, n] (cosBlock P0) h (ix2 p (0 : Fin 1)) = cosAngle x r ⟨n, hn⟩ := by
  rw [extractStridedSlice_apply ![0, n] (cosBlock P0) h (ix2 p (0 : Fin 1)) (ix2 p (⟨n, hn⟩ : Fin 8)) (fun a => by
    match a with
    | ⟨0, _⟩ => show p.val = 0 + p.val; omega
    | ⟨1, _⟩ => show n = n + 0; omega)]
  show Ideal.cos (Ideal.ofBits .f32 0x40490FDB#32 * min (Ideal.ofBits .f32 0x3F800000#32) (max (Ideal.ofBits .f32 0x00000000#32) (P0 (ix2 p ⟨n, hn⟩)))) = _
  rw [hP]
  rfl

/-- Operand `q` of the concatenation, a [16384, 1] column, at row `p`: the product of the cosines over the wires
    that reach wire `q`. -/
theorem cat_entry (P0 : Vec Ideal S16384x8 .f32) (x : SIO.Idx → EReal) (p : Fin 16384) (r : Fin 262144)
    (hP : ∀ i : Fin 8, P0 (ix2 p i) = x (ix2 r i)) :
    ∀ q : Fin 8, Cat1_0 (F := Ideal) P0 q (ix2 p (0 : Fin 1)) = expZ x r q
  | ⟨0, _⟩ => by
    simp only [Cat1_0, mulf_apply]
    rw [col_apply P0 x p r hP 1 (by omega), col_apply P0 x p r hP 2 (by omega), col_apply P0 x p r hP 3 (by omega), col_apply P0 x p r hP 4 (by omega), col_apply P0 x p r hP 5 (by omega), col_apply P0 x p r hP 6 (by omega), col_apply P0 x p r hP 7 (by omega)]
    rfl
  | ⟨1, _⟩ => by
    simp only [Cat1_0, mulf_apply]
    rw [col_apply P0 x p r hP 0 (by omega), col_apply P0 x p r hP 1 (by omega)]
    rfl
  | ⟨2, _⟩ => by
    simp only [Cat1_0, mulf_apply]
    rw [col_apply P0 x p r hP 0 (by omega), col_apply P0 x p r hP 1 (by omega), col_apply P0 x p r hP 2 (by omega)]
    rfl
  | ⟨3, _⟩ => by
    simp only [Cat1_0, mulf_apply]
    rw [col_apply P0 x p r hP 0 (by omega), col_apply P0 x p r hP 1 (by omega), col_apply P0 x p r hP 2 (by omega), col_apply P0 x p r hP 3 (by omega)]
    rfl
  | ⟨4, _⟩ => by
    simp only [Cat1_0, mulf_apply]
    rw [col_apply P0 x p r hP 0 (by omega), col_apply P0 x p r hP 1 (by omega), col_apply P0 x p r hP 2 (by omega), col_apply P0 x p r hP 3 (by omega), col_apply P0 x p r hP 4 (by omega)]
    rfl
  | ⟨5, _⟩ => by
    simp only [Cat1_0, mulf_apply]
    rw [col_apply P0 x p r hP 0 (by omega), col_apply P0 x p r hP 1 (by omega), col_apply P0 x p r hP 2 (by omega), col_apply P0 x p r hP 3 (by omega), col_apply P0 x p r hP 4 (by omega), col_apply P0 x p r hP 5 (by omega)]
    rfl
  | ⟨6, _⟩ => by
    simp only [Cat1_0, mulf_apply]
    rw [col_apply P0 x p r hP 0 (by omega), col_apply P0 x p r hP 1 (by omega), col_apply P0 x p r hP 2 (by omega), col_apply P0 x p r hP 3 (by omega), col_apply P0 x p r hP 4 (by omega), col_apply P0 x p r hP 5 (by omega), col_apply P0 x p r hP 6 (by omega)]
    rfl
  | ⟨7, _⟩ => by
    simp only [Cat1_0, mulf_apply]
    rw [col_apply P0 x p r hP 0 (by omega), col_apply P0 x p r hP 1 (by omega), col_apply P0 x p r hP 2 (by omega), col_apply P0 x p r hP 3 (by omega), col_apply P0 x p r hP 4 (by omega), col_apply P0 x p r hP 5 (by omega), col_apply P0 x p r hP 6 (by omega), col_apply P0 x p r hP 7 (by omega)]
    rfl

/-- THE STORED BLOCK AT AN ENTRY: entry `(p, q)` of what the body leaves, when row `p` of the loaded block is row `r`
    of the array `x`, is the expectation on wire `q` in row `r`. Entry `(p, q)` lies in operand `q` of the
    concatenation, at row `p` of that column. -/
theorem E1_entry (P0 : Vec Ideal S16384x8 .f32) (x : SIO.Idx → EReal) (p : Fin 16384) (r : Fin 262144)
    (hP : ∀ i : Fin 8, P0 (ix2 p i) = x (ix2 r i)) (q : Fin 8) :
    E1 (F := Ideal) P0 (ix2 p q) = expZ x r q := by
  have hj : ix1_0 (ix2 p q) = ix2 p (0 : Fin 1) := by
    funext a; match a with | ⟨0, _⟩ => rfl | ⟨1, _⟩ => rfl
  show Cat1_0 (F := Ideal) P0 q (ix1_0 (ix2 p q)) = _
  rw [hj]
  exact cat_entry P0 x p r hP q

/-! ## From one point's block to the array -/

variable (m : (ℓ : Loc nD τ sig) → Buf (Elt Ideal) ℓ) (ρ : Dev nD → PrngReg)

theorem hz : (![0, 0] : Fin 2 → Nat) = fun _ => 0 := funext fun a => by fin_cases a <;> rfl

/-- What the body leaves at entry `(p, q)` of its output block, for ANY loaded block `P0` whose row `p` is row `r` of
    an array `x`: the body loads the whole block, and its one store covers the whole output block. -/
theorem out_entry (P0 : Vec Ideal S16384x8 .f32) (x : SIO.Idx → EReal) (p : Fin 16384) (q : Fin 8) (r : Fin 262144)
    (hP : ∀ i : Fin 8, P0 (ix2 p i) = x (ix2 r i)) :
    out0_1 (F := Ideal) P0 (ix2 p q) = expZ x r q := by
  unfold out0_1
  simp only [View.ld_unit_zero (S := S16384x8) hz]
  rw [canon1_eq P0 (ix2 p q)]
  exact E1_entry P0 x p r hP q

/-- The printed index maps, decided over the 16 grid points: point `t` reads and writes block `(t, 0)`, that is rows
    `16384·t … 16384·t + 16383` and all eight columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the input window's block at point `t` is row `16384·t + p` of the argument array. -/
theorem iblk_entry (c : Dev nD) (t : Fin cfg0.N) (p : Fin 16384) (i : Fin 8) (r : Fin 262144)
    (hr : r.val = 16384 * t.val + p.val) :
    (iblk m c 0 t : Vec Ideal S16384x8 .f32) (ix2 p i) = (V m c main_arg0 : SIO.Idx → EReal) (ix2 r i) := by
  obtain ⟨e0, e1, -, -⟩ := idx_facts t
  unfold iblk
  rw [View.read_apply]
  show V m c main_arg0 (((cfg0.win 0).blk t).view.emb (ix2 p i)) = V m c main_arg0 (ix2 r i)
  refine congrArg _ (funext fun a => Fin.ext ?_)
  match a with
  | ⟨0, _⟩ => show win0_0.index t (0 : Fin 2) * 16384 + 1 * p.val = r.val; omega
  | ⟨1, _⟩ => show win0_0.index t (1 : Fin 2) * 8 + 1 * i.val = i.val; omega

/-- WHAT POINT `t` WRITES BACK is block `t` of `G` of the argument array: entry `(p, q)` of the written block is
    entry `(16384·t + p, q)` of the array, and it depends on row `16384·t + p` of the argument only. -/
theorem flushed_eq (c : Dev nD) (t : Fin cfg0.N) :
    (dats m 0 c).flushed 1 t = ((cfg0.win 1).blk t).view.read (Elt Ideal) (G (V m c main_arg0)) := by
  rw [Value.flushed1]
  obtain ⟨-, -, e2, e3⟩ := idx_facts t
  have ht : t.val < 16 := lt_of_lt_of_eq t.isLt N_0
  funext j
  obtain ⟨p, q, rfl⟩ : ∃ (p : Fin 16384) (q : Fin 8), j = ix2 p q := ⟨j 0, j 1, eq_ix2 j⟩
  rw [View.read_apply]
  have hr : 16384 * t.val + p.val < 262144 := by have := p.isLt; omega
  show out0_1 (iblk m c 0 t) (ix2 p q) = expZ (V m c main_arg0) ((((cfg0.win 1).blk t).view.emb (ix2 p q)) 0) ((((cfg0.win 1).blk t).view.emb (ix2 p q)) 1)
  refine (out_entry (iblk m c 0 t) (V m c main_arg0) p q ⟨16384 * t.val + p.val, hr⟩
    (fun i => iblk_entry m c t p i _ rfl)).trans ?_
  congr 1
  · apply Fin.ext
    show 16384 * t.val + p.val = win0_1.index t (0 : Fin 2) * 16384 + 1 * p.val
    omega
  · apply Fin.ext
    show q.val = win0_1.index t (1 : Fin 2) * 8 + 1 * q.val
    omega

/-- An index of the array is in point `t`'s block iff each coordinate is in the block's range on its axis. -/
theorem mem_blk (t : Fin cfg0.N) (i : S262144x8.Idx) :
    i ∈ ((cfg0.win 1).blk t).view.set ↔ ∀ a : Fin 2, win0_1.index t a * S16384x8.size a ≤ (i a).val ∧ (i a).val < win0_1.index t a * S16384x8.size a + S16384x8.size a := by
  show i ∈ ((View.whole main_v0).slice (win0_1.rect t)).set ↔ _
  rw [View.set_slice_whole, Rect.mem_set_unit]
  exact Iff.rfl

/-- THE BLOCKS COVER THE ARRAY: row `r` lies in the block of point `r / 16384`, which writes back. -/
theorem cover (i : S262144x8.Idx) :
    ∃ t : Fin cfg0.N, (cfg0.win 1).flush t = true ∧ i ∈ ((cfg0.win 1).blk t).view.set := by
  have hi0 : (i 0).val < 262144 := (i 0).isLt
  have hi1 : (i 1).val < 8 := (i 1).isLt
  have hN : cfg0.N = 16 := N_0
  refine ⟨⟨(i 0).val / 16384, by rw [hN]; omega⟩, flush0_1 _, ?_⟩
  rw [mem_blk]
  obtain ⟨-, -, e2, e3⟩ := idx_facts ⟨(i 0).val / 16384, by rw [hN]; omega⟩
  intro a
  match a with
  | ⟨0, _⟩ =>
    show win0_1.index _ (0 : Fin 2) * 16384 ≤ (i 0).val ∧ (i 0).val < win0_1.index _ (0 : Fin 2) * 16384 + 16384
    rw [e2]; show (i 0).val / 16384 * 16384 ≤ (i 0).val ∧ (i 0).val < (i 0).val / 16384 * 16384 + 16384; omega
  | ⟨1, _⟩ =>
    show win0_1.index _ (1 : Fin 2) * 8 ≤ (i 1).val ∧ (i 1).val < win0_1.index _ (1 : Fin 2) * 8 + 8
    rw [e3]; omega

/-- THE ARRAY after the run is `G` of the argument array as launched. -/
theorem final (c : Dev nD) :
    (dats m 0 c).arrAt 1 cfg0.N = Cert.Spec.G (m ((c : Thread nD τ).loc main_arg0)) :=
  (dats m 0 c).arrAt_eq_of_cover 1 (G (V m c main_arg0)) (fun t _ => flushed_eq m c t) cover

/-! ## The run, read -/

/-- The kernel's run: the result array ends at `G` of the argument array, the argument unchanged. -/
theorem run : θ_run defs (onTc (τ := τ) (main (F := Ideal))) ⟨m, fun _ => 0, ρ⟩ fun r => ∀ c : Dev nD,
      r.2.mem ((c : Thread nD τ).loc main_v0) = Cert.Spec.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Value.run_blocks m ρ)

end Cert.KernelIdeal.KValue

end
-- ==== Proof.RefProgram.lean ====
/-
  The reference program, stated as one function of the input array in the groups its mathematics has.

  Row by row: the half angle `h = (π/2)₃₂ · min 1 (max 0 x)`; for each of the eight qubits the pair
  `(cos h, sin h)` laid out as a `[rows, 2]` array; the amplitudes of the product state built up one qubit at a time, each
  step the outer product of the amplitudes so far with the next pair, flattened; the `2⁸` amplitudes recast to eight
  axes of size 2; the eight controlled-NOT gates, each a permutation of the entries; the squares; for every wire
  the marginal distribution (a sum over the seven other bit axes) and the difference of its two entries; and the
  eight differences joined as the columns of the result.
-/
import proofs.«115797_j9835475108036_1_alg».proof.Proof.Gen.ReferenceIdeal
import Idealize.ShloMosaic.Lib.StableHlo.Run
import Idealize.ShloMosaic.Lib.Pipeline.Value

noncomputable section

namespace Cert.ReferenceIdeal.Sim

open Cert.ReferenceIdeal Cert.ReferenceIdeal.Gen Idealize.ShloMosaic Idealize.ShloMosaic.TcCoe Idealize.SL.Sem Idealize.ShloMosaic.StableHlo

/-- An f32 array of shape `s`. -/
abbrev Arr (F : FTy → Type) [FloatOps F] (s : Shape) : Type := (⟨s, .f32⟩ : BufTy).Contents (Elt F)

variable {F : FTy → Type} [FloatOps F]

/-- Half of each qubit's rotation angle: `(π/2)₃₂ · min 1 (max 0 x)`, entry by entry. -/
def halfAngle (x : Arr F S262144x8) : Arr F S262144x8 :=
  mulf (broadcastInDim S262144x8 ![] bcast_S_S262144x8 (constant S_ .f32 0x3FC90FDB#32))
    (minimumf (broadcastInDim S262144x8 ![] bcast_S_S262144x8 (id (constant S_ .f32 0x3F800000#32)))
      (maximumf (broadcastInDim S262144x8 ![] bcast_S_S262144x8 (id (constant S_ .f32 0x00000000#32))) x))

/-- A one-column array flattened to a vector and laid out as a column again. -/
def column (a : Arr F S262144x1) : Arr F S262144x1 :=
  broadcastInDim S262144x1 ![0] bcast_S262144_S262144x1_0 (shapeCast _ a shapeCasts_S262144x1_S262144)

/-- Two columns side by side. -/
def pair (a b : Arr F S262144x1) : Arr F S262144x2 :=
  concatenate S262144x2 1 [⟨S262144x1, column a⟩, ⟨S262144x1, column b⟩] concatenates_S262144x1_S262144x1_S262144x2_d1

/-- Qubit 0's amplitude pair in every row: column 0 its cosine, column 1 its sine. -/
def qubit0 (x : Arr F S262144x8) : Arr F S262144x2 :=
  pair (extractStridedSlice S262144x1 ![0, 0] (Host.cos (halfAngle x)) slices_S262144x8_S262144x1_0_0)
    (extractStridedSlice S262144x1 ![0, 0] (Host.sin (halfAngle x)) slices_S262144x8_S262144x1_0_0)

/-- Qubit 1's amplitude pair in every row: column 0 its cosine, column 1 its sine. -/
def qubit1 (x : Arr F S262144x8) : Arr F S262144x2 :=
  pair (extractStridedSlice S262144x1 ![0, 1] (Host.cos (halfAngle x)) slices_S262144x8_S262144x1_0_1)
    (extractStridedSlice S262144x1 ![0, 1] (Host.sin (halfAngle x)) slices_S262144x8_S262144x1_0_1)

/-- Qubit 2's amplitude pair in every row: column 0 its cosine, column 1 its sine. -/
def qubit2 (x : Arr F S262144x8) : Arr F S262144x2 :=
  pair (extractStridedSlice S262144x1 ![0, 2] (Host.cos (halfAngle x)) slices_S262144x8_S262144x1_0_2)
    (extractStridedSlice S262144x1 ![0, 2] (Host.sin (halfAngle x)) slices_S262144x8_S262144x1_0_2)

/-- Qubit 3's amplitude pair in every row: column 0 its cosine, column 1 its sine. -/
def qubit3 (x : Arr F S262144x8) : Arr F S262144x2 :=
  pair (extractStridedSlice S262144x1 ![0, 3] (Host.cos (halfAngle x)) slices_S262144x8_S262144x1_0_3)
    (extractStridedSlice S262144x1 ![0, 3] (Host.sin (halfAngle x)) slices_S262144x8_S262144x1_0_3)

/-- Qubit 4's amplitude pair in every row: column 0 its cosine, column 1 its sine. -/
def qubit4 (x : Arr F S262144x8) : Arr F S262144x2 :=
  pair (extractStridedSlice S262144x1 ![0, 4] (Host.cos (halfAngle x)) slices_S262144x8_S262144x1_0_4)
    (extractStridedSlice S262144x1 ![0, 4] (Host.sin (halfAngle x)) slices_S262144x8_S262144x1_0_4)

/-- Qubit 5's amplitude pair in every row: column 0 its cosine, column 1 its sine. -/
def qubit5 (x : Arr F S262144x8) : Arr F S262144x2 :=
  pair (extractStridedSlice S262144x1 ![0, 5] (Host.cos (halfAngle x)) slices_S262144x8_S262144x1_0_5)
    (extractStridedSlice S262144x1 ![0, 5] (Host.sin (halfAngle x)) slices_S262144x8_S262144x1_0_5)

/-- Qubit 6's amplitude pair in every row: column 0 its cosine, column 1 its sine. -/
def qubit6 (x : Arr F S262144x8) : Arr F S262144x2 :=
  pair (extractStridedSlice S262144x1 ![0, 6] (Host.cos (halfAngle x)) slices_S262144x8_S262144x1_0_6)
    (extractStridedSlice S262144x1 ![0, 6] (Host.sin (halfAngle x)) slices_S262144x8_S262144x1_0_6)

/-- Qubit 7's amplitude pair in every row: column 0 its cosine, column 1 its sine. -/
def qubit7 (x : Arr F S262144x8) : Arr F S262144x2 :=
  pair (extractStridedSlice S262144x1 ![0, 7] (Host.cos (halfAngle x)) slices_S262144x8_S262144x1_0_7)
    (extractStridedSlice S262144x1 ![0, 7] (Host.sin (halfAngle x)) slices_S262144x8_S262144x1_0_7)

/-- The first step of the product state: the constant 1 times qubit 0's pair. -/
def kron0 (q : Arr F S262144x2) : Arr F S262144x2 :=
  shapeCast _ (mulf
      (broadcastInDim S262144x1x2 ![0, 1, 2] bcast_S262144x1x1_S262144x1x2_0_1_2
        (broadcastInDim S262144x1x1 ![0, 1] bcast_S262144x1_S262144x1x1_0_1
          (broadcastInDim S262144x1 ![] bcast_S_S262144x1 (constant S_ .f32 0x3F800000#32))))
      (broadcastInDim S262144x1x2 ![0, 2] bcast_S262144x2_S262144x1x2_0_2 q))
    shapeCasts_S262144x1x2_S262144x2

/-- One more qubit: the outer product, row by row, of the `n` amplitudes so far with the next qubit's pair, flattened to
    `n2 = 2 n` amplitudes (entry `2 j + b` is amplitude `j` times entry `b` of the pair). -/
def kronStep {n n2 : ℕ} (st : Arr F ⟨2, ![262144, n]⟩) (q : Arr F S262144x2)
    (h1 : (⟨2, ![262144, n]⟩ : Shape).BroadcastsInDim ⟨3, ![262144, n, 1]⟩ ![0, 1])
    (h2 : (⟨3, ![262144, n, 1]⟩ : Shape).BroadcastsInDim ⟨3, ![262144, n, 2]⟩ ![0, 1, 2])
    (h3 : (⟨2, ![262144, 2]⟩ : Shape).BroadcastsInDim ⟨3, ![262144, 1, 2]⟩ ![0, 2])
    (h4 : (⟨3, ![262144, 1, 2]⟩ : Shape).BroadcastsInDim ⟨3, ![262144, n, 2]⟩ ![0, 1, 2])
    (h5 : (⟨3, ![262144, n, 2]⟩ : Shape).ShapeCasts ⟨2, ![262144, n2]⟩) : Arr F ⟨2, ![262144, n2]⟩ :=
  shapeCast _ (mulf
      (broadcastInDim ⟨3, ![262144, n, 2]⟩ ![0, 1, 2] h2 (broadcastInDim ⟨3, ![262144, n, 1]⟩ ![0, 1] h1 st))
      (broadcastInDim ⟨3, ![262144, n, 2]⟩ ![0, 1, 2] h4 (broadcastInDim ⟨3, ![262144, 1, 2]⟩ ![0, 2] h3 q)))
    h5

/-- The `2⁸` amplitudes of the product state, row by row; qubit 0 is the most significant bit of the position. -/
def amplitudes (x : Arr F S262144x8) : Arr F S262144x256 :=
  kronStep (n := 128) (n2 := 256) (kronStep (n := 64) (n2 := 128) (kronStep (n := 32) (n2 := 64) (kronStep (n := 16) (n2 := 32) (kronStep (n := 8) (n2 := 16) (kronStep (n := 4) (n2 := 8) (kronStep (n := 2) (n2 := 4) (kron0 (qubit0 x)) (qubit1 x)
    bcast_S262144x2_S262144x2x1_0_1 bcast_S262144x2x1_S262144x2x2_0_1_2 bcast_S262144x2_S262144x1x2_0_2 bcast_S262144x1x2_S262144x2x2_0_1_2 shapeCasts_S262144x2x2_S262144x4) (qubit2 x)
    bcast_S262144x4_S262144x4x1_0_1 bcast_S262144x4x1_S262144x4x2_0_1_2 bcast_S262144x2_S262144x1x2_0_2 bcast_S262144x1x2_S262144x4x2_0_1_2 shapeCasts_S262144x4x2_S262144x8) (qubit3 x)
    bcast_S262144x8_S262144x8x1_0_1 bcast_S262144x8x1_S262144x8x2_0_1_2 bcast_S262144x2_S262144x1x2_0_2 bcast_S262144x1x2_S262144x8x2_0_1_2 shapeCasts_S262144x8x2_S262144x16) (qubit4 x)
    bcast_S262144x16_S262144x16x1_0_1 bcast_S262144x16x1_S262144x16x2_0_1_2 bcast_S262144x2_S262144x1x2_0_2 bcast_S262144x1x2_S262144x16x2_0_1_2 shapeCasts_S262144x16x2_S262144x32) (qubit5 x)
    bcast_S262144x32_S262144x32x1_0_1 bcast_S262144x32x1_S262144x32x2_0_1_2 bcast_S262144x2_S262144x1x2_0_2 bcast_S262144x1x2_S262144x32x2_0_1_2 shapeCasts_S262144x32x2_S262144x64) (qubit6 x)
    bcast_S262144x64_S262144x64x1_0_1 bcast_S262144x64x1_S262144x64x2_0_1_2 bcast_S262144x2_S262144x1x2_0_2 bcast_S262144x1x2_S262144x64x2_0_1_2 shapeCasts_S262144x64x2_S262144x128) (qubit7 x)
    bcast_S262144x128_S262144x128x1_0_1 bcast_S262144x128x1_S262144x128x2_0_1_2 bcast_S262144x2_S262144x1x2_0_2 bcast_S262144x1x2_S262144x128x2_0_1_2 shapeCasts_S262144x128x2_S262144x256

/-- The amplitudes with one axis per qubit. -/
def state (x : Arr F S262144x8) : Arr F S262144x2x2x2x2x2x2x2x2 :=
  shapeCast _ (amplitudes x) shapeCasts_S262144x256_S262144x2x2x2x2x2x2x2x2

/-- Gate 1: control axis 1, target axis 2.  The half of the state with the control bit 0 is kept, the half with
    the control bit 1 is mirrored along the target axis, and the halves are joined again along the control axis. -/
def gate1 (y : Arr F S262144x2x2x2x2x2x2x2x2) : Arr F S262144x2x2x2x2x2x2x2x2 :=
  concatenate S262144x2x2x2x2x2x2x2x2 1 [⟨S262144x1x2x2x2x2x2x2x2, extractStridedSlice S262144x1x2x2x2x2x2x2x2 ![0, 0, 0, 0, 0, 0, 0, 0, 0] y slices_S262144x2x2x2x2x2x2x2x2_S262144x1x2x2x2x2x2x2x2_0_0_0_0_0_0_0_0_0⟩,
    ⟨S262144x1x2x2x2x2x2x2x2, Host.reverse [2] (extractStridedSlice S262144x1x2x2x2x2x2x2x2 ![0, 1, 0, 0, 0, 0, 0, 0, 0] y slices_S262144x2x2x2x2x2x2x2x2_S262144x1x2x2x2x2x2x2x2_0_1_0_0_0_0_0_0_0)⟩]
    concatenates_S262144x1x2x2x2x2x2x2x2_S262144x1x2x2x2x2x2x2x2_S262144x2x2x2x2x2x2x2x2_d1

/-- Gate 2: control axis 2, target axis 3.  The half of the state with the control bit 0 is kept, the half with
    the control bit 1 is mirrored along the target axis, and the halves are joined again along the control axis. -/
def gate2 (y : Arr F S262144x2x2x2x2x2x2x2x2) : Arr F S262144x2x2x2x2x2x2x2x2 :=
  concatenate S262144x2x2x2x2x2x2x2x2 2 [⟨S262144x2x1x2x2x2x2x2x2, extractStridedSlice S262144x2x1x2x2x2x2x2x2 ![0, 0, 0, 0, 0, 0, 0, 0, 0] y slices_S262144x2x2x2x2x2x2x2x2_S262144x2x1x2x2x2x2x2x2_0_0_0_0_0_0_0_0_0⟩,
    ⟨S262144x2x1x2x2x2x2x2x2, Host.reverse [3] (extractStridedSlice S262144x2x1x2x2x2x2x2x2 ![0, 0, 1, 0, 0, 0, 0, 0, 0] y slices_S262144x2x2x2x2x2x2x2x2_S262144x2x1x2x2x2x2x2x2_0_0_1_0_0_0_0_0_0)⟩]
    concatenates_S262144x2x1x2x2x2x2x2x2_S262144x2x1x2x2x2x2x2x2_S262144x2x2x2x2x2x2x2x2_d2

/-- Gate 3: control axis 3, target axis 4.  The half of the state with the control bit 0 is kept, the half with
    the control bit 1 is mirrored along the target axis, and the halves are joined again along the control axis. -/
def gate3 (y : Arr F S262144x2x2x2x2x2x2x2x2) : Arr F S262144x2x2x2x2x2x2x2x2 :=
  concatenate S262144x2x2x2x2x2x2x2x2 3 [⟨S262144x2x2x1x2x2x2x2x2, extractStridedSlice S262144x2x2x1x2x2x2x2x2 ![0, 0, 0, 0, 0, 0, 0, 0, 0] y slices_S262144x2x2x2x2x2x2x2x2_S262144x2x2x1x2x2x2x2x2_0_0_0_0_0_0_0_0_0⟩,
    ⟨S262144x2x2x1x2x2x2x2x2, Host.reverse [4] (extractStridedSlice S262144x2x2x1x2x2x2x2x2 ![0, 0, 0, 1, 0, 0, 0, 0, 0] y slices_S262144x2x2x2x2x2x2x2x2_S262144x2x2x1x2x2x2x2x2_0_0_0_1_0_0_0_0_0)⟩]
    concatenates_S262144x2x2x1x2x2x2x2x2_S262144x2x2x1x2x2x2x2x2_S262144x2x2x2x2x2x2x2x2_d3

/-- Gate 4: control axis 4, target axis 5.  The half of the state with the control bit 0 is kept, the half with
    the control bit 1 is mirrored along the target axis, and the halves are joined again along the control axis. -/
def gate4 (y : Arr F S262144x2x2x2x2x2x2x2x2) : Arr F S262144x2x2x2x2x2x2x2x2 :=
  concatenate S262144x2x2x2x2x2x2x2x2 4 [⟨S262144x2x2x2x1x2x2x2x2, extractStridedSlice S262144x2x2x2x1x2x2x2x2 ![0, 0, 0, 0, 0, 0, 0, 0, 0] y slices_S262144x2x2x2x2x2x2x2x2_S262144x2x2x2x1x2x2x2x2_0_0_0_0_0_0_0_0_0⟩,
    ⟨S262144x2x2x2x1x2x2x2x2, Host.reverse [5] (extractStridedSlice S262144x2x2x2x1x2x2x2x2 ![0, 0, 0, 0, 1, 0, 0, 0, 0] y slices_S262144x2x2x2x2x2x2x2x2_S262144x2x2x2x1x2x2x2x2_0_0_0_0_1_0_0_0_0)⟩]
    concatenates_S262144x2x2x2x1x2x2x2x2_S262144x2x2x2x1x2x2x2x2_S262144x2x2x2x2x2x2x2x2_d4

/-- Gate 5: control axis 5, target axis 6.  The half of the state with the control bit 0 is kept, the half with
    the control bit 1 is mirrored along the target axis, and the halves are joined again along the control axis. -/
def gate5 (y : Arr F S262144x2x2x2x2x2x2x2x2) : Arr F S262144x2x2x2x2x2x2x2x2 :=
  concatenate S262144x2x2x2x2x2x2x2x2 5 [⟨S262144x2x2x2x2x1x2x2x2, extractStridedSlice S262144x2x2x2x2x1x2x2x2 ![0, 0, 0, 0, 0, 0, 0, 0, 0] y slices_S262144x2x2x2x2x2x2x2x2_S262144x2x2x2x2x1x2x2x2_0_0_0_0_0_0_0_0_0⟩,
    ⟨S262144x2x2x2x2x1x2x2x2, Host.reverse [6] (extractStridedSlice S262144x2x2x2x2x1x2x2x2 ![0, 0, 0, 0, 0, 1, 0, 0, 0] y slices_S262144x2x2x2x2x2x2x2x2_S262144x2x2x2x2x1x2x2x2_0_0_0_0_0_1_0_0_0)⟩]
    concatenates_S262144x2x2x2x2x1x2x2x2_S262144x2x2x2x2x1x2x2x2_S262144x2x2x2x2x2x2x2x2_d5

/-- Gate 6: control axis 6, target axis 7.  The half of the state with the control bit 0 is kept, the half with
    the control bit 1 is mirrored along the target axis, and the halves are joined again along the control axis. -/
def gate6 (y : Arr F S262144x2x2x2x2x2x2x2x2) : Arr F S262144x2x2x2x2x2x2x2x2 :=
  concatenate S262144x2x2x2x2x2x2x2x2 6 [⟨S262144x2x2x2x2x2x1x2x2, extractStridedSlice S262144x2x2x2x2x2x1x2x2 ![0, 0, 0, 0, 0, 0, 0, 0, 0] y slices_S262144x2x2x2x2x2x2x2x2_S262144x2x2x2x2x2x1x2x2_0_0_0_0_0_0_0_0_0⟩,
    ⟨S262144x2x2x2x2x2x1x2x2, Host.reverse [7] (extractStridedSlice S262144x2x2x2x2x2x1x2x2 ![0, 0, 0, 0, 0, 0, 1, 0, 0] y slices_S262144x2x2x2x2x2x2x2x2_S262144x2x2x2x2x2x1x2x2_0_0_0_0_0_0_1_0_0)⟩]
    concatenates_S262144x2x2x2x2x2x1x2x2_S262144x2x2x2x2x2x1x2x2_S262144x2x2x2x2x2x2x2x2_d6

/-- Gate 7: control axis 7, target axis 8.  The half of the state with the control bit 0 is kept, the half with
    the control bit 1 is mirrored along the target axis, and the halves are joined again along the control axis. -/
def gate7 (y : Arr F S262144x2x2x2x2x2x2x2x2) : Arr F S262144x2x2x2x2x2x2x2x2 :=
  concatenate S262144x2x2x2x2x2x2x2x2 7 [⟨S262144x2x2x2x2x2x2x1x2, extractStridedSlice S262144x2x2x2x2x2x2x1x2 ![0, 0, 0, 0, 0, 0, 0, 0, 0] y slices_S262144x2x2x2x2x2x2x2x2_S262144x2x2x2x2x2x2x1x2_0_0_0_0_0_0_0_0_0⟩,
    ⟨S262144x2x2x2x2x2x2x1x2, Host.reverse [8] (extractStridedSlice S262144x2x2x2x2x2x2x1x2 ![0, 0, 0, 0, 0, 0, 0, 1, 0] y slices_S262144x2x2x2x2x2x2x2x2_S262144x2x2x2x2x2x2x1x2_0_0_0_0_0_0_0_1_0)⟩]
    concatenates_S262144x2x2x2x2x2x2x1x2_S262144x2x2x2x2x2x2x1x2_S262144x2x2x2x2x2x2x2x2_d7

/-- Gate 8: control axis 8, target axis 1.  The half of the state with the control bit 0 is kept, the half with
    the control bit 1 is mirrored along the target axis, and the halves are joined again along the control axis. -/
def gate8 (y : Arr F S262144x2x2x2x2x2x2x2x2) : Arr F S262144x2x2x2x2x2x2x2x2 :=
  concatenate S262144x2x2x2x2x2x2x2x2 8 [⟨S262144x2x2x2x2x2x2x2x1, extractStridedSlice S262144x2x2x2x2x2x2x2x1 ![0, 0, 0, 0, 0, 0, 0, 0, 0] y slices_S262144x2x2x2x2x2x2x2x2_S262144x2x2x2x2x2x2x2x1_0_0_0_0_0_0_0_0_0⟩,
    ⟨S262144x2x2x2x2x2x2x2x1, Host.reverse [1] (extractStridedSlice S262144x2x2x2x2x2x2x2x1 ![0, 0, 0, 0, 0, 0, 0, 0, 1] y slices_S262144x2x2x2x2x2x2x2x2_S262144x2x2x2x2x2x2x2x1_0_0_0_0_0_0_0_0_1)⟩]
    concatenates_S262144x2x2x2x2x2x2x2x1_S262144x2x2x2x2x2x2x2x1_S262144x2x2x2x2x2x2x2x2_d8

/-- The state after the chain of gates. -/
def evolved (x : Arr F S262144x8) : Arr F S262144x2x2x2x2x2x2x2x2 :=
  gate8 (gate7 (gate6 (gate5 (gate4 (gate3 (gate2 (gate1 (state x))))))))

/-- The probabilities: the squares of the (real) amplitudes. -/
def probs (x : Arr F S262144x8) : Arr F S262144x2x2x2x2x2x2x2x2 := mulf (evolved x) (evolved x)

/-- The marginal distribution of wire 0: the sum of the probabilities over the seven other bit axes. -/
def marginal0 (p : Arr F S262144x2x2x2x2x2x2x2x2) : Arr F S262144x2 :=
  Host.reduceAdd p (constant S_ .f32 0x00000000#32) reducesTo_S262144x2x2x2x2x2x2x2x2_S262144x2_d2_3_4_5_6_7_8 h_S_

/-- The marginal distribution of wire 1: the sum of the probabilities over the seven other bit axes. -/
def marginal1 (p : Arr F S262144x2x2x2x2x2x2x2x2) : Arr F S262144x2 :=
  Host.reduceAdd p (constant S_ .f32 0x00000000#32) reducesTo_S262144x2x2x2x2x2x2x2x2_S262144x2_d1_3_4_5_6_7_8 h_S_

/-- The marginal distribution of wire 2: the sum of the probabilities over the seven other bit axes. -/
def marginal2 (p : Arr F S262144x2x2x2x2x2x2x2x2) : Arr F S262144x2 :=
  Host.reduceAdd p (constant S_ .f32 0x00000000#32) reducesTo_S262144x2x2x2x2x2x2x2x2_S262144x2_d1_2_4_5_6_7_8 h_S_

/-- The marginal distribution of wire 3: the sum of the probabilities over the seven other bit axes. -/
def marginal3 (p : Arr F S262144x2x2x2x2x2x2x2x2) : Arr F S262144x2 :=
  Host.reduceAdd p (constant S_ .f32 0x00000000#32) reducesTo_S262144x2x2x2x2x2x2x2x2_S262144x2_d1_2_3_5_6_7_8 h_S_

/-- The marginal distribution of wire 4: the sum of the probabilities over the seven other bit axes. -/
def marginal4 (p : Arr F S262144x2x2x2x2x2x2x2x2) : Arr F S262144x2 :=
  Host.reduceAdd p (constant S_ .f32 0x00000000#32) reducesTo_S262144x2x2x2x2x2x2x2x2_S262144x2_d1_2_3_4_6_7_8 h_S_

/-- The marginal distribution of wire 5: the sum of the probabilities over the seven other bit axes. -/
def marginal5 (p : Arr F S262144x2x2x2x2x2x2x2x2) : Arr F S262144x2 :=
  Host.reduceAdd p (constant S_ .f32 0x00000000#32) reducesTo_S262144x2x2x2x2x2x2x2x2_S262144x2_d1_2_3_4_5_7_8 h_S_

/-- The marginal distribution of wire 6: the sum of the probabilities over the seven other bit axes. -/
def marginal6 (p : Arr F S262144x2x2x2x2x2x2x2x2) : Arr F S262144x2 :=
  Host.reduceAdd p (constant S_ .f32 0x00000000#32) reducesTo_S262144x2x2x2x2x2x2x2x2_S262144x2_d1_2_3_4_5_6_8 h_S_

/-- The marginal distribution of wire 7: the sum of the probabilities over the seven other bit axes. -/
def marginal7 (p : Arr F S262144x2x2x2x2x2x2x2x2) : Arr F S262144x2 :=
  Host.reduceAdd p (constant S_ .f32 0x00000000#32) reducesTo_S262144x2x2x2x2x2x2x2x2_S262144x2_d1_2_3_4_5_6_7 h_S_

/-- The expectation of `Z` from a marginal distribution: its entry 0 minus its entry 1, as a column. -/
def expectation (s : Arr F S262144x2) : Arr F S262144x1 :=
  broadcastInDim S262144x1 ![0] bcast_S262144_S262144x1_0
    (subf (shapeCast _ (extractStridedSlice S262144x1 ![0, 0] s slices_S262144x2_S262144x1_0_0) shapeCasts_S262144x1_S262144)
      (shapeCast _ (extractStridedSlice S262144x1 ![0, 1] s slices_S262144x2_S262144x1_0_1) shapeCasts_S262144x1_S262144))

/-- The reference's result: column `w` is the expectation of `Z` on wire `w`. -/
def out (x : Arr F S262144x8) : Arr F S262144x8 :=
  concatenate S262144x8 1 [⟨S262144x1, expectation (marginal0 (probs x))⟩,
    ⟨S262144x1, expectation (marginal1 (probs x))⟩,
    ⟨S262144x1, expectation (marginal2 (probs x))⟩,
    ⟨S262144x1, expectation (marginal3 (probs x))⟩,
    ⟨S262144x1, expectation (marginal4 (probs x))⟩,
    ⟨S262144x1, expectation (marginal5 (probs x))⟩,
    ⟨S262144x1, expectation (marginal6 (probs x))⟩,
    ⟨S262144x1, expectation (marginal7 (probs x))⟩]
    concatenates_S262144x1_S262144x1_S262144x1_S262144x1_S262144x1_S262144x1_S262144x1_S262144x1_S262144x8_d1

end Cert.ReferenceIdeal.Sim

end
-- ==== Proof.RefSeg.lean ====
/-
  The reference program's operations, cut into segments, and what each segment computes.

  The program's @main is a straight line of 217 host operations; each writes one buffer once, from buffers written
  earlier.  The line is cut into 43 consecutive segments so that every operation joining several arrays into one is
  the first of its segment.  For each segment `segK`, over ARBITRARY buffer contents `W`: `segK_spec` gives the contents
  after the segment at every buffer a later segment reads — the freshly computed ones as the composed value of the
  segment's inputs, written `t_…` for the contents of the buffers it reads from earlier segments, and the ones merely
  carried along unchanged — and `segK_arg` says the segment leaves the argument alone.

  Chaining the segments from the launch contents `V` and folding each group of segments into the function of the
  program that names it (the half angle, each qubit's pair and step of the product state, the recast, each gate, the
  squares, each wire's marginal and expectation, the final join) gives the result buffer after all of them as
  `Sim.out` of the argument (`after_segs_out`), and the argument unchanged (`after_segs_arg`).
-/
import proofs.«115797_j9835475108036_1_alg».proof.Proof.RefProgram

noncomputable section

namespace Cert.ReferenceIdeal.HandSeg

open Cert.ReferenceIdeal Cert.ReferenceIdeal.Gen Idealize.ShloMosaic Idealize.ShloMosaic.TcCoe Idealize.SL.Sem Idealize.ShloMosaic.StableHlo

variable {F : FTy → Type} [FloatOps F]

/-- Running one line of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0–12: the half angle `(π/2)₃₂ · min 1 (max 0 x)` of every entry, then its cosine and its sine. -/
def seg0 : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S262144x8, .f32⟩) main_call0_v1) (broadcastInDim S262144x8 ![] bcast_S_S262144x8),
    TRef.binary (TRef.of (T := ⟨S262144x8, .f32⟩) main_call0_v1) (TRef.of (T := ⟨S262144x8, .f32⟩) main_arg0) (TRef.of (T := ⟨S262144x8, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S262144x8, .f32⟩) main_call0_v4) (broadcastInDim S262144x8 ![] bcast_S_S262144x8),
    TRef.binary (TRef.of (T := ⟨S262144x8, .f32⟩) main_call0_v4) (TRef.of (T := ⟨S262144x8, .f32⟩) main_call0_v2) (TRef.of (T := ⟨S262144x8, .f32⟩) main_v0) minimumf,
    nullary main_cst_1 (constant S_ .f32 0x3FC90FDB#32),
    unary main_cst_1 main_v1 (broadcastInDim S262144x8 ![] bcast_S_S262144x8 : (⟨S_, .f32⟩ : BufTy).Contents (Elt F) → (⟨S262144x8, .f32⟩ : BufTy).Contents (Elt F)),
    binary main_v1 main_v0 main_v2 (mulf : (⟨S262144x8, .f32⟩ : BufTy).Contents (Elt F) → (⟨S262144x8, .f32⟩ : BufTy).Contents (Elt F) → (⟨S262144x8, .f32⟩ : BufTy).Contents (Elt F)),
    unary main_v2 main_v3 (Host.cos : (⟨S262144x8, .f32⟩ : BufTy).Contents (Elt F) → (⟨S262144x8, .f32⟩ : BufTy).Contents (Elt F)),
    unary main_v2 main_v4 (Host.sin : (⟨S262144x8, .f32⟩ : BufTy).Contents (Elt F) → (⟨S262144x8, .f32⟩ : BufTy).Contents (Elt F)) ]

/-- The contents after `seg0`, from any contents, at `v3`, `v4`. -/
theorem seg0_spec {W : Valuation τ sig (Elt F)}
     :
    after (seg0 (F := F)) W (Proc.devRef .tc main_v3) = ((Host.cos : (⟨S262144x8, .f32⟩ : BufTy).Contents (Elt F) → (⟨S262144x8, .f32⟩ : BufTy).Contents (Elt F)) ((mulf : (⟨S262144x8, .f32⟩ : BufTy).Contents (Elt F) → (⟨S262144x8, .f32⟩ : BufTy).Contents (Elt F) → (⟨S262144x8, .f32⟩ : BufTy).Contents (Elt F)) ((broadcastInDim S262144x8 ![] bcast_S_S262144x8 : (⟨S_, .f32⟩ : BufTy).Contents (Elt F) → (⟨S262144x8, .f32⟩ : BufTy).Contents (Elt F)) (constant S_ .f32 0x3FC90FDB#32)) ((minimumf : (⟨S262144x8, .f32⟩ : BufTy).Contents (Elt F) → (⟨S262144x8, .f32⟩ : BufTy).Contents (Elt F) → (⟨S262144x8, .f32⟩ : BufTy).Contents (Elt F)) (((broadcastInDim S262144x8 ![] bcast_S_S262144x8) : (⟨S_, .f32⟩ : BufTy).Contents (Elt F) → (⟨S262144x8, .f32⟩ : BufTy).Contents (Elt F)) ((id : (⟨S_, .f32⟩ : BufTy).Contents (Elt F) → (⟨S_, .f32⟩ : BufTy).Contents (Elt F)) (constant S_ .f32 0x3F800000#32))) ((maximumf : (⟨S262144x8, .f32⟩ : BufTy).Contents (Elt F) → (⟨S262144x8, .f32⟩ : BufTy).Contents (Elt F) → (⟨S262144x8, .f32⟩ : BufTy).Contents (Elt F)) (((broadcastInDim S262144x8 ![] bcast_S_S262144x8) : (⟨S_, .f32⟩ : BufTy).Contents (Elt F) → (⟨S262144x8, .f32⟩ : BufTy).Contents (Elt F)) ((id : (⟨S_, .f32⟩ : BufTy).Contents (Elt F) → (⟨S_, .f32⟩ : BufTy).Contents (Elt F)) (constant S_ .f32 0x00000000#32))) (W (Proc.devRef .tc main_arg0))))))
    ∧ after (seg0 (F := F)) W (Proc.devRef .tc main_v4) = ((Host.sin : (⟨S262144x8, .f32⟩ : BufTy).Contents (Elt F) → (⟨S262144x8, .f32⟩ : BufTy).Contents (Elt F)) ((mulf : (⟨S262144x8, .f32⟩ : BufTy).Contents (Elt F) → (⟨S262144x8, .f32⟩ : BufTy).Contents (Elt F) → (⟨S262144x8, .f32⟩ : BufTy).Contents (Elt F)) ((broadcastInDim S262144x8 ![] bcast_S_S262144x8 : (⟨S_, .f32⟩ : BufTy).Contents (Elt F) → (⟨S262144x8, .f32⟩ : BufTy).Contents (Elt F)) (constant S_ .f32 0x3FC90FDB#32)) ((minimumf : (⟨S262144x8, .f32⟩ : BufTy).Contents (Elt F) → (⟨S262144x8, .f32⟩ : BufTy).Contents (Elt F) → (⟨S262144x8, .f32⟩ : BufTy).Contents (Elt F)) (((broadcastInDim S262144x8 ![] bcast_S_S262144x8) : (⟨S_, .f32⟩ : BufTy).Contents (Elt F) → (⟨S262144x8, .f32⟩ : BufTy).Contents (Elt F)) ((id : (⟨S_, .f32⟩ : BufTy).Contents (Elt F) → (⟨S_, .f32⟩ : BufTy).Contents (Elt F)) (constant S_ .f32 0x3F800000#32))) ((maximumf : (⟨S262144x8, .f32⟩ : BufTy).Contents (Elt F) → (⟨S262144x8, .f32⟩ : BufTy).Contents (Elt F) → (⟨S262144x8, .f32⟩ : BufTy).Contents (Elt F)) (((broadcastInDim S262144x8 ![] bcast_S_S262144x8) : (⟨S_, .f32⟩ : BufTy).Contents (Elt F) → (⟨S262144x8, .f32⟩ : BufTy).Contents (Elt F)) ((id : (⟨S_, .f32⟩ : BufTy).Contents (Elt F) → (⟨S_, .f32⟩ : BufTy).Contents (Elt F)) (constant S_ .f32 0x00000000#32))) (W (Proc.devRef .tc main_arg0)))))) := by
  unfold seg0
  refine ⟨?_, ?_⟩
  all_goals after_results_simp
  all_goals (try rfl)

/-- `seg0` does not write the argument. -/
theorem seg0_arg (W : Valuation τ sig (Elt F)) :
    after (seg0 (F := F)) W (Proc.devRef .tc main_arg0) = W (Proc.devRef .tc main_arg0) := by
  unfold seg0; after_results_simp

/-- Operations 13–20: the constant column of ones, and qubit 0's cosine column and sine column. -/
def seg1 : List (HloOp τ sig (Elt F)) :=
  [ nullary main_cst_2 (constant S_ .f32 0x3F800000#32),
    unary main_cst_2 main_v5 (broadcastInDim S262144x1 ![] bcast_S_S262144x1 : (⟨S_, .f32⟩ : BufTy).Contents (Elt F) → (⟨S262144x1, .f32⟩ : BufTy).Contents (Elt F)),
    unary main_v3 main_v6 ((extractStridedSlice S262144x1 ![0, 0] · slices_S262144x8_S262144x1_0_0) : (⟨S262144x8, .f32⟩ : BufTy).Contents (Elt F) → (⟨S262144x1, .f32⟩ : BufTy).Contents (Elt F)),
    reshape main_v6 main_v7 rfl shapeCasts_S262144x1_S262144,
    unary main_v4 main_v8 ((extractStridedSlice S262144x1 ![0, 0] · slices_S262144x8_S262144x1_0_0) : (⟨S262144x8, .f32⟩ : BufTy).Contents (Elt F) → (⟨S262144x1, .f32⟩ : BufTy).Contents (Elt F)),
    reshape main_v8 main_v9 rfl shapeCasts_S262144x1_S262144,
    unary main_v7 main_v10 (broadcastInDim S262144x1 ![0] bcast_S262144_S262144x1_0 : (⟨S262144, .f32⟩ : BufTy).Contents (Elt F) → (⟨S262144x1, .f32⟩ : BufTy).Contents (Elt F)),
    unary main_v9 main_v11 (broadcastInDim S262144x1 ![0] bcast_S262144_S262144x1_0 : (⟨S262144, .f32⟩ : BufTy).Contents (Elt F) → (⟨S262144x1, .f32⟩ : BufTy).Contents (Elt F)) ]

/-- The contents after `seg1`, with `v3`, `v4` holding `t_v3`, `t_v4`, at `v5`, `v10`, `v11`, `v3`, `v4`. -/
theorem seg1_spec {W : Valuation τ sig (Elt F)}
    {t_v3 : _} (h_v3 : W (Proc.devRef .tc main_v3) = t_v3)
    {t_v4 : _} (h_v4 : W (Proc.devRef .tc main_v4) = t_v4) :
    after (seg1 (F := F)) W (Proc.devRef .tc main_v5) = ((broadcastInDim S262144x1 ![] bcast_S_S262144x1 : (⟨S_, .f32⟩ : BufTy).Contents (Elt F) → (⟨S262144x1, .f32⟩ : BufTy).Contents (Elt F)) (constant S_ .f32 0x3F800000#32))
    ∧ after (seg1 (F := F)) W (Proc.devRef .tc main_v10) = ((broadcastInDim S262144x1 ![0] bcast_S262144_S262144x1_0 : (⟨S262144, .f32⟩ : BufTy).Contents (Elt F) → (⟨S262144x1, .f32⟩ : BufTy).Contents (Elt F)) (shapeCast main_v7.ty.shape (((extractStridedSlice S262144x1 ![0, 0] · slices_S262144x8_S262144x1_0_0) : (⟨S262144x8, .f32⟩ : BufTy).Contents (Elt F) → (⟨S262144x1, .f32⟩ : BufTy).Contents (Elt F)) t_v3) shapeCasts_S262144x1_S262144))
    ∧ after (seg1 (F := F)) W (Proc.devRef .tc main_v11) = ((broadcastInDim S262144x1 ![0] bcast_S262144_S262144x1_0 : (⟨S262144, .f32⟩ : BufTy).Contents (Elt F) → (⟨S262144x1, .f32⟩ : BufTy).Contents (Elt F)) (shapeCast main_v9.ty.shape (((extractStridedSlice S262144x1 ![0, 0] · slices_S262144x8_S262144x1_0_0) : (⟨S262144x8, .f32⟩ : BufTy).Contents (Elt F) → (⟨S262144x1, .f32⟩ : BufTy).Contents (Elt F)) t_v4) shapeCasts_S262144x1_S262144))
    ∧ after (seg1 (F := F)) W (Proc.devRef .tc main_v3) = t_v3
    ∧ after (seg1 (F := F)) W (Proc.devRef .tc main_v4) = t_v4 := by
  subst h_v3 h_v4
  unfold seg1
  refine ⟨?_, ?_, ?_, ?_, ?_⟩
  all_goals after_results_simp
  all_goals (try rfl)

/-- `seg1` does not write the argument. -/
theorem seg1_arg (W : Valuation τ sig (Elt F)) :
    after (seg1 (F := F)) W (Proc.devRef .tc main_arg0) = W (Proc.devRef .tc main_arg0) := by
  unfold seg1; after_results_simp

/-- Operations 21–26: qubit 0's pair (its two columns side by side) and the first step of the product state, the ones times that pair. -/
def seg2 : List (HloOp τ sig (Elt F)) :=
  [ binary main_v10 main_v11 main_v12 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v5 main_v13 (broadcastInDim S262144x1x1 ![0, 1] bcast_S262144x1_S262144x1x1_0_1 : (⟨S262144x1, .f32⟩ : BufTy).Contents (Elt F) → (⟨S262144x1x1, .f32⟩ : BufTy).Contents (Elt F)),
    unary main_v12 main_v14 (broadcastInDim S262144x1x2 ![0, 2] bcast_S262144x2_S262144x1x2_0_2 : (⟨S262144x2, .f32⟩ : BufTy).Contents (Elt F) → (⟨S262144x1x2, .f32⟩ : BufTy).Contents (Elt F)),
    unary main_v13 main_v15 (broadcastInDim S262144x1x2 ![0, 1, 2] bcast_S262144x1x1_S262144x1x2_0_1_2 : (⟨S262144x1x1, .f32⟩ : BufTy).Contents (Elt F) → (⟨S262144x1x2, .f32⟩ : BufTy).Contents (Elt F)),
    binary main_v15 main_v14 main_v16 (mulf : (⟨S262144x1x2, .f32⟩ : BufTy).Contents (Elt F) → (⟨S262144x1x2, .f32⟩ : BufTy).Contents (Elt F) → (⟨S262144x1x2, .f32⟩ : BufTy).Contents (Elt F)),
    reshape main_v16 main_v17 rfl shapeCasts_S262144x1x2_S262144x2 ]

/-- The contents after `seg2`, with `v3`, `v4`, `v5`, `v10`, `v11` holding `t_v3`, `t_v4`, `t_v5`, `t_v10`, `t_v11`, at `v17`, `v3`, `v4`. -/
theorem seg2_spec {W : Valuation τ sig (Elt F)}
    {t_v3 : _} (h_v3 : W (Proc.devRef .tc main_v3) = t_v3)
    {t_v4 : _} (h_v4 : W (Proc.devRef .tc main_v4) = t_v4)
    {t_v5 : _} (h_v5 : W (Proc.devRef .tc main_v5) = t_v5)
    {t_v10 : _} (h_v10 : W (Proc.devRef .tc main_v10) = t_v10)
    {t_v11 : _} (h_v11 : W (Proc.devRef .tc main_v11) = t_v11) :
    after (seg2 (F := F)) W (Proc.devRef .tc main_v17) = (shapeCast main_v17.ty.shape ((mulf : (⟨S262144x1x2, .f32⟩ : BufTy).Contents (Elt F) → (⟨S262144x1x2, .f32⟩ : BufTy).Contents (Elt F) → (⟨S262144x1x2, .f32⟩ : BufTy).Contents (Elt F)) ((broadcastInDim S262144x1x2 ![0, 1, 2] bcast_S262144x1x1_S262144x1x2_0_1_2 : (⟨S262144x1x1, .f32⟩ : BufTy).Contents (Elt F) → (⟨S262144x1x2, .f32⟩ : BufTy).Contents (Elt F)) ((broadcastInDim S262144x1x1 ![0, 1] bcast_S262144x1_S262144x1x1_0_1 : (⟨S262144x1, .f32⟩ : BufTy).Contents (Elt F) → (⟨S262144x1x1, .f32⟩ : BufTy).Contents (Elt F)) t_v5)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v10 t_v11))) shapeCasts_S262144x1x2_S262144x2)
    ∧ after (seg2 (F := F)) W (Proc.devRef .tc main_v3) = t_v3
    ∧ after (seg2 (F := F)) W (Proc.devRef .tc main_v4) = t_v4 := by
  subst h_v3 h_v4 h_v5 h_v10 h_v11
  unfold seg2
  refine ⟨?_, ?_, ?_⟩
  all_goals after_results_simp
  all_goals (try rfl)

/-- `seg2` does not write the argument. -/
theorem seg2_arg (W : Valuation τ sig (Elt F)) :
    after (seg2 (F := F)) W (Proc.devRef .tc main_arg0) = W (Proc.devRef .tc main_arg0) := by
  unfold seg2; after_results_simp

/-- Operations 27–32: qubit 1's cosine column and sine column. -/
def seg3 : List (HloOp τ sig (Elt F)) :=
  [ unary main_v3 main_v18 ((extractStridedSlice S262144x1 ![0, 1] · slices_S262144x8_S262144x1_0_1) : (⟨S262144x8, .f32⟩ : BufTy).Contents (Elt F) → (⟨S262144x1, .f32⟩ : BufTy).Contents (Elt F)),
    reshape main_v18 main_v19 rfl shapeCasts_S262144x1_S262144,
    unary main_v4 main_v20 ((extractStridedSlice S262144x1 ![0, 1] · slices_S262144x8_S262144x1_0_1) : (⟨S262144x8, .f32⟩ : BufTy).Contents (Elt F) → (⟨S262144x1, .f32⟩ : BufTy).Contents (Elt F)),
    reshape main_v20 main_v21 rfl shapeCasts_S262144x1_S262144,
    unary main_v19 main_v22 (broadcastInDim S262144x1 ![0] bcast_S262144_S262144x1_0 : (⟨S262144, .f32⟩ : BufTy).Contents (Elt F) → (⟨S262144x1, .f32⟩ : BufTy).Contents (Elt F)),
    unary main_v21 main_v23 (broadcastInDim S262144x1 ![0] bcast_S262144_S262144x1_0 : (⟨S262144, .f32⟩ : BufTy).Contents (Elt F) → (⟨S262144x1, .f32⟩ : BufTy).Contents (Elt F)) ]

/-- The contents after `seg3`, with `v3`, `v4`, `v17` holding `t_v3`, `t_v4`, `t_v17`, at `v22`, `v23`, `v3`, `v4`, `v17`. -/
theorem seg3_spec {W : Valuation τ sig (Elt F)}
    {t_v3 : _} (h_v3 : W (Proc.devRef .tc main_v3) = t_v3)
    {t_v4 : _} (h_v4 : W (Proc.devRef .tc main_v4) = t_v4)
    {t_v17 : _} (h_v17 : W (Proc.devRef .tc main_v17) = t_v17) :
    after (seg3 (F := F)) W (Proc.devRef .tc main_v22) = ((broadcastInDim S262144x1 ![0] bcast_S262144_S262144x1_0 : (⟨S262144, .f32⟩ : BufTy).Contents (Elt F) → (⟨S262144x1, .f32⟩ : BufTy).Contents (Elt F)) (shapeCast main_v19.ty.shape (((extractStridedSlice S262144x1 ![0, 1] · slices_S262144x8_S262144x1_0_1) : (⟨S262144x8, .f32⟩ : BufTy).Contents (Elt F) → (⟨S262144x1, .f32⟩ : BufTy).Contents (Elt F)) t_v3) shapeCasts_S262144x1_S262144))
    ∧ after (seg3 (F := F)) W (Proc.devRef .tc main_v23) = ((broadcastInDim S262144x1 ![0] bcast_S262144_S262144x1_0 : (⟨S262144, .f32⟩ : BufTy).Contents (Elt F) → (⟨S262144x1, .f32⟩ : BufTy).Contents (Elt F)) (shapeCast main_v21.ty.shape (((extractStridedSlice S262144x1 ![0, 1] · slices_S262144x8_S262144x1_0_1) : (⟨S262144x8, .f32⟩ : BufTy).Contents (Elt F) → (⟨S262144x1, .f32⟩ : BufTy).Contents (Elt F)) t_v4) shapeCasts_S262144x1_S262144))
    ∧ after (seg3 (F := F)) W (Proc.devRef .tc main_v3) = t_v3
    ∧ after (seg3 (F := F)) W (Proc.devRef .tc main_v4) = t_v4
    ∧ after (seg3 (F := F)) W (Proc.devRef .tc main_v17) = t_v17 := by
  subst h_v3 h_v4 h_v17
  unfold seg3
  refine ⟨?_, ?_, ?_, ?_, ?_⟩
  all_goals after_results_simp
  all_goals (try rfl)

/-- `seg3` does not write the argument. -/
theorem seg3_arg (W : Valuation τ sig (Elt F)) :
    after (seg3 (F := F)) W (Proc.devRef .tc main_arg0) = W (Proc.devRef .tc main_arg0) := by
  unfold seg3; after_results_simp

/-- Operations 33–39: qubit 1's pair, and the product state extended by qubit 1: the outer product, row by row, of the amplitudes so far with the pair, flattened. -/
def seg4 : List (HloOp τ sig (Elt F)) :=
  [ binary main_v22 main_v23 main_v24 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v17 main_v25 (broadcastInDim S262144x2x1 ![0, 1] bcast_S262144x2_S262144x2x1_0_1 : (⟨S262144x2, .f32⟩ : BufTy).Contents (Elt F) → (⟨S262144x2x1, .f32⟩ : BufTy).Contents (Elt F)),
    unary main_v24 main_v26 (broadcastInDim S262144x1x2 ![0, 2] bcast_S262144x2_S262144x1x2_0_2 : (⟨S262144x2, .f32⟩ : BufTy).Contents (Elt F) → (⟨S262144x1x2, .f32⟩ : BufTy).Contents (Elt F)),
    unary main_v25 main_v27 (broadcastInDim S262144x2x2 ![0, 1, 2] bcast_S262144x2x1_S262144x2x2_0_1_2 : (⟨S262144x2x1, .f32⟩ : BufTy).Contents (Elt F) → (⟨S262144x2x2, .f32⟩ : BufTy).Contents (Elt F)),
    unary main_v26 main_v28 (broadcastInDim S262144x2x2 ![0, 1, 2] bcast_S262144x1x2_S262144x2x2_0_1_2 : (⟨S262144x1x2, .f32⟩ : BufTy).Contents (Elt F) → (⟨S262144x2x2, .f32⟩ : BufTy).Contents (Elt F)),
    binary main_v27 main_v28 main_v29 (mulf : (⟨S262144x2x2, .f32⟩ : BufTy).Contents (Elt F) → (⟨S262144x2x2, .f32⟩ : BufTy).Contents (Elt F) → (⟨S262144x2x2, .f32⟩ : BufTy).Contents (Elt F)),
    reshape main_v29 main_v30 rfl shapeCasts_S262144x2x2_S262144x4 ]

/-- The contents after `seg4`, with `v3`, `v4`, `v17`, `v22`, `v23` holding `t_v3`, `t_v4`, `t_v17`, `t_v22`, `t_v23`, at `v30`, `v3`, `v4`. -/
theorem seg4_spec {W : Valuation τ sig (Elt F)}
    {t_v3 : _} (h_v3 : W (Proc.devRef .tc main_v3) = t_v3)
    {t_v4 : _} (h_v4 : W (Proc.devRef .tc main_v4) = t_v4)
    {t_v17 : _} (h_v17 : W (Proc.devRef .tc main_v17) = t_v17)
    {t_v22 : _} (h_v22 : W (Proc.devRef .tc main_v22) = t_v22)
    {t_v23 : _} (h_v23 : W (Proc.devRef .tc main_v23) = t_v23) :
    after (seg4 (F := F)) W (Proc.devRef .tc main_v30) = (shapeCast main_v30.ty.shape ((mulf : (⟨S262144x2x2, .f32⟩ : BufTy).Contents (Elt F) → (⟨S262144x2x2, .f32⟩ : BufTy).Contents (Elt F) → (⟨S262144x2x2, .f32⟩ : BufTy).Contents (Elt F)) ((broadcastInDim S262144x2x2 ![0, 1, 2] bcast_S262144x2x1_S262144x2x2_0_1_2 : (⟨S262144x2x1, .f32⟩ : BufTy).Contents (Elt F) → (⟨S262144x2x2, .f32⟩ : BufTy).Contents (Elt F)) ((broadcastInDim S262144x2x1 ![0, 1] bcast_S262144x2_S262144x2x1_0_1 : (⟨S262144x2, .f32⟩ : BufTy).Contents (Elt F) → (⟨S262144x2x1, .f32⟩ : BufTy).Contents (Elt F)) t_v17)) ((broadcastInDim S262144x2x2 ![0, 1, 2] bcast_S262144x1x2_S262144x2x2_0_1_2 : (⟨S262144x1x2, .f32⟩ : BufTy).Contents (Elt F) → (⟨S262144x2x2, .f32⟩ : BufTy).Contents (Elt F)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v22 t_v23)))) shapeCasts_S262144x2x2_S262144x4)
    ∧ after (seg4 (F := F)) W (Proc.devRef .tc main_v3) = t_v3
    ∧ after (seg4 (F := F)) W (Proc.devRef .tc main_v4) = t_v4 := by
  subst h_v3 h_v4 h_v17 h_v22 h_v23
  unfold seg4
  refine ⟨?_, ?_, ?_⟩
  all_goals after_results_simp
  all_goals (try rfl)

/-- `seg4` does not write the argument. -/
theorem seg4_arg (W : Valuation τ sig (Elt F)) :
    after (seg4 (F := F)) W (Proc.devRef .tc main_arg0) = W (Proc.devRef .tc main_arg0) := by
  unfold seg4; after_results_simp

/-- Operations 40–45: qubit 2's cosine column and sine column. -/
def seg5 : List (HloOp τ sig (Elt F)) :=
  [ unary main_v3 main_v31 ((extractStridedSlice S262144x1 ![0, 2] · slices_S262144x8_S262144x1_0_2) : (⟨S262144x8, .f32⟩ : BufTy).Contents (Elt F) → (⟨S262144x1, .f32⟩ : BufTy).Contents (Elt F)),
    reshape main_v31 main_v32 rfl shapeCasts_S262144x1_S262144,
    unary main_v4 main_v33 ((extractStridedSlice S262144x1 ![0, 2] · slices_S262144x8_S262144x1_0_2) : (⟨S262144x8, .f32⟩ : BufTy).Contents (Elt F) → (⟨S262144x1, .f32⟩ : BufTy).Contents (Elt F)),
    reshape main_v33 main_v34 rfl shapeCasts_S262144x1_S262144,
    unary main_v32 main_v35 (broadcastInDim S262144x1 ![0] bcast_S262144_S262144x1_0 : (⟨S262144, .f32⟩ : BufTy).Contents (Elt F) → (⟨S262144x1, .f32⟩ : BufTy).Contents (Elt F)),
    unary main_v34 main_v36 (broadcastInDim S262144x1 ![0] bcast_S262144_S262144x1_0 : (⟨S262144, .f32⟩ : BufTy).Contents (Elt F) → (⟨S262144x1, .f32⟩ : BufTy).Contents (Elt F)) ]

/-- The contents after `seg5`, with `v3`, `v4`, `v30` holding `t_v3`, `t_v4`, `t_v30`, at `v35`, `v36`, `v3`, `v4`, `v30`. -/
theorem seg5_spec {W : Valuation τ sig (Elt F)}
    {t_v3 : _} (h_v3 : W (Proc.devRef .tc main_v3) = t_v3)
    {t_v4 : _} (h_v4 : W (Proc.devRef .tc main_v4) = t_v4)
    {t_v30 : _} (h_v30 : W (Proc.devRef .tc main_v30) = t_v30) :
    after (seg5 (F := F)) W (Proc.devRef .tc main_v35) = ((broadcastInDim S262144x1 ![0] bcast_S262144_S262144x1_0 : (⟨S262144, .f32⟩ : BufTy).Contents (Elt F) → (⟨S262144x1, .f32⟩ : BufTy).Contents (Elt F)) (shapeCast main_v32.ty.shape (((extractStridedSlice S262144x1 ![0, 2] · slices_S262144x8_S262144x1_0_2) : (⟨S262144x8, .f32⟩ : BufTy).Contents (Elt F) → (⟨S262144x1, .f32⟩ : BufTy).Contents (Elt F)) t_v3) shapeCasts_S262144x1_S262144))
    ∧ after (seg5 (F := F)) W (Proc.devRef .tc main_v36) = ((broadcastInDim S262144x1 ![0] bcast_S262144_S262144x1_0 : (⟨S262144, .f32⟩ : BufTy).Contents (Elt F) → (⟨S262144x1, .f32⟩ : BufTy).Contents (Elt F)) (shapeCast main_v34.ty.shape (((extractStridedSlice S262144x1 ![0, 2] · slices_S262144x8_S262144x1_0_2) : (⟨S262144x8, .f32⟩ : BufTy).Contents (Elt F) → (⟨S262144x1, .f32⟩ : BufTy).Contents (Elt F)) t_v4) shapeCasts_S262144x1_S262144))
    ∧ after (seg5 (F := F)) W (Proc.devRef .tc main_v3) = t_v3
    ∧ after (seg5 (F := F)) W (Proc.devRef .tc main_v4) = t_v4
    ∧ after (seg5 (F := F)) W (Proc.devRef .tc main_v30) = t_v30 := by
  subst h_v3 h_v4 h_v30
  unfold seg5
  refine ⟨?_, ?_, ?_, ?_, ?_⟩
  all_goals after_results_simp
  all_goals (try rfl)

/-- `seg5` does not write the argument. -/
theorem seg5_arg (W : Valuation τ sig (Elt F)) :
    after (seg5 (F := F)) W (Proc.devRef .tc main_arg0) = W (Proc.devRef .tc main_arg0) := by
  unfold seg5; after_results_simp

/-- Operations 46–52: qubit 2's pair, and the product state extended by qubit 2: the outer product, row by row, of the amplitudes so far with the pair, flattened. -/
def seg6 : List (HloOp τ sig (Elt F)) :=
  [ binary main_v35 main_v36 main_v37 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v30 main_v38 (broadcastInDim S262144x4x1 ![0, 1] bcast_S262144x4_S262144x4x1_0_1 : (⟨S262144x4, .f32⟩ : BufTy).Contents (Elt F) → (⟨S262144x4x1, .f32⟩ : BufTy).Contents (Elt F)),
    unary main_v37 main_v39 (broadcastInDim S262144x1x2 ![0, 2] bcast_S262144x2_S262144x1x2_0_2 : (⟨S262144x2, .f32⟩ : BufTy).Contents (Elt F) → (⟨S262144x1x2, .f32⟩ : BufTy).Contents (Elt F)),
    unary main_v38 main_v40 (broadcastInDim S262144x4x2 ![0, 1, 2] bcast_S262144x4x1_S262144x4x2_0_1_2 : (⟨S262144x4x1, .f32⟩ : BufTy).Contents (Elt F) → (⟨S262144x4x2, .f32⟩ : BufTy).Contents (Elt F)),
    unary main_v39 main_v41 (broadcastInDim S262144x4x2 ![0, 1, 2] bcast_S262144x1x2_S262144x4x2_0_1_2 : (⟨S262144x1x2, .f32⟩ : BufTy).Contents (Elt F) → (⟨S262144x4x2, .f32⟩ : BufTy).Contents (Elt F)),
    binary main_v40 main_v41 main_v42 (mulf : (⟨S262144x4x2, .f32⟩ : BufTy).Contents (Elt F) → (⟨S262144x4x2, .f32⟩ : BufTy).Contents (Elt F) → (⟨S262144x4x2, .f32⟩ : BufTy).Contents (Elt F)),
    reshape main_v42 main_v43 rfl shapeCasts_S262144x4x2_S262144x8 ]

/-- The contents after `seg6`, with `v3`, `v4`, `v30`, `v35`, `v36` holding `t_v3`, `t_v4`, `t_v30`, `t_v35`, `t_v36`, at `v43`, `v3`, `v4`. -/
theorem seg6_spec {W : Valuation τ sig (Elt F)}
    {t_v3 : _} (h_v3 : W (Proc.devRef .tc main_v3) = t_v3)
    {t_v4 : _} (h_v4 : W (Proc.devRef .tc main_v4) = t_v4)
    {t_v30 : _} (h_v30 : W (Proc.devRef .tc main_v30) = t_v30)
    {t_v35 : _} (h_v35 : W (Proc.devRef .tc main_v35) = t_v35)
    {t_v36 : _} (h_v36 : W (Proc.devRef .tc main_v36) = t_v36) :
    after (seg6 (F := F)) W (Proc.devRef .tc main_v43) = (shapeCast main_v43.ty.shape ((mulf : (⟨S262144x4x2, .f32⟩ : BufTy).Contents (Elt F) → (⟨S262144x4x2, .f32⟩ : BufTy).Contents (Elt F) → (⟨S262144x4x2, .f32⟩ : BufTy).Contents (Elt F)) ((broadcastInDim S262144x4x2 ![0, 1, 2] bcast_S262144x4x1_S262144x4x2_0_1_2 : (⟨S262144x4x1, .f32⟩ : BufTy).Contents (Elt F) → (⟨S262144x4x2, .f32⟩ : BufTy).Contents (Elt F)) ((broadcastInDim S262144x4x1 ![0, 1] bcast_S262144x4_S262144x4x1_0_1 : (⟨S262144x4, .f32⟩ : BufTy).Contents (Elt F) → (⟨S262144x4x1, .f32⟩ : BufTy).Contents (Elt F)) t_v30)) ((broadcastInDim S262144x4x2 ![0, 1, 2] bcast_S262144x1x2_S262144x4x2_0_1_2 : (⟨S262144x1x2, .f32⟩ : BufTy).Contents (Elt F) → (⟨S262144x4x2, .f32⟩ : BufTy).Contents (Elt F)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v35 t_v36)))) shapeCasts_S262144x4x2_S262144x8)
    ∧ after (seg6 (F := F)) W (Proc.devRef .tc main_v3) = t_v3
    ∧ after (seg6 (F := F)) W (Proc.devRef .tc main_v4) = t_v4 := by
  subst h_v3 h_v4 h_v30 h_v35 h_v36
  unfold seg6
  refine ⟨?_, ?_, ?_⟩
  all_goals after_results_simp
  all_goals (try rfl)

/-- `seg6` does not write the argument. -/
theorem seg6_arg (W : Valuation τ sig (Elt F)) :
    after (seg6 (F := F)) W (Proc.devRef .tc main_arg0) = W (Proc.devRef .tc main_arg0) := by
  unfold seg6; after_results_simp

/-- Operations 53–58: qubit 3's cosine column and sine column. -/
def seg7 : List (HloOp τ sig (Elt F)) :=
  [ unary main_v3 main_v44 ((extractStridedSlice S262144x1 ![0, 3] · slices_S262144x8_S262144x1_0_3) : (⟨S262144x8, .f32⟩ : BufTy).Contents (Elt F) → (⟨S262144x1, .f32⟩ : BufTy).Contents (Elt F)),
    reshape main_v44 main_v45 rfl shapeCasts_S262144x1_S262144,
    unary main_v4 main_v46 ((extractStridedSlice S262144x1 ![0, 3] · slices_S262144x8_S262144x1_0_3) : (⟨S262144x8, .f32⟩ : BufTy).Contents (Elt F) → (⟨S262144x1, .f32⟩ : BufTy).Contents (Elt F)),
    reshape main_v46 main_v47 rfl shapeCasts_S262144x1_S262144,
    unary main_v45 main_v48 (broadcastInDim S262144x1 ![0] bcast_S262144_S262144x1_0 : (⟨S262144, .f32⟩ : BufTy).Contents (Elt F) → (⟨S262144x1, .f32⟩ : BufTy).Contents (Elt F)),
    unary main_v47 main_v49 (broadcastInDim S262144x1 ![0] bcast_S262144_S262144x1_0 : (⟨S262144, .f32⟩ : BufTy).Contents (Elt F) → (⟨S262144x1, .f32⟩ : BufTy).Contents (Elt F)) ]

/-- The contents after `seg7`, with `v3`, `v4`, `v43` holding `t_v3`, `t_v4`, `t_v43`, at `v48`, `v49`, `v3`, `v4`, `v43`. -/
theorem seg7_spec {W : Valuation τ sig (Elt F)}
    {t_v3 : _} (h_v3 : W (Proc.devRef .tc main_v3) = t_v3)
    {t_v4 : _} (h_v4 : W (Proc.devRef .tc main_v4) = t_v4)
    {t_v43 : _} (h_v43 : W (Proc.devRef .tc main_v43) = t_v43) :
    after (seg7 (F := F)) W (Proc.devRef .tc main_v48) = ((broadcastInDim S262144x1 ![0] bcast_S262144_S262144x1_0 : (⟨S262144, .f32⟩ : BufTy).Contents (Elt F) → (⟨S262144x1, .f32⟩ : BufTy).Contents (Elt F)) (shapeCast main_v45.ty.shape (((extractStridedSlice S262144x1 ![0, 3] · slices_S262144x8_S262144x1_0_3) : (⟨S262144x8, .f32⟩ : BufTy).Contents (Elt F) → (⟨S262144x1, .f32⟩ : BufTy).Contents (Elt F)) t_v3) shapeCasts_S262144x1_S262144))
    ∧ after (seg7 (F := F)) W (Proc.devRef .tc main_v49) = ((broadcastInDim S262144x1 ![0] bcast_S262144_S262144x1_0 : (⟨S262144, .f32⟩ : BufTy).Contents (Elt F) → (⟨S262144x1, .f32⟩ : BufTy).Contents (Elt F)) (shapeCast main_v47.ty.shape (((extractStridedSlice S262144x1 ![0, 3] · slices_S262144x8_S262144x1_0_3) : (⟨S262144x8, .f32⟩ : BufTy).Contents (Elt F) → (⟨S262144x1, .f32⟩ : BufTy).Contents (Elt F)) t_v4) shapeCasts_S262144x1_S262144))
    ∧ after (seg7 (F := F)) W (Proc.devRef .tc main_v3) = t_v3
    ∧ after (seg7 (F := F)) W (Proc.devRef .tc main_v4) = t_v4
    ∧ after (seg7 (F := F)) W (Proc.devRef .tc main_v43) = t_v43 := by
  subst h_v3 h_v4 h_v43
  unfold seg7
  refine ⟨?_, ?_, ?_, ?_, ?_⟩
  all_goals after_results_simp
  all_goals (try rfl)

/-- `seg7` does not write the argument. -/
theorem seg7_arg (W : Valuation τ sig (Elt F)) :
    after (seg7 (F := F)) W (Proc.devRef .tc main_arg0) = W (Proc.devRef .tc main_arg0) := by
  unfold seg7; after_results_simp

/-- Operations 59–65: qubit 3's pair, and the product state extended by qubit 3: the outer product, row by row, of the amplitudes so far with the pair, flattened. -/
def seg8 : List (HloOp τ sig (Elt F)) :=
  [ binary main_v48 main_v49 main_v50 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v43 main_v51 (broadcastInDim S262144x8x1 ![0, 1] bcast_S262144x8_S262144x8x1_0_1 : (⟨S262144x8, .f32⟩ : BufTy).Contents (Elt F) → (⟨S262144x8x1, .f32⟩ : BufTy).Contents (Elt F)),
    unary main_v50 main_v52 (broadcastInDim S262144x1x2 ![0, 2] bcast_S262144x2_S262144x1x2_0_2 : (⟨S262144x2, .f32⟩ : BufTy).Contents (Elt F) → (⟨S262144x1x2, .f32⟩ : BufTy).Contents (Elt F)),
    unary main_v51 main_v53 (broadcastInDim S262144x8x2 ![0, 1, 2] bcast_S262144x8x1_S262144x8x2_0_1_2 : (⟨S262144x8x1, .f32⟩ : BufTy).Contents (Elt F) → (⟨S262144x8x2, .f32⟩ : BufTy).Contents (Elt F)),
    unary main_v52 main_v54 (broadcastInDim S262144x8x2 ![0, 1, 2] bcast_S262144x1x2_S262144x8x2_0_1_2 : (⟨S262144x1x2, .f32⟩ : BufTy).Contents (Elt F) → (⟨S262144x8x2, .f32⟩ : BufTy).Contents (Elt F)),
    binary main_v53 main_v54 main_v55 (mulf : (⟨S262144x8x2, .f32⟩ : BufTy).Contents (Elt F) → (⟨S262144x8x2, .f32⟩ : BufTy).Contents (Elt F) → (⟨S262144x8x2, .f32⟩ : BufTy).Contents (Elt F)),
    reshape main_v55 main_v56 rfl shapeCasts_S262144x8x2_S262144x16 ]

/-- The contents after `seg8`, with `v3`, `v4`, `v43`, `v48`, `v49` holding `t_v3`, `t_v4`, `t_v43`, `t_v48`, `t_v49`, at `v56`, `v3`, `v4`. -/
theorem seg8_spec {W : Valuation τ sig (Elt F)}
    {t_v3 : _} (h_v3 : W (Proc.devRef .tc main_v3) = t_v3)
    {t_v4 : _} (h_v4 : W (Proc.devRef .tc main_v4) = t_v4)
    {t_v43 : _} (h_v43 : W (Proc.devRef .tc main_v43) = t_v43)
    {t_v48 : _} (h_v48 : W (Proc.devRef .tc main_v48) = t_v48)
    {t_v49 : _} (h_v49 : W (Proc.devRef .tc main_v49) = t_v49) :
    after (seg8 (F := F)) W (Proc.devRef .tc main_v56) = (shapeCast main_v56.ty.shape ((mulf : (⟨S262144x8x2, .f32⟩ : BufTy).Contents (Elt F) → (⟨S262144x8x2, .f32⟩ : BufTy).Contents (Elt F) → (⟨S262144x8x2, .f32⟩ : BufTy).Contents (Elt F)) ((broadcastInDim S262144x8x2 ![0, 1, 2] bcast_S262144x8x1_S262144x8x2_0_1_2 : (⟨S262144x8x1, .f32⟩ : BufTy).Contents (Elt F) → (⟨S262144x8x2, .f32⟩ : BufTy).Contents (Elt F)) ((broadcastInDim S262144x8x1 ![0, 1] bcast_S262144x8_S262144x8x1_0_1 : (⟨S262144x8, .f32⟩ : BufTy).Contents (Elt F) → (⟨S262144x8x1, .f32⟩ : BufTy).Contents (Elt F)) t_v43)) ((broadcastInDim S262144x8x2 ![0, 1, 2] bcast_S262144x1x2_S262144x8x2_0_1_2 : (⟨S262144x1x2, .f32⟩ : BufTy).Contents (Elt F) → (⟨S262144x8x2, .f32⟩ : BufTy).Contents (Elt F)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v48 t_v49)))) shapeCasts_S262144x8x2_S262144x16)
    ∧ after (seg8 (F := F)) W (Proc.devRef .tc main_v3) = t_v3
    ∧ after (seg8 (F := F)) W (Proc.devRef .tc main_v4) = t_v4 := by
  subst h_v3 h_v4 h_v43 h_v48 h_v49
  unfold seg8
  refine ⟨?_, ?_, ?_⟩
  all_goals after_results_simp
  all_goals (try rfl)

/-- `seg8` does not write the argument. -/
theorem seg8_arg (W : Valuation τ sig (Elt F)) :
    after (seg8 (F := F)) W (Proc.devRef .tc main_arg0) = W (Proc.devRef .tc main_arg0) := by
  unfold seg8; after_results_simp

/-- Operations 66–71: qubit 4's cosine column and sine column. -/
def seg9 : List (HloOp τ sig (Elt F)) :=
  [ unary main_v3 main_v57 ((extractStridedSlice S262144x1 ![0, 4] · slices_S262144x8_S262144x1_0_4) : (⟨S262144x8, .f32⟩ : BufTy).Contents (Elt F) → (⟨S262144x1, .f32⟩ : BufTy).Contents (Elt F)),
    reshape main_v57 main_v58 rfl shapeCasts_S262144x1_S262144,
    unary main_v4 main_v59 ((extractStridedSlice S262144x1 ![0, 4] · slices_S262144x8_S262144x1_0_4) : (⟨S262144x8, .f32⟩ : BufTy).Contents (Elt F) → (⟨S262144x1, .f32⟩ : BufTy).Contents (Elt F)),
    reshape main_v59 main_v60 rfl shapeCasts_S262144x1_S262144,
    unary main_v58 main_v61 (broadcastInDim S262144x1 ![0] bcast_S262144_S262144x1_0 : (⟨S262144, .f32⟩ : BufTy).Contents (Elt F) → (⟨S262144x1, .f32⟩ : BufTy).Contents (Elt F)),
    unary main_v60 main_v62 (broadcastInDim S262144x1 ![0] bcast_S262144_S262144x1_0 : (⟨S262144, .f32⟩ : BufTy).Contents (Elt F) → (⟨S262144x1, .f32⟩ : BufTy).Contents (Elt F)) ]

/-- The contents after `seg9`, with `v3`, `v4`, `v56` holding `t_v3`, `t_v4`, `t_v56`, at `v61`, `v62`, `v3`, `v4`, `v56`. -/
theorem seg9_spec {W : Valuation τ sig (Elt F)}
    {t_v3 : _} (h_v3 : W (Proc.devRef .tc main_v3) = t_v3)
    {t_v4 : _} (h_v4 : W (Proc.devRef .tc main_v4) = t_v4)
    {t_v56 : _} (h_v56 : W (Proc.devRef .tc main_v56) = t_v56) :
    after (seg9 (F := F)) W (Proc.devRef .tc main_v61) = ((broadcastInDim S262144x1 ![0] bcast_S262144_S262144x1_0 : (⟨S262144, .f32⟩ : BufTy).Contents (Elt F) → (⟨S262144x1, .f32⟩ : BufTy).Contents (Elt F)) (shapeCast main_v58.ty.shape (((extractStridedSlice S262144x1 ![0, 4] · slices_S262144x8_S262144x1_0_4) : (⟨S262144x8, .f32⟩ : BufTy).Contents (Elt F) → (⟨S262144x1, .f32⟩ : BufTy).Contents (Elt F)) t_v3) shapeCasts_S262144x1_S262144))
    ∧ after (seg9 (F := F)) W (Proc.devRef .tc main_v62) = ((broadcastInDim S262144x1 ![0] bcast_S262144_S262144x1_0 : (⟨S262144, .f32⟩ : BufTy).Contents (Elt F) → (⟨S262144x1, .f32⟩ : BufTy).Contents (Elt F)) (shapeCast main_v60.ty.shape (((extractStridedSlice S262144x1 ![0, 4] · slices_S262144x8_S262144x1_0_4) : (⟨S262144x8, .f32⟩ : BufTy).Contents (Elt F) → (⟨S262144x1, .f32⟩ : BufTy).Contents (Elt F)) t_v4) shapeCasts_S262144x1_S262144))
    ∧ after (seg9 (F := F)) W (Proc.devRef .tc main_v3) = t_v3
    ∧ after (seg9 (F := F)) W (Proc.devRef .tc main_v4) = t_v4
    ∧ after (seg9 (F := F)) W (Proc.devRef .tc main_v56) = t_v56 := by
  subst h_v3 h_v4 h_v56
  unfold seg9
  refine ⟨?_, ?_, ?_, ?_, ?_⟩
  all_goals after_results_simp
  all_goals (try rfl)

/-- `seg9` does not write the argument. -/
theorem seg9_arg (W : Valuation τ sig (Elt F)) :
    after (seg9 (F := F)) W (Proc.devRef .tc main_arg0) = W (Proc.devRef .tc main_arg0) := by
  unfold seg9; after_results_simp

/-- Operations 72–78: qubit 4's pair, and the product state extended by qubit 4: the outer product, row by row, of the amplitudes so far with the pair, flattened. -/
def seg10 : List (HloOp τ sig (Elt F)) :=
  [ binary main_v61 main_v62 main_v63 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v56 main_v64 (broadcastInDim S262144x16x1 ![0, 1] bcast_S262144x16_S262144x16x1_0_1 : (⟨S262144x16, .f32⟩ : BufTy).Contents (Elt F) → (⟨S262144x16x1, .f32⟩ : BufTy).Contents (Elt F)),
    unary main_v63 main_v65 (broadcastInDim S262144x1x2 ![0, 2] bcast_S262144x2_S262144x1x2_0_2 : (⟨S262144x2, .f32⟩ : BufTy).Contents (Elt F) → (⟨S262144x1x2, .f32⟩ : BufTy).Contents (Elt F)),
    unary main_v64 main_v66 (broadcastInDim S262144x16x2 ![0, 1, 2] bcast_S262144x16x1_S262144x16x2_0_1_2 : (⟨S262144x16x1, .f32⟩ : BufTy).Contents (Elt F) → (⟨S262144x16x2, .f32⟩ : BufTy).Contents (Elt F)),
    unary main_v65 main_v67 (broadcastInDim S262144x16x2 ![0, 1, 2] bcast_S262144x1x2_S262144x16x2_0_1_2 : (⟨S262144x1x2, .f32⟩ : BufTy).Contents (Elt F) → (⟨S262144x16x2, .f32⟩ : BufTy).Contents (Elt F)),
    binary main_v66 main_v67 main_v68 (mulf : (⟨S262144x16x2, .f32⟩ : BufTy).Contents (Elt F) → (⟨S262144x16x2, .f32⟩ : BufTy).Contents (Elt F) → (⟨S262144x16x2, .f32⟩ : BufTy).Contents (Elt F)),
    reshape main_v68 main_v69 rfl shapeCasts_S262144x16x2_S262144x32 ]

/-- The contents after `seg10`, with `v3`, `v4`, `v56`, `v61`, `v62` holding `t_v3`, `t_v4`, `t_v56`, `t_v61`, `t_v62`, at `v69`, `v3`, `v4`. -/
theorem seg10_spec {W : Valuation τ sig (Elt F)}
    {t_v3 : _} (h_v3 : W (Proc.devRef .tc main_v3) = t_v3)
    {t_v4 : _} (h_v4 : W (Proc.devRef .tc main_v4) = t_v4)
    {t_v56 : _} (h_v56 : W (Proc.devRef .tc main_v56) = t_v56)
    {t_v61 : _} (h_v61 : W (Proc.devRef .tc main_v61) = t_v61)
    {t_v62 : _} (h_v62 : W (Proc.devRef .tc main_v62) = t_v62) :
    after (seg10 (F := F)) W (Proc.devRef .tc main_v69) = (shapeCast main_v69.ty.shape ((mulf : (⟨S262144x16x2, .f32⟩ : BufTy).Contents (Elt F) → (⟨S262144x16x2, .f32⟩ : BufTy).Contents (Elt F) → (⟨S262144x16x2, .f32⟩ : BufTy).Contents (Elt F)) ((broadcastInDim S262144x16x2 ![0, 1, 2] bcast_S262144x16x1_S262144x16x2_0_1_2 : (⟨S262144x16x1, .f32⟩ : BufTy).Contents (Elt F) → (⟨S262144x16x2, .f32⟩ : BufTy).Contents (Elt F)) ((broadcastInDim S262144x16x1 ![0, 1] bcast_S262144x16_S262144x16x1_0_1 : (⟨S262144x16, .f32⟩ : BufTy).Contents (Elt F) → (⟨S262144x16x1, .f32⟩ : BufTy).Contents (Elt F)) t_v56)) ((broadcastInDim S262144x16x2 ![0, 1, 2] bcast_S262144x1x2_S262144x16x2_0_1_2 : (⟨S262144x1x2, .f32⟩ : BufTy).Contents (Elt F) → (⟨S262144x16x2, .f32⟩ : BufTy).Contents (Elt F)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v61 t_v62)))) shapeCasts_S262144x16x2_S262144x32)
    ∧ after (seg10 (F := F)) W (Proc.devRef .tc main_v3) = t_v3
    ∧ after (seg10 (F := F)) W (Proc.devRef .tc main_v4) = t_v4 := by
  subst h_v3 h_v4 h_v56 h_v61 h_v62
  unfold seg10
  refine ⟨?_, ?_, ?_⟩
  all_goals after_results_simp
  all_goals (try rfl)

/-- `seg10` does not write the argument. -/
theorem seg10_arg (W : Valuation τ sig (Elt F)) :
    after (seg10 (F := F)) W (Proc.devRef .tc main_arg0) = W (Proc.devRef .tc main_arg0) := by
  unfold seg10; after_results_simp

/-- Operations 79–84: qubit 5's cosine column and sine column. -/
def seg11 : List (HloOp τ sig (Elt F)) :=
  [ unary main_v3 main_v70 ((extractStridedSlice S262144x1 ![0, 5] · slices_S262144x8_S262144x1_0_5) : (⟨S262144x8, .f32⟩ : BufTy).Contents (Elt F) → (⟨S262144x1, .f32⟩ : BufTy).Contents (Elt F)),
    reshape main_v70 main_v71 rfl shapeCasts_S262144x1_S262144,
    unary main_v4 main_v72 ((extractStridedSlice S262144x1 ![0, 5] · slices_S262144x8_S262144x1_0_5) : (⟨S262144x8, .f32⟩ : BufTy).Contents (Elt F) → (⟨S262144x1, .f32⟩ : BufTy).Contents (Elt F)),
    reshape main_v72 main_v73 rfl shapeCasts_S262144x1_S262144,
    unary main_v71 main_v74 (broadcastInDim S262144x1 ![0] bcast_S262144_S262144x1_0 : (⟨S262144, .f32⟩ : BufTy).Contents (Elt F) → (⟨S262144x1, .f32⟩ : BufTy).Contents (Elt F)),
    unary main_v73 main_v75 (broadcastInDim S262144x1 ![0] bcast_S262144_S262144x1_0 : (⟨S262144, .f32⟩ : BufTy).Contents (Elt F) → (⟨S262144x1, .f32⟩ : BufTy).Contents (Elt F)) ]

/-- The contents after `seg11`, with `v3`, `v4`, `v69` holding `t_v3`, `t_v4`, `t_v69`, at `v74`, `v75`, `v3`, `v4`, `v69`. -/
theorem seg11_spec {W : Valuation τ sig (Elt F)}
    {t_v3 : _} (h_v3 : W (Proc.devRef .tc main_v3) = t_v3)
    {t_v4 : _} (h_v4 : W (Proc.devRef .tc main_v4) = t_v4)
    {t_v69 : _} (h_v69 : W (Proc.devRef .tc main_v69) = t_v69) :
    after (seg11 (F := F)) W (Proc.devRef .tc main_v74) = ((broadcastInDim S262144x1 ![0] bcast_S262144_S262144x1_0 : (⟨S262144, .f32⟩ : BufTy).Contents (Elt F) → (⟨S262144x1, .f32⟩ : BufTy).Contents (Elt F)) (shapeCast main_v71.ty.shape (((extractStridedSlice S262144x1 ![0, 5] · slices_S262144x8_S262144x1_0_5) : (⟨S262144x8, .f32⟩ : BufTy).Contents (Elt F) → (⟨S262144x1, .f32⟩ : BufTy).Contents (Elt F)) t_v3) shapeCasts_S262144x1_S262144))
    ∧ after (seg11 (F := F)) W (Proc.devRef .tc main_v75) = ((broadcastInDim S262144x1 ![0] bcast_S262144_S262144x1_0 : (⟨S262144, .f32⟩ : BufTy).Contents (Elt F) → (⟨S262144x1, .f32⟩ : BufTy).Contents (Elt F)) (shapeCast main_v73.ty.shape (((extractStridedSlice S262144x1 ![0, 5] · slices_S262144x8_S262144x1_0_5) : (⟨S262144x8, .f32⟩ : BufTy).Contents (Elt F) → (⟨S262144x1, .f32⟩ : BufTy).Contents (Elt F)) t_v4) shapeCasts_S262144x1_S262144))
    ∧ after (seg11 (F := F)) W (Proc.devRef .tc main_v3) = t_v3
    ∧ after (seg11 (F := F)) W (Proc.devRef .tc main_v4) = t_v4
    ∧ after (seg11 (F := F)) W (Proc.devRef .tc main_v69) = t_v69 := by
  subst h_v3 h_v4 h_v69
  unfold seg11
  refine ⟨?_, ?_, ?_, ?_, ?_⟩
  all_goals after_results_simp
  all_goals (try rfl)

/-- `seg11` does not write the argument. -/
theorem seg11_arg (W : Valuation τ sig (Elt F)) :
    after (seg11 (F := F)) W (Proc.devRef .tc main_arg0) = W (Proc.devRef .tc main_arg0) := by
  unfold seg11; after_results_simp

/-- Operations 85–91: qubit 5's pair, and the product state extended by qubit 5: the outer product, row by row, of the amplitudes so far with the pair, flattened. -/
def seg12 : List (HloOp τ sig (Elt F)) :=
  [ binary main_v74 main_v75 main_v76 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v69 main_v77 (broadcastInDim S262144x32x1 ![0, 1] bcast_S262144x32_S262144x32x1_0_1 : (⟨S262144x32, .f32⟩ : BufTy).Contents (Elt F) → (⟨S262144x32x1, .f32⟩ : BufTy).Contents (Elt F)),
    unary main_v76 main_v78 (broadcastInDim S262144x1x2 ![0, 2] bcast_S262144x2_S262144x1x2_0_2 : (⟨S262144x2, .f32⟩ : BufTy).Contents (Elt F) → (⟨S262144x1x2, .f32⟩ : BufTy).Contents (Elt F)),
    unary main_v77 main_v79 (broadcastInDim S262144x32x2 ![0, 1, 2] bcast_S262144x32x1_S262144x32x2_0_1_2 : (⟨S262144x32x1, .f32⟩ : BufTy).Contents (Elt F) → (⟨S262144x32x2, .f32⟩ : BufTy).Contents (Elt F)),
    unary main_v78 main_v80 (broadcastInDim S262144x32x2 ![0, 1, 2] bcast_S262144x1x2_S262144x32x2_0_1_2 : (⟨S262144x1x2, .f32⟩ : BufTy).Contents (Elt F) → (⟨S262144x32x2, .f32⟩ : BufTy).Contents (Elt F)),
    binary main_v79 main_v80 main_v81 (mulf : (⟨S262144x32x2, .f32⟩ : BufTy).Contents (Elt F) → (⟨S262144x32x2, .f32⟩ : BufTy).Contents (Elt F) → (⟨S262144x32x2, .f32⟩ : BufTy).Contents (Elt F)),
    reshape main_v81 main_v82 rfl shapeCasts_S262144x32x2_S262144x64 ]

/-- The contents after `seg12`, with `v3`, `v4`, `v69`, `v74`, `v75` holding `t_v3`, `t_v4`, `t_v69`, `t_v74`, `t_v75`, at `v82`, `v3`, `v4`. -/
theorem seg12_spec {W : Valuation τ sig (Elt F)}
    {t_v3 : _} (h_v3 : W (Proc.devRef .tc main_v3) = t_v3)
    {t_v4 : _} (h_v4 : W (Proc.devRef .tc main_v4) = t_v4)
    {t_v69 : _} (h_v69 : W (Proc.devRef .tc main_v69) = t_v69)
    {t_v74 : _} (h_v74 : W (Proc.devRef .tc main_v74) = t_v74)
    {t_v75 : _} (h_v75 : W (Proc.devRef .tc main_v75) = t_v75) :
    after (seg12 (F := F)) W (Proc.devRef .tc main_v82) = (shapeCast main_v82.ty.shape ((mulf : (⟨S262144x32x2, .f32⟩ : BufTy).Contents (Elt F) → (⟨S262144x32x2, .f32⟩ : BufTy).Contents (Elt F) → (⟨S262144x32x2, .f32⟩ : BufTy).Contents (Elt F)) ((broadcastInDim S262144x32x2 ![0, 1, 2] bcast_S262144x32x1_S262144x32x2_0_1_2 : (⟨S262144x32x1, .f32⟩ : BufTy).Contents (Elt F) → (⟨S262144x32x2, .f32⟩ : BufTy).Contents (Elt F)) ((broadcastInDim S262144x32x1 ![0, 1] bcast_S262144x32_S262144x32x1_0_1 : (⟨S262144x32, .f32⟩ : BufTy).Contents (Elt F) → (⟨S262144x32x1, .f32⟩ : BufTy).Contents (Elt F)) t_v69)) ((broadcastInDim S262144x32x2 ![0, 1, 2] bcast_S262144x1x2_S262144x32x2_0_1_2 : (⟨S262144x1x2, .f32⟩ : BufTy).Contents (Elt F) → (⟨S262144x32x2, .f32⟩ : BufTy).Contents (Elt F)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v74 t_v75)))) shapeCasts_S262144x32x2_S262144x64)
    ∧ after (seg12 (F := F)) W (Proc.devRef .tc main_v3) = t_v3
    ∧ after (seg12 (F := F)) W (Proc.devRef .tc main_v4) = t_v4 := by
  subst h_v3 h_v4 h_v69 h_v74 h_v75
  unfold seg12
  refine ⟨?_, ?_, ?_⟩
  all_goals after_results_simp
  all_goals (try rfl)

/-- `seg12` does not write the argument. -/
theorem seg12_arg (W : Valuation τ sig (Elt F)) :
    after (seg12 (F := F)) W (Proc.devRef .tc main_arg0) = W (Proc.devRef .tc main_arg0) := by
  unfold seg12; after_results_simp

/-- Operations 92–97: qubit 6's cosine column and sine column. -/
def seg13 : List (HloOp τ sig (Elt F)) :=
  [ unary main_v3 main_v83 ((extractStridedSlice S262144x1 ![0, 6] · slices_S262144x8_S262144x1_0_6) : (⟨S262144x8, .f32⟩ : BufTy).Contents (Elt F) → (⟨S262144x1, .f32⟩ : BufTy).Contents (Elt F)),
    reshape main_v83 main_v84 rfl shapeCasts_S262144x1_S262144,
    unary main_v4 main_v85 ((extractStridedSlice S262144x1 ![0, 6] · slices_S262144x8_S262144x1_0_6) : (⟨S262144x8, .f32⟩ : BufTy).Contents (Elt F) → (⟨S262144x1, .f32⟩ : BufTy).Contents (Elt F)),
    reshape main_v85 main_v86 rfl shapeCasts_S262144x1_S262144,
    unary main_v84 main_v87 (broadcastInDim S262144x1 ![0] bcast_S262144_S262144x1_0 : (⟨S262144, .f32⟩ : BufTy).Contents (Elt F) → (⟨S262144x1, .f32⟩ : BufTy).Contents (Elt F)),
    unary main_v86 main_v88 (broadcastInDim S262144x1 ![0] bcast_S262144_S262144x1_0 : (⟨S262144, .f32⟩ : BufTy).Contents (Elt F) → (⟨S262144x1, .f32⟩ : BufTy).Contents (Elt F)) ]

/-- The contents after `seg13`, with `v3`, `v4`, `v82` holding `t_v3`, `t_v4`, `t_v82`, at `v87`, `v88`, `v3`, `v4`, `v82`. -/
theorem seg13_spec {W : Valuation τ sig (Elt F)}
    {t_v3 : _} (h_v3 : W (Proc.devRef .tc main_v3) = t_v3)
    {t_v4 : _} (h_v4 : W (Proc.devRef .tc main_v4) = t_v4)
    {t_v82 : _} (h_v82 : W (Proc.devRef .tc main_v82) = t_v82) :
    after (seg13 (F := F)) W (Proc.devRef .tc main_v87) = ((broadcastInDim S262144x1 ![0] bcast_S262144_S262144x1_0 : (⟨S262144, .f32⟩ : BufTy).Contents (Elt F) → (⟨S262144x1, .f32⟩ : BufTy).Contents (Elt F)) (shapeCast main_v84.ty.shape (((extractStridedSlice S262144x1 ![0, 6] · slices_S262144x8_S262144x1_0_6) : (⟨S262144x8, .f32⟩ : BufTy).Contents (Elt F) → (⟨S262144x1, .f32⟩ : BufTy).Contents (Elt F)) t_v3) shapeCasts_S262144x1_S262144))
    ∧ after (seg13 (F := F)) W (Proc.devRef .tc main_v88) = ((broadcastInDim S262144x1 ![0] bcast_S262144_S262144x1_0 : (⟨S262144, .f32⟩ : BufTy).Contents (Elt F) → (⟨S262144x1, .f32⟩ : BufTy).Contents (Elt F)) (shapeCast main_v86.ty.shape (((extractStridedSlice S262144x1 ![0, 6] · slices_S262144x8_S262144x1_0_6) : (⟨S262144x8, .f32⟩ : BufTy).Contents (Elt F) → (⟨S262144x1, .f32⟩ : BufTy).Contents (Elt F)) t_v4) shapeCasts_S262144x1_S262144))
    ∧ after (seg13 (F := F)) W (Proc.devRef .tc main_v3) = t_v3
    ∧ after (seg13 (F := F)) W (Proc.devRef .tc main_v4) = t_v4
    ∧ after (seg13 (F := F)) W (Proc.devRef .tc main_v82) = t_v82 := by
  subst h_v3 h_v4 h_v82
  unfold seg13
  refine ⟨?_, ?_, ?_, ?_, ?_⟩
  all_goals after_results_simp
  all_goals (try rfl)

/-- `seg13` does not write the argument. -/
theorem seg13_arg (W : Valuation τ sig (Elt F)) :
    after (seg13 (F := F)) W (Proc.devRef .tc main_arg0) = W (Proc.devRef .tc main_arg0) := by
  unfold seg13; after_results_simp

/-- Operations 98–104: qubit 6's pair, and the product state extended by qubit 6: the outer product, row by row, of the amplitudes so far with the pair, flattened. -/
def seg14 : List (HloOp τ sig (Elt F)) :=
  [ binary main_v87 main_v88 main_v89 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v82 main_v90 (broadcastInDim S262144x64x1 ![0, 1] bcast_S262144x64_S262144x64x1_0_1 : (⟨S262144x64, .f32⟩ : BufTy).Contents (Elt F) → (⟨S262144x64x1, .f32⟩ : BufTy).Contents (Elt F)),
    unary main_v89 main_v91 (broadcastInDim S262144x1x2 ![0, 2] bcast_S262144x2_S262144x1x2_0_2 : (⟨S262144x2, .f32⟩ : BufTy).Contents (Elt F) → (⟨S262144x1x2, .f32⟩ : BufTy).Contents (Elt F)),
    unary main_v90 main_v92 (broadcastInDim S262144x64x2 ![0, 1, 2] bcast_S262144x64x1_S262144x64x2_0_1_2 : (⟨S262144x64x1, .f32⟩ : BufTy).Contents (Elt F) → (⟨S262144x64x2, .f32⟩ : BufTy).Contents (Elt F)),
    unary main_v91 main_v93 (broadcastInDim S262144x64x2 ![0, 1, 2] bcast_S262144x1x2_S262144x64x2_0_1_2 : (⟨S262144x1x2, .f32⟩ : BufTy).Contents (Elt F) → (⟨S262144x64x2, .f32⟩ : BufTy).Contents (Elt F)),
    binary main_v92 main_v93 main_v94 (mulf : (⟨S262144x64x2, .f32⟩ : BufTy).Contents (Elt F) → (⟨S262144x64x2, .f32⟩ : BufTy).Contents (Elt F) → (⟨S262144x64x2, .f32⟩ : BufTy).Contents (Elt F)),
    reshape main_v94 main_v95 rfl shapeCasts_S262144x64x2_S262144x128 ]

/-- The contents after `seg14`, with `v3`, `v4`, `v82`, `v87`, `v88` holding `t_v3`, `t_v4`, `t_v82`, `t_v87`, `t_v88`, at `v95`, `v3`, `v4`. -/
theorem seg14_spec {W : Valuation τ sig (Elt F)}
    {t_v3 : _} (h_v3 : W (Proc.devRef .tc main_v3) = t_v3)
    {t_v4 : _} (h_v4 : W (Proc.devRef .tc main_v4) = t_v4)
    {t_v82 : _} (h_v82 : W (Proc.devRef .tc main_v82) = t_v82)
    {t_v87 : _} (h_v87 : W (Proc.devRef .tc main_v87) = t_v87)
    {t_v88 : _} (h_v88 : W (Proc.devRef .tc main_v88) = t_v88) :
    after (seg14 (F := F)) W (Proc.devRef .tc main_v95) = (shapeCast main_v95.ty.shape ((mulf : (⟨S262144x64x2, .f32⟩ : BufTy).Contents (Elt F) → (⟨S262144x64x2, .f32⟩ : BufTy).Contents (Elt F) → (⟨S262144x64x2, .f32⟩ : BufTy).Contents (Elt F)) ((broadcastInDim S262144x64x2 ![0, 1, 2] bcast_S262144x64x1_S262144x64x2_0_1_2 : (⟨S262144x64x1, .f32⟩ : BufTy).Contents (Elt F) → (⟨S262144x64x2, .f32⟩ : BufTy).Contents (Elt F)) ((broadcastInDim S262144x64x1 ![0, 1] bcast_S262144x64_S262144x64x1_0_1 : (⟨S262144x64, .f32⟩ : BufTy).Contents (Elt F) → (⟨S262144x64x1, .f32⟩ : BufTy).Contents (Elt F)) t_v82)) ((broadcastInDim S262144x64x2 ![0, 1, 2] bcast_S262144x1x2_S262144x64x2_0_1_2 : (⟨S262144x1x2, .f32⟩ : BufTy).Contents (Elt F) → (⟨S262144x64x2, .f32⟩ : BufTy).Contents (Elt F)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v87 t_v88)))) shapeCasts_S262144x64x2_S262144x128)
    ∧ after (seg14 (F := F)) W (Proc.devRef .tc main_v3) = t_v3
    ∧ after (seg14 (F := F)) W (Proc.devRef .tc main_v4) = t_v4 := by
  subst h_v3 h_v4 h_v82 h_v87 h_v88
  unfold seg14
  refine ⟨?_, ?_, ?_⟩
  all_goals after_results_simp
  all_goals (try rfl)

/-- `seg14` does not write the argument. -/
theorem seg14_arg (W : Valuation τ sig (Elt F)) :
    after (seg14 (F := F)) W (Proc.devRef .tc main_arg0) = W (Proc.devRef .tc main_arg0) := by
  unfold seg14; after_results_simp

/-- Operations 105–110: qubit 7's cosine column and sine column. -/
def seg15 : List (HloOp τ sig (Elt F)) :=
  [ unary main_v3 main_v96 ((extractStridedSlice S262144x1 ![0, 7] · slices_S262144x8_S262144x1_0_7) : (⟨S262144x8, .f32⟩ : BufTy).Contents (Elt F) → (⟨S262144x1, .f32⟩ : BufTy).Contents (Elt F)),
    reshape main_v96 main_v97 rfl shapeCasts_S262144x1_S262144,
    unary main_v4 main_v98 ((extractStridedSlice S262144x1 ![0, 7] · slices_S262144x8_S262144x1_0_7) : (⟨S262144x8, .f32⟩ : BufTy).Contents (Elt F) → (⟨S262144x1, .f32⟩ : BufTy).Contents (Elt F)),
    reshape main_v98 main_v99 rfl shapeCasts_S262144x1_S262144,
    unary main_v97 main_v100 (broadcastInDim S262144x1 ![0] bcast_S262144_S262144x1_0 : (⟨S262144, .f32⟩ : BufTy).Contents (Elt F) → (⟨S262144x1, .f32⟩ : BufTy).Contents (Elt F)),
    unary main_v99 main_v101 (broadcastInDim S262144x1 ![0] bcast_S262144_S262144x1_0 : (⟨S262144, .f32⟩ : BufTy).Contents (Elt F) → (⟨S262144x1, .f32⟩ : BufTy).Contents (Elt F)) ]

/-- The contents after `seg15`, with `v3`, `v4`, `v95` holding `t_v3`, `t_v4`, `t_v95`, at `v100`, `v101`, `v95`. -/
theorem seg15_spec {W : Valuation τ sig (Elt F)}
    {t_v3 : _} (h_v3 : W (Proc.devRef .tc main_v3) = t_v3)
    {t_v4 : _} (h_v4 : W (Proc.devRef .tc main_v4) = t_v4)
    {t_v95 : _} (h_v95 : W (Proc.devRef .tc main_v95) = t_v95) :
    after (seg15 (F := F)) W (Proc.devRef .tc main_v100) = ((broadcastInDim S262144x1 ![0] bcast_S262144_S262144x1_0 : (⟨S262144, .f32⟩ : BufTy).Contents (Elt F) → (⟨S262144x1, .f32⟩ : BufTy).Contents (Elt F)) (shapeCast main_v97.ty.shape (((extractStridedSlice S262144x1 ![0, 7] · slices_S262144x8_S262144x1_0_7) : (⟨S262144x8, .f32⟩ : BufTy).Contents (Elt F) → (⟨S262144x1, .f32⟩ : BufTy).Contents (Elt F)) t_v3) shapeCasts_S262144x1_S262144))
    ∧ after (seg15 (F := F)) W (Proc.devRef .tc main_v101) = ((broadcastInDim S262144x1 ![0] bcast_S262144_S262144x1_0 : (⟨S262144, .f32⟩ : BufTy).Contents (Elt F) → (⟨S262144x1, .f32⟩ : BufTy).Contents (Elt F)) (shapeCast main_v99.ty.shape (((extractStridedSlice S262144x1 ![0, 7] · slices_S262144x8_S262144x1_0_7) : (⟨S262144x8, .f32⟩ : BufTy).Contents (Elt F) → (⟨S262144x1, .f32⟩ : BufTy).Contents (Elt F)) t_v4) shapeCasts_S262144x1_S262144))
    ∧ after (seg15 (F := F)) W (Proc.devRef .tc main_v95) = t_v95 := by
  subst h_v3 h_v4 h_v95
  unfold seg15
  refine ⟨?_, ?_, ?_⟩
  all_goals after_results_simp
  all_goals (try rfl)

/-- `seg15` does not write the argument. -/
theorem seg15_arg (W : Valuation τ sig (Elt F)) :
    after (seg15 (F := F)) W (Proc.devRef .tc main_arg0) = W (Proc.devRef .tc main_arg0) := by
  unfold seg15; after_results_simp

/-- Operations 111–118: qubit 7's pair, the product state extended by qubit 7, and the `2⁸` amplitudes recast to one axis per qubit. -/
def seg16 : List (HloOp τ sig (Elt F)) :=
  [ binary main_v100 main_v101 main_v102 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v95 main_v103 (broadcastInDim S262144x128x1 ![0, 1] bcast_S262144x128_S262144x128x1_0_1 : (⟨S262144x128, .f32⟩ : BufTy).Contents (Elt F) → (⟨S262144x128x1, .f32⟩ : BufTy).Contents (Elt F)),
    unary main_v102 main_v104 (broadcastInDim S262144x1x2 ![0, 2] bcast_S262144x2_S262144x1x2_0_2 : (⟨S262144x2, .f32⟩ : BufTy).Contents (Elt F) → (⟨S262144x1x2, .f32⟩ : BufTy).Contents (Elt F)),
    unary main_v103 main_v105 (broadcastInDim S262144x128x2 ![0, 1, 2] bcast_S262144x128x1_S262144x128x2_0_1_2 : (⟨S262144x128x1, .f32⟩ : BufTy).Contents (Elt F) → (⟨S262144x128x2, .f32⟩ : BufTy).Contents (Elt F)),
    unary main_v104 main_v106 (broadcastInDim S262144x128x2 ![0, 1, 2] bcast_S262144x1x2_S262144x128x2_0_1_2 : (⟨S262144x1x2, .f32⟩ : BufTy).Contents (Elt F) → (⟨S262144x128x2, .f32⟩ : BufTy).Contents (Elt F)),
    binary main_v105 main_v106 main_v107 (mulf : (⟨S262144x128x2, .f32⟩ : BufTy).Contents (Elt F) → (⟨S262144x128x2, .f32⟩ : BufTy).Contents (Elt F) → (⟨S262144x128x2, .f32⟩ : BufTy).Contents (Elt F)),
    reshape main_v107 main_v108 rfl shapeCasts_S262144x128x2_S262144x256,
    reshape main_v108 main_v109 rfl shapeCasts_S262144x256_S262144x2x2x2x2x2x2x2x2 ]

/-- The contents after `seg16`, with `v95`, `v100`, `v101` holding `t_v95`, `t_v100`, `t_v101`, at `v109`. -/
theorem seg16_spec {W : Valuation τ sig (Elt F)}
    {t_v95 : _} (h_v95 : W (Proc.devRef .tc main_v95) = t_v95)
    {t_v100 : _} (h_v100 : W (Proc.devRef .tc main_v100) = t_v100)
    {t_v101 : _} (h_v101 : W (Proc.devRef .tc main_v101) = t_v101) :
    after (seg16 (F := F)) W (Proc.devRef .tc main_v109) = (shapeCast main_v109.ty.shape (shapeCast main_v108.ty.shape ((mulf : (⟨S262144x128x2, .f32⟩ : BufTy).Contents (Elt F) → (⟨S262144x128x2, .f32⟩ : BufTy).Contents (Elt F) → (⟨S262144x128x2, .f32⟩ : BufTy).Contents (Elt F)) ((broadcastInDim S262144x128x2 ![0, 1, 2] bcast_S262144x128x1_S262144x128x2_0_1_2 : (⟨S262144x128x1, .f32⟩ : BufTy).Contents (Elt F) → (⟨S262144x128x2, .f32⟩ : BufTy).Contents (Elt F)) ((broadcastInDim S262144x128x1 ![0, 1] bcast_S262144x128_S262144x128x1_0_1 : (⟨S262144x128, .f32⟩ : BufTy).Contents (Elt F) → (⟨S262144x128x1, .f32⟩ : BufTy).Contents (Elt F)) t_v95)) ((broadcastInDim S262144x128x2 ![0, 1, 2] bcast_S262144x1x2_S262144x128x2_0_1_2 : (⟨S262144x1x2, .f32⟩ : BufTy).Contents (Elt F) → (⟨S262144x128x2, .f32⟩ : BufTy).Contents (Elt F)) ((broadcastInDim S262144x1x2 ![0, 2] bcast_S262144x2_S262144x1x2_0_2 : (⟨S262144x2, .f32⟩ : BufTy).Contents (Elt F) → (⟨S262144x1x2, .f32⟩ : BufTy).Contents (Elt F)) (((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)) t_v100 t_v101)))) shapeCasts_S262144x128x2_S262144x256) shapeCasts_S262144x256_S262144x2x2x2x2x2x2x2x2) := by
  subst h_v95 h_v100 h_v101
  unfold seg16
  all_goals after_results_simp
  all_goals (try rfl)

/-- `seg16` does not write the argument. -/
theorem seg16_arg (W : Valuation τ sig (Elt F)) :
    after (seg16 (F := F)) W (Proc.devRef .tc main_arg0) = W (Proc.devRef .tc main_arg0) := by
  unfold seg16; after_results_simp

/-- Operations 119–121: gate 1's two halves of the state, the one with the control bit 0 as it is and the one with the control bit 1 mirrored along the target axis. -/
def seg17 : List (HloOp τ sig (Elt F)) :=
  [ unary main_v109 main_v110 ((extractStridedSlice S262144x1x2x2x2x2x2x2x2 ![0, 0, 0, 0, 0, 0, 0, 0, 0] · slices_S262144x2x2x2x2x2x2x2x2_S262144x1x2x2x2x2x2x2x2_0_0_0_0_0_0_0_0_0) : (⟨S262144x2x2x2x2x2x2x2x2, .f32⟩ : BufTy).Contents (Elt F) → (⟨S262144x1x2x2x2x2x2x2x2, .f32⟩ : BufTy).Contents (Elt F)),
    unary main_v109 main_v111 ((extractStridedSlice S262144x1x2x2x2x2x2x2x2 ![0, 1, 0, 0, 0, 0, 0, 0, 0] · slices_S262144x2x2x2x2x2x2x2x2_S262144x1x2x2x2x2x2x2x2_0_1_0_0_0_0_0_0_0) : (⟨S262144x2x2x2x2x2x2x2x2, .f32⟩ : BufTy).Contents (Elt F) → (⟨S262144x1x2x2x2x2x2x2x2, .f32⟩ : BufTy).Contents (Elt F)),
    TRef.unary (TRef.of (T := ⟨S262144x1x2x2x2x2x2x2x2, .f32⟩) main_v111) (TRef.of (T := ⟨S262144x1x2x2x2x2x2x2x2, .f32⟩) main_v112) (Host.reverse [2]) ]

/-- The contents after `seg17`, with `v109` holding `t_v109`, at `v110`, `v112`. -/
theorem seg17_spec {W : Valuation τ sig (Elt F)}
    {t_v109 : _} (h_v109 : W (Proc.devRef .tc main_v109) = t_v109) :
    after (seg17 (F := F)) W (Proc.devRef .tc main_v110) = (((extractStridedSlice S262144x1x2x2x2x2x2x2x2 ![0, 0, 0, 0, 0, 0, 0, 0, 0] · slices_S262144x2x2x2x2x2x2x2x2_S262144x1x2x2x2x2x2x2x2_0_0_0_0_0_0_0_0_0) : (⟨S262144x2x2x2x2x2x2x2x2, .f32⟩ : BufTy).Contents (Elt F) → (⟨S262144x1x2x2x2x2x2x2x2, .f32⟩ : BufTy).Contents (Elt F)) t_v109)
    ∧ after (seg17 (F := F)) W (Proc.devRef .tc main_v112) = (((Host.reverse [2]) : (⟨S262144x1x2x2x2x2x2x2x2, .f32⟩ : BufTy).Contents (Elt F) → (⟨S262144x1x2x2x2x2x2x2x2, .f32⟩ : BufTy).Contents (Elt F)) (((extractStridedSlice S262144x1x2x2x2x2x2x2x2 ![0, 1, 0, 0, 0, 0, 0, 0, 0] · slices_S262144x2x2x2x2x2x2x2x2_S262144x1x2x2x2x2x2x2x2_0_1_0_0_0_0_0_0_0) : (⟨S262144x2x2x2x2x2x2x2x2, .f32⟩ : BufTy).Contents (Elt F) → (⟨S262144x1x2x2x2x2x2x2x2, .f32⟩ : BufTy).Contents (Elt F)) t_v109)) := by
  subst h_v109
  unfold seg17
  refine ⟨?_, ?_⟩
  all_goals after_results_simp
  all_goals (try rfl)

/-- `seg17` does not write the argument. -/
theorem seg17_arg (W : Valuation τ sig (Elt F)) :
    after (seg17 (F := F)) W (Proc.devRef .tc main_arg0) = W (Proc.devRef .tc main_arg0) := by
  unfold seg17; after_results_simp

/-- Operation 122: gate 1's two halves joined along the control axis. -/
def seg18 : List (HloOp τ sig (Elt F)) :=
  [ binary main_v110 main_v112 main_v113 ((fun a b => concatenate S262144x2x2x2x2x2x2x2x2 1 [⟨S262144x1x2x2x2x2x2x2x2, a⟩, ⟨S262144x1x2x2x2x2x2x2x2, b⟩] concatenates_S262144x1x2x2x2x2x2x2x2_S262144x1x2x2x2x2x2x2x2_S262144x2x2x2x2x2x2x2x2_d1) : (⟨S262144x1x2x2x2x2x2x2x2, .f32⟩ : BufTy).Contents (Elt F) → (⟨S262144x1x2x2x2x2x2x2x2, .f32⟩ : BufTy).Contents (Elt F) → (⟨S262144x2x2x2x2x2x2x2x2, .f32⟩ : BufTy).Contents (Elt F)) ]

/-- The contents after `seg18`, with `v110`, `v112` holding `t_v110`, `t_v112`, at `v113`. -/
theorem seg18_spec {W : Valuation τ sig (Elt F)}
    {t_v110 : _} (h_v110 : W (Proc.devRef .tc main_v110) = t_v110)
    {t_v112 : _} (h_v112 : W (Proc.devRef .tc main_v112) = t_v112) :
    after (seg18 (F := F)) W (Proc.devRef .tc main_v113) = (((fun a b => concatenate S262144x2x2x2x2x2x2x2x2 1 [⟨S262144x1x2x2x2x2x2x2x2, a⟩, ⟨S262144x1x2x2x2x2x2x2x2, b⟩] concatenates_S262144x1x2x2x2x2x2x2x2_S262144x1x2x2x2x2x2x2x2_S262144x2x2x2x2x2x2x2x2_d1) : (⟨S262144x1x2x2x2x2x2x2x2, .f32⟩ : BufTy).Contents (Elt F) → (⟨S262144x1x2x2x2x2x2x2x2, .f32⟩ : BufTy).Contents (Elt F) → (⟨S262144x2x2x2x2x2x2x2x2, .f32⟩ : BufTy).Contents (Elt F)) t_v110 t_v112) := by
  subst h_v110 h_v112
  unfold seg18
  all_goals after_results_simp
  all_goals (try rfl)

/-- `seg18` does not write the argument. -/
theorem seg18_arg (W : Valuation τ sig (Elt F)) :
    after (seg18 (F := F)) W (Proc.devRef .tc main_arg0) = W (Proc.devRef .tc main_arg0) := by
  unfold seg18; after_results_simp

/-- Operations 123–125: gate 2's two halves of the state, the one with the control bit 0 as it is and the one with the control bit 1 mirrored along the target axis. -/
def seg19 : List (HloOp τ sig (Elt F)) :=
  [ unary main_v113 main_v114 ((extractStridedSlice S262144x2x1x2x2x2x2x2x2 ![0, 0, 0, 0, 0, 0, 0, 0, 0] · slices_S262144x2x2x2x2x2x2x2x2_S262144x2x1x2x2x2x2x2x2_0_0_0_0_0_0_0_0_0) : (⟨S262144x2x2x2x2x2x2x2x2, .f32⟩ : BufTy).Contents (Elt F) → (⟨S262144x2x1x2x2x2x2x2x2, .f32⟩ : BufTy).Contents (Elt F)),
    unary main_v113 main_v115 ((extractStridedSlice S262144x2x1x2x2x2x2x2x2 ![0, 0, 1, 0, 0, 0, 0, 0, 0] · slices_S262144x2x2x2x2x2x2x2x2_S262144x2x1x2x2x2x2x2x2_0_0_1_0_0_0_0_0_0) : (⟨S262144x2x2x2x2x2x2x2x2, .f32⟩ : BufTy).Contents (Elt F) → (⟨S262144x2x1x2x2x2x2x2x2, .f32⟩ : BufTy).Contents (Elt F)),
    TRef.unary (TRef.of (T := ⟨S262144x2x1x2x2x2x2x2x2, .f32⟩) main_v115) (TRef.of (T := ⟨S262144x2x1x2x2x2x2x2x2, .f32⟩) main_v116) (Host.reverse [3]) ]

/-- The contents after `seg19`, with `v113` holding `t_v113`, at `v114`, `v116`. -/
theorem seg19_spec {W : Valuation τ sig (Elt F)}
    {t_v113 : _} (h_v113 : W (Proc.devRef .tc main_v113) = t_v113) :
    after (seg19 (F := F)) W (Proc.devRef .tc main_v114) = (((extractStridedSlice S262144x2x1x2x2x2x2x2x2 ![0, 0, 0, 0, 0, 0, 0, 0, 0] · slices_S262144x2x2x2x2x2x2x2x2_S262144x2x1x2x2x2x2x2x2_0_0_0_0_0_0_0_0_0) : (⟨S262144x2x2x2x2x2x2x2x2, .f32⟩ : BufTy).Contents (Elt F) → (⟨S262144x2x1x2x2x2x2x2x2, .f32⟩ : BufTy).Contents (Elt F)) t_v113)
    ∧ after (seg19 (F := F)) W (Proc.devRef .tc main_v116) = (((Host.reverse [3]) : (⟨S262144x2x1x2x2x2x2x2x2, .f32⟩ : BufTy).Contents (Elt F) → (⟨S262144x2x1x2x2x2x2x2x2, .f32⟩ : BufTy).Contents (Elt F)) (((extractStridedSlice S262144x2x1x2x2x2x2x2x2 ![0, 0, 1, 0, 0, 0, 0, 0, 0] · slices_S262144x2x2x2x2x2x2x2x2_S262144x2x1x2x2x2x2x2x2_0_0_1_0_0_0_0_0_0) : (⟨S262144x2x2x2x2x2x2x2x2, .f32⟩ : BufTy).Contents (Elt F) → (⟨S262144x2x1x2x2x2x2x2x2, .f32⟩ : BufTy).Contents (Elt F)) t_v113)) := by
  subst h_v113
  unfold seg19
  refine ⟨?_, ?_⟩
  all_goals after_results_simp
  all_goals (try rfl)

/-- `seg19` does not write the argument. -/
theorem seg19_arg (W : Valuation τ sig (Elt F)) :
    after (seg19 (F := F)) W (Proc.devRef .tc main_arg0) = W (Proc.devRef .tc main_arg0) := by
  unfold seg19; after_results_simp

/-- Operation 126: gate 2's two halves joined along the control axis. -/
def seg20 : List (HloOp τ sig (Elt F)) :=
  [ binary main_v114 main_v116 main_v117 ((fun a b => concatenate S262144x2x2x2x2x2x2x2x2 2 [⟨S262144x2x1x2x2x2x2x2x2, a⟩, ⟨S262144x2x1x2x2x2x2x2x2, b⟩] concatenates_S262144x2x1x2x2x2x2x2x2_S262144x2x1x2x2x2x2x2x2_S262144x2x2x2x2x2x2x2x2_d2) : (⟨S262144x2x1x2x2x2x2x2x2, .f32⟩ : BufTy).Contents (Elt F) → (⟨S262144x2x1x2x2x2x2x2x2, .f32⟩ : BufTy).Contents (Elt F) → (⟨S262144x2x2x2x2x2x2x2x2, .f32⟩ : BufTy).Contents (Elt F)) ]

/-- The contents after `seg20`, with `v114`, `v116` holding `t_v114`, `t_v116`, at `v117`. -/
theorem seg20_spec {W : Valuation τ sig (Elt F)}
    {t_v114 : _} (h_v114 : W (Proc.devRef .tc main_v114) = t_v114)
    {t_v116 : _} (h_v116 : W (Proc.devRef .tc main_v116) = t_v116) :
    after (seg20 (F := F)) W (Proc.devRef .tc main_v117) = (((fun a b => concatenate S262144x2x2x2x2x2x2x2x2 2 [⟨S262144x2x1x2x2x2x2x2x2, a⟩, ⟨S262144x2x1x2x2x2x2x2x2, b⟩] concatenates_S262144x2x1x2x2x2x2x2x2_S262144x2x1x2x2x2x2x2x2_S262144x2x2x2x2x2x2x2x2_d2) : (⟨S262144x2x1x2x2x2x2x2x2, .f32⟩ : BufTy).Contents (Elt F) → (⟨S262144x2x1x2x2x2x2x2x2, .f32⟩ : BufTy).Contents (Elt F) → (⟨S262144x2x2x2x2x2x2x2x2, .f32⟩ : BufTy).Contents (Elt F)) t_v114 t_v116) := by
  subst h_v114 h_v116
  unfold seg20
  all_goals after_results_simp
  all_goals (try rfl)

/-- `seg20` does not write the argument. -/
theorem seg20_arg (W : Valuation τ sig (Elt F)) :
    after (seg20 (F := F)) W (Proc.devRef .tc main_arg0) = W (Proc.devRef .tc main_arg0) := by
  unfold seg20; after_results_simp

/-- Operations 127–129: gate 3's two halves of the state, the one with the control bit 0 as it is and the one with the control bit 1 mirrored along the target axis. -/
def seg21 : List (HloOp τ sig (Elt F)) :=
  [ unary main_v117 main_v118 ((extractStridedSlice S262144x2x2x1x2x2x2x2x2 ![0, 0, 0, 0, 0, 0, 0, 0, 0] · slices_S262144x2x2x2x2x2x2x2x2_S262144x2x2x1x2x2x2x2x2_0_0_0_0_0_0_0_0_0) : (⟨S262144x2x2x2x2x2x2x2x2, .f32⟩ : BufTy).Contents (Elt F) → (⟨S262144x2x2x1x2x2x2x2x2, .f32⟩ : BufTy).Contents (Elt F)),
    unary main_v117 main_v119 ((extractStridedSlice S262144x2x2x1x2x2x2x2x2 ![0, 0, 0, 1, 0, 0, 0, 0, 0] · slices_S262144x2x2x2x2x2x2x2x2_S262144x2x2x1x2x2x2x2x2_0_0_0_1_0_0_0_0_0) : (⟨S262144x2x2x2x2x2x2x2x2, .f32⟩ : BufTy).Contents (Elt F) → (⟨S262144x2x2x1x2x2x2x2x2, .f32⟩ : BufTy).Contents (Elt F)),
    TRef.unary (TRef.of (T := ⟨S262144x2x2x1x2x2x2x2x2, .f32⟩) main_v119) (TRef.of (T := ⟨S262144x2x2x1x2x2x2x2x2, .f32⟩) main_v120) (Host.reverse [4]) ]

/-- The contents after `seg21`, with `v117` holding `t_v117`, at `v118`, `v120`. -/
theorem seg21_spec {W : Valuation τ sig (Elt F)}
    {t_v117 : _} (h_v117 : W (Proc.devRef .tc main_v117) = t_v117) :
    after (seg21 (F := F)) W (Proc.devRef .tc main_v118) = (((extractStridedSlice S262144x2x2x1x2x2x2x2x2 ![0, 0, 0, 0, 0, 0, 0, 0, 0] · slices_S262144x2x2x2x2x2x2x2x2_S262144x2x2x1x2x2x2x2x2_0_0_0_0_0_0_0_0_0) : (⟨S262144x2x2x2x2x2x2x2x2, .f32⟩ : BufTy).Contents (Elt F) → (⟨S262144x2x2x1x2x2x2x2x2, .f32⟩ : BufTy).Contents (Elt F)) t_v117)
    ∧ after (seg21 (F := F)) W (Proc.devRef .tc main_v120) = (((Host.reverse [4]) : (⟨S262144x2x2x1x2x2x2x2x2, .f32⟩ : BufTy).Contents (Elt F) → (⟨S262144x2x2x1x2x2x2x2x2, .f32⟩ : BufTy).Contents (Elt F)) (((extractStridedSlice S262144x2x2x1x2x2x2x2x2 ![0, 0, 0, 1, 0, 0, 0, 0, 0] · slices_S262144x2x2x2x2x2x2x2x2_S262144x2x2x1x2x2x2x2x2_0_0_0_1_0_0_0_0_0) : (⟨S262144x2x2x2x2x2x2x2x2, .f32⟩ : BufTy).Contents (Elt F) → (⟨S262144x2x2x1x2x2x2x2x2, .f32⟩ : BufTy).Contents (Elt F)) t_v117)) := by
  subst h_v117
  unfold seg21
  refine ⟨?_, ?_⟩
  all_goals after_results_simp
  all_goals (try rfl)

/-- `seg21` does not write the argument. -/
theorem seg21_arg (W : Valuation τ sig (Elt F)) :
    after (seg21 (F := F)) W (Proc.devRef .tc main_arg0) = W (Proc.devRef .tc main_arg0) := by
  unfold seg21; after_results_simp

/-- Operation 130: gate 3's two halves joined along the control axis. -/
def seg22 : List (HloOp τ sig (Elt F)) :=
  [ binary main_v118 main_v120 main_v121 ((fun a b => concatenate S262144x2x2x2x2x2x2x2x2 3 [⟨S262144x2x2x1x2x2x2x2x2, a⟩, ⟨S262144x2x2x1x2x2x2x2x2, b⟩] concatenates_S262144x2x2x1x2x2x2x2x2_S262144x2x2x1x2x2x2x2x2_S262144x2x2x2x2x2x2x2x2_d3) : (⟨S262144x2x2x1x2x2x2x2x2, .f32⟩ : BufTy).Contents (Elt F) → (⟨S262144x2x2x1x2x2x2x2x2, .f32⟩ : BufTy).Contents (Elt F) → (⟨S262144x2x2x2x2x2x2x2x2, .f32⟩ : BufTy).Contents (Elt F)) ]

/-- The contents after `seg22`, with `v118`, `v120` holding `t_v118`, `t_v120`, at `v121`. -/
theorem seg22_spec {W : Valuation τ sig (Elt F)}
    {t_v118 : _} (h_v118 : W (Proc.devRef .tc main_v118) = t_v118)
    {t_v120 : _} (h_v120 : W (Proc.devRef .tc main_v120) = t_v120) :
    after (seg22 (F := F)) W (Proc.devRef .tc main_v121) = (((fun a b => concatenate S262144x2x2x2x2x2x2x2x2 3 [⟨S262144x2x2x1x2x2x2x2x2, a⟩, ⟨S262144x2x2x1x2x2x2x2x2, b⟩] concatenates_S262144x2x2x1x2x2x2x2x2_S262144x2x2x1x2x2x2x2x2_S262144x2x2x2x2x2x2x2x2_d3) : (⟨S262144x2x2x1x2x2x2x2x2, .f32⟩ : BufTy).Contents (Elt F) → (⟨S262144x2x2x1x2x2x2x2x2, .f32⟩ : BufTy).Contents (Elt F) → (⟨S262144x2x2x2x2x2x2x2x2, .f32⟩ : BufTy).Contents (Elt F)) t_v118 t_v120) := by
  subst h_v118 h_v120
  unfold seg22
  all_goals after_results_simp
  all_goals (try rfl)

/-- `seg22` does not write the argument. -/
theorem seg22_arg (W : Valuation τ sig (Elt F)) :
    after (seg22 (F := F)) W (Proc.devRef .tc main_arg0) = W (Proc.devRef .tc main_arg0) := by
  unfold seg22; after_results_simp

/-- Operations 131–133: gate 4's two halves of the state, the one with the control bit 0 as it is and the one with the control bit 1 mirrored along the target axis. -/
def seg23 : List (HloOp τ sig (Elt F)) :=
  [ unary main_v121 main_v122 ((extractStridedSlice S262144x2x2x2x1x2x2x2x2 ![0, 0, 0, 0, 0, 0, 0, 0, 0] · slices_S262144x2x2x2x2x2x2x2x2_S262144x2x2x2x1x2x2x2x2_0_0_0_0_0_0_0_0_0) : (⟨S262144x2x2x2x2x2x2x2x2, .f32⟩ : BufTy).Contents (Elt F) → (⟨S262144x2x2x2x1x2x2x2x2, .f32⟩ : BufTy).Contents (Elt F)),
    unary main_v121 main_v123 ((extractStridedSlice S262144x2x2x2x1x2x2x2x2 ![0, 0, 0, 0, 1, 0, 0, 0, 0] · slices_S262144x2x2x2x2x2x2x2x2_S262144x2x2x2x1x2x2x2x2_0_0_0_0_1_0_0_0_0) : (⟨S262144x2x2x2x2x2x2x2x2, .f32⟩ : BufTy).Contents (Elt F) → (⟨S262144x2x2x2x1x2x2x2x2, .f32⟩ : BufTy).Contents (Elt F)),
    TRef.unary (TRef.of (T := ⟨S262144x2x2x2x1x2x2x2x2, .f32⟩) main_v123) (TRef.of (T := ⟨S262144x2x2x2x1x2x2x2x2, .f32⟩) main_v124) (Host.reverse [5]) ]

/-- The contents after `seg23`, with `v121` holding `t_v121`, at `v122`, `v124`. -/
theorem seg23_spec {W : Valuation τ sig (Elt F)}
    {t_v121 : _} (h_v121 : W (Proc.devRef .tc main_v121) = t_v121) :
    after (seg23 (F := F)) W (Proc.devRef .tc main_v122) = (((extractStridedSlice S262144x2x2x2x1x2x2x2x2 ![0, 0, 0, 0, 0, 0, 0, 0, 0] · slices_S262144x2x2x2x2x2x2x2x2_S262144x2x2x2x1x2x2x2x2_0_0_0_0_0_0_0_0_0) : (⟨S262144x2x2x2x2x2x2x2x2, .f32⟩ : BufTy).Contents (Elt F) → (⟨S262144x2x2x2x1x2x2x2x2, .f32⟩ : BufTy).Contents (Elt F)) t_v121)
    ∧ after (seg23 (F := F)) W (Proc.devRef .tc main_v124) = (((Host.reverse [5]) : (⟨S262144x2x2x2x1x2x2x2x2, .f32⟩ : BufTy).Contents (Elt F) → (⟨S262144x2x2x2x1x2x2x2x2, .f32⟩ : BufTy).Contents (Elt F)) (((extractStridedSlice S262144x2x2x2x1x2x2x2x2 ![0, 0, 0, 0, 1, 0, 0, 0, 0] · slices_S262144x2x2x2x2x2x2x2x2_S262144x2x2x2x1x2x2x2x2_0_0_0_0_1_0_0_0_0) : (⟨S262144x2x2x2x2x2x2x2x2, .f32⟩ : BufTy).Contents (Elt F) → (⟨S262144x2x2x2x1x2x2x2x2, .f32⟩ : BufTy).Contents (Elt F)) t_v121)) := by
  subst h_v121
  unfold seg23
  refine ⟨?_, ?_⟩
  all_goals after_results_simp
  all_goals (try rfl)

/-- `seg23` does not write the argument. -/
theorem seg23_arg (W : Valuation τ sig (Elt F)) :
    after (seg23 (F := F)) W (Proc.devRef .tc main_arg0) = W (Proc.devRef .tc main_arg0) := by
  unfold seg23; after_results_simp

/-- Operation 134: gate 4's two halves joined along the control axis. -/
def seg24 : List (HloOp τ sig (Elt F)) :=
  [ binary main_v122 main_v124 main_v125 ((fun a b => concatenate S262144x2x2x2x2x2x2x2x2 4 [⟨S262144x2x2x2x1x2x2x2x2, a⟩, ⟨S262144x2x2x2x1x2x2x2x2, b⟩] concatenates_S262144x2x2x2x1x2x2x2x2_S262144x2x2x2x1x2x2x2x2_S262144x2x2x2x2x2x2x2x2_d4) : (⟨S262144x2x2x2x1x2x2x2x2, .f32⟩ : BufTy).Contents (Elt F) → (⟨S262144x2x2x2x1x2x2x2x2, .f32⟩ : BufTy).Contents (Elt F) → (⟨S262144x2x2x2x2x2x2x2x2, .f32⟩ : BufTy).Contents (Elt F)) ]

/-- The contents after `seg24`, with `v122`, `v124` holding `t_v122`, `t_v124`, at `v125`. -/
theorem seg24_spec {W : Valuation τ sig (Elt F)}
    {t_v122 : _} (h_v122 : W (Proc.devRef .tc main_v122) = t_v122)
    {t_v124 : _} (h_v124 : W (Proc.devRef .tc main_v124) = t_v124) :
    after (seg24 (F := F)) W (Proc.devRef .tc main_v125) = (((fun a b => concatenate S262144x2x2x2x2x2x2x2x2 4 [⟨S262144x2x2x2x1x2x2x2x2, a⟩, ⟨S262144x2x2x2x1x2x2x2x2, b⟩] concatenates_S262144x2x2x2x1x2x2x2x2_S262144x2x2x2x1x2x2x2x2_S262144x2x2x2x2x2x2x2x2_d4) : (⟨S262144x2x2x2x1x2x2x2x2, .f32⟩ : BufTy).Contents (Elt F) → (⟨S262144x2x2x2x1x2x2x2x2, .f32⟩ : BufTy).Contents (Elt F) → (⟨S262144x2x2x2x2x2x2x2x2, .f32⟩ : BufTy).Contents (Elt F)) t_v122 t_v124) := by
  subst h_v122 h_v124
  unfold seg24
  all_goals after_results_simp
  all_goals (try rfl)

/-- `seg24` does not write the argument. -/
theorem seg24_arg (W : Valuation τ sig (Elt F)) :
    after (seg24 (F := F)) W (Proc.devRef .tc main_arg0) = W (Proc.devRef .tc main_arg0) := by
  unfold seg24; after_results_simp

/-- Operations 135–137: gate 5's two halves of the state, the one with the control bit 0 as it is and the one with the control bit 1 mirrored along the target axis. -/
def seg25 : List (HloOp τ sig (Elt F)) :=
  [ unary main_v125 main_v126 ((extractStridedSlice S262144x2x2x2x2x1x2x2x2 ![0, 0, 0, 0, 0, 0, 0, 0, 0] · slices_S262144x2x2x2x2x2x2x2x2_S262144x2x2x2x2x1x2x2x2_0_0_0_0_0_0_0_0_0) : (⟨S262144x2x2x2x2x2x2x2x2, .f32⟩ : BufTy).Contents (Elt F) → (⟨S262144x2x2x2x2x1x2x2x2, .f32⟩ : BufTy).Contents (Elt F)),
    unary main_v125 main_v127 ((extractStridedSlice S262144x2x2x2x2x1x2x2x2 ![0, 0, 0, 0, 0, 1, 0, 0, 0] · slices_S262144x2x2x2x2x2x2x2x2_S262144x2x2x2x2x1x2x2x2_0_0_0_0_0_1_0_0_0) : (⟨S262144x2x2x2x2x2x2x2x2, .f32⟩ : BufTy).Contents (Elt F) → (⟨S262144x2x2x2x2x1x2x2x2, .f32⟩ : BufTy).Contents (Elt F)),
    TRef.unary (TRef.of (T := ⟨S262144x2x2x2x2x1x2x2x2, .f32⟩) main_v127) (TRef.of (T := ⟨S262144x2x2x2x2x1x2x2x2, .f32⟩) main_v128) (Host.reverse [6]) ]

/-- The contents after `seg25`, with `v125` holding `t_v125`, at `v126`, `v128`. -/
theorem seg25_spec {W : Valuation τ sig (Elt F)}
    {t_v125 : _} (h_v125 : W (Proc.devRef .tc main_v125) = t_v125) :
    after (seg25 (F := F)) W (Proc.devRef .tc main_v126) = (((extractStridedSlice S262144x2x2x2x2x1x2x2x2 ![0, 0, 0, 0, 0, 0, 0, 0, 0] · slices_S262144x2x2x2x2x2x2x2x2_S262144x2x2x2x2x1x2x2x2_0_0_0_0_0_0_0_0_0) : (⟨S262144x2x2x2x2x2x2x2x2, .f32⟩ : BufTy).Contents (Elt F) → (⟨S262144x2x2x2x2x1x2x2x2, .f32⟩ : BufTy).Contents (Elt F)) t_v125)
    ∧ after (seg25 (F := F)) W (Proc.devRef .tc main_v128) = (((Host.reverse [6]) : (⟨S262144x2x2x2x2x1x2x2x2, .f32⟩ : BufTy).Contents (Elt F) → (⟨S262144x2x2x2x2x1x2x2x2, .f32⟩ : BufTy).Contents (Elt F)) (((extractStridedSlice S262144x2x2x2x2x1x2x2x2 ![0, 0, 0, 0, 0, 1, 0, 0, 0] · slices_S262144x2x2x2x2x2x2x2x2_S262144x2x2x2x2x1x2x2x2_0_0_0_0_0_1_0_0_0) : (⟨S262144x2x2x2x2x2x2x2x2, .f32⟩ : BufTy).Contents (Elt F) → (⟨S262144x2x2x2x2x1x2x2x2, .f32⟩ : BufTy).Contents (Elt F)) t_v125)) := by
  subst h_v125
  unfold seg25
  refine ⟨?_, ?_⟩
  all_goals after_results_simp
  all_goals (try rfl)

/-- `seg25` does not write the argument. -/
theorem seg25_arg (W : Valuation τ sig (Elt F)) :
    after (seg25 (F := F)) W (Proc.devRef .tc main_arg0) = W (Proc.devRef .tc main_arg0) := by
  unfold seg25; after_results_simp

/-- Operation 138: gate 5's two halves joined along the control axis. -/
def seg26 : List (HloOp τ sig (Elt F)) :=
  [ binary main_v126 main_v128 main_v129 ((fun a b => concatenate S262144x2x2x2x2x2x2x2x2 5 [⟨S262144x2x2x2x2x1x2x2x2, a⟩, ⟨S262144x2x2x2x2x1x2x2x2, b⟩] concatenates_S262144x2x2x2x2x1x2x2x2_S262144x2x2x2x2x1x2x2x2_S262144x2x2x2x2x2x2x2x2_d5) : (⟨S262144x2x2x2x2x1x2x2x2, .f32⟩ : BufTy).Contents (Elt F) → (⟨S262144x2x2x2x2x1x2x2x2, .f32⟩ : BufTy).Contents (Elt F) → (⟨S262144x2x2x2x2x2x2x2x2, .f32⟩ : BufTy).Contents (Elt F)) ]

/-- The contents after `seg26`, with `v126`, `v128` holding `t_v126`, `t_v128`, at `v129`. -/
theorem seg26_spec {W : Valuation τ sig (Elt F)}
    {t_v126 : _} (h_v126 : W (Proc.devRef .tc main_v126) = t_v126)
    {t_v128 : _} (h_v128 : W (Proc.devRef .tc main_v128) = t_v128) :
    after (seg26 (F := F)) W (Proc.devRef .tc main_v129) = (((fun a b => concatenate S262144x2x2x2x2x2x2x2x2 5 [⟨S262144x2x2x2x2x1x2x2x2, a⟩, ⟨S262144x2x2x2x2x1x2x2x2, b⟩] concatenates_S262144x2x2x2x2x1x2x2x2_S262144x2x2x2x2x1x2x2x2_S262144x2x2x2x2x2x2x2x2_d5) : (⟨S262144x2x2x2x2x1x2x2x2, .f32⟩ : BufTy).Contents (Elt F) → (⟨S262144x2x2x2x2x1x2x2x2, .f32⟩ : BufTy).Contents (Elt F) → (⟨S262144x2x2x2x2x2x2x2x2, .f32⟩ : BufTy).Contents (Elt F)) t_v126 t_v128) := by
  subst h_v126 h_v128
  unfold seg26
  all_goals after_results_simp
  all_goals (try rfl)

/-- `seg26` does not write the argument. -/
theorem seg26_arg (W : Valuation τ sig (Elt F)) :
    after (seg26 (F := F)) W (Proc.devRef .tc main_arg0) = W (Proc.devRef .tc main_arg0) := by
  unfold seg26; after_results_simp

/-- Operations 139–141: gate 6's two halves of the state, the one with the control bit 0 as it is and the one with the control bit 1 mirrored along the target axis. -/
def seg27 : List (HloOp τ sig (Elt F)) :=
  [ unary main_v129 main_v130 ((extractStridedSlice S262144x2x2x2x2x2x1x2x2 ![0, 0, 0, 0, 0, 0, 0, 0, 0] · slices_S262144x2x2x2x2x2x2x2x2_S262144x2x2x2x2x2x1x2x2_0_0_0_0_0_0_0_0_0) : (⟨S262144x2x2x2x2x2x2x2x2, .f32⟩ : BufTy).Contents (Elt F) → (⟨S262144x2x2x2x2x2x1x2x2, .f32⟩ : BufTy).Contents (Elt F)),
    unary main_v129 main_v131 ((extractStridedSlice S262144x2x2x2x2x2x1x2x2 ![0, 0, 0, 0, 0, 0, 1, 0, 0] · slices_S262144x2x2x2x2x2x2x2x2_S262144x2x2x2x2x2x1x2x2_0_0_0_0_0_0_1_0_0) : (⟨S262144x2x2x2x2x2x2x2x2, .f32⟩ : BufTy).Contents (Elt F) → (⟨S262144x2x2x2x2x2x1x2x2, .f32⟩ : BufTy).Contents (Elt F)),
    TRef.unary (TRef.of (T := ⟨S262144x2x2x2x2x2x1x2x2, .f32⟩) main_v131) (TRef.of (T := ⟨S262144x2x2x2x2x2x1x2x2, .f32⟩) main_v132) (Host.reverse [7]) ]

/-- The contents after `seg27`, with `v129` holding `t_v129`, at `v130`, `v132`. -/
theorem seg27_spec {W : Valuation τ sig (Elt F)}
    {t_v129 : _} (h_v129 : W (Proc.devRef .tc main_v129) = t_v129) :
    after (seg27 (F := F)) W (Proc.devRef .tc main_v130) = (((extractStridedSlice S262144x2x2x2x2x2x1x2x2 ![0, 0, 0, 0, 0, 0, 0, 0, 0] · slices_S262144x2x2x2x2x2x2x2x2_S262144x2x2x2x2x2x1x2x2_0_0_0_0_0_0_0_0_0) : (⟨S262144x2x2x2x2x2x2x2x2, .f32⟩ : BufTy).Contents (Elt F) → (⟨S262144x2x2x2x2x2x1x2x2, .f32⟩ : BufTy).Contents (Elt F)) t_v129)
    ∧ after (seg27 (F := F)) W (Proc.devRef .tc main_v132) = (((Host.reverse [7]) : (⟨S262144x2x2x2x2x2x1x2x2, .f32⟩ : BufTy).Contents (Elt F) → (⟨S262144x2x2x2x2x2x1x2x2, .f32⟩ : BufTy).Contents (Elt F)) (((extractStridedSlice S262144x2x2x2x2x2x1x2x2 ![0, 0, 0, 0, 0, 0, 1, 0, 0] · slices_S262144x2x2x2x2x2x2x2x2_S262144x2x2x2x2x2x1x2x2_0_0_0_0_0_0_1_0_0) : (⟨S262144x2x2x2x2x2x2x2x2, .f32⟩ : BufTy).Contents (Elt F) → (⟨S262144x2x2x2x2x2x1x2x2, .f32⟩ : BufTy).Contents (Elt F)) t_v129)) := by
  subst h_v129
  unfold seg27
  refine ⟨?_, ?_⟩
  all_goals after_results_simp
  all_goals (try rfl)

/-- `seg27` does not write the argument. -/
theorem seg27_arg (W : Valuation τ sig (Elt F)) :
    after (seg27 (F := F)) W (Proc.devRef .tc main_arg0) = W (Proc.devRef .tc main_arg0) := by
  unfold seg27; after_results_simp

/-- Operation 142: gate 6's two halves joined along the control axis. -/
def seg28 : List (HloOp τ sig (Elt F)) :=
  [ binary main_v130 main_v132 main_v133 ((fun a b => concatenate S262144x2x2x2x2x2x2x2x2 6 [⟨S262144x2x2x2x2x2x1x2x2, a⟩, ⟨S262144x2x2x2x2x2x1x2x2, b⟩] concatenates_S262144x2x2x2x2x2x1x2x2_S262144x2x2x2x2x2x1x2x2_S262144x2x2x2x2x2x2x2x2_d6) : (⟨S262144x2x2x2x2x2x1x2x2, .f32⟩ : BufTy).Contents (Elt F) → (⟨S262144x2x2x2x2x2x1x2x2, .f32⟩ : BufTy).Contents (Elt F) → (⟨S262144x2x2x2x2x2x2x2x2, .f32⟩ : BufTy).Contents (Elt F)) ]

/-- The contents after `seg28`, with `v130`, `v132` holding `t_v130`, `t_v132`, at `v133`. -/
theorem seg28_spec {W : Valuation τ sig (Elt F)}
    {t_v130 : _} (h_v130 : W (Proc.devRef .tc main_v130) = t_v130)
    {t_v132 : _} (h_v132 : W (Proc.devRef .tc main_v132) = t_v132) :
    after (seg28 (F := F)) W (Proc.devRef .tc main_v133) = (((fun a b => concatenate S262144x2x2x2x2x2x2x2x2 6 [⟨S262144x2x2x2x2x2x1x2x2, a⟩, ⟨S262144x2x2x2x2x2x1x2x2, b⟩] concatenates_S262144x2x2x2x2x2x1x2x2_S262144x2x2x2x2x2x1x2x2_S262144x2x2x2x2x2x2x2x2_d6) : (⟨S262144x2x2x2x2x2x1x2x2, .f32⟩ : BufTy).Contents (Elt F) → (⟨S262144x2x2x2x2x2x1x2x2, .f32⟩ : BufTy).Contents (Elt F) → (⟨S262144x2x2x2x2x2x2x2x2, .f32⟩ : BufTy).Contents (Elt F)) t_v130 t_v132) := by
  subst h_v130 h_v132
  unfold seg28
  all_goals after_results_simp
  all_goals (try rfl)

/-- `seg28` does not write the argument. -/
theorem seg28_arg (W : Valuation τ sig (Elt F)) :
    after (seg28 (F := F)) W (Proc.devRef .tc main_arg0) = W (Proc.devRef .tc main_arg0) := by
  unfold seg28; after_results_simp

/-- Operations 143–145: gate 7's two halves of the state, the one with the control bit 0 as it is and the one with the control bit 1 mirrored along the target axis. -/
def seg29 : List (HloOp τ sig (Elt F)) :=
  [ unary main_v133 main_v134 ((extractStridedSlice S262144x2x2x2x2x2x2x1x2 ![0, 0, 0, 0, 0, 0, 0, 0, 0] · slices_S262144x2x2x2x2x2x2x2x2_S262144x2x2x2x2x2x2x1x2_0_0_0_0_0_0_0_0_0) : (⟨S262144x2x2x2x2x2x2x2x2, .f32⟩ : BufTy).Contents (Elt F) → (⟨S262144x2x2x2x2x2x2x1x2, .f32⟩ : BufTy).Contents (Elt F)),
    unary main_v133 main_v135 ((extractStridedSlice S262144x2x2x2x2x2x2x1x2 ![0, 0, 0, 0, 0, 0, 0, 1, 0] · slices_S262144x2x2x2x2x2x2x2x2_S262144x2x2x2x2x2x2x1x2_0_0_0_0_0_0_0_1_0) : (⟨S262144x2x2x2x2x2x2x2x2, .f32⟩ : BufTy).Contents (Elt F) → (⟨S262144x2x2x2x2x2x2x1x2, .f32⟩ : BufTy).Contents (Elt F)),
    TRef.unary (TRef.of (T := ⟨S262144x2x2x2x2x2x2x1x2, .f32⟩) main_v135) (TRef.of (T := ⟨S262144x2x2x2x2x2x2x1x2, .f32⟩) main_v136) (Host.reverse [8]) ]

/-- The contents after `seg29`, with `v133` holding `t_v133`, at `v134`, `v136`. -/
theorem seg29_spec {W : Valuation τ sig (Elt F)}
    {t_v133 : _} (h_v133 : W (Proc.devRef .tc main_v133) = t_v133) :
    after (seg29 (F := F)) W (Proc.devRef .tc main_v134) = (((extractStridedSlice S262144x2x2x2x2x2x2x1x2 ![0, 0, 0, 0, 0, 0, 0, 0, 0] · slices_S262144x2x2x2x2x2x2x2x2_S262144x2x2x2x2x2x2x1x2_0_0_0_0_0_0_0_0_0) : (⟨S262144x2x2x2x2x2x2x2x2, .f32⟩ : BufTy).Contents (Elt F) → (⟨S262144x2x2x2x2x2x2x1x2, .f32⟩ : BufTy).Contents (Elt F)) t_v133)
    ∧ after (seg29 (F := F)) W (Proc.devRef .tc main_v136) = (((Host.reverse [8]) : (⟨S262144x2x2x2x2x2x2x1x2, .f32⟩ : BufTy).Contents (Elt F) → (⟨S262144x2x2x2x2x2x2x1x2, .f32⟩ : BufTy).Contents (Elt F)) (((extractStridedSlice S262144x2x2x2x2x2x2x1x2 ![0, 0, 0, 0, 0, 0, 0, 1, 0] · slices_S262144x2x2x2x2x2x2x2x2_S262144x2x2x2x2x2x2x1x2_0_0_0_0_0_0_0_1_0) : (⟨S262144x2x2x2x2x2x2x2x2, .f32⟩ : BufTy).Contents (Elt F) → (⟨S262144x2x2x2x2x2x2x1x2, .f32⟩ : BufTy).Contents (Elt F)) t_v133)) := by
  subst h_v133
  unfold seg29
  refine ⟨?_, ?_⟩
  all_goals after_results_simp
  all_goals (try rfl)

/-- `seg29` does not write the argument. -/
theorem seg29_arg (W : Valuation τ sig (Elt F)) :
    after (seg29 (F := F)) W (Proc.devRef .tc main_arg0) = W (Proc.devRef .tc main_arg0) := by
  unfold seg29; after_results_simp

/-- Operation 146: gate 7's two halves joined along the control axis. -/
def seg30 : List (HloOp τ sig (Elt F)) :=
  [ binary main_v134 main_v136 main_v137 ((fun a b => concatenate S262144x2x2x2x2x2x2x2x2 7 [⟨S262144x2x2x2x2x2x2x1x2, a⟩, ⟨S262144x2x2x2x2x2x2x1x2, b⟩] concatenates_S262144x2x2x2x2x2x2x1x2_S262144x2x2x2x2x2x2x1x2_S262144x2x2x2x2x2x2x2x2_d7) : (⟨S262144x2x2x2x2x2x2x1x2, .f32⟩ : BufTy).Contents (Elt F) → (⟨S262144x2x2x2x2x2x2x1x2, .f32⟩ : BufTy).Contents (Elt F) → (⟨S262144x2x2x2x2x2x2x2x2, .f32⟩ : BufTy).Contents (Elt F)) ]

/-- The contents after `seg30`, with `v134`, `v136` holding `t_v134`, `t_v136`, at `v137`. -/
theorem seg30_spec {W : Valuation τ sig (Elt F)}
    {t_v134 : _} (h_v134 : W (Proc.devRef .tc main_v134) = t_v134)
    {t_v136 : _} (h_v136 : W (Proc.devRef .tc main_v136) = t_v136) :
    after (seg30 (F := F)) W (Proc.devRef .tc main_v137) = (((fun a b => concatenate S262144x2x2x2x2x2x2x2x2 7 [⟨S262144x2x2x2x2x2x2x1x2, a⟩, ⟨S262144x2x2x2x2x2x2x1x2, b⟩] concatenates_S262144x2x2x2x2x2x2x1x2_S262144x2x2x2x2x2x2x1x2_S262144x2x2x2x2x2x2x2x2_d7) : (⟨S262144x2x2x2x2x2x2x1x2, .f32⟩ : BufTy).Contents (Elt F) → (⟨S262144x2x2x2x2x2x2x1x2, .f32⟩ : BufTy).Contents (Elt F) → (⟨S262144x2x2x2x2x2x2x2x2, .f32⟩ : BufTy).Contents (Elt F)) t_v134 t_v136) := by
  subst h_v134 h_v136
  unfold seg30
  all_goals after_results_simp
  all_goals (try rfl)

/-- `seg30` does not write the argument. -/
theorem seg30_arg (W : Valuation τ sig (Elt F)) :
    after (seg30 (F := F)) W (Proc.devRef .tc main_arg0) = W (Proc.devRef .tc main_arg0) := by
  unfold seg30; after_results_simp

/-- Operations 147–149: gate 8's two halves of the state, the one with the control bit 0 as it is and the one with the control bit 1 mirrored along the target axis. -/
def seg31 : List (HloOp τ sig (Elt F)) :=
  [ unary main_v137 main_v138 ((extractStridedSlice S262144x2x2x2x2x2x2x2x1 ![0, 0, 0, 0, 0, 0, 0, 0, 0] · slices_S262144x2x2x2x2x2x2x2x2_S262144x2x2x2x2x2x2x2x1_0_0_0_0_0_0_0_0_0) : (⟨S262144x2x2x2x2x2x2x2x2, .f32⟩ : BufTy).Contents (Elt F) → (⟨S262144x2x2x2x2x2x2x2x1, .f32⟩ : BufTy).Contents (Elt F)),
    unary main_v137 main_v139 ((extractStridedSlice S262144x2x2x2x2x2x2x2x1 ![0, 0, 0, 0, 0, 0, 0, 0, 1] · slices_S262144x2x2x2x2x2x2x2x2_S262144x2x2x2x2x2x2x2x1_0_0_0_0_0_0_0_0_1) : (⟨S262144x2x2x2x2x2x2x2x2, .f32⟩ : BufTy).Contents (Elt F) → (⟨S262144x2x2x2x2x2x2x2x1, .f32⟩ : BufTy).Contents (Elt F)),
    TRef.unary (TRef.of (T := ⟨S262144x2x2x2x2x2x2x2x1, .f32⟩) main_v139) (TRef.of (T := ⟨S262144x2x2x2x2x2x2x2x1, .f32⟩) main_v140) (Host.reverse [1]) ]

/-- The contents after `seg31`, with `v137` holding `t_v137`, at `v138`, `v140`. -/
theorem seg31_spec {W : Valuation τ sig (Elt F)}
    {t_v137 : _} (h_v137 : W (Proc.devRef .tc main_v137) = t_v137) :
    after (seg31 (F := F)) W (Proc.devRef .tc main_v138) = (((extractStridedSlice S262144x2x2x2x2x2x2x2x1 ![0, 0, 0, 0, 0, 0, 0, 0, 0] · slices_S262144x2x2x2x2x2x2x2x2_S262144x2x2x2x2x2x2x2x1_0_0_0_0_0_0_0_0_0) : (⟨S262144x2x2x2x2x2x2x2x2, .f32⟩ : BufTy).Contents (Elt F) → (⟨S262144x2x2x2x2x2x2x2x1, .f32⟩ : BufTy).Contents (Elt F)) t_v137)
    ∧ after (seg31 (F := F)) W (Proc.devRef .tc main_v140) = (((Host.reverse [1]) : (⟨S262144x2x2x2x2x2x2x2x1, .f32⟩ : BufTy).Contents (Elt F) → (⟨S262144x2x2x2x2x2x2x2x1, .f32⟩ : BufTy).Contents (Elt F)) (((extractStridedSlice S262144x2x2x2x2x2x2x2x1 ![0, 0, 0, 0, 0, 0, 0, 0, 1] · slices_S262144x2x2x2x2x2x2x2x2_S262144x2x2x2x2x2x2x2x1_0_0_0_0_0_0_0_0_1) : (⟨S262144x2x2x2x2x2x2x2x2, .f32⟩ : BufTy).Contents (Elt F) → (⟨S262144x2x2x2x2x2x2x2x1, .f32⟩ : BufTy).Contents (Elt F)) t_v137)) := by
  subst h_v137
  unfold seg31
  refine ⟨?_, ?_⟩
  all_goals after_results_simp
  all_goals (try rfl)

/-- `seg31` does not write the argument. -/
theorem seg31_arg (W : Valuation τ sig (Elt F)) :
    after (seg31 (F := F)) W (Proc.devRef .tc main_arg0) = W (Proc.devRef .tc main_arg0) := by
  unfold seg31; after_results_simp

/-- Operations 150–151: gate 8's two halves joined along the control axis, and the squares of the amplitudes. -/
def seg32 : List (HloOp τ sig (Elt F)) :=
  [ binary main_v138 main_v140 main_v141 ((fun a b => concatenate S262144x2x2x2x2x2x2x2x2 8 [⟨S262144x2x2x2x2x2x2x2x1, a⟩, ⟨S262144x2x2x2x2x2x2x2x1, b⟩] concatenates_S262144x2x2x2x2x2x2x2x1_S262144x2x2x2x2x2x2x2x1_S262144x2x2x2x2x2x2x2x2_d8) : (⟨S262144x2x2x2x2x2x2x2x1, .f32⟩ : BufTy).Contents (Elt F) → (⟨S262144x2x2x2x2x2x2x2x1, .f32⟩ : BufTy).Contents (Elt F) → (⟨S262144x2x2x2x2x2x2x2x2, .f32⟩ : BufTy).Contents (Elt F)),
    binary main_v141 main_v141 main_v142 (mulf : (⟨S262144x2x2x2x2x2x2x2x2, .f32⟩ : BufTy).Contents (Elt F) → (⟨S262144x2x2x2x2x2x2x2x2, .f32⟩ : BufTy).Contents (Elt F) → (⟨S262144x2x2x2x2x2x2x2x2, .f32⟩ : BufTy).Contents (Elt F)) ]

/-- The contents after `seg32`, with `v138`, `v140` holding `t_v138`, `t_v140`, at `v142`. -/
theorem seg32_spec {W : Valuation τ sig (Elt F)}
    {t_v138 : _} (h_v138 : W (Proc.devRef .tc main_v138) = t_v138)
    {t_v140 : _} (h_v140 : W (Proc.devRef .tc main_v140) = t_v140) :
    after (seg32 (F := F)) W (Proc.devRef .tc main_v142) = ((mulf : (⟨S262144x2x2x2x2x2x2x2x2, .f32⟩ : BufTy).Contents (Elt F) → (⟨S262144x2x2x2x2x2x2x2x2, .f32⟩ : BufTy).Contents (Elt F) → (⟨S262144x2x2x2x2x2x2x2x2, .f32⟩ : BufTy).Contents (Elt F)) (((fun a b => concatenate S262144x2x2x2x2x2x2x2x2 8 [⟨S262144x2x2x2x2x2x2x2x1, a⟩, ⟨S262144x2x2x2x2x2x2x2x1, b⟩] concatenates_S262144x2x2x2x2x2x2x2x1_S262144x2x2x2x2x2x2x2x1_S262144x2x2x2x2x2x2x2x2_d8) : (⟨S262144x2x2x2x2x2x2x2x1, .f32⟩ : BufTy).Contents (Elt F) → (⟨S262144x2x2x2x2x2x2x2x1, .f32⟩ : BufTy).Contents (Elt F) → (⟨S262144x2x2x2x2x2x2x2x2, .f32⟩ : BufTy).Contents (Elt F)) t_v138 t_v140) (((fun a b => concatenate S262144x2x2x2x2x2x2x2x2 8 [⟨S262144x2x2x2x2x2x2x2x1, a⟩, ⟨S262144x2x2x2x2x2x2x2x1, b⟩] concatenates_S262144x2x2x2x2x2x2x2x1_S262144x2x2x2x2x2x2x2x1_S262144x2x2x2x2x2x2x2x2_d8) : (⟨S262144x2x2x2x2x2x2x2x1, .f32⟩ : BufTy).Contents (Elt F) → (⟨S262144x2x2x2x2x2x2x2x1, .f32⟩ : BufTy).Contents (Elt F) → (⟨S262144x2x2x2x2x2x2x2x2, .f32⟩ : BufTy).Contents (Elt F)) t_v138 t_v140)) := by
  subst h_v138 h_v140
  unfold seg32
  all_goals after_results_simp
  all_goals (try rfl)

/-- `seg32` does not write the argument. -/
theorem seg32_arg (W : Valuation τ sig (Elt F)) :
    after (seg32 (F := F)) W (Proc.devRef .tc main_arg0) = W (Proc.devRef .tc main_arg0) := by
  unfold seg32; after_results_simp

/-- Operations 152–158: wire 0's marginal distribution (the sum of the squares over the seven other bit axes) and the difference of its two entries. -/
def seg33 : List (HloOp τ sig (Elt F)) :=
  [ nullary main_cst_3 (constant S_ .f32 0x00000000#32),
    binary main_v142 main_cst_3 main_v143 ((fun x v => Host.reduceAdd x v reducesTo_S262144x2x2x2x2x2x2x2x2_S262144x2_d2_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v143 main_v144 ((extractStridedSlice S262144x1 ![0, 0] · slices_S262144x2_S262144x1_0_0) : (⟨S262144x2, .f32⟩ : BufTy).Contents (Elt F) → (⟨S262144x1, .f32⟩ : BufTy).Contents (Elt F)),
    reshape main_v144 main_v145 rfl shapeCasts_S262144x1_S262144,
    unary main_v143 main_v146 ((extractStridedSlice S262144x1 ![0, 1] · slices_S262144x2_S262144x1_0_1) : (⟨S262144x2, .f32⟩ : BufTy).Contents (Elt F) → (⟨S262144x1, .f32⟩ : BufTy).Contents (Elt F)),
    reshape main_v146 main_v147 rfl shapeCasts_S262144x1_S262144,
    binary main_v145 main_v147 main_v148 (subf : (⟨S262144, .f32⟩ : BufTy).Contents (Elt F) → (⟨S262144, .f32⟩ : BufTy).Contents (Elt F) → (⟨S262144, .f32⟩ : BufTy).Contents (Elt F)) ]

/-- The contents after `seg33`, with `v142` holding `t_v142`, at `v148`, `v142`. -/
theorem seg33_spec {W : Valuation τ sig (Elt F)}
    {t_v142 : _} (h_v142 : W (Proc.devRef .tc main_v142) = t_v142) :
    after (seg33 (F := F)) W (Proc.devRef .tc main_v148) = ((subf : (⟨S262144, .f32⟩ : BufTy).Contents (Elt F) → (⟨S262144, .f32⟩ : BufTy).Contents (Elt F) → (⟨S262144, .f32⟩ : BufTy).Contents (Elt F)) (shapeCast main_v145.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d2_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v147.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d2_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg33 (F := F)) W (Proc.devRef .tc main_v142) = t_v142 := by
  subst h_v142
  unfold seg33
  refine ⟨?_, ?_⟩
  all_goals after_results_simp
  all_goals (try rfl)

/-- `seg33` does not write the argument. -/
theorem seg33_arg (W : Valuation τ sig (Elt F)) :
    after (seg33 (F := F)) W (Proc.devRef .tc main_arg0) = W (Proc.devRef .tc main_arg0) := by
  unfold seg33; after_results_simp

/-- Operations 159–165: wire 1's marginal distribution (the sum of the squares over the seven other bit axes) and the difference of its two entries. -/
def seg34 : List (HloOp τ sig (Elt F)) :=
  [ nullary main_cst_4 (constant S_ .f32 0x00000000#32),
    binary main_v142 main_cst_4 main_v149 ((fun x v => Host.reduceAdd x v reducesTo_S262144x2x2x2x2x2x2x2x2_S262144x2_d1_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v149 main_v150 ((extractStridedSlice S262144x1 ![0, 0] · slices_S262144x2_S262144x1_0_0) : (⟨S262144x2, .f32⟩ : BufTy).Contents (Elt F) → (⟨S262144x1, .f32⟩ : BufTy).Contents (Elt F)),
    reshape main_v150 main_v151 rfl shapeCasts_S262144x1_S262144,
    unary main_v149 main_v152 ((extractStridedSlice S262144x1 ![0, 1] · slices_S262144x2_S262144x1_0_1) : (⟨S262144x2, .f32⟩ : BufTy).Contents (Elt F) → (⟨S262144x1, .f32⟩ : BufTy).Contents (Elt F)),
    reshape main_v152 main_v153 rfl shapeCasts_S262144x1_S262144,
    binary main_v151 main_v153 main_v154 (subf : (⟨S262144, .f32⟩ : BufTy).Contents (Elt F) → (⟨S262144, .f32⟩ : BufTy).Contents (Elt F) → (⟨S262144, .f32⟩ : BufTy).Contents (Elt F)) ]

/-- The contents after `seg34`, with `v142`, `v148` holding `t_v142`, `t_v148`, at `v154`, `v142`, `v148`. -/
theorem seg34_spec {W : Valuation τ sig (Elt F)}
    {t_v142 : _} (h_v142 : W (Proc.devRef .tc main_v142) = t_v142)
    {t_v148 : _} (h_v148 : W (Proc.devRef .tc main_v148) = t_v148) :
    after (seg34 (F := F)) W (Proc.devRef .tc main_v154) = ((subf : (⟨S262144, .f32⟩ : BufTy).Contents (Elt F) → (⟨S262144, .f32⟩ : BufTy).Contents (Elt F) → (⟨S262144, .f32⟩ : BufTy).Contents (Elt F)) (shapeCast main_v151.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d1_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v153.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d1_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg34 (F := F)) W (Proc.devRef .tc main_v142) = t_v142
    ∧ after (seg34 (F := F)) W (Proc.devRef .tc main_v148) = t_v148 := by
  subst h_v142 h_v148
  unfold seg34
  refine ⟨?_, ?_, ?_⟩
  all_goals after_results_simp
  all_goals (try rfl)

/-- `seg34` does not write the argument. -/
theorem seg34_arg (W : Valuation τ sig (Elt F)) :
    after (seg34 (F := F)) W (Proc.devRef .tc main_arg0) = W (Proc.devRef .tc main_arg0) := by
  unfold seg34; after_results_simp

/-- Operations 166–172: wire 2's marginal distribution (the sum of the squares over the seven other bit axes) and the difference of its two entries. -/
def seg35 : List (HloOp τ sig (Elt F)) :=
  [ nullary main_cst_5 (constant S_ .f32 0x00000000#32),
    binary main_v142 main_cst_5 main_v155 ((fun x v => Host.reduceAdd x v reducesTo_S262144x2x2x2x2x2x2x2x2_S262144x2_d1_2_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v155 main_v156 ((extractStridedSlice S262144x1 ![0, 0] · slices_S262144x2_S262144x1_0_0) : (⟨S262144x2, .f32⟩ : BufTy).Contents (Elt F) → (⟨S262144x1, .f32⟩ : BufTy).Contents (Elt F)),
    reshape main_v156 main_v157 rfl shapeCasts_S262144x1_S262144,
    unary main_v155 main_v158 ((extractStridedSlice S262144x1 ![0, 1] · slices_S262144x2_S262144x1_0_1) : (⟨S262144x2, .f32⟩ : BufTy).Contents (Elt F) → (⟨S262144x1, .f32⟩ : BufTy).Contents (Elt F)),
    reshape main_v158 main_v159 rfl shapeCasts_S262144x1_S262144,
    binary main_v157 main_v159 main_v160 (subf : (⟨S262144, .f32⟩ : BufTy).Contents (Elt F) → (⟨S262144, .f32⟩ : BufTy).Contents (Elt F) → (⟨S262144, .f32⟩ : BufTy).Contents (Elt F)) ]

/-- The contents after `seg35`, with `v142`, `v148`, `v154` holding `t_v142`, `t_v148`, `t_v154`, at `v160`, `v142`, `v148`, `v154`. -/
theorem seg35_spec {W : Valuation τ sig (Elt F)}
    {t_v142 : _} (h_v142 : W (Proc.devRef .tc main_v142) = t_v142)
    {t_v148 : _} (h_v148 : W (Proc.devRef .tc main_v148) = t_v148)
    {t_v154 : _} (h_v154 : W (Proc.devRef .tc main_v154) = t_v154) :
    after (seg35 (F := F)) W (Proc.devRef .tc main_v160) = ((subf : (⟨S262144, .f32⟩ : BufTy).Contents (Elt F) → (⟨S262144, .f32⟩ : BufTy).Contents (Elt F) → (⟨S262144, .f32⟩ : BufTy).Contents (Elt F)) (shapeCast main_v157.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d1_2_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v159.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d1_2_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg35 (F := F)) W (Proc.devRef .tc main_v142) = t_v142
    ∧ after (seg35 (F := F)) W (Proc.devRef .tc main_v148) = t_v148
    ∧ after (seg35 (F := F)) W (Proc.devRef .tc main_v154) = t_v154 := by
  subst h_v142 h_v148 h_v154
  unfold seg35
  refine ⟨?_, ?_, ?_, ?_⟩
  all_goals after_results_simp
  all_goals (try rfl)

/-- `seg35` does not write the argument. -/
theorem seg35_arg (W : Valuation τ sig (Elt F)) :
    after (seg35 (F := F)) W (Proc.devRef .tc main_arg0) = W (Proc.devRef .tc main_arg0) := by
  unfold seg35; after_results_simp

/-- Operations 173–179: wire 3's marginal distribution (the sum of the squares over the seven other bit axes) and the difference of its two entries. -/
def seg36 : List (HloOp τ sig (Elt F)) :=
  [ nullary main_cst_6 (constant S_ .f32 0x00000000#32),
    binary main_v142 main_cst_6 main_v161 ((fun x v => Host.reduceAdd x v reducesTo_S262144x2x2x2x2x2x2x2x2_S262144x2_d1_2_3_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v161 main_v162 ((extractStridedSlice S262144x1 ![0, 0] · slices_S262144x2_S262144x1_0_0) : (⟨S262144x2, .f32⟩ : BufTy).Contents (Elt F) → (⟨S262144x1, .f32⟩ : BufTy).Contents (Elt F)),
    reshape main_v162 main_v163 rfl shapeCasts_S262144x1_S262144,
    unary main_v161 main_v164 ((extractStridedSlice S262144x1 ![0, 1] · slices_S262144x2_S262144x1_0_1) : (⟨S262144x2, .f32⟩ : BufTy).Contents (Elt F) → (⟨S262144x1, .f32⟩ : BufTy).Contents (Elt F)),
    reshape main_v164 main_v165 rfl shapeCasts_S262144x1_S262144,
    binary main_v163 main_v165 main_v166 (subf : (⟨S262144, .f32⟩ : BufTy).Contents (Elt F) → (⟨S262144, .f32⟩ : BufTy).Contents (Elt F) → (⟨S262144, .f32⟩ : BufTy).Contents (Elt F)) ]

/-- The contents after `seg36`, with `v142`, `v148`, `v154`, `v160` holding `t_v142`, `t_v148`, `t_v154`, `t_v160`, at `v166`, `v142`, `v148`, `v154`, `v160`. -/
theorem seg36_spec {W : Valuation τ sig (Elt F)}
    {t_v142 : _} (h_v142 : W (Proc.devRef .tc main_v142) = t_v142)
    {t_v148 : _} (h_v148 : W (Proc.devRef .tc main_v148) = t_v148)
    {t_v154 : _} (h_v154 : W (Proc.devRef .tc main_v154) = t_v154)
    {t_v160 : _} (h_v160 : W (Proc.devRef .tc main_v160) = t_v160) :
    after (seg36 (F := F)) W (Proc.devRef .tc main_v166) = ((subf : (⟨S262144, .f32⟩ : BufTy).Contents (Elt F) → (⟨S262144, .f32⟩ : BufTy).Contents (Elt F) → (⟨S262144, .f32⟩ : BufTy).Contents (Elt F)) (shapeCast main_v163.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v165.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_5_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg36 (F := F)) W (Proc.devRef .tc main_v142) = t_v142
    ∧ after (seg36 (F := F)) W (Proc.devRef .tc main_v148) = t_v148
    ∧ after (seg36 (F := F)) W (Proc.devRef .tc main_v154) = t_v154
    ∧ after (seg36 (F := F)) W (Proc.devRef .tc main_v160) = t_v160 := by
  subst h_v142 h_v148 h_v154 h_v160
  unfold seg36
  refine ⟨?_, ?_, ?_, ?_, ?_⟩
  all_goals after_results_simp
  all_goals (try rfl)

/-- `seg36` does not write the argument. -/
theorem seg36_arg (W : Valuation τ sig (Elt F)) :
    after (seg36 (F := F)) W (Proc.devRef .tc main_arg0) = W (Proc.devRef .tc main_arg0) := by
  unfold seg36; after_results_simp

/-- Operations 180–186: wire 4's marginal distribution (the sum of the squares over the seven other bit axes) and the difference of its two entries. -/
def seg37 : List (HloOp τ sig (Elt F)) :=
  [ nullary main_cst_7 (constant S_ .f32 0x00000000#32),
    binary main_v142 main_cst_7 main_v167 ((fun x v => Host.reduceAdd x v reducesTo_S262144x2x2x2x2x2x2x2x2_S262144x2_d1_2_3_4_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v167 main_v168 ((extractStridedSlice S262144x1 ![0, 0] · slices_S262144x2_S262144x1_0_0) : (⟨S262144x2, .f32⟩ : BufTy).Contents (Elt F) → (⟨S262144x1, .f32⟩ : BufTy).Contents (Elt F)),
    reshape main_v168 main_v169 rfl shapeCasts_S262144x1_S262144,
    unary main_v167 main_v170 ((extractStridedSlice S262144x1 ![0, 1] · slices_S262144x2_S262144x1_0_1) : (⟨S262144x2, .f32⟩ : BufTy).Contents (Elt F) → (⟨S262144x1, .f32⟩ : BufTy).Contents (Elt F)),
    reshape main_v170 main_v171 rfl shapeCasts_S262144x1_S262144,
    binary main_v169 main_v171 main_v172 (subf : (⟨S262144, .f32⟩ : BufTy).Contents (Elt F) → (⟨S262144, .f32⟩ : BufTy).Contents (Elt F) → (⟨S262144, .f32⟩ : BufTy).Contents (Elt F)) ]

/-- The contents after `seg37`, with `v142`, `v148`, `v154`, `v160`, `v166` holding `t_v142`, `t_v148`, `t_v154`, `t_v160`, `t_v166`, at `v172`, `v142`, `v148`, `v154`, `v160`, `v166`. -/
theorem seg37_spec {W : Valuation τ sig (Elt F)}
    {t_v142 : _} (h_v142 : W (Proc.devRef .tc main_v142) = t_v142)
    {t_v148 : _} (h_v148 : W (Proc.devRef .tc main_v148) = t_v148)
    {t_v154 : _} (h_v154 : W (Proc.devRef .tc main_v154) = t_v154)
    {t_v160 : _} (h_v160 : W (Proc.devRef .tc main_v160) = t_v160)
    {t_v166 : _} (h_v166 : W (Proc.devRef .tc main_v166) = t_v166) :
    after (seg37 (F := F)) W (Proc.devRef .tc main_v172) = ((subf : (⟨S262144, .f32⟩ : BufTy).Contents (Elt F) → (⟨S262144, .f32⟩ : BufTy).Contents (Elt F) → (⟨S262144, .f32⟩ : BufTy).Contents (Elt F)) (shapeCast main_v169.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v171.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_6_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg37 (F := F)) W (Proc.devRef .tc main_v142) = t_v142
    ∧ after (seg37 (F := F)) W (Proc.devRef .tc main_v148) = t_v148
    ∧ after (seg37 (F := F)) W (Proc.devRef .tc main_v154) = t_v154
    ∧ after (seg37 (F := F)) W (Proc.devRef .tc main_v160) = t_v160
    ∧ after (seg37 (F := F)) W (Proc.devRef .tc main_v166) = t_v166 := by
  subst h_v142 h_v148 h_v154 h_v160 h_v166
  unfold seg37
  refine ⟨?_, ?_, ?_, ?_, ?_, ?_⟩
  all_goals after_results_simp
  all_goals (try rfl)

/-- `seg37` does not write the argument. -/
theorem seg37_arg (W : Valuation τ sig (Elt F)) :
    after (seg37 (F := F)) W (Proc.devRef .tc main_arg0) = W (Proc.devRef .tc main_arg0) := by
  unfold seg37; after_results_simp

/-- Operations 187–193: wire 5's marginal distribution (the sum of the squares over the seven other bit axes) and the difference of its two entries. -/
def seg38 : List (HloOp τ sig (Elt F)) :=
  [ nullary main_cst_8 (constant S_ .f32 0x00000000#32),
    binary main_v142 main_cst_8 main_v173 ((fun x v => Host.reduceAdd x v reducesTo_S262144x2x2x2x2x2x2x2x2_S262144x2_d1_2_3_4_5_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v173 main_v174 ((extractStridedSlice S262144x1 ![0, 0] · slices_S262144x2_S262144x1_0_0) : (⟨S262144x2, .f32⟩ : BufTy).Contents (Elt F) → (⟨S262144x1, .f32⟩ : BufTy).Contents (Elt F)),
    reshape main_v174 main_v175 rfl shapeCasts_S262144x1_S262144,
    unary main_v173 main_v176 ((extractStridedSlice S262144x1 ![0, 1] · slices_S262144x2_S262144x1_0_1) : (⟨S262144x2, .f32⟩ : BufTy).Contents (Elt F) → (⟨S262144x1, .f32⟩ : BufTy).Contents (Elt F)),
    reshape main_v176 main_v177 rfl shapeCasts_S262144x1_S262144,
    binary main_v175 main_v177 main_v178 (subf : (⟨S262144, .f32⟩ : BufTy).Contents (Elt F) → (⟨S262144, .f32⟩ : BufTy).Contents (Elt F) → (⟨S262144, .f32⟩ : BufTy).Contents (Elt F)) ]

/-- The contents after `seg38`, with `v142`, `v148`, `v154`, `v160`, `v166`, `v172` holding `t_v142`, `t_v148`, `t_v154`, `t_v160`, `t_v166`, `t_v172`, at `v178`, `v142`, `v148`, `v154`, `v160`, `v166`, `v172`. -/
theorem seg38_spec {W : Valuation τ sig (Elt F)}
    {t_v142 : _} (h_v142 : W (Proc.devRef .tc main_v142) = t_v142)
    {t_v148 : _} (h_v148 : W (Proc.devRef .tc main_v148) = t_v148)
    {t_v154 : _} (h_v154 : W (Proc.devRef .tc main_v154) = t_v154)
    {t_v160 : _} (h_v160 : W (Proc.devRef .tc main_v160) = t_v160)
    {t_v166 : _} (h_v166 : W (Proc.devRef .tc main_v166) = t_v166)
    {t_v172 : _} (h_v172 : W (Proc.devRef .tc main_v172) = t_v172) :
    after (seg38 (F := F)) W (Proc.devRef .tc main_v178) = ((subf : (⟨S262144, .f32⟩ : BufTy).Contents (Elt F) → (⟨S262144, .f32⟩ : BufTy).Contents (Elt F) → (⟨S262144, .f32⟩ : BufTy).Contents (Elt F)) (shapeCast main_v175.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_5_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v177.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_5_7_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg38 (F := F)) W (Proc.devRef .tc main_v142) = t_v142
    ∧ after (seg38 (F := F)) W (Proc.devRef .tc main_v148) = t_v148
    ∧ after (seg38 (F := F)) W (Proc.devRef .tc main_v154) = t_v154
    ∧ after (seg38 (F := F)) W (Proc.devRef .tc main_v160) = t_v160
    ∧ after (seg38 (F := F)) W (Proc.devRef .tc main_v166) = t_v166
    ∧ after (seg38 (F := F)) W (Proc.devRef .tc main_v172) = t_v172 := by
  subst h_v142 h_v148 h_v154 h_v160 h_v166 h_v172
  unfold seg38
  refine ⟨?_, ?_, ?_, ?_, ?_, ?_, ?_⟩
  all_goals after_results_simp
  all_goals (try rfl)

/-- `seg38` does not write the argument. -/
theorem seg38_arg (W : Valuation τ sig (Elt F)) :
    after (seg38 (F := F)) W (Proc.devRef .tc main_arg0) = W (Proc.devRef .tc main_arg0) := by
  unfold seg38; after_results_simp

/-- Operations 194–200: wire 6's marginal distribution (the sum of the squares over the seven other bit axes) and the difference of its two entries. -/
def seg39 : List (HloOp τ sig (Elt F)) :=
  [ nullary main_cst_9 (constant S_ .f32 0x00000000#32),
    binary main_v142 main_cst_9 main_v179 ((fun x v => Host.reduceAdd x v reducesTo_S262144x2x2x2x2x2x2x2x2_S262144x2_d1_2_3_4_5_6_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v179 main_v180 ((extractStridedSlice S262144x1 ![0, 0] · slices_S262144x2_S262144x1_0_0) : (⟨S262144x2, .f32⟩ : BufTy).Contents (Elt F) → (⟨S262144x1, .f32⟩ : BufTy).Contents (Elt F)),
    reshape main_v180 main_v181 rfl shapeCasts_S262144x1_S262144,
    unary main_v179 main_v182 ((extractStridedSlice S262144x1 ![0, 1] · slices_S262144x2_S262144x1_0_1) : (⟨S262144x2, .f32⟩ : BufTy).Contents (Elt F) → (⟨S262144x1, .f32⟩ : BufTy).Contents (Elt F)),
    reshape main_v182 main_v183 rfl shapeCasts_S262144x1_S262144,
    binary main_v181 main_v183 main_v184 (subf : (⟨S262144, .f32⟩ : BufTy).Contents (Elt F) → (⟨S262144, .f32⟩ : BufTy).Contents (Elt F) → (⟨S262144, .f32⟩ : BufTy).Contents (Elt F)) ]

/-- The contents after `seg39`, with `v142`, `v148`, `v154`, `v160`, `v166`, `v172`, `v178` holding `t_v142`, `t_v148`, `t_v154`, `t_v160`, `t_v166`, `t_v172`, `t_v178`, at `v184`, `v142`, `v148`, `v154`, `v160`, `v166`, `v172`, `v178`. -/
theorem seg39_spec {W : Valuation τ sig (Elt F)}
    {t_v142 : _} (h_v142 : W (Proc.devRef .tc main_v142) = t_v142)
    {t_v148 : _} (h_v148 : W (Proc.devRef .tc main_v148) = t_v148)
    {t_v154 : _} (h_v154 : W (Proc.devRef .tc main_v154) = t_v154)
    {t_v160 : _} (h_v160 : W (Proc.devRef .tc main_v160) = t_v160)
    {t_v166 : _} (h_v166 : W (Proc.devRef .tc main_v166) = t_v166)
    {t_v172 : _} (h_v172 : W (Proc.devRef .tc main_v172) = t_v172)
    {t_v178 : _} (h_v178 : W (Proc.devRef .tc main_v178) = t_v178) :
    after (seg39 (F := F)) W (Proc.devRef .tc main_v184) = ((subf : (⟨S262144, .f32⟩ : BufTy).Contents (Elt F) → (⟨S262144, .f32⟩ : BufTy).Contents (Elt F) → (⟨S262144, .f32⟩ : BufTy).Contents (Elt F)) (shapeCast main_v181.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_5_6_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v183.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_5_6_8 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg39 (F := F)) W (Proc.devRef .tc main_v142) = t_v142
    ∧ after (seg39 (F := F)) W (Proc.devRef .tc main_v148) = t_v148
    ∧ after (seg39 (F := F)) W (Proc.devRef .tc main_v154) = t_v154
    ∧ after (seg39 (F := F)) W (Proc.devRef .tc main_v160) = t_v160
    ∧ after (seg39 (F := F)) W (Proc.devRef .tc main_v166) = t_v166
    ∧ after (seg39 (F := F)) W (Proc.devRef .tc main_v172) = t_v172
    ∧ after (seg39 (F := F)) W (Proc.devRef .tc main_v178) = t_v178 := by
  subst h_v142 h_v148 h_v154 h_v160 h_v166 h_v172 h_v178
  unfold seg39
  refine ⟨?_, ?_, ?_, ?_, ?_, ?_, ?_, ?_⟩
  all_goals after_results_simp
  all_goals (try rfl)

/-- `seg39` does not write the argument. -/
theorem seg39_arg (W : Valuation τ sig (Elt F)) :
    after (seg39 (F := F)) W (Proc.devRef .tc main_arg0) = W (Proc.devRef .tc main_arg0) := by
  unfold seg39; after_results_simp

/-- Operations 201–207: wire 7's marginal distribution (the sum of the squares over the seven other bit axes) and the difference of its two entries. -/
def seg40 : List (HloOp τ sig (Elt F)) :=
  [ nullary main_cst_10 (constant S_ .f32 0x00000000#32),
    binary main_v142 main_cst_10 main_v185 ((fun x v => Host.reduceAdd x v reducesTo_S262144x2x2x2x2x2x2x2x2_S262144x2_d1_2_3_4_5_6_7 h_S_) : (⟨S262144x2x2x2x2x2x2x2x2, .f32⟩ : BufTy).Contents (Elt F) → (⟨S_, .f32⟩ : BufTy).Contents (Elt F) → (⟨S262144x2, .f32⟩ : BufTy).Contents (Elt F)),
    unary main_v185 main_v186 ((extractStridedSlice S262144x1 ![0, 0] · slices_S262144x2_S262144x1_0_0) : (⟨S262144x2, .f32⟩ : BufTy).Contents (Elt F) → (⟨S262144x1, .f32⟩ : BufTy).Contents (Elt F)),
    reshape main_v186 main_v187 rfl shapeCasts_S262144x1_S262144,
    unary main_v185 main_v188 ((extractStridedSlice S262144x1 ![0, 1] · slices_S262144x2_S262144x1_0_1) : (⟨S262144x2, .f32⟩ : BufTy).Contents (Elt F) → (⟨S262144x1, .f32⟩ : BufTy).Contents (Elt F)),
    reshape main_v188 main_v189 rfl shapeCasts_S262144x1_S262144,
    binary main_v187 main_v189 main_v190 (subf : (⟨S262144, .f32⟩ : BufTy).Contents (Elt F) → (⟨S262144, .f32⟩ : BufTy).Contents (Elt F) → (⟨S262144, .f32⟩ : BufTy).Contents (Elt F)) ]

/-- The contents after `seg40`, with `v142`, `v148`, `v154`, `v160`, `v166`, `v172`, `v178`, `v184` holding `t_v142`, `t_v148`, `t_v154`, `t_v160`, `t_v166`, `t_v172`, `t_v178`, `t_v184`, at `v190`, `v148`, `v154`, `v160`, `v166`, `v172`, `v178`, `v184`. -/
theorem seg40_spec {W : Valuation τ sig (Elt F)}
    {t_v142 : _} (h_v142 : W (Proc.devRef .tc main_v142) = t_v142)
    {t_v148 : _} (h_v148 : W (Proc.devRef .tc main_v148) = t_v148)
    {t_v154 : _} (h_v154 : W (Proc.devRef .tc main_v154) = t_v154)
    {t_v160 : _} (h_v160 : W (Proc.devRef .tc main_v160) = t_v160)
    {t_v166 : _} (h_v166 : W (Proc.devRef .tc main_v166) = t_v166)
    {t_v172 : _} (h_v172 : W (Proc.devRef .tc main_v172) = t_v172)
    {t_v178 : _} (h_v178 : W (Proc.devRef .tc main_v178) = t_v178)
    {t_v184 : _} (h_v184 : W (Proc.devRef .tc main_v184) = t_v184) :
    after (seg40 (F := F)) W (Proc.devRef .tc main_v190) = ((subf : (⟨S262144, .f32⟩ : BufTy).Contents (Elt F) → (⟨S262144, .f32⟩ : BufTy).Contents (Elt F) → (⟨S262144, .f32⟩ : BufTy).Contents (Elt F)) (shapeCast main_v187.ty.shape (((extractStridedSlice S262144x1 ![0, 0] · slices_S262144x2_S262144x1_0_0) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_5_6_7 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144) (shapeCast main_v189.ty.shape (((extractStridedSlice S262144x1 ![0, 1] · slices_S262144x2_S262144x1_0_1) : (⟨S262144x2, .f32⟩ : BufTy).Contents (Elt F) → (⟨S262144x1, .f32⟩ : BufTy).Contents (Elt F)) (((fun x v => Host.reduceAdd x v reducesTo_S262144x2x2x2x2x2x2x2x2_S262144x2_d1_2_3_4_5_6_7 h_S_) : (⟨S262144x2x2x2x2x2x2x2x2, .f32⟩ : BufTy).Contents (Elt F) → (⟨S_, .f32⟩ : BufTy).Contents (Elt F) → (⟨S262144x2, .f32⟩ : BufTy).Contents (Elt F)) t_v142 (constant S_ .f32 0x00000000#32))) shapeCasts_S262144x1_S262144))
    ∧ after (seg40 (F := F)) W (Proc.devRef .tc main_v148) = t_v148
    ∧ after (seg40 (F := F)) W (Proc.devRef .tc main_v154) = t_v154
    ∧ after (seg40 (F := F)) W (Proc.devRef .tc main_v160) = t_v160
    ∧ after (seg40 (F := F)) W (Proc.devRef .tc main_v166) = t_v166
    ∧ after (seg40 (F := F)) W (Proc.devRef .tc main_v172) = t_v172
    ∧ after (seg40 (F := F)) W (Proc.devRef .tc main_v178) = t_v178
    ∧ after (seg40 (F := F)) W (Proc.devRef .tc main_v184) = t_v184 := by
  subst h_v142 h_v148 h_v154 h_v160 h_v166 h_v172 h_v178 h_v184
  unfold seg40
  refine ⟨?_, ?_, ?_, ?_, ?_, ?_, ?_, ?_⟩
  all_goals after_results_simp
  all_goals (try rfl)

/-- `seg40` does not write the argument. -/
theorem seg40_arg (W : Valuation τ sig (Elt F)) :
    after (seg40 (F := F)) W (Proc.devRef .tc main_arg0) = W (Proc.devRef .tc main_arg0) := by
  unfold seg40; after_results_simp

/-- Operations 208–215: each wire's difference laid out as a column. -/
def seg41 : List (HloOp τ sig (Elt F)) :=
  [ unary main_v148 main_v191 (broadcastInDim S262144x1 ![0] bcast_S262144_S262144x1_0 : (⟨S262144, .f32⟩ : BufTy).Contents (Elt F) → (⟨S262144x1, .f32⟩ : BufTy).Contents (Elt F)),
    unary main_v154 main_v192 (broadcastInDim S262144x1 ![0] bcast_S262144_S262144x1_0 : (⟨S262144, .f32⟩ : BufTy).Contents (Elt F) → (⟨S262144x1, .f32⟩ : BufTy).Contents (Elt F)),
    unary main_v160 main_v193 (broadcastInDim S262144x1 ![0] bcast_S262144_S262144x1_0 : (⟨S262144, .f32⟩ : BufTy).Contents (Elt F) → (⟨S262144x1, .f32⟩ : BufTy).Contents (Elt F)),
    unary main_v166 main_v194 (broadcastInDim S262144x1 ![0] bcast_S262144_S262144x1_0 : (⟨S262144, .f32⟩ : BufTy).Contents (Elt F) → (⟨S262144x1, .f32⟩ : BufTy).Contents (Elt F)),
    unary main_v172 main_v195 (broadcastInDim S262144x1 ![0] bcast_S262144_S262144x1_0 : (⟨S262144, .f32⟩ : BufTy).Contents (Elt F) → (⟨S262144x1, .f32⟩ : BufTy).Contents (Elt F)),
    unary main_v178 main_v196 (broadcastInDim S262144x1 ![0] bcast_S262144_S262144x1_0 : (⟨S262144, .f32⟩ : BufTy).Contents (Elt F) → (⟨S262144x1, .f32⟩ : BufTy).Contents (Elt F)),
    unary main_v184 main_v197 (broadcastInDim S262144x1 ![0] bcast_S262144_S262144x1_0 : (⟨S262144, .f32⟩ : BufTy).Contents (Elt F) → (⟨S262144x1, .f32⟩ : BufTy).Contents (Elt F)),
    unary main_v190 main_v198 (broadcastInDim S262144x1 ![0] bcast_S262144_S262144x1_0 : (⟨S262144, .f32⟩ : BufTy).Contents (Elt F) → (⟨S262144x1, .f32⟩ : BufTy).Contents (Elt F)) ]

/-- The contents after `seg41`, with `v148`, `v154`, `v160`, `v166`, `v172`, `v178`, `v184`, `v190` holding `t_v148`, `t_v154`, `t_v160`, `t_v166`, `t_v172`, `t_v178`, `t_v184`, `t_v190`, at `v191`, `v192`, `v193`, `v194`, `v195`, `v196`, `v197`, `v198`. -/
theorem seg41_spec {W : Valuation τ sig (Elt F)}
    {t_v148 : _} (h_v148 : W (Proc.devRef .tc main_v148) = t_v148)
    {t_v154 : _} (h_v154 : W (Proc.devRef .tc main_v154) = t_v154)
    {t_v160 : _} (h_v160 : W (Proc.devRef .tc main_v160) = t_v160)
    {t_v166 : _} (h_v166 : W (Proc.devRef .tc main_v166) = t_v166)
    {t_v172 : _} (h_v172 : W (Proc.devRef .tc main_v172) = t_v172)
    {t_v178 : _} (h_v178 : W (Proc.devRef .tc main_v178) = t_v178)
    {t_v184 : _} (h_v184 : W (Proc.devRef .tc main_v184) = t_v184)
    {t_v190 : _} (h_v190 : W (Proc.devRef .tc main_v190) = t_v190) :
    after (seg41 (F := F)) W (Proc.devRef .tc main_v191) = ((broadcastInDim S262144x1 ![0] bcast_S262144_S262144x1_0 : (⟨S262144, .f32⟩ : BufTy).Contents (Elt F) → (⟨S262144x1, .f32⟩ : BufTy).Contents (Elt F)) t_v148)
    ∧ after (seg41 (F := F)) W (Proc.devRef .tc main_v192) = ((broadcastInDim S262144x1 ![0] bcast_S262144_S262144x1_0 : (⟨S262144, .f32⟩ : BufTy).Contents (Elt F) → (⟨S262144x1, .f32⟩ : BufTy).Contents (Elt F)) t_v154)
    ∧ after (seg41 (F := F)) W (Proc.devRef .tc main_v193) = ((broadcastInDim S262144x1 ![0] bcast_S262144_S262144x1_0 : (⟨S262144, .f32⟩ : BufTy).Contents (Elt F) → (⟨S262144x1, .f32⟩ : BufTy).Contents (Elt F)) t_v160)
    ∧ after (seg41 (F := F)) W (Proc.devRef .tc main_v194) = ((broadcastInDim S262144x1 ![0] bcast_S262144_S262144x1_0 : (⟨S262144, .f32⟩ : BufTy).Contents (Elt F) → (⟨S262144x1, .f32⟩ : BufTy).Contents (Elt F)) t_v166)
    ∧ after (seg41 (F := F)) W (Proc.devRef .tc main_v195) = ((broadcastInDim S262144x1 ![0] bcast_S262144_S262144x1_0 : (⟨S262144, .f32⟩ : BufTy).Contents (Elt F) → (⟨S262144x1, .f32⟩ : BufTy).Contents (Elt F)) t_v172)
    ∧ after (seg41 (F := F)) W (Proc.devRef .tc main_v196) = ((broadcastInDim S262144x1 ![0] bcast_S262144_S262144x1_0 : (⟨S262144, .f32⟩ : BufTy).Contents (Elt F) → (⟨S262144x1, .f32⟩ : BufTy).Contents (Elt F)) t_v178)
    ∧ after (seg41 (F := F)) W (Proc.devRef .tc main_v197) = ((broadcastInDim S262144x1 ![0] bcast_S262144_S262144x1_0 : (⟨S262144, .f32⟩ : BufTy).Contents (Elt F) → (⟨S262144x1, .f32⟩ : BufTy).Contents (Elt F)) t_v184)
    ∧ after (seg41 (F := F)) W (Proc.devRef .tc main_v198) = ((broadcastInDim S262144x1 ![0] bcast_S262144_S262144x1_0 : (⟨S262144, .f32⟩ : BufTy).Contents (Elt F) → (⟨S262144x1, .f32⟩ : BufTy).Contents (Elt F)) t_v190) := by
  subst h_v148 h_v154 h_v160 h_v166 h_v172 h_v178 h_v184 h_v190
  unfold seg41
  refine ⟨?_, ?_, ?_, ?_, ?_, ?_, ?_, ?_⟩
  all_goals after_results_simp
  all_goals (try rfl)

/-- `seg41` does not write the argument. -/
theorem seg41_arg (W : Valuation τ sig (Elt F)) :
    after (seg41 (F := F)) W (Proc.devRef .tc main_arg0) = W (Proc.devRef .tc main_arg0) := by
  unfold seg41; after_results_simp

/-- Operation 216: the eight columns joined as the columns of the result. -/
def seg42 : List (HloOp τ sig (Elt F)) :=
  [ nary ![main_v191, main_v192, main_v193, main_v194, main_v195, main_v196, main_v197, main_v198] main_v199 (fun u => concatenate S262144x8 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩] concatenates_S262144x1_S262144x1_S262144x1_S262144x1_S262144x1_S262144x1_S262144x1_S262144x1_S262144x8_d1) ]

/-- The contents after `seg42`, with `v191`, `v192`, `v193`, `v194`, `v195`, `v196`, `v197`, `v198` holding `t_v191`, `t_v192`, `t_v193`, `t_v194`, `t_v195`, `t_v196`, `t_v197`, `t_v198`, at `v199`. -/
theorem seg42_spec {W : Valuation τ sig (Elt F)}
    {t_v191 : _} (h_v191 : W (Proc.devRef .tc main_v191) = t_v191)
    {t_v192 : _} (h_v192 : W (Proc.devRef .tc main_v192) = t_v192)
    {t_v193 : _} (h_v193 : W (Proc.devRef .tc main_v193) = t_v193)
    {t_v194 : _} (h_v194 : W (Proc.devRef .tc main_v194) = t_v194)
    {t_v195 : _} (h_v195 : W (Proc.devRef .tc main_v195) = t_v195)
    {t_v196 : _} (h_v196 : W (Proc.devRef .tc main_v196) = t_v196)
    {t_v197 : _} (h_v197 : W (Proc.devRef .tc main_v197) = t_v197)
    {t_v198 : _} (h_v198 : W (Proc.devRef .tc main_v198) = t_v198) :
    after (seg42 (F := F)) W (Proc.devRef .tc main_v199) = (concatenate S262144x8 1 [⟨S262144x1, t_v191⟩, ⟨S262144x1, t_v192⟩, ⟨S262144x1, t_v193⟩, ⟨S262144x1, t_v194⟩, ⟨S262144x1, t_v195⟩, ⟨S262144x1, t_v196⟩, ⟨S262144x1, t_v197⟩, ⟨S262144x1, t_v198⟩] concatenates_S262144x1_S262144x1_S262144x1_S262144x1_S262144x1_S262144x1_S262144x1_S262144x1_S262144x8_d1) := by
  subst h_v191 h_v192 h_v193 h_v194 h_v195 h_v196 h_v197 h_v198
  unfold seg42
  all_goals after_results_simp
  all_goals (try rfl)

/-- `seg42` does not write the argument. -/
theorem seg42_arg (W : Valuation τ sig (Elt F)) :
    after (seg42 (F := F)) W (Proc.devRef .tc main_arg0) = W (Proc.devRef .tc main_arg0) := by
  unfold seg42; after_results_simp

/-- The result buffer after all the segments, from launch contents `V`, is `Sim.out` of the argument: the segments'
    values chained, each group folded into the function of the program that names it, so that every intermediate
    value stays a short composition of named functions of the argument. -/
theorem after_segs_out (V : Valuation τ sig (Elt F)) :
    after (seg42 (F := F)) (after (seg41 (F := F)) (after (seg40 (F := F)) (after (seg39 (F := F)) (after (seg38 (F := F)) (after (seg37 (F := F)) (after (seg36 (F := F)) (after (seg35 (F := F)) (after (seg34 (F := F)) (after (seg33 (F := F)) (after (seg32 (F := F)) (after (seg31 (F := F)) (after (seg30 (F := F)) (after (seg29 (F := F)) (after (seg28 (F := F)) (after (seg27 (F := F)) (after (seg26 (F := F)) (after (seg25 (F := F)) (after (seg24 (F := F)) (after (seg23 (F := F)) (after (seg22 (F := F)) (after (seg21 (F := F)) (after (seg20 (F := F)) (after (seg19 (F := F)) (after (seg18 (F := F)) (after (seg17 (F := F)) (after (seg16 (F := F)) (after (seg15 (F := F)) (after (seg14 (F := F)) (after (seg13 (F := F)) (after (seg12 (F := F)) (after (seg11 (F := F)) (after (seg10 (F := F)) (after (seg9 (F := F)) (after (seg8 (F := F)) (after (seg7 (F := F)) (after (seg6 (F := F)) (after (seg5 (F := F)) (after (seg4 (F := F)) (after (seg3 (F := F)) (after (seg2 (F := F)) (after (seg1 (F := F)) (after (seg0 (F := F)) (V))))))))))))))))))))))))))))))))))))))))))) (Proc.devRef .tc main_v199) = Sim.out (V (Proc.devRef .tc main_arg0)) := by
  obtain ⟨f0_v3, f0_v4⟩ := seg0_spec (F := F) (W := V)
  replace f0_v3 := f0_v3.trans (show _ = Host.cos (Sim.halfAngle (V (Proc.devRef .tc main_arg0))) from rfl)
  replace f0_v4 := f0_v4.trans (show _ = Host.sin (Sim.halfAngle (V (Proc.devRef .tc main_arg0))) from rfl)
  obtain ⟨f1_v5, f1_v10, f1_v11, f1_v3, f1_v4⟩ := seg1_spec f0_v3 f0_v4
  obtain ⟨f2_v17, f2_v3, f2_v4⟩ := seg2_spec f1_v3 f1_v4 f1_v5 f1_v10 f1_v11
  replace f2_v17 := f2_v17.trans (show _ = Sim.kron0 (Sim.qubit0 (V (Proc.devRef .tc main_arg0))) from rfl)
  obtain ⟨f3_v22, f3_v23, f3_v3, f3_v4, f3_v17⟩ := seg3_spec f2_v3 f2_v4 f2_v17
  obtain ⟨f4_v30, f4_v3, f4_v4⟩ := seg4_spec f3_v3 f3_v4 f3_v17 f3_v22 f3_v23
  replace f4_v30 := f4_v30.trans (show _ = Sim.kronStep (n := 2) (n2 := 4) (Sim.kron0 (Sim.qubit0 (V (Proc.devRef .tc main_arg0)))) (Sim.qubit1 (V (Proc.devRef .tc main_arg0))) bcast_S262144x2_S262144x2x1_0_1 bcast_S262144x2x1_S262144x2x2_0_1_2 bcast_S262144x2_S262144x1x2_0_2 bcast_S262144x1x2_S262144x2x2_0_1_2 shapeCasts_S262144x2x2_S262144x4 from rfl)
  obtain ⟨f5_v35, f5_v36, f5_v3, f5_v4, f5_v30⟩ := seg5_spec f4_v3 f4_v4 f4_v30
  obtain ⟨f6_v43, f6_v3, f6_v4⟩ := seg6_spec f5_v3 f5_v4 f5_v30 f5_v35 f5_v36
  replace f6_v43 := f6_v43.trans (show _ = Sim.kronStep (n := 4) (n2 := 8) (Sim.kronStep (n := 2) (n2 := 4) (Sim.kron0 (Sim.qubit0 (V (Proc.devRef .tc main_arg0)))) (Sim.qubit1 (V (Proc.devRef .tc main_arg0))) bcast_S262144x2_S262144x2x1_0_1 bcast_S262144x2x1_S262144x2x2_0_1_2 bcast_S262144x2_S262144x1x2_0_2 bcast_S262144x1x2_S262144x2x2_0_1_2 shapeCasts_S262144x2x2_S262144x4) (Sim.qubit2 (V (Proc.devRef .tc main_arg0))) bcast_S262144x4_S262144x4x1_0_1 bcast_S262144x4x1_S262144x4x2_0_1_2 bcast_S262144x2_S262144x1x2_0_2 bcast_S262144x1x2_S262144x4x2_0_1_2 shapeCasts_S262144x4x2_S262144x8 from rfl)
  obtain ⟨f7_v48, f7_v49, f7_v3, f7_v4, f7_v43⟩ := seg7_spec f6_v3 f6_v4 f6_v43
  obtain ⟨f8_v56, f8_v3, f8_v4⟩ := seg8_spec f7_v3 f7_v4 f7_v43 f7_v48 f7_v49
  replace f8_v56 := f8_v56.trans (show _ = Sim.kronStep (n := 8) (n2 := 16) (Sim.kronStep (n := 4) (n2 := 8) (Sim.kronStep (n := 2) (n2 := 4) (Sim.kron0 (Sim.qubit0 (V (Proc.devRef .tc main_arg0)))) (Sim.qubit1 (V (Proc.devRef .tc main_arg0))) bcast_S262144x2_S262144x2x1_0_1 bcast_S262144x2x1_S262144x2x2_0_1_2 bcast_S262144x2_S262144x1x2_0_2 bcast_S262144x1x2_S262144x2x2_0_1_2 shapeCasts_S262144x2x2_S262144x4) (Sim.qubit2 (V (Proc.devRef .tc main_arg0))) bcast_S262144x4_S262144x4x1_0_1 bcast_S262144x4x1_S262144x4x2_0_1_2 bcast_S262144x2_S262144x1x2_0_2 bcast_S262144x1x2_S262144x4x2_0_1_2 shapeCasts_S262144x4x2_S262144x8) (Sim.qubit3 (V (Proc.devRef .tc main_arg0))) bcast_S262144x8_S262144x8x1_0_1 bcast_S262144x8x1_S262144x8x2_0_1_2 bcast_S262144x2_S262144x1x2_0_2 bcast_S262144x1x2_S262144x8x2_0_1_2 shapeCasts_S262144x8x2_S262144x16 from rfl)
  obtain ⟨f9_v61, f9_v62, f9_v3, f9_v4, f9_v56⟩ := seg9_spec f8_v3 f8_v4 f8_v56
  obtain ⟨f10_v69, f10_v3, f10_v4⟩ := seg10_spec f9_v3 f9_v4 f9_v56 f9_v61 f9_v62
  replace f10_v69 := f10_v69.trans (show _ = Sim.kronStep (n := 16) (n2 := 32) (Sim.kronStep (n := 8) (n2 := 16) (Sim.kronStep (n := 4) (n2 := 8) (Sim.kronStep (n := 2) (n2 := 4) (Sim.kron0 (Sim.qubit0 (V (Proc.devRef .tc main_arg0)))) (Sim.qubit1 (V (Proc.devRef .tc main_arg0))) bcast_S262144x2_S262144x2x1_0_1 bcast_S262144x2x1_S262144x2x2_0_1_2 bcast_S262144x2_S262144x1x2_0_2 bcast_S262144x1x2_S262144x2x2_0_1_2 shapeCasts_S262144x2x2_S262144x4) (Sim.qubit2 (V (Proc.devRef .tc main_arg0))) bcast_S262144x4_S262144x4x1_0_1 bcast_S262144x4x1_S262144x4x2_0_1_2 bcast_S262144x2_S262144x1x2_0_2 bcast_S262144x1x2_S262144x4x2_0_1_2 shapeCasts_S262144x4x2_S262144x8) (Sim.qubit3 (V (Proc.devRef .tc main_arg0))) bcast_S262144x8_S262144x8x1_0_1 bcast_S262144x8x1_S262144x8x2_0_1_2 bcast_S262144x2_S262144x1x2_0_2 bcast_S262144x1x2_S262144x8x2_0_1_2 shapeCasts_S262144x8x2_S262144x16) (Sim.qubit4 (V (Proc.devRef .tc main_arg0))) bcast_S262144x16_S262144x16x1_0_1 bcast_S262144x16x1_S262144x16x2_0_1_2 bcast_S262144x2_S262144x1x2_0_2 bcast_S262144x1x2_S262144x16x2_0_1_2 shapeCasts_S262144x16x2_S262144x32 from rfl)
  obtain ⟨f11_v74, f11_v75, f11_v3, f11_v4, f11_v69⟩ := seg11_spec f10_v3 f10_v4 f10_v69
  obtain ⟨f12_v82, f12_v3, f12_v4⟩ := seg12_spec f11_v3 f11_v4 f11_v69 f11_v74 f11_v75
  replace f12_v82 := f12_v82.trans (show _ = Sim.kronStep (n := 32) (n2 := 64) (Sim.kronStep (n := 16) (n2 := 32) (Sim.kronStep (n := 8) (n2 := 16) (Sim.kronStep (n := 4) (n2 := 8) (Sim.kronStep (n := 2) (n2 := 4) (Sim.kron0 (Sim.qubit0 (V (Proc.devRef .tc main_arg0)))) (Sim.qubit1 (V (Proc.devRef .tc main_arg0))) bcast_S262144x2_S262144x2x1_0_1 bcast_S262144x2x1_S262144x2x2_0_1_2 bcast_S262144x2_S262144x1x2_0_2 bcast_S262144x1x2_S262144x2x2_0_1_2 shapeCasts_S262144x2x2_S262144x4) (Sim.qubit2 (V (Proc.devRef .tc main_arg0))) bcast_S262144x4_S262144x4x1_0_1 bcast_S262144x4x1_S262144x4x2_0_1_2 bcast_S262144x2_S262144x1x2_0_2 bcast_S262144x1x2_S262144x4x2_0_1_2 shapeCasts_S262144x4x2_S262144x8) (Sim.qubit3 (V (Proc.devRef .tc main_arg0))) bcast_S262144x8_S262144x8x1_0_1 bcast_S262144x8x1_S262144x8x2_0_1_2 bcast_S262144x2_S262144x1x2_0_2 bcast_S262144x1x2_S262144x8x2_0_1_2 shapeCasts_S262144x8x2_S262144x16) (Sim.qubit4 (V (Proc.devRef .tc main_arg0))) bcast_S262144x16_S262144x16x1_0_1 bcast_S262144x16x1_S262144x16x2_0_1_2 bcast_S262144x2_S262144x1x2_0_2 bcast_S262144x1x2_S262144x16x2_0_1_2 shapeCasts_S262144x16x2_S262144x32) (Sim.qubit5 (V (Proc.devRef .tc main_arg0))) bcast_S262144x32_S262144x32x1_0_1 bcast_S262144x32x1_S262144x32x2_0_1_2 bcast_S262144x2_S262144x1x2_0_2 bcast_S262144x1x2_S262144x32x2_0_1_2 shapeCasts_S262144x32x2_S262144x64 from rfl)
  obtain ⟨f13_v87, f13_v88, f13_v3, f13_v4, f13_v82⟩ := seg13_spec f12_v3 f12_v4 f12_v82
  obtain ⟨f14_v95, f14_v3, f14_v4⟩ := seg14_spec f13_v3 f13_v4 f13_v82 f13_v87 f13_v88
  replace f14_v95 := f14_v95.trans (show _ = Sim.kronStep (n := 64) (n2 := 128) (Sim.kronStep (n := 32) (n2 := 64) (Sim.kronStep (n := 16) (n2 := 32) (Sim.kronStep (n := 8) (n2 := 16) (Sim.kronStep (n := 4) (n2 := 8) (Sim.kronStep (n := 2) (n2 := 4) (Sim.kron0 (Sim.qubit0 (V (Proc.devRef .tc main_arg0)))) (Sim.qubit1 (V (Proc.devRef .tc main_arg0))) bcast_S262144x2_S262144x2x1_0_1 bcast_S262144x2x1_S262144x2x2_0_1_2 bcast_S262144x2_S262144x1x2_0_2 bcast_S262144x1x2_S262144x2x2_0_1_2 shapeCasts_S262144x2x2_S262144x4) (Sim.qubit2 (V (Proc.devRef .tc main_arg0))) bcast_S262144x4_S262144x4x1_0_1 bcast_S262144x4x1_S262144x4x2_0_1_2 bcast_S262144x2_S262144x1x2_0_2 bcast_S262144x1x2_S262144x4x2_0_1_2 shapeCasts_S262144x4x2_S262144x8) (Sim.qubit3 (V (Proc.devRef .tc main_arg0))) bcast_S262144x8_S262144x8x1_0_1 bcast_S262144x8x1_S262144x8x2_0_1_2 bcast_S262144x2_S262144x1x2_0_2 bcast_S262144x1x2_S262144x8x2_0_1_2 shapeCasts_S262144x8x2_S262144x16) (Sim.qubit4 (V (Proc.devRef .tc main_arg0))) bcast_S262144x16_S262144x16x1_0_1 bcast_S262144x16x1_S262144x16x2_0_1_2 bcast_S262144x2_S262144x1x2_0_2 bcast_S262144x1x2_S262144x16x2_0_1_2 shapeCasts_S262144x16x2_S262144x32) (Sim.qubit5 (V (Proc.devRef .tc main_arg0))) bcast_S262144x32_S262144x32x1_0_1 bcast_S262144x32x1_S262144x32x2_0_1_2 bcast_S262144x2_S262144x1x2_0_2 bcast_S262144x1x2_S262144x32x2_0_1_2 shapeCasts_S262144x32x2_S262144x64) (Sim.qubit6 (V (Proc.devRef .tc main_arg0))) bcast_S262144x64_S262144x64x1_0_1 bcast_S262144x64x1_S262144x64x2_0_1_2 bcast_S262144x2_S262144x1x2_0_2 bcast_S262144x1x2_S262144x64x2_0_1_2 shapeCasts_S262144x64x2_S262144x128 from rfl)
  obtain ⟨f15_v100, f15_v101, f15_v95⟩ := seg15_spec f14_v3 f14_v4 f14_v95
  have f16_v109 := seg16_spec f15_v95 f15_v100 f15_v101
  replace f16_v109 := f16_v109.trans (show _ = Sim.state (V (Proc.devRef .tc main_arg0)) from rfl)
  obtain ⟨f17_v110, f17_v112⟩ := seg17_spec f16_v109
  have f18_v113 := seg18_spec f17_v110 f17_v112
  replace f18_v113 := f18_v113.trans (show _ = Sim.gate1 (Sim.state (V (Proc.devRef .tc main_arg0))) from rfl)
  obtain ⟨f19_v114, f19_v116⟩ := seg19_spec f18_v113
  have f20_v117 := seg20_spec f19_v114 f19_v116
  replace f20_v117 := f20_v117.trans (show _ = Sim.gate2 (Sim.gate1 (Sim.state (V (Proc.devRef .tc main_arg0)))) from rfl)
  obtain ⟨f21_v118, f21_v120⟩ := seg21_spec f20_v117
  have f22_v121 := seg22_spec f21_v118 f21_v120
  replace f22_v121 := f22_v121.trans (show _ = Sim.gate3 (Sim.gate2 (Sim.gate1 (Sim.state (V (Proc.devRef .tc main_arg0))))) from rfl)
  obtain ⟨f23_v122, f23_v124⟩ := seg23_spec f22_v121
  have f24_v125 := seg24_spec f23_v122 f23_v124
  replace f24_v125 := f24_v125.trans (show _ = Sim.gate4 (Sim.gate3 (Sim.gate2 (Sim.gate1 (Sim.state (V (Proc.devRef .tc main_arg0)))))) from rfl)
  obtain ⟨f25_v126, f25_v128⟩ := seg25_spec f24_v125
  have f26_v129 := seg26_spec f25_v126 f25_v128
  replace f26_v129 := f26_v129.trans (show _ = Sim.gate5 (Sim.gate4 (Sim.gate3 (Sim.gate2 (Sim.gate1 (Sim.state (V (Proc.devRef .tc main_arg0))))))) from rfl)
  obtain ⟨f27_v130, f27_v132⟩ := seg27_spec f26_v129
  have f28_v133 := seg28_spec f27_v130 f27_v132
  replace f28_v133 := f28_v133.trans (show _ = Sim.gate6 (Sim.gate5 (Sim.gate4 (Sim.gate3 (Sim.gate2 (Sim.gate1 (Sim.state (V (Proc.devRef .tc main_arg0)))))))) from rfl)
  obtain ⟨f29_v134, f29_v136⟩ := seg29_spec f28_v133
  have f30_v137 := seg30_spec f29_v134 f29_v136
  replace f30_v137 := f30_v137.trans (show _ = Sim.gate7 (Sim.gate6 (Sim.gate5 (Sim.gate4 (Sim.gate3 (Sim.gate2 (Sim.gate1 (Sim.state (V (Proc.devRef .tc main_arg0))))))))) from rfl)
  obtain ⟨f31_v138, f31_v140⟩ := seg31_spec f30_v137
  have f32_v142 := seg32_spec f31_v138 f31_v140
  replace f32_v142 := f32_v142.trans (show _ = Sim.probs (V (Proc.devRef .tc main_arg0)) from rfl)
  obtain ⟨f33_v148, f33_v142⟩ := seg33_spec f32_v142
  obtain ⟨f34_v154, f34_v142, f34_v148⟩ := seg34_spec f33_v142 f33_v148
  obtain ⟨f35_v160, f35_v142, f35_v148, f35_v154⟩ := seg35_spec f34_v142 f34_v148 f34_v154
  obtain ⟨f36_v166, f36_v142, f36_v148, f36_v154, f36_v160⟩ := seg36_spec f35_v142 f35_v148 f35_v154 f35_v160
  obtain ⟨f37_v172, f37_v142, f37_v148, f37_v154, f37_v160, f37_v166⟩ := seg37_spec f36_v142 f36_v148 f36_v154 f36_v160 f36_v166
  obtain ⟨f38_v178, f38_v142, f38_v148, f38_v154, f38_v160, f38_v166, f38_v172⟩ := seg38_spec f37_v142 f37_v148 f37_v154 f37_v160 f37_v166 f37_v172
  obtain ⟨f39_v184, f39_v142, f39_v148, f39_v154, f39_v160, f39_v166, f39_v172, f39_v178⟩ := seg39_spec f38_v142 f38_v148 f38_v154 f38_v160 f38_v166 f38_v172 f38_v178
  obtain ⟨f40_v190, f40_v148, f40_v154, f40_v160, f40_v166, f40_v172, f40_v178, f40_v184⟩ := seg40_spec f39_v142 f39_v148 f39_v154 f39_v160 f39_v166 f39_v172 f39_v178 f39_v184
  obtain ⟨f41_v191, f41_v192, f41_v193, f41_v194, f41_v195, f41_v196, f41_v197, f41_v198⟩ := seg41_spec f40_v148 f40_v154 f40_v160 f40_v166 f40_v172 f40_v178 f40_v184 f40_v190
  have f42_v199 := seg42_spec f41_v191 f41_v192 f41_v193 f41_v194 f41_v195 f41_v196 f41_v197 f41_v198
  replace f42_v199 := f42_v199.trans (show _ = Sim.out (V (Proc.devRef .tc main_arg0)) from rfl)
  exact f42_v199

/-- The argument after all the segments is as launched: no segment writes it. -/
theorem after_segs_arg (V : Valuation τ sig (Elt F)) :
    after (seg42 (F := F)) (after (seg41 (F := F)) (after (seg40 (F := F)) (after (seg39 (F := F)) (after (seg38 (F := F)) (after (seg37 (F := F)) (after (seg36 (F := F)) (after (seg35 (F := F)) (after (seg34 (F := F)) (after (seg33 (F := F)) (after (seg32 (F := F)) (after (seg31 (F := F)) (after (seg30 (F := F)) (after (seg29 (F := F)) (after (seg28 (F := F)) (after (seg27 (F := F)) (after (seg26 (F := F)) (after (seg25 (F := F)) (after (seg24 (F := F)) (after (seg23 (F := F)) (after (seg22 (F := F)) (after (seg21 (F := F)) (after (seg20 (F := F)) (after (seg19 (F := F)) (after (seg18 (F := F)) (after (seg17 (F := F)) (after (seg16 (F := F)) (after (seg15 (F := F)) (after (seg14 (F := F)) (after (seg13 (F := F)) (after (seg12 (F := F)) (after (seg11 (F := F)) (after (seg10 (F := F)) (after (seg9 (F := F)) (after (seg8 (F := F)) (after (seg7 (F := F)) (after (seg6 (F := F)) (after (seg5 (F := F)) (after (seg4 (F := F)) (after (seg3 (F := F)) (after (seg2 (F := F)) (after (seg1 (F := F)) (after (seg0 (F := F)) (V))))))))))))))))))))))))))))))))))))))))))) (Proc.devRef .tc main_arg0) = (V (Proc.devRef .tc main_arg0)) := by
  rw [seg42_arg, seg41_arg, seg40_arg, seg39_arg, seg38_arg, seg37_arg, seg36_arg, seg35_arg, seg34_arg, seg33_arg, seg32_arg, seg31_arg, seg30_arg, seg29_arg, seg28_arg, seg27_arg, seg26_arg, seg25_arg, seg24_arg, seg23_arg, seg22_arg, seg21_arg, seg20_arg, seg19_arg, seg18_arg, seg17_arg, seg16_arg, seg15_arg, seg14_arg, seg13_arg, seg12_arg, seg11_arg, seg10_arg, seg9_arg, seg8_arg, seg7_arg, seg6_arg, seg5_arg, seg4_arg, seg3_arg, seg2_arg, seg1_arg, seg0_arg]

end Cert.ReferenceIdeal.HandSeg

end
-- ==== Proof.RefOps.lean ====
/-
  The reference program as a list.  Its @main is a straight line of host operations, the operations of the functions
  it calls standing at their call sites; `ops` lists them in order, `main_eq` says @main is their sequence, and
  `ops_sub` that each touches only buffers of the TensorCore.
-/
import proofs.«115797_j9835475108036_1_alg».proof.Proof.RefProgram

noncomputable section

namespace Cert.ReferenceIdeal.HandOps

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main's 217 operations, in order (a called function's operations stand in its call's place, spelt `TRef.…`). -/
abbrev ops : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S262144x8, .f32⟩) main_call0_v1) (broadcastInDim S262144x8 ![] bcast_S_S262144x8),
    TRef.binary (TRef.of (T := ⟨S262144x8, .f32⟩) main_call0_v1) (TRef.of (T := ⟨S262144x8, .f32⟩) main_arg0) (TRef.of (T := ⟨S262144x8, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S262144x8, .f32⟩) main_call0_v4) (broadcastInDim S262144x8 ![] bcast_S_S262144x8),
    TRef.binary (TRef.of (T := ⟨S262144x8, .f32⟩) main_call0_v4) (TRef.of (T := ⟨S262144x8, .f32⟩) main_call0_v2) (TRef.of (T := ⟨S262144x8, .f32⟩) main_v0) minimumf,
    nullary main_cst_1 (constant S_ .f32 0x3FC90FDB#32),
    unary main_cst_1 main_v1 (broadcastInDim S262144x8 ![] bcast_S_S262144x8 : (⟨S_, .f32⟩ : BufTy).Contents (Elt F) → (⟨S262144x8, .f32⟩ : BufTy).Contents (Elt F)),
    binary main_v1 main_v0 main_v2 (mulf : (⟨S262144x8, .f32⟩ : BufTy).Contents (Elt F) → (⟨S262144x8, .f32⟩ : BufTy).Contents (Elt F) → (⟨S262144x8, .f32⟩ : BufTy).Contents (Elt F)),
    unary main_v2 main_v3 (Host.cos : (⟨S262144x8, .f32⟩ : BufTy).Contents (Elt F) → (⟨S262144x8, .f32⟩ : BufTy).Contents (Elt F)),
    unary main_v2 main_v4 (Host.sin : (⟨S262144x8, .f32⟩ : BufTy).Contents (Elt F) → (⟨S262144x8, .f32⟩ : BufTy).Contents (Elt F)),
    nullary main_cst_2 (constant S_ .f32 0x3F800000#32),
    unary main_cst_2 main_v5 (broadcastInDim S262144x1 ![] bcast_S_S262144x1 : (⟨S_, .f32⟩ : BufTy).Contents (Elt F) → (⟨S262144x1, .f32⟩ : BufTy).Contents (Elt F)),
    unary main_v3 main_v6 ((extractStridedSlice S262144x1 ![0, 0] · slices_S262144x8_S262144x1_0_0) : (⟨S262144x8, .f32⟩ : BufTy).Contents (Elt F) → (⟨S262144x1, .f32⟩ : BufTy).Contents (Elt F)),
    reshape main_v6 main_v7 rfl shapeCasts_S262144x1_S262144,
    unary main_v4 main_v8 ((extractStridedSlice S262144x1 ![0, 0] · slices_S262144x8_S262144x1_0_0) : (⟨S262144x8, .f32⟩ : BufTy).Contents (Elt F) → (⟨S262144x1, .f32⟩ : BufTy).Contents (Elt F)),
    reshape main_v8 main_v9 rfl shapeCasts_S262144x1_S262144,
    unary main_v7 main_v10 (broadcastInDim S262144x1 ![0] bcast_S262144_S262144x1_0 : (⟨S262144, .f32⟩ : BufTy).Contents (Elt F) → (⟨S262144x1, .f32⟩ : BufTy).Contents (Elt F)),
    unary main_v9 main_v11 (broadcastInDim S262144x1 ![0] bcast_S262144_S262144x1_0 : (⟨S262144, .f32⟩ : BufTy).Contents (Elt F) → (⟨S262144x1, .f32⟩ : BufTy).Contents (Elt F)),
    binary main_v10 main_v11 main_v12 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v5 main_v13 (broadcastInDim S262144x1x1 ![0, 1] bcast_S262144x1_S262144x1x1_0_1 : (⟨S262144x1, .f32⟩ : BufTy).Contents (Elt F) → (⟨S262144x1x1, .f32⟩ : BufTy).Contents (Elt F)),
    unary main_v12 main_v14 (broadcastInDim S262144x1x2 ![0, 2] bcast_S262144x2_S262144x1x2_0_2 : (⟨S262144x2, .f32⟩ : BufTy).Contents (Elt F) → (⟨S262144x1x2, .f32⟩ : BufTy).Contents (Elt F)),
    unary main_v13 main_v15 (broadcastInDim S262144x1x2 ![0, 1, 2] bcast_S262144x1x1_S262144x1x2_0_1_2 : (⟨S262144x1x1, .f32⟩ : BufTy).Contents (Elt F) → (⟨S262144x1x2, .f32⟩ : BufTy).Contents (Elt F)),
    binary main_v15 main_v14 main_v16 (mulf : (⟨S262144x1x2, .f32⟩ : BufTy).Contents (Elt F) → (⟨S262144x1x2, .f32⟩ : BufTy).Contents (Elt F) → (⟨S262144x1x2, .f32⟩ : BufTy).Contents (Elt F)),
    reshape main_v16 main_v17 rfl shapeCasts_S262144x1x2_S262144x2,
    unary main_v3 main_v18 ((extractStridedSlice S262144x1 ![0, 1] · slices_S262144x8_S262144x1_0_1) : (⟨S262144x8, .f32⟩ : BufTy).Contents (Elt F) → (⟨S262144x1, .f32⟩ : BufTy).Contents (Elt F)),
    reshape main_v18 main_v19 rfl shapeCasts_S262144x1_S262144,
    unary main_v4 main_v20 ((extractStridedSlice S262144x1 ![0, 1] · slices_S262144x8_S262144x1_0_1) : (⟨S262144x8, .f32⟩ : BufTy).Contents (Elt F) → (⟨S262144x1, .f32⟩ : BufTy).Contents (Elt F)),
    reshape main_v20 main_v21 rfl shapeCasts_S262144x1_S262144,
    unary main_v19 main_v22 (broadcastInDim S262144x1 ![0] bcast_S262144_S262144x1_0 : (⟨S262144, .f32⟩ : BufTy).Contents (Elt F) → (⟨S262144x1, .f32⟩ : BufTy).Contents (Elt F)),
    unary main_v21 main_v23 (broadcastInDim S262144x1 ![0] bcast_S262144_S262144x1_0 : (⟨S262144, .f32⟩ : BufTy).Contents (Elt F) → (⟨S262144x1, .f32⟩ : BufTy).Contents (Elt F)),
    binary main_v22 main_v23 main_v24 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v17 main_v25 (broadcastInDim S262144x2x1 ![0, 1] bcast_S262144x2_S262144x2x1_0_1 : (⟨S262144x2, .f32⟩ : BufTy).Contents (Elt F) → (⟨S262144x2x1, .f32⟩ : BufTy).Contents (Elt F)),
    unary main_v24 main_v26 (broadcastInDim S262144x1x2 ![0, 2] bcast_S262144x2_S262144x1x2_0_2 : (⟨S262144x2, .f32⟩ : BufTy).Contents (Elt F) → (⟨S262144x1x2, .f32⟩ : BufTy).Contents (Elt F)),
    unary main_v25 main_v27 (broadcastInDim S262144x2x2 ![0, 1, 2] bcast_S262144x2x1_S262144x2x2_0_1_2 : (⟨S262144x2x1, .f32⟩ : BufTy).Contents (Elt F) → (⟨S262144x2x2, .f32⟩ : BufTy).Contents (Elt F)),
    unary main_v26 main_v28 (broadcastInDim S262144x2x2 ![0, 1, 2] bcast_S262144x1x2_S262144x2x2_0_1_2 : (⟨S262144x1x2, .f32⟩ : BufTy).Contents (Elt F) → (⟨S262144x2x2, .f32⟩ : BufTy).Contents (Elt F)),
    binary main_v27 main_v28 main_v29 (mulf : (⟨S262144x2x2, .f32⟩ : BufTy).Contents (Elt F) → (⟨S262144x2x2, .f32⟩ : BufTy).Contents (Elt F) → (⟨S262144x2x2, .f32⟩ : BufTy).Contents (Elt F)),
    reshape main_v29 main_v30 rfl shapeCasts_S262144x2x2_S262144x4,
    unary main_v3 main_v31 ((extractStridedSlice S262144x1 ![0, 2] · slices_S262144x8_S262144x1_0_2) : (⟨S262144x8, .f32⟩ : BufTy).Contents (Elt F) → (⟨S262144x1, .f32⟩ : BufTy).Contents (Elt F)),
    reshape main_v31 main_v32 rfl shapeCasts_S262144x1_S262144,
    unary main_v4 main_v33 ((extractStridedSlice S262144x1 ![0, 2] · slices_S262144x8_S262144x1_0_2) : (⟨S262144x8, .f32⟩ : BufTy).Contents (Elt F) → (⟨S262144x1, .f32⟩ : BufTy).Contents (Elt F)),
    reshape main_v33 main_v34 rfl shapeCasts_S262144x1_S262144,
    unary main_v32 main_v35 (broadcastInDim S262144x1 ![0] bcast_S262144_S262144x1_0 : (⟨S262144, .f32⟩ : BufTy).Contents (Elt F) → (⟨S262144x1, .f32⟩ : BufTy).Contents (Elt F)),
    unary main_v34 main_v36 (broadcastInDim S262144x1 ![0] bcast_S262144_S262144x1_0 : (⟨S262144, .f32⟩ : BufTy).Contents (Elt F) → (⟨S262144x1, .f32⟩ : BufTy).Contents (Elt F)),
    binary main_v35 main_v36 main_v37 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v30 main_v38 (broadcastInDim S262144x4x1 ![0, 1] bcast_S262144x4_S262144x4x1_0_1 : (⟨S262144x4, .f32⟩ : BufTy).Contents (Elt F) → (⟨S262144x4x1, .f32⟩ : BufTy).Contents (Elt F)),
    unary main_v37 main_v39 (broadcastInDim S262144x1x2 ![0, 2] bcast_S262144x2_S262144x1x2_0_2 : (⟨S262144x2, .f32⟩ : BufTy).Contents (Elt F) → (⟨S262144x1x2, .f32⟩ : BufTy).Contents (Elt F)),
    unary main_v38 main_v40 (broadcastInDim S262144x4x2 ![0, 1, 2] bcast_S262144x4x1_S262144x4x2_0_1_2 : (⟨S262144x4x1, .f32⟩ : BufTy).Contents (Elt F) → (⟨S262144x4x2, .f32⟩ : BufTy).Contents (Elt F)),
    unary main_v39 main_v41 (broadcastInDim S262144x4x2 ![0, 1, 2] bcast_S262144x1x2_S262144x4x2_0_1_2 : (⟨S262144x1x2, .f32⟩ : BufTy).Contents (Elt F) → (⟨S262144x4x2, .f32⟩ : BufTy).Contents (Elt F)),
    binary main_v40 main_v41 main_v42 (mulf : (⟨S262144x4x2, .f32⟩ : BufTy).Contents (Elt F) → (⟨S262144x4x2, .f32⟩ : BufTy).Contents (Elt F) → (⟨S262144x4x2, .f32⟩ : BufTy).Contents (Elt F)),
    reshape main_v42 main_v43 rfl shapeCasts_S262144x4x2_S262144x8,
    unary main_v3 main_v44 ((extractStridedSlice S262144x1 ![0, 3] · slices_S262144x8_S262144x1_0_3) : (⟨S262144x8, .f32⟩ : BufTy).Contents (Elt F) → (⟨S262144x1, .f32⟩ : BufTy).Contents (Elt F)),
    reshape main_v44 main_v45 rfl shapeCasts_S262144x1_S262144,
    unary main_v4 main_v46 ((extractStridedSlice S262144x1 ![0, 3] · slices_S262144x8_S262144x1_0_3) : (⟨S262144x8, .f32⟩ : BufTy).Contents (Elt F) → (⟨S262144x1, .f32⟩ : BufTy).Contents (Elt F)),
    reshape main_v46 main_v47 rfl shapeCasts_S262144x1_S262144,
    unary main_v45 main_v48 (broadcastInDim S262144x1 ![0] bcast_S262144_S262144x1_0 : (⟨S262144, .f32⟩ : BufTy).Contents (Elt F) → (⟨S262144x1, .f32⟩ : BufTy).Contents (Elt F)),
    unary main_v47 main_v49 (broadcastInDim S262144x1 ![0] bcast_S262144_S262144x1_0 : (⟨S262144, .f32⟩ : BufTy).Contents (Elt F) → (⟨S262144x1, .f32⟩ : BufTy).Contents (Elt F)),
    binary main_v48 main_v49 main_v50 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v43 main_v51 (broadcastInDim S262144x8x1 ![0, 1] bcast_S262144x8_S262144x8x1_0_1 : (⟨S262144x8, .f32⟩ : BufTy).Contents (Elt F) → (⟨S262144x8x1, .f32⟩ : BufTy).Contents (Elt F)),
    unary main_v50 main_v52 (broadcastInDim S262144x1x2 ![0, 2] bcast_S262144x2_S262144x1x2_0_2 : (⟨S262144x2, .f32⟩ : BufTy).Contents (Elt F) → (⟨S262144x1x2, .f32⟩ : BufTy).Contents (Elt F)),
    unary main_v51 main_v53 (broadcastInDim S262144x8x2 ![0, 1, 2] bcast_S262144x8x1_S262144x8x2_0_1_2 : (⟨S262144x8x1, .f32⟩ : BufTy).Contents (Elt F) → (⟨S262144x8x2, .f32⟩ : BufTy).Contents (Elt F)),
    unary main_v52 main_v54 (broadcastInDim S262144x8x2 ![0, 1, 2] bcast_S262144x1x2_S262144x8x2_0_1_2 : (⟨S262144x1x2, .f32⟩ : BufTy).Contents (Elt F) → (⟨S262144x8x2, .f32⟩ : BufTy).Contents (Elt F)),
    binary main_v53 main_v54 main_v55 (mulf : (⟨S262144x8x2, .f32⟩ : BufTy).Contents (Elt F) → (⟨S262144x8x2, .f32⟩ : BufTy).Contents (Elt F) → (⟨S262144x8x2, .f32⟩ : BufTy).Contents (Elt F)),
    reshape main_v55 main_v56 rfl shapeCasts_S262144x8x2_S262144x16,
    unary main_v3 main_v57 ((extractStridedSlice S262144x1 ![0, 4] · slices_S262144x8_S262144x1_0_4) : (⟨S262144x8, .f32⟩ : BufTy).Contents (Elt F) → (⟨S262144x1, .f32⟩ : BufTy).Contents (Elt F)),
    reshape main_v57 main_v58 rfl shapeCasts_S262144x1_S262144,
    unary main_v4 main_v59 ((extractStridedSlice S262144x1 ![0, 4] · slices_S262144x8_S262144x1_0_4) : (⟨S262144x8, .f32⟩ : BufTy).Contents (Elt F) → (⟨S262144x1, .f32⟩ : BufTy).Contents (Elt F)),
    reshape main_v59 main_v60 rfl shapeCasts_S262144x1_S262144,
    unary main_v58 main_v61 (broadcastInDim S262144x1 ![0] bcast_S262144_S262144x1_0 : (⟨S262144, .f32⟩ : BufTy).Contents (Elt F) → (⟨S262144x1, .f32⟩ : BufTy).Contents (Elt F)),
    unary main_v60 main_v62 (broadcastInDim S262144x1 ![0] bcast_S262144_S262144x1_0 : (⟨S262144, .f32⟩ : BufTy).Contents (Elt F) → (⟨S262144x1, .f32⟩ : BufTy).Contents (Elt F)),
    binary main_v61 main_v62 main_v63 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v56 main_v64 (broadcastInDim S262144x16x1 ![0, 1] bcast_S262144x16_S262144x16x1_0_1 : (⟨S262144x16, .f32⟩ : BufTy).Contents (Elt F) → (⟨S262144x16x1, .f32⟩ : BufTy).Contents (Elt F)),
    unary main_v63 main_v65 (broadcastInDim S262144x1x2 ![0, 2] bcast_S262144x2_S262144x1x2_0_2 : (⟨S262144x2, .f32⟩ : BufTy).Contents (Elt F) → (⟨S262144x1x2, .f32⟩ : BufTy).Contents (Elt F)),
    unary main_v64 main_v66 (broadcastInDim S262144x16x2 ![0, 1, 2] bcast_S262144x16x1_S262144x16x2_0_1_2 : (⟨S262144x16x1, .f32⟩ : BufTy).Contents (Elt F) → (⟨S262144x16x2, .f32⟩ : BufTy).Contents (Elt F)),
    unary main_v65 main_v67 (broadcastInDim S262144x16x2 ![0, 1, 2] bcast_S262144x1x2_S262144x16x2_0_1_2 : (⟨S262144x1x2, .f32⟩ : BufTy).Contents (Elt F) → (⟨S262144x16x2, .f32⟩ : BufTy).Contents (Elt F)),
    binary main_v66 main_v67 main_v68 (mulf : (⟨S262144x16x2, .f32⟩ : BufTy).Contents (Elt F) → (⟨S262144x16x2, .f32⟩ : BufTy).Contents (Elt F) → (⟨S262144x16x2, .f32⟩ : BufTy).Contents (Elt F)),
    reshape main_v68 main_v69 rfl shapeCasts_S262144x16x2_S262144x32,
    unary main_v3 main_v70 ((extractStridedSlice S262144x1 ![0, 5] · slices_S262144x8_S262144x1_0_5) : (⟨S262144x8, .f32⟩ : BufTy).Contents (Elt F) → (⟨S262144x1, .f32⟩ : BufTy).Contents (Elt F)),
    reshape main_v70 main_v71 rfl shapeCasts_S262144x1_S262144,
    unary main_v4 main_v72 ((extractStridedSlice S262144x1 ![0, 5] · slices_S262144x8_S262144x1_0_5) : (⟨S262144x8, .f32⟩ : BufTy).Contents (Elt F) → (⟨S262144x1, .f32⟩ : BufTy).Contents (Elt F)),
    reshape main_v72 main_v73 rfl shapeCasts_S262144x1_S262144,
    unary main_v71 main_v74 (broadcastInDim S262144x1 ![0] bcast_S262144_S262144x1_0 : (⟨S262144, .f32⟩ : BufTy).Contents (Elt F) → (⟨S262144x1, .f32⟩ : BufTy).Contents (Elt F)),
    unary main_v73 main_v75 (broadcastInDim S262144x1 ![0] bcast_S262144_S262144x1_0 : (⟨S262144, .f32⟩ : BufTy).Contents (Elt F) → (⟨S262144x1, .f32⟩ : BufTy).Contents (Elt F)),
    binary main_v74 main_v75 main_v76 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v69 main_v77 (broadcastInDim S262144x32x1 ![0, 1] bcast_S262144x32_S262144x32x1_0_1 : (⟨S262144x32, .f32⟩ : BufTy).Contents (Elt F) → (⟨S262144x32x1, .f32⟩ : BufTy).Contents (Elt F)),
    unary main_v76 main_v78 (broadcastInDim S262144x1x2 ![0, 2] bcast_S262144x2_S262144x1x2_0_2 : (⟨S262144x2, .f32⟩ : BufTy).Contents (Elt F) → (⟨S262144x1x2, .f32⟩ : BufTy).Contents (Elt F)),
    unary main_v77 main_v79 (broadcastInDim S262144x32x2 ![0, 1, 2] bcast_S262144x32x1_S262144x32x2_0_1_2 : (⟨S262144x32x1, .f32⟩ : BufTy).Contents (Elt F) → (⟨S262144x32x2, .f32⟩ : BufTy).Contents (Elt F)),
    unary main_v78 main_v80 (broadcastInDim S262144x32x2 ![0, 1, 2] bcast_S262144x1x2_S262144x32x2_0_1_2 : (⟨S262144x1x2, .f32⟩ : BufTy).Contents (Elt F) → (⟨S262144x32x2, .f32⟩ : BufTy).Contents (Elt F)),
    binary main_v79 main_v80 main_v81 (mulf : (⟨S262144x32x2, .f32⟩ : BufTy).Contents (Elt F) → (⟨S262144x32x2, .f32⟩ : BufTy).Contents (Elt F) → (⟨S262144x32x2, .f32⟩ : BufTy).Contents (Elt F)),
    reshape main_v81 main_v82 rfl shapeCasts_S262144x32x2_S262144x64,
    unary main_v3 main_v83 ((extractStridedSlice S262144x1 ![0, 6] · slices_S262144x8_S262144x1_0_6) : (⟨S262144x8, .f32⟩ : BufTy).Contents (Elt F) → (⟨S262144x1, .f32⟩ : BufTy).Contents (Elt F)),
    reshape main_v83 main_v84 rfl shapeCasts_S262144x1_S262144,
    unary main_v4 main_v85 ((extractStridedSlice S262144x1 ![0, 6] · slices_S262144x8_S262144x1_0_6) : (⟨S262144x8, .f32⟩ : BufTy).Contents (Elt F) → (⟨S262144x1, .f32⟩ : BufTy).Contents (Elt F)),
    reshape main_v85 main_v86 rfl shapeCasts_S262144x1_S262144,
    unary main_v84 main_v87 (broadcastInDim S262144x1 ![0] bcast_S262144_S262144x1_0 : (⟨S262144, .f32⟩ : BufTy).Contents (Elt F) → (⟨S262144x1, .f32⟩ : BufTy).Contents (Elt F)),
    unary main_v86 main_v88 (broadcastInDim S262144x1 ![0] bcast_S262144_S262144x1_0 : (⟨S262144, .f32⟩ : BufTy).Contents (Elt F) → (⟨S262144x1, .f32⟩ : BufTy).Contents (Elt F)),
    binary main_v87 main_v88 main_v89 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v82 main_v90 (broadcastInDim S262144x64x1 ![0, 1] bcast_S262144x64_S262144x64x1_0_1 : (⟨S262144x64, .f32⟩ : BufTy).Contents (Elt F) → (⟨S262144x64x1, .f32⟩ : BufTy).Contents (Elt F)),
    unary main_v89 main_v91 (broadcastInDim S262144x1x2 ![0, 2] bcast_S262144x2_S262144x1x2_0_2 : (⟨S262144x2, .f32⟩ : BufTy).Contents (Elt F) → (⟨S262144x1x2, .f32⟩ : BufTy).Contents (Elt F)),
    unary main_v90 main_v92 (broadcastInDim S262144x64x2 ![0, 1, 2] bcast_S262144x64x1_S262144x64x2_0_1_2 : (⟨S262144x64x1, .f32⟩ : BufTy).Contents (Elt F) → (⟨S262144x64x2, .f32⟩ : BufTy).Contents (Elt F)),
    unary main_v91 main_v93 (broadcastInDim S262144x64x2 ![0, 1, 2] bcast_S262144x1x2_S262144x64x2_0_1_2 : (⟨S262144x1x2, .f32⟩ : BufTy).Contents (Elt F) → (⟨S262144x64x2, .f32⟩ : BufTy).Contents (Elt F)),
    binary main_v92 main_v93 main_v94 (mulf : (⟨S262144x64x2, .f32⟩ : BufTy).Contents (Elt F) → (⟨S262144x64x2, .f32⟩ : BufTy).Contents (Elt F) → (⟨S262144x64x2, .f32⟩ : BufTy).Contents (Elt F)),
    reshape main_v94 main_v95 rfl shapeCasts_S262144x64x2_S262144x128,
    unary main_v3 main_v96 ((extractStridedSlice S262144x1 ![0, 7] · slices_S262144x8_S262144x1_0_7) : (⟨S262144x8, .f32⟩ : BufTy).Contents (Elt F) → (⟨S262144x1, .f32⟩ : BufTy).Contents (Elt F)),
    reshape main_v96 main_v97 rfl shapeCasts_S262144x1_S262144,
    unary main_v4 main_v98 ((extractStridedSlice S262144x1 ![0, 7] · slices_S262144x8_S262144x1_0_7) : (⟨S262144x8, .f32⟩ : BufTy).Contents (Elt F) → (⟨S262144x1, .f32⟩ : BufTy).Contents (Elt F)),
    reshape main_v98 main_v99 rfl shapeCasts_S262144x1_S262144,
    unary main_v97 main_v100 (broadcastInDim S262144x1 ![0] bcast_S262144_S262144x1_0 : (⟨S262144, .f32⟩ : BufTy).Contents (Elt F) → (⟨S262144x1, .f32⟩ : BufTy).Contents (Elt F)),
    unary main_v99 main_v101 (broadcastInDim S262144x1 ![0] bcast_S262144_S262144x1_0 : (⟨S262144, .f32⟩ : BufTy).Contents (Elt F) → (⟨S262144x1, .f32⟩ : BufTy).Contents (Elt F)),
    binary main_v100 main_v101 main_v102 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v95 main_v103 (broadcastInDim S262144x128x1 ![0, 1] bcast_S262144x128_S262144x128x1_0_1 : (⟨S262144x128, .f32⟩ : BufTy).Contents (Elt F) → (⟨S262144x128x1, .f32⟩ : BufTy).Contents (Elt F)),
    unary main_v102 main_v104 (broadcastInDim S262144x1x2 ![0, 2] bcast_S262144x2_S262144x1x2_0_2 : (⟨S262144x2, .f32⟩ : BufTy).Contents (Elt F) → (⟨S262144x1x2, .f32⟩ : BufTy).Contents (Elt F)),
    unary main_v103 main_v105 (broadcastInDim S262144x128x2 ![0, 1, 2] bcast_S262144x128x1_S262144x128x2_0_1_2 : (⟨S262144x128x1, .f32⟩ : BufTy).Contents (Elt F) → (⟨S262144x128x2, .f32⟩ : BufTy).Contents (Elt F)),
    unary main_v104 main_v106 (broadcastInDim S262144x128x2 ![0, 1, 2] bcast_S262144x1x2_S262144x128x2_0_1_2 : (⟨S262144x1x2, .f32⟩ : BufTy).Contents (Elt F) → (⟨S262144x128x2, .f32⟩ : BufTy).Contents (Elt F)),
    binary main_v105 main_v106 main_v107 (mulf : (⟨S262144x128x2, .f32⟩ : BufTy).Contents (Elt F) → (⟨S262144x128x2, .f32⟩ : BufTy).Contents (Elt F) → (⟨S262144x128x2, .f32⟩ : BufTy).Contents (Elt F)),
    reshape main_v107 main_v108 rfl shapeCasts_S262144x128x2_S262144x256,
    reshape main_v108 main_v109 rfl shapeCasts_S262144x256_S262144x2x2x2x2x2x2x2x2,
    unary main_v109 main_v110 ((extractStridedSlice S262144x1x2x2x2x2x2x2x2 ![0, 0, 0, 0, 0, 0, 0, 0, 0] · slices_S262144x2x2x2x2x2x2x2x2_S262144x1x2x2x2x2x2x2x2_0_0_0_0_0_0_0_0_0) : (⟨S262144x2x2x2x2x2x2x2x2, .f32⟩ : BufTy).Contents (Elt F) → (⟨S262144x1x2x2x2x2x2x2x2, .f32⟩ : BufTy).Contents (Elt F)),
    unary main_v109 main_v111 ((extractStridedSlice S262144x1x2x2x2x2x2x2x2 ![0, 1, 0, 0, 0, 0, 0, 0, 0] · slices_S262144x2x2x2x2x2x2x2x2_S262144x1x2x2x2x2x2x2x2_0_1_0_0_0_0_0_0_0) : (⟨S262144x2x2x2x2x2x2x2x2, .f32⟩ : BufTy).Contents (Elt F) → (⟨S262144x1x2x2x2x2x2x2x2, .f32⟩ : BufTy).Contents (Elt F)),
    TRef.unary (TRef.of (T := ⟨S262144x1x2x2x2x2x2x2x2, .f32⟩) main_v111) (TRef.of (T := ⟨S262144x1x2x2x2x2x2x2x2, .f32⟩) main_v112) (Host.reverse [2]),
    binary main_v110 main_v112 main_v113 ((fun a b => concatenate S262144x2x2x2x2x2x2x2x2 1 [⟨S262144x1x2x2x2x2x2x2x2, a⟩, ⟨S262144x1x2x2x2x2x2x2x2, b⟩] concatenates_S262144x1x2x2x2x2x2x2x2_S262144x1x2x2x2x2x2x2x2_S262144x2x2x2x2x2x2x2x2_d1) : (⟨S262144x1x2x2x2x2x2x2x2, .f32⟩ : BufTy).Contents (Elt F) → (⟨S262144x1x2x2x2x2x2x2x2, .f32⟩ : BufTy).Contents (Elt F) → (⟨S262144x2x2x2x2x2x2x2x2, .f32⟩ : BufTy).Contents (Elt F)),
    unary main_v113 main_v114 ((extractStridedSlice S262144x2x1x2x2x2x2x2x2 ![0, 0, 0, 0, 0, 0, 0, 0, 0] · slices_S262144x2x2x2x2x2x2x2x2_S262144x2x1x2x2x2x2x2x2_0_0_0_0_0_0_0_0_0) : (⟨S262144x2x2x2x2x2x2x2x2, .f32⟩ : BufTy).Contents (Elt F) → (⟨S262144x2x1x2x2x2x2x2x2, .f32⟩ : BufTy).Contents (Elt F)),
    unary main_v113 main_v115 ((extractStridedSlice S262144x2x1x2x2x2x2x2x2 ![0, 0, 1, 0, 0, 0, 0, 0, 0] · slices_S262144x2x2x2x2x2x2x2x2_S262144x2x1x2x2x2x2x2x2_0_0_1_0_0_0_0_0_0) : (⟨S262144x2x2x2x2x2x2x2x2, .f32⟩ : BufTy).Contents (Elt F) → (⟨S262144x2x1x2x2x2x2x2x2, .f32⟩ : BufTy).Contents (Elt F)),
    TRef.unary (TRef.of (T := ⟨S262144x2x1x2x2x2x2x2x2, .f32⟩) main_v115) (TRef.of (T := ⟨S262144x2x1x2x2x2x2x2x2, .f32⟩) main_v116) (Host.reverse [3]),
    binary main_v114 main_v116 main_v117 ((fun a b => concatenate S262144x2x2x2x2x2x2x2x2 2 [⟨S262144x2x1x2x2x2x2x2x2, a⟩, ⟨S262144x2x1x2x2x2x2x2x2, b⟩] concatenates_S262144x2x1x2x2x2x2x2x2_S262144x2x1x2x2x2x2x2x2_S262144x2x2x2x2x2x2x2x2_d2) : (⟨S262144x2x1x2x2x2x2x2x2, .f32⟩ : BufTy).Contents (Elt F) → (⟨S262144x2x1x2x2x2x2x2x2, .f32⟩ : BufTy).Contents (Elt F) → (⟨S262144x2x2x2x2x2x2x2x2, .f32⟩ : BufTy).Contents (Elt F)),
    unary main_v117 main_v118 ((extractStridedSlice S262144x2x2x1x2x2x2x2x2 ![0, 0, 0, 0, 0, 0, 0, 0, 0] · slices_S262144x2x2x2x2x2x2x2x2_S262144x2x2x1x2x2x2x2x2_0_0_0_0_0_0_0_0_0) : (⟨S262144x2x2x2x2x2x2x2x2, .f32⟩ : BufTy).Contents (Elt F) → (⟨S262144x2x2x1x2x2x2x2x2, .f32⟩ : BufTy).Contents (Elt F)),
    unary main_v117 main_v119 ((extractStridedSlice S262144x2x2x1x2x2x2x2x2 ![0, 0, 0, 1, 0, 0, 0, 0, 0] · slices_S262144x2x2x2x2x2x2x2x2_S262144x2x2x1x2x2x2x2x2_0_0_0_1_0_0_0_0_0) : (⟨S262144x2x2x2x2x2x2x2x2, .f32⟩ : BufTy).Contents (Elt F) → (⟨S262144x2x2x1x2x2x2x2x2, .f32⟩ : BufTy).Contents (Elt F)),
    TRef.unary (TRef.of (T := ⟨S262144x2x2x1x2x2x2x2x2, .f32⟩) main_v119) (TRef.of (T := ⟨S262144x2x2x1x2x2x2x2x2, .f32⟩) main_v120) (Host.reverse [4]),
    binary main_v118 main_v120 main_v121 ((fun a b => concatenate S262144x2x2x2x2x2x2x2x2 3 [⟨S262144x2x2x1x2x2x2x2x2, a⟩, ⟨S262144x2x2x1x2x2x2x2x2, b⟩] concatenates_S262144x2x2x1x2x2x2x2x2_S262144x2x2x1x2x2x2x2x2_S262144x2x2x2x2x2x2x2x2_d3) : (⟨S262144x2x2x1x2x2x2x2x2, .f32⟩ : BufTy).Contents (Elt F) → (⟨S262144x2x2x1x2x2x2x2x2, .f32⟩ : BufTy).Contents (Elt F) → (⟨S262144x2x2x2x2x2x2x2x2, .f32⟩ : BufTy).Contents (Elt F)),
    unary main_v121 main_v122 ((extractStridedSlice S262144x2x2x2x1x2x2x2x2 ![0, 0, 0, 0, 0, 0, 0, 0, 0] · slices_S262144x2x2x2x2x2x2x2x2_S262144x2x2x2x1x2x2x2x2_0_0_0_0_0_0_0_0_0) : (⟨S262144x2x2x2x2x2x2x2x2, .f32⟩ : BufTy).Contents (Elt F) → (⟨S262144x2x2x2x1x2x2x2x2, .f32⟩ : BufTy).Contents (Elt F)),
    unary main_v121 main_v123 ((extractStridedSlice S262144x2x2x2x1x2x2x2x2 ![0, 0, 0, 0, 1, 0, 0, 0, 0] · slices_S262144x2x2x2x2x2x2x2x2_S262144x2x2x2x1x2x2x2x2_0_0_0_0_1_0_0_0_0) : (⟨S262144x2x2x2x2x2x2x2x2, .f32⟩ : BufTy).Contents (Elt F) → (⟨S262144x2x2x2x1x2x2x2x2, .f32⟩ : BufTy).Contents (Elt F)),
    TRef.unary (TRef.of (T := ⟨S262144x2x2x2x1x2x2x2x2, .f32⟩) main_v123) (TRef.of (T := ⟨S262144x2x2x2x1x2x2x2x2, .f32⟩) main_v124) (Host.reverse [5]),
    binary main_v122 main_v124 main_v125 ((fun a b => concatenate S262144x2x2x2x2x2x2x2x2 4 [⟨S262144x2x2x2x1x2x2x2x2, a⟩, ⟨S262144x2x2x2x1x2x2x2x2, b⟩] concatenates_S262144x2x2x2x1x2x2x2x2_S262144x2x2x2x1x2x2x2x2_S262144x2x2x2x2x2x2x2x2_d4) : (⟨S262144x2x2x2x1x2x2x2x2, .f32⟩ : BufTy).Contents (Elt F) → (⟨S262144x2x2x2x1x2x2x2x2, .f32⟩ : BufTy).Contents (Elt F) → (⟨S262144x2x2x2x2x2x2x2x2, .f32⟩ : BufTy).Contents (Elt F)),
    unary main_v125 main_v126 ((extractStridedSlice S262144x2x2x2x2x1x2x2x2 ![0, 0, 0, 0, 0, 0, 0, 0, 0] · slices_S262144x2x2x2x2x2x2x2x2_S262144x2x2x2x2x1x2x2x2_0_0_0_0_0_0_0_0_0) : (⟨S262144x2x2x2x2x2x2x2x2, .f32⟩ : BufTy).Contents (Elt F) → (⟨S262144x2x2x2x2x1x2x2x2, .f32⟩ : BufTy).Contents (Elt F)),
    unary main_v125 main_v127 ((extractStridedSlice S262144x2x2x2x2x1x2x2x2 ![0, 0, 0, 0, 0, 1, 0, 0, 0] · slices_S262144x2x2x2x2x2x2x2x2_S262144x2x2x2x2x1x2x2x2_0_0_0_0_0_1_0_0_0) : (⟨S262144x2x2x2x2x2x2x2x2, .f32⟩ : BufTy).Contents (Elt F) → (⟨S262144x2x2x2x2x1x2x2x2, .f32⟩ : BufTy).Contents (Elt F)),
    TRef.unary (TRef.of (T := ⟨S262144x2x2x2x2x1x2x2x2, .f32⟩) main_v127) (TRef.of (T := ⟨S262144x2x2x2x2x1x2x2x2, .f32⟩) main_v128) (Host.reverse [6]),
    binary main_v126 main_v128 main_v129 ((fun a b => concatenate S262144x2x2x2x2x2x2x2x2 5 [⟨S262144x2x2x2x2x1x2x2x2, a⟩, ⟨S262144x2x2x2x2x1x2x2x2, b⟩] concatenates_S262144x2x2x2x2x1x2x2x2_S262144x2x2x2x2x1x2x2x2_S262144x2x2x2x2x2x2x2x2_d5) : (⟨S262144x2x2x2x2x1x2x2x2, .f32⟩ : BufTy).Contents (Elt F) → (⟨S262144x2x2x2x2x1x2x2x2, .f32⟩ : BufTy).Contents (Elt F) → (⟨S262144x2x2x2x2x2x2x2x2, .f32⟩ : BufTy).Contents (Elt F)),
    unary main_v129 main_v130 ((extractStridedSlice S262144x2x2x2x2x2x1x2x2 ![0, 0, 0, 0, 0, 0, 0, 0, 0] · slices_S262144x2x2x2x2x2x2x2x2_S262144x2x2x2x2x2x1x2x2_0_0_0_0_0_0_0_0_0) : (⟨S262144x2x2x2x2x2x2x2x2, .f32⟩ : BufTy).Contents (Elt F) → (⟨S262144x2x2x2x2x2x1x2x2, .f32⟩ : BufTy).Contents (Elt F)),
    unary main_v129 main_v131 ((extractStridedSlice S262144x2x2x2x2x2x1x2x2 ![0, 0, 0, 0, 0, 0, 1, 0, 0] · slices_S262144x2x2x2x2x2x2x2x2_S262144x2x2x2x2x2x1x2x2_0_0_0_0_0_0_1_0_0) : (⟨S262144x2x2x2x2x2x2x2x2, .f32⟩ : BufTy).Contents (Elt F) → (⟨S262144x2x2x2x2x2x1x2x2, .f32⟩ : BufTy).Contents (Elt F)),
    TRef.unary (TRef.of (T := ⟨S262144x2x2x2x2x2x1x2x2, .f32⟩) main_v131) (TRef.of (T := ⟨S262144x2x2x2x2x2x1x2x2, .f32⟩) main_v132) (Host.reverse [7]),
    binary main_v130 main_v132 main_v133 ((fun a b => concatenate S262144x2x2x2x2x2x2x2x2 6 [⟨S262144x2x2x2x2x2x1x2x2, a⟩, ⟨S262144x2x2x2x2x2x1x2x2, b⟩] concatenates_S262144x2x2x2x2x2x1x2x2_S262144x2x2x2x2x2x1x2x2_S262144x2x2x2x2x2x2x2x2_d6) : (⟨S262144x2x2x2x2x2x1x2x2, .f32⟩ : BufTy).Contents (Elt F) → (⟨S262144x2x2x2x2x2x1x2x2, .f32⟩ : BufTy).Contents (Elt F) → (⟨S262144x2x2x2x2x2x2x2x2, .f32⟩ : BufTy).Contents (Elt F)),
    unary main_v133 main_v134 ((extractStridedSlice S262144x2x2x2x2x2x2x1x2 ![0, 0, 0, 0, 0, 0, 0, 0, 0] · slices_S262144x2x2x2x2x2x2x2x2_S262144x2x2x2x2x2x2x1x2_0_0_0_0_0_0_0_0_0) : (⟨S262144x2x2x2x2x2x2x2x2, .f32⟩ : BufTy).Contents (Elt F) → (⟨S262144x2x2x2x2x2x2x1x2, .f32⟩ : BufTy).Contents (Elt F)),
    unary main_v133 main_v135 ((extractStridedSlice S262144x2x2x2x2x2x2x1x2 ![0, 0, 0, 0, 0, 0, 0, 1, 0] · slices_S262144x2x2x2x2x2x2x2x2_S262144x2x2x2x2x2x2x1x2_0_0_0_0_0_0_0_1_0) : (⟨S262144x2x2x2x2x2x2x2x2, .f32⟩ : BufTy).Contents (Elt F) → (⟨S262144x2x2x2x2x2x2x1x2, .f32⟩ : BufTy).Contents (Elt F)),
    TRef.unary (TRef.of (T := ⟨S262144x2x2x2x2x2x2x1x2, .f32⟩) main_v135) (TRef.of (T := ⟨S262144x2x2x2x2x2x2x1x2, .f32⟩) main_v136) (Host.reverse [8]),
    binary main_v134 main_v136 main_v137 ((fun a b => concatenate S262144x2x2x2x2x2x2x2x2 7 [⟨S262144x2x2x2x2x2x2x1x2, a⟩, ⟨S262144x2x2x2x2x2x2x1x2, b⟩] concatenates_S262144x2x2x2x2x2x2x1x2_S262144x2x2x2x2x2x2x1x2_S262144x2x2x2x2x2x2x2x2_d7) : (⟨S262144x2x2x2x2x2x2x1x2, .f32⟩ : BufTy).Contents (Elt F) → (⟨S262144x2x2x2x2x2x2x1x2, .f32⟩ : BufTy).Contents (Elt F) → (⟨S262144x2x2x2x2x2x2x2x2, .f32⟩ : BufTy).Contents (Elt F)),
    unary main_v137 main_v138 ((extractStridedSlice S262144x2x2x2x2x2x2x2x1 ![0, 0, 0, 0, 0, 0, 0, 0, 0] · slices_S262144x2x2x2x2x2x2x2x2_S262144x2x2x2x2x2x2x2x1_0_0_0_0_0_0_0_0_0) : (⟨S262144x2x2x2x2x2x2x2x2, .f32⟩ : BufTy).Contents (Elt F) → (⟨S262144x2x2x2x2x2x2x2x1, .f32⟩ : BufTy).Contents (Elt F)),
    unary main_v137 main_v139 ((extractStridedSlice S262144x2x2x2x2x2x2x2x1 ![0, 0, 0, 0, 0, 0, 0, 0, 1] · slices_S262144x2x2x2x2x2x2x2x2_S262144x2x2x2x2x2x2x2x1_0_0_0_0_0_0_0_0_1) : (⟨S262144x2x2x2x2x2x2x2x2, .f32⟩ : BufTy).Contents (Elt F) → (⟨S262144x2x2x2x2x2x2x2x1, .f32⟩ : BufTy).Contents (Elt F)),
    TRef.unary (TRef.of (T := ⟨S262144x2x2x2x2x2x2x2x1, .f32⟩) main_v139) (TRef.of (T := ⟨S262144x2x2x2x2x2x2x2x1, .f32⟩) main_v140) (Host.reverse [1]),
    binary main_v138 main_v140 main_v141 ((fun a b => concatenate S262144x2x2x2x2x2x2x2x2 8 [⟨S262144x2x2x2x2x2x2x2x1, a⟩, ⟨S262144x2x2x2x2x2x2x2x1, b⟩] concatenates_S262144x2x2x2x2x2x2x2x1_S262144x2x2x2x2x2x2x2x1_S262144x2x2x2x2x2x2x2x2_d8) : (⟨S262144x2x2x2x2x2x2x2x1, .f32⟩ : BufTy).Contents (Elt F) → (⟨S262144x2x2x2x2x2x2x2x1, .f32⟩ : BufTy).Contents (Elt F) → (⟨S262144x2x2x2x2x2x2x2x2, .f32⟩ : BufTy).Contents (Elt F)),
    binary main_v141 main_v141 main_v142 (mulf : (⟨S262144x2x2x2x2x2x2x2x2, .f32⟩ : BufTy).Contents (Elt F) → (⟨S262144x2x2x2x2x2x2x2x2, .f32⟩ : BufTy).Contents (Elt F) → (⟨S262144x2x2x2x2x2x2x2x2, .f32⟩ : BufTy).Contents (Elt F)),
    nullary main_cst_3 (constant S_ .f32 0x00000000#32),
    binary main_v142 main_cst_3 main_v143 ((fun x v => Host.reduceAdd x v reducesTo_S262144x2x2x2x2x2x2x2x2_S262144x2_d2_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v143 main_v144 ((extractStridedSlice S262144x1 ![0, 0] · slices_S262144x2_S262144x1_0_0) : (⟨S262144x2, .f32⟩ : BufTy).Contents (Elt F) → (⟨S262144x1, .f32⟩ : BufTy).Contents (Elt F)),
    reshape main_v144 main_v145 rfl shapeCasts_S262144x1_S262144,
    unary main_v143 main_v146 ((extractStridedSlice S262144x1 ![0, 1] · slices_S262144x2_S262144x1_0_1) : (⟨S262144x2, .f32⟩ : BufTy).Contents (Elt F) → (⟨S262144x1, .f32⟩ : BufTy).Contents (Elt F)),
    reshape main_v146 main_v147 rfl shapeCasts_S262144x1_S262144,
    binary main_v145 main_v147 main_v148 (subf : (⟨S262144, .f32⟩ : BufTy).Contents (Elt F) → (⟨S262144, .f32⟩ : BufTy).Contents (Elt F) → (⟨S262144, .f32⟩ : BufTy).Contents (Elt F)),
    nullary main_cst_4 (constant S_ .f32 0x00000000#32),
    binary main_v142 main_cst_4 main_v149 ((fun x v => Host.reduceAdd x v reducesTo_S262144x2x2x2x2x2x2x2x2_S262144x2_d1_3_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v149 main_v150 ((extractStridedSlice S262144x1 ![0, 0] · slices_S262144x2_S262144x1_0_0) : (⟨S262144x2, .f32⟩ : BufTy).Contents (Elt F) → (⟨S262144x1, .f32⟩ : BufTy).Contents (Elt F)),
    reshape main_v150 main_v151 rfl shapeCasts_S262144x1_S262144,
    unary main_v149 main_v152 ((extractStridedSlice S262144x1 ![0, 1] · slices_S262144x2_S262144x1_0_1) : (⟨S262144x2, .f32⟩ : BufTy).Contents (Elt F) → (⟨S262144x1, .f32⟩ : BufTy).Contents (Elt F)),
    reshape main_v152 main_v153 rfl shapeCasts_S262144x1_S262144,
    binary main_v151 main_v153 main_v154 (subf : (⟨S262144, .f32⟩ : BufTy).Contents (Elt F) → (⟨S262144, .f32⟩ : BufTy).Contents (Elt F) → (⟨S262144, .f32⟩ : BufTy).Contents (Elt F)),
    nullary main_cst_5 (constant S_ .f32 0x00000000#32),
    binary main_v142 main_cst_5 main_v155 ((fun x v => Host.reduceAdd x v reducesTo_S262144x2x2x2x2x2x2x2x2_S262144x2_d1_2_4_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v155 main_v156 ((extractStridedSlice S262144x1 ![0, 0] · slices_S262144x2_S262144x1_0_0) : (⟨S262144x2, .f32⟩ : BufTy).Contents (Elt F) → (⟨S262144x1, .f32⟩ : BufTy).Contents (Elt F)),
    reshape main_v156 main_v157 rfl shapeCasts_S262144x1_S262144,
    unary main_v155 main_v158 ((extractStridedSlice S262144x1 ![0, 1] · slices_S262144x2_S262144x1_0_1) : (⟨S262144x2, .f32⟩ : BufTy).Contents (Elt F) → (⟨S262144x1, .f32⟩ : BufTy).Contents (Elt F)),
    reshape main_v158 main_v159 rfl shapeCasts_S262144x1_S262144,
    binary main_v157 main_v159 main_v160 (subf : (⟨S262144, .f32⟩ : BufTy).Contents (Elt F) → (⟨S262144, .f32⟩ : BufTy).Contents (Elt F) → (⟨S262144, .f32⟩ : BufTy).Contents (Elt F)),
    nullary main_cst_6 (constant S_ .f32 0x00000000#32),
    binary main_v142 main_cst_6 main_v161 ((fun x v => Host.reduceAdd x v reducesTo_S262144x2x2x2x2x2x2x2x2_S262144x2_d1_2_3_5_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v161 main_v162 ((extractStridedSlice S262144x1 ![0, 0] · slices_S262144x2_S262144x1_0_0) : (⟨S262144x2, .f32⟩ : BufTy).Contents (Elt F) → (⟨S262144x1, .f32⟩ : BufTy).Contents (Elt F)),
    reshape main_v162 main_v163 rfl shapeCasts_S262144x1_S262144,
    unary main_v161 main_v164 ((extractStridedSlice S262144x1 ![0, 1] · slices_S262144x2_S262144x1_0_1) : (⟨S262144x2, .f32⟩ : BufTy).Contents (Elt F) → (⟨S262144x1, .f32⟩ : BufTy).Contents (Elt F)),
    reshape main_v164 main_v165 rfl shapeCasts_S262144x1_S262144,
    binary main_v163 main_v165 main_v166 (subf : (⟨S262144, .f32⟩ : BufTy).Contents (Elt F) → (⟨S262144, .f32⟩ : BufTy).Contents (Elt F) → (⟨S262144, .f32⟩ : BufTy).Contents (Elt F)),
    nullary main_cst_7 (constant S_ .f32 0x00000000#32),
    binary main_v142 main_cst_7 main_v167 ((fun x v => Host.reduceAdd x v reducesTo_S262144x2x2x2x2x2x2x2x2_S262144x2_d1_2_3_4_6_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v167 main_v168 ((extractStridedSlice S262144x1 ![0, 0] · slices_S262144x2_S262144x1_0_0) : (⟨S262144x2, .f32⟩ : BufTy).Contents (Elt F) → (⟨S262144x1, .f32⟩ : BufTy).Contents (Elt F)),
    reshape main_v168 main_v169 rfl shapeCasts_S262144x1_S262144,
    unary main_v167 main_v170 ((extractStridedSlice S262144x1 ![0, 1] · slices_S262144x2_S262144x1_0_1) : (⟨S262144x2, .f32⟩ : BufTy).Contents (Elt F) → (⟨S262144x1, .f32⟩ : BufTy).Contents (Elt F)),
    reshape main_v170 main_v171 rfl shapeCasts_S262144x1_S262144,
    binary main_v169 main_v171 main_v172 (subf : (⟨S262144, .f32⟩ : BufTy).Contents (Elt F) → (⟨S262144, .f32⟩ : BufTy).Contents (Elt F) → (⟨S262144, .f32⟩ : BufTy).Contents (Elt F)),
    nullary main_cst_8 (constant S_ .f32 0x00000000#32),
    binary main_v142 main_cst_8 main_v173 ((fun x v => Host.reduceAdd x v reducesTo_S262144x2x2x2x2x2x2x2x2_S262144x2_d1_2_3_4_5_7_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v173 main_v174 ((extractStridedSlice S262144x1 ![0, 0] · slices_S262144x2_S262144x1_0_0) : (⟨S262144x2, .f32⟩ : BufTy).Contents (Elt F) → (⟨S262144x1, .f32⟩ : BufTy).Contents (Elt F)),
    reshape main_v174 main_v175 rfl shapeCasts_S262144x1_S262144,
    unary main_v173 main_v176 ((extractStridedSlice S262144x1 ![0, 1] · slices_S262144x2_S262144x1_0_1) : (⟨S262144x2, .f32⟩ : BufTy).Contents (Elt F) → (⟨S262144x1, .f32⟩ : BufTy).Contents (Elt F)),
    reshape main_v176 main_v177 rfl shapeCasts_S262144x1_S262144,
    binary main_v175 main_v177 main_v178 (subf : (⟨S262144, .f32⟩ : BufTy).Contents (Elt F) → (⟨S262144, .f32⟩ : BufTy).Contents (Elt F) → (⟨S262144, .f32⟩ : BufTy).Contents (Elt F)),
    nullary main_cst_9 (constant S_ .f32 0x00000000#32),
    binary main_v142 main_cst_9 main_v179 ((fun x v => Host.reduceAdd x v reducesTo_S262144x2x2x2x2x2x2x2x2_S262144x2_d1_2_3_4_5_6_8 h_S_) : (⟨S262144x2x2x2x2x2x2x2x2, .f32⟩ : BufTy).Contents (Elt F) → (⟨S_, .f32⟩ : BufTy).Contents (Elt F) → (⟨S262144x2, .f32⟩ : BufTy).Contents (Elt F)),
    unary main_v179 main_v180 ((extractStridedSlice S262144x1 ![0, 0] · slices_S262144x2_S262144x1_0_0) : (⟨S262144x2, .f32⟩ : BufTy).Contents (Elt F) → (⟨S262144x1, .f32⟩ : BufTy).Contents (Elt F)),
    reshape main_v180 main_v181 rfl shapeCasts_S262144x1_S262144,
    unary main_v179 main_v182 ((extractStridedSlice S262144x1 ![0, 1] · slices_S262144x2_S262144x1_0_1) : (⟨S262144x2, .f32⟩ : BufTy).Contents (Elt F) → (⟨S262144x1, .f32⟩ : BufTy).Contents (Elt F)),
    reshape main_v182 main_v183 rfl shapeCasts_S262144x1_S262144,
    binary main_v181 main_v183 main_v184 (subf : (⟨S262144, .f32⟩ : BufTy).Contents (Elt F) → (⟨S262144, .f32⟩ : BufTy).Contents (Elt F) → (⟨S262144, .f32⟩ : BufTy).Contents (Elt F)),
    nullary main_cst_10 (constant S_ .f32 0x00000000#32),
    binary main_v142 main_cst_10 main_v185 ((fun x v => Host.reduceAdd x v reducesTo_S262144x2x2x2x2x2x2x2x2_S262144x2_d1_2_3_4_5_6_7 h_S_) : (⟨S262144x2x2x2x2x2x2x2x2, .f32⟩ : BufTy).Contents (Elt F) → (⟨S_, .f32⟩ : BufTy).Contents (Elt F) → (⟨S262144x2, .f32⟩ : BufTy).Contents (Elt F)),
    unary main_v185 main_v186 ((extractStridedSlice S262144x1 ![0, 0] · slices_S262144x2_S262144x1_0_0) : (⟨S262144x2, .f32⟩ : BufTy).Contents (Elt F) → (⟨S262144x1, .f32⟩ : BufTy).Contents (Elt F)),
    reshape main_v186 main_v187 rfl shapeCasts_S262144x1_S262144,
    unary main_v185 main_v188 ((extractStridedSlice S262144x1 ![0, 1] · slices_S262144x2_S262144x1_0_1) : (⟨S262144x2, .f32⟩ : BufTy).Contents (Elt F) → (⟨S262144x1, .f32⟩ : BufTy).Contents (Elt F)),
    reshape main_v188 main_v189 rfl shapeCasts_S262144x1_S262144,
    binary main_v187 main_v189 main_v190 (subf : (⟨S262144, .f32⟩ : BufTy).Contents (Elt F) → (⟨S262144, .f32⟩ : BufTy).Contents (Elt F) → (⟨S262144, .f32⟩ : BufTy).Contents (Elt F)),
    unary main_v148 main_v191 (broadcastInDim S262144x1 ![0] bcast_S262144_S262144x1_0 : (⟨S262144, .f32⟩ : BufTy).Contents (Elt F) → (⟨S262144x1, .f32⟩ : BufTy).Contents (Elt F)),
    unary main_v154 main_v192 (broadcastInDim S262144x1 ![0] bcast_S262144_S262144x1_0 : (⟨S262144, .f32⟩ : BufTy).Contents (Elt F) → (⟨S262144x1, .f32⟩ : BufTy).Contents (Elt F)),
    unary main_v160 main_v193 (broadcastInDim S262144x1 ![0] bcast_S262144_S262144x1_0 : (⟨S262144, .f32⟩ : BufTy).Contents (Elt F) → (⟨S262144x1, .f32⟩ : BufTy).Contents (Elt F)),
    unary main_v166 main_v194 (broadcastInDim S262144x1 ![0] bcast_S262144_S262144x1_0 : (⟨S262144, .f32⟩ : BufTy).Contents (Elt F) → (⟨S262144x1, .f32⟩ : BufTy).Contents (Elt F)),
    unary main_v172 main_v195 (broadcastInDim S262144x1 ![0] bcast_S262144_S262144x1_0 : (⟨S262144, .f32⟩ : BufTy).Contents (Elt F) → (⟨S262144x1, .f32⟩ : BufTy).Contents (Elt F)),
    unary main_v178 main_v196 (broadcastInDim S262144x1 ![0] bcast_S262144_S262144x1_0 : (⟨S262144, .f32⟩ : BufTy).Contents (Elt F) → (⟨S262144x1, .f32⟩ : BufTy).Contents (Elt F)),
    unary main_v184 main_v197 (broadcastInDim S262144x1 ![0] bcast_S262144_S262144x1_0 : (⟨S262144, .f32⟩ : BufTy).Contents (Elt F) → (⟨S262144x1, .f32⟩ : BufTy).Contents (Elt F)),
    unary main_v190 main_v198 (broadcastInDim S262144x1 ![0] bcast_S262144_S262144x1_0 : (⟨S262144, .f32⟩ : BufTy).Contents (Elt F) → (⟨S262144x1, .f32⟩ : BufTy).Contents (Elt F)),
    nary ![main_v191, main_v192, main_v193, main_v194, main_v195, main_v196, main_v197, main_v198] main_v199 (fun u => concatenate S262144x8 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩] concatenates_S262144x1_S262144x1_S262144x1_S262144x1_S262144x1_S262144x1_S262144x1_S262144x1_S262144x8_d1) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., unary_bufs_sub .., reshape_bufs_sub .., unary_bufs_sub .., reshape_bufs_sub .., unary_bufs_sub .., unary_bufs_sub .., binary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., reshape_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., unary_bufs_sub .., unary_bufs_sub .., unary_bufs_sub .., unary_bufs_sub .., unary_bufs_sub .., unary_bufs_sub .., unary_bufs_sub .., unary_bufs_sub .., nary_bufs_sub ..⟩

end Cert.ReferenceIdeal.HandOps

end
-- ==== Proof.RefRun.lean ====
/-
  The reference program's run.  Its @main is a straight line of host operations, so every weakly fair execution
  terminates, faults nowhere, leaves the argument as launched and leaves in the result buffer the operations'
  composed value of the argument: the function `Sim.out` of the input array.

  The operations are the segments of the line, in order (`ops_split`), so the buffer contents after all of them are
  the contents after the chain of segments: the result buffer holds `Sim.out` of the argument (`after_ops_out`) and the
  argument is as launched (`after_ops_arg`).
-/
import proofs.«115797_j9835475108036_1_alg».proof.Proof.RefSeg
import proofs.«115797_j9835475108036_1_alg».proof.Proof.RefOps

noncomputable section

namespace Cert.ReferenceIdeal.HandRun

open Cert.ReferenceIdeal Cert.ReferenceIdeal.Gen Cert.ReferenceIdeal.HandOps Cert.ReferenceIdeal.HandSeg Idealize.ShloMosaic Idealize.ShloMosaic.TcCoe Idealize.SL.Sem Idealize.ShloMosaic.StableHlo

variable {F : FTy → Type} [FloatOps F]

set_option maxRecDepth 8192 in
/-- @main's operations are the 43 segments, in order. -/
theorem ops_split : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29 ++ (seg30 ++ (seg31 ++ (seg32 ++ (seg33 ++ (seg34 ++ (seg35 ++ (seg36 ++ (seg37 ++ (seg38 ++ (seg39 ++ (seg40 ++ (seg41 ++ (seg42)))))))))))))))))))))))))))))))))))))))))) := rfl

/-- After all of @main's operations, from any launch contents `V`, the result buffer holds `Sim.out` of the
    argument. -/
theorem after_ops_out (V : Valuation τ sig (Elt F)) :
    after ops V (Proc.devRef .tc main_v199) = Sim.out (V (Proc.devRef .tc main_arg0)) := by
  rw [ops_split]; simp only [after_append]; exact after_segs_out V

/-- After all of @main's operations the argument is as launched. -/
theorem after_ops_arg (V : Valuation τ sig (Elt F)) :
    after ops V (Proc.devRef .tc main_arg0) = V (Proc.devRef .tc main_arg0) := by
  rw [ops_split]; simp only [after_append]; exact after_segs_arg V

/-- Every weakly fair execution of the reference terminates with the result buffer at `Sim.out` of the
    argument array and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v199)
        = Cert.ReferenceIdeal.Sim.out (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v199).trans (after_ops_out _), (h c main_arg0).trans (after_ops_arg _)⟩)
    (run_seq scopedRefs_eq scopedSems_eq defs main (fun _ => ops) main_eq (fun _ => ops_sub) m ρ)

end Cert.ReferenceIdeal.HandRun

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.LibGroupAxes.lean ====
/-
  The last axis of a matrix cut into groups, and the layout operations around it, read at an index.

  An [a, n] array with n = b · c is the same row-major data as an [a, b, c] array: position k of a row is place l of
  group g exactly when k = g · c + l. So a cast [a, n] → [a, b, c] read at (i, g, l) is the operand at (i, k), and the
  cast back read at (i, k) is the operand at (i, g, l). Beside them, the two steps that spread one value per group
  over the group's places: a cast [a, b] → [a, b, 1] (a trailing unit axis added) read at (i, g, u) is the operand at
  (i, g), and a broadcast [a, b, 1] → [a, b, c] read at (i, g, l) is the operand at (i, g, 0).
  General: nothing here depends on a particular program.
-/
import Idealize.ShloMosaic.Lib.Pipeline.Value
import Idealize.ShloMosaic.Lib.ValueIdx

namespace Cert.LibGroupAxes

open Idealize.ShloMosaic Idealize.ShloMosaic.ValueIdx

variable {α : Type}

/-- A row of n = b · c places cut into b groups of c: the cast [a, n] → [a, b, c] read at (i, g, l) is the operand at
    (i, k) where k = g · c + l. -/
theorem splitLast_apply {a b c n : ℕ} (x : (⟨2, ![a, n]⟩ : Shape).Idx → α)
    (h : (⟨2, ![a, n]⟩ : Shape).ShapeCasts ⟨3, ![a, b, c]⟩) (hn : n = b * c)
    (i : Fin a) (g : Fin b) (l : Fin c) (k : Fin n) (hk : k.val = g.val * c + l.val) :
    shapeCast ⟨3, ![a, b, c]⟩ x h (ix3 i g l) = x (ix2 i k) :=
  shapeCast_apply x h _ _ (by
    rw [Shape.rowMajor_val_two, Shape.rowMajor_val_three]
    show i.val * n + k.val = (i.val * b + g.val) * c + l.val
    rw [hk, hn, Nat.add_mul, Nat.mul_assoc, Nat.add_assoc])

/-- The groups laid end to end again: the cast [a, b, c] → [a, n] read at (i, k) is the operand at (i, g, l) where
    k = g · c + l. -/
theorem mergeLast_apply {a b c n : ℕ} (x : (⟨3, ![a, b, c]⟩ : Shape).Idx → α)
    (h : (⟨3, ![a, b, c]⟩ : Shape).ShapeCasts ⟨2, ![a, n]⟩) (hn : n = b * c)
    (i : Fin a) (k : Fin n) (g : Fin b) (l : Fin c) (hk : k.val = g.val * c + l.val) :
    shapeCast ⟨2, ![a, n]⟩ x h (ix2 i k) = x (ix3 i g l) :=
  shapeCast_apply x h _ _ (by
    rw [Shape.rowMajor_val_two, Shape.rowMajor_val_three]
    show (i.val * b + g.val) * c + l.val = i.val * n + k.val
    rw [hk, hn, Nat.add_mul, Nat.mul_assoc, Nat.add_assoc])

/-- A trailing unit axis added: the cast [a, b] → [a, b, 1] read at (i, g, u) is the operand at (i, g). -/
theorem addLastUnit_apply {a b : ℕ} (x : (⟨2, ![a, b]⟩ : Shape).Idx → α)
    (h : (⟨2, ![a, b]⟩ : Shape).ShapeCasts ⟨3, ![a, b, 1]⟩) (i : Fin a) (g : Fin b) (u : Fin 1) :
    shapeCast ⟨3, ![a, b, 1]⟩ x h (ix3 i g u) = x (ix2 i g) :=
  shapeCast_apply x h _ _ (by
    rw [Shape.rowMajor_val_two, Shape.rowMajor_val_three]
    show i.val * b + g.val = (i.val * b + g.val) * 1 + u.val
    have := u.isLt
    omega)

/-- One value per group spread over the group's places: the broadcast [a, b, 1] → [a, b, c] read at (i, g, l) is the
    operand at (i, g, 0). -/
theorem spreadLast_apply {a b c : ℕ} (x : (⟨3, ![a, b, 1]⟩ : Shape).Idx → α)
    (h : (⟨3, ![a, b, 1]⟩ : Shape).Broadcasts ⟨3, ![a, b, c]⟩) (i : Fin a) (g : Fin b) (l : Fin c) :
    broadcastTo ⟨3, ![a, b, c]⟩ x h (ix3 i g l) = x (ix3 i g (0 : Fin 1)) := by
  refine broadcastTo_apply x h (ix3 i g l) (ix3 i g (0 : Fin 1)) fun ax => ?_
  match ax with
  | ⟨0, _⟩ =>
    show i.val = if a = 1 then 0 else i.val
    split
    · have := i.isLt; omega
    · rfl
  | ⟨1, _⟩ =>
    show g.val = if b = 1 then 0 else g.val
    split
    · have := g.isLt; omega
    · rfl
  | ⟨2, _⟩ => rfl

end Cert.LibGroupAxes
-- ==== Proof.LibOuterProduct.lean ====
import Idealize.ShloMosaic.Lib.Pipeline.Value
import Idealize.ShloMosaic.Lib.ValueIdx

/-!
# The layouts of a row-wise outer product, read at an entry

For every row `i`, the outer product of a list of `n` values with a list of `c` values is formed by laying the first out
as `[a, n, 1]`, the second as `[a, 1, c]`, spreading both over `[a, n, c]` and multiplying entry by entry.  The four
lemmas read the four `broadcast_in_dim` layouts at an entry `(i, g, l)`; the extents are arbitrary, and an extent that
happens to be 1 changes nothing, since its only coordinate is 0.  The last lemma is the row-major position of an index of
nine axes, for a recast between such an array and a flat one.
-/

namespace Cert.LibOuterProduct

open Idealize.ShloMosaic Idealize.ShloMosaic.ValueIdx

variable {α : Type}

/-- A trailing unit axis added to a matrix: `[a, n] → [a, n, 1]` along axes `[0, 1]` read at `(i, g, u)` is the
    matrix at `(i, g)`. -/
theorem trailingUnit_at {a n : ℕ} (x : (⟨2, ![a, n]⟩ : Shape).Idx → α)
    (h : (⟨2, ![a, n]⟩ : Shape).BroadcastsInDim ⟨3, ![a, n, 1]⟩ (![0, 1] : Fin 2 → Fin 3))
    (i : Fin a) (g : Fin n) (u : Fin 1) :
    broadcastInDim ⟨3, ![a, n, 1]⟩ (![0, 1] : Fin 2 → Fin 3) h x (ix3 i g u) = x (ix2 i g) := by
  refine broadcastInDim_apply _ h x (ix3 i g u) (ix2 i g) fun ax => ?_
  match ax with
  | ⟨0, _⟩ =>
    show i.val = if a = 1 then 0 else i.val
    split
    · have := i.isLt; omega
    · rfl
  | ⟨1, _⟩ =>
    show g.val = if n = 1 then 0 else g.val
    split
    · have := g.isLt; omega
    · rfl

/-- One value per place of the second axis spread along a third: `[a, n, 1] → [a, n, c]` read at `(i, g, l)` is the
    operand at `(i, g, 0)`. -/
theorem spreadLast_at {a n c : ℕ} (x : (⟨3, ![a, n, 1]⟩ : Shape).Idx → α)
    (h : (⟨3, ![a, n, 1]⟩ : Shape).BroadcastsInDim ⟨3, ![a, n, c]⟩ (![0, 1, 2] : Fin 3 → Fin 3))
    (i : Fin a) (g : Fin n) (l : Fin c) :
    broadcastInDim ⟨3, ![a, n, c]⟩ (![0, 1, 2] : Fin 3 → Fin 3) h x (ix3 i g l) = x (ix3 i g (0 : Fin 1)) := by
  refine broadcastInDim_apply _ h x (ix3 i g l) (ix3 i g (0 : Fin 1)) fun ax => ?_
  match ax with
  | ⟨0, _⟩ =>
    show i.val = if a = 1 then 0 else i.val
    split
    · have := i.isLt; omega
    · rfl
  | ⟨1, _⟩ =>
    show g.val = if n = 1 then 0 else g.val
    split
    · have := g.isLt; omega
    · rfl
  | ⟨2, _⟩ =>
    show (0 : ℕ) = if (1 : ℕ) = 1 then 0 else l.val
    rw [if_pos rfl]

/-- A middle unit axis added to a matrix: `[a, c] → [a, 1, c]` along axes `[0, 2]` read at `(i, z, l)` is the matrix at
    `(i, l)`. -/
theorem middleUnit_at {a c : ℕ} (x : (⟨2, ![a, c]⟩ : Shape).Idx → α)
    (h : (⟨2, ![a, c]⟩ : Shape).BroadcastsInDim ⟨3, ![a, 1, c]⟩ (![0, 2] : Fin 2 → Fin 3))
    (i : Fin a) (z : Fin 1) (l : Fin c) :
    broadcastInDim ⟨3, ![a, 1, c]⟩ (![0, 2] : Fin 2 → Fin 3) h x (ix3 i z l) = x (ix2 i l) := by
  refine broadcastInDim_apply _ h x (ix3 i z l) (ix2 i l) fun ax => ?_
  match ax with
  | ⟨0, _⟩ =>
    show i.val = if a = 1 then 0 else i.val
    split
    · have := i.isLt; omega
    · rfl
  | ⟨1, _⟩ =>
    show l.val = if c = 1 then 0 else l.val
    split
    · have := l.isLt; omega
    · rfl

/-- One row of values repeated along the second axis: `[a, 1, c] → [a, n, c]` read at `(i, g, l)` is the operand at
    `(i, 0, l)`. -/
theorem spreadMiddle_at {a n c : ℕ} (x : (⟨3, ![a, 1, c]⟩ : Shape).Idx → α)
    (h : (⟨3, ![a, 1, c]⟩ : Shape).BroadcastsInDim ⟨3, ![a, n, c]⟩ (![0, 1, 2] : Fin 3 → Fin 3))
    (i : Fin a) (g : Fin n) (l : Fin c) :
    broadcastInDim ⟨3, ![a, n, c]⟩ (![0, 1, 2] : Fin 3 → Fin 3) h x (ix3 i g l) = x (ix3 i (0 : Fin 1) l) := by
  refine broadcastInDim_apply _ h x (ix3 i g l) (ix3 i (0 : Fin 1) l) fun ax => ?_
  match ax with
  | ⟨0, _⟩ =>
    show i.val = if a = 1 then 0 else i.val
    split
    · have := i.isLt; omega
    · rfl
  | ⟨1, _⟩ =>
    show (0 : ℕ) = if (1 : ℕ) = 1 then 0 else g.val
    rw [if_pos rfl]
  | ⟨2, _⟩ =>
    show l.val = if c = 1 then 0 else l.val
    split
    · have := l.isLt; omega
    · rfl

/-- The row-major position of an index of nine axes: Horner's rule over the coordinates. -/
theorem rowMajor_val_nine {d : Fin 9 → Nat} (i : (⟨9, d⟩ : Shape).Idx) :
    ((⟨9, d⟩ : Shape).rowMajor i).val
      = ((((((((i 0).val * d 1 + (i 1).val) * d 2 + (i 2).val) * d 3 + (i 3).val) * d 4 + (i 4).val) * d 5
          + (i 5).val) * d 6 + (i 6).val) * d 7 + (i 7).val) * d 8 + (i 8).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val]
  simp [Shape.rowMajorPi_zero, Fin.prod_univ_succ, Nat.add_mul, Nat.mul_assoc, Nat.add_assoc]

end Cert.LibOuterProduct
-- ==== Proof.RefRead.lean ====
/-
  The reference's stages read at an entry, on the extended reals.

  The half angle, a qubit's pair `(cos, sin)`, one step of the product state (entry `2 g + b` of the new list of
  amplitudes is entry `g` of the old one times entry `b` of the pair), hence the amplitude at the position whose binary
  digits are `b₀ … b₇` as the product `1 · q₀(b₀) · … · q₇(b₇)`, and the recast to one axis per qubit, which reads the
  amplitude at the position with those digits.
-/
import proofs.«115797_j9835475108036_1_alg».proof.Proof.RefProgram
import proofs.«115797_j9835475108036_1_alg».proof.Proof.LibConcatAt
import proofs.«115797_j9835475108036_1_alg».proof.Proof.LibColumnVec
import proofs.«115797_j9835475108036_1_alg».proof.Proof.LibGroupAxes
import proofs.«115797_j9835475108036_1_alg».proof.Proof.LibOuterProduct
import Idealize.ShloMosaic.Lib.ValueIdx
import Idealize.ShloMosaic.PureOps.Ideal.Laws

noncomputable section

namespace Cert.ReferenceIdeal.SimRead

open Cert.ReferenceIdeal Cert.ReferenceIdeal.Gen Cert.ReferenceIdeal.Sim Idealize.ShloMosaic Idealize.ShloMosaic.ValueIdx

/-- The half angle at an entry. -/
theorem halfAngle_at (x : Arr Ideal S262144x8) (i : S262144x8.Idx) :
    halfAngle x i = Ideal.ofBits .f32 0x3FC90FDB#32
      * min (Ideal.ofBits .f32 0x3F800000#32) (max (Ideal.ofBits .f32 0x00000000#32) (x i)) := rfl

/-- Flattening a column and laying it out again changes nothing. -/
theorem column_at (a : Arr Ideal S262144x1) (r : Fin 262144) : column a (ix2 r 0) = a (ix2 r 0) :=
  (Cert.LibColumnVec.columnOfVector_at _ bcast_S262144_S262144x1_0 r).trans
    (Cert.LibColumnVec.vectorOfColumn_at a shapeCasts_S262144x1_S262144 r)

/-- Two columns side by side: column 0 is the first, column 1 the second. -/
theorem pair_at (a b : Arr Ideal S262144x1) (r : Fin 262144) (j : Fin 2) :
    pair a b (ix2 r j) = if j.val = 0 then a (ix2 r 0) else b (ix2 r 0) := by
  unfold pair
  match j with
  | ⟨0, _⟩ =>
    exact ((Cert.LibConcatAt.columns_at _ _ r ⟨0, by decide⟩ (column a) rfl rfl).trans (column_at a r)).trans
      (if_pos rfl).symm
  | ⟨1, _⟩ =>
    exact ((Cert.LibConcatAt.columns_at _ _ r ⟨1, by decide⟩ (column b) rfl rfl).trans (column_at b r)).trans
      (if_neg Nat.one_ne_zero).symm

theorem qubit0_at (x : Arr Ideal S262144x8) (r : Fin 262144) (j : Fin 2) :
    qubit0 x (ix2 r j) = if j.val = 0 then Ideal.cos (halfAngle x (ix2 r 0)) else Ideal.sin (halfAngle x (ix2 r 0)) := by
  unfold qubit0
  rw [pair_at, Cert.LibColumnVec.columnOfMatrix_at, Cert.LibColumnVec.columnOfMatrix_at]
  rfl

theorem qubit1_at (x : Arr Ideal S262144x8) (r : Fin 262144) (j : Fin 2) :
    qubit1 x (ix2 r j) = if j.val = 0 then Ideal.cos (halfAngle x (ix2 r 1)) else Ideal.sin (halfAngle x (ix2 r 1)) := by
  unfold qubit1
  rw [pair_at, Cert.LibColumnVec.columnOfMatrix_at, Cert.LibColumnVec.columnOfMatrix_at]
  rfl

theorem qubit2_at (x : Arr Ideal S262144x8) (r : Fin 262144) (j : Fin 2) :
    qubit2 x (ix2 r j) = if j.val = 0 then Ideal.cos (halfAngle x (ix2 r 2)) else Ideal.sin (halfAngle x (ix2 r 2)) := by
  unfold qubit2
  rw [pair_at, Cert.LibColumnVec.columnOfMatrix_at, Cert.LibColumnVec.columnOfMatrix_at]
  rfl

theorem qubit3_at (x : Arr Ideal S262144x8) (r : Fin 262144) (j : Fin 2) :
    qubit3 x (ix2 r j) = if j.val = 0 then Ideal.cos (halfAngle x (ix2 r 3)) else Ideal.sin (halfAngle x (ix2 r 3)) := by
  unfold qubit3
  rw [pair_at, Cert.LibColumnVec.columnOfMatrix_at, Cert.LibColumnVec.columnOfMatrix_at]
  rfl

theorem qubit4_at (x : Arr Ideal S262144x8) (r : Fin 262144) (j : Fin 2) :
    qubit4 x (ix2 r j) = if j.val = 0 then Ideal.cos (halfAngle x (ix2 r 4)) else Ideal.sin (halfAngle x (ix2 r 4)) := by
  unfold qubit4
  rw [pair_at, Cert.LibColumnVec.columnOfMatrix_at, Cert.LibColumnVec.columnOfMatrix_at]
  rfl

theorem qubit5_at (x : Arr Ideal S262144x8) (r : Fin 262144) (j : Fin 2) :
    qubit5 x (ix2 r j) = if j.val = 0 then Ideal.cos (halfAngle x (ix2 r 5)) else Ideal.sin (halfAngle x (ix2 r 5)) := by
  unfold qubit5
  rw [pair_at, Cert.LibColumnVec.columnOfMatrix_at, Cert.LibColumnVec.columnOfMatrix_at]
  rfl

theorem qubit6_at (x : Arr Ideal S262144x8) (r : Fin 262144) (j : Fin 2) :
    qubit6 x (ix2 r j) = if j.val = 0 then Ideal.cos (halfAngle x (ix2 r 6)) else Ideal.sin (halfAngle x (ix2 r 6)) := by
  unfold qubit6
  rw [pair_at, Cert.LibColumnVec.columnOfMatrix_at, Cert.LibColumnVec.columnOfMatrix_at]
  rfl

theorem qubit7_at (x : Arr Ideal S262144x8) (r : Fin 262144) (j : Fin 2) :
    qubit7 x (ix2 r j) = if j.val = 0 then Ideal.cos (halfAngle x (ix2 r 7)) else Ideal.sin (halfAngle x (ix2 r 7)) := by
  unfold qubit7
  rw [pair_at, Cert.LibColumnVec.columnOfMatrix_at, Cert.LibColumnVec.columnOfMatrix_at]
  rfl

/-- The first step: the constant 1 times qubit 0's pair. -/
theorem kron0_at (q : Arr Ideal S262144x2) (r : Fin 262144) (j : Fin 2) :
    kron0 q (ix2 r j) = Ideal.ofBits .f32 0x3F800000#32 * q (ix2 r j) := by
  unfold kron0
  refine (Cert.LibGroupAxes.mergeLast_apply _ shapeCasts_S262144x1x2_S262144x2 rfl r j (0 : Fin 1) j (by simp)).trans ?_
  show (broadcastInDim S262144x1x2 ![0, 1, 2] bcast_S262144x1x1_S262144x1x2_0_1_2
        (broadcastInDim S262144x1x1 ![0, 1] bcast_S262144x1_S262144x1x1_0_1
          (broadcastInDim S262144x1 ![] bcast_S_S262144x1 (constant (F := Ideal) S_ .f32 0x3F800000#32))) (ix3 r (0 : Fin 1) j) : EReal)
      * broadcastInDim S262144x1x2 ![0, 2] bcast_S262144x2_S262144x1x2_0_2 q (ix3 r (0 : Fin 1) j) = _
  rw [Cert.LibOuterProduct.spreadLast_at, Cert.LibOuterProduct.trailingUnit_at, Cert.LibOuterProduct.middleUnit_at]
  rfl

/-- One more qubit: entry `2 g + b` of the new amplitudes is entry `g` of the old ones times entry `b` of the pair. -/
theorem kronStep_at {n n2 : ℕ} (hn : n2 = n * 2) (st : Arr Ideal ⟨2, ![262144, n]⟩) (q : Arr Ideal S262144x2)
    (h1 : (⟨2, ![262144, n]⟩ : Shape).BroadcastsInDim ⟨3, ![262144, n, 1]⟩ ![0, 1])
    (h2 : (⟨3, ![262144, n, 1]⟩ : Shape).BroadcastsInDim ⟨3, ![262144, n, 2]⟩ ![0, 1, 2])
    (h3 : (⟨2, ![262144, 2]⟩ : Shape).BroadcastsInDim ⟨3, ![262144, 1, 2]⟩ ![0, 2])
    (h4 : (⟨3, ![262144, 1, 2]⟩ : Shape).BroadcastsInDim ⟨3, ![262144, n, 2]⟩ ![0, 1, 2])
    (h5 : (⟨3, ![262144, n, 2]⟩ : Shape).ShapeCasts ⟨2, ![262144, n2]⟩)
    (r : Fin 262144) (g : Fin n) (b : Fin 2) (k : Fin n2) (hk : k.val = g.val * 2 + b.val) :
    kronStep st q h1 h2 h3 h4 h5 (ix2 r k) = st (ix2 r g) * q (ix2 r b) := by
  unfold kronStep
  refine (Cert.LibGroupAxes.mergeLast_apply _ h5 hn r k g b hk).trans ?_
  show (broadcastInDim ⟨3, ![262144, n, 2]⟩ ![0, 1, 2] h2 (broadcastInDim ⟨3, ![262144, n, 1]⟩ ![0, 1] h1 st) (ix3 r g b) : EReal)
      * broadcastInDim ⟨3, ![262144, n, 2]⟩ ![0, 1, 2] h4 (broadcastInDim ⟨3, ![262144, 1, 2]⟩ ![0, 2] h3 q) (ix3 r g b) = _
  rw [Cert.LibOuterProduct.spreadLast_at, Cert.LibOuterProduct.trailingUnit_at, Cert.LibOuterProduct.spreadMiddle_at,
    Cert.LibOuterProduct.middleUnit_at]

/-- The amplitude at the position with binary digits `b₀ … b₇` (qubit 0 the most significant) is the product of the
    qubits' entries, multiplied up from the constant 1. -/
theorem amplitudes_at (x : Arr Ideal S262144x8) (r : Fin 262144) (b0 b1 b2 b3 b4 b5 b6 b7 : Fin 2) (k : Fin 256)
    (hk : k.val = ((((((b0.val * 2 + b1.val) * 2 + b2.val) * 2 + b3.val) * 2 + b4.val) * 2 + b5.val) * 2 + b6.val) * 2 + b7.val) :
    amplitudes x (ix2 r k)
      = Ideal.ofBits .f32 0x3F800000#32 * qubit0 x (ix2 r b0) * qubit1 x (ix2 r b1) * qubit2 x (ix2 r b2)
          * qubit3 x (ix2 r b3) * qubit4 x (ix2 r b4) * qubit5 x (ix2 r b5) * qubit6 x (ix2 r b6) * qubit7 x (ix2 r b7) := by
  have h0 := b0.isLt; have h1 := b1.isLt; have h2 := b2.isLt; have h3 := b3.isLt
  have h4 := b4.isLt; have h5 := b5.isLt; have h6 := b6.isLt; have h7 := b7.isLt
  unfold amplitudes
  rw [kronStep_at (n := 128) (n2 := 256) rfl _ _ _ _ _ _ _ r ⟨((((((b0.val * 2 + b1.val) * 2 + b2.val) * 2 + b3.val) * 2 + b4.val) * 2 + b5.val) * 2 + b6.val), by omega⟩ b7 k hk,
    kronStep_at (n := 64) (n2 := 128) rfl _ _ _ _ _ _ _ r ⟨(((((b0.val * 2 + b1.val) * 2 + b2.val) * 2 + b3.val) * 2 + b4.val) * 2 + b5.val), by omega⟩ b6 ⟨((((((b0.val * 2 + b1.val) * 2 + b2.val) * 2 + b3.val) * 2 + b4.val) * 2 + b5.val) * 2 + b6.val), _⟩ rfl,
    kronStep_at (n := 32) (n2 := 64) rfl _ _ _ _ _ _ _ r ⟨((((b0.val * 2 + b1.val) * 2 + b2.val) * 2 + b3.val) * 2 + b4.val), by omega⟩ b5 ⟨(((((b0.val * 2 + b1.val) * 2 + b2.val) * 2 + b3.val) * 2 + b4.val) * 2 + b5.val), _⟩ rfl,
    kronStep_at (n := 16) (n2 := 32) rfl _ _ _ _ _ _ _ r ⟨(((b0.val * 2 + b1.val) * 2 + b2.val) * 2 + b3.val), by omega⟩ b4 ⟨((((b0.val * 2 + b1.val) * 2 + b2.val) * 2 + b3.val) * 2 + b4.val), _⟩ rfl,
    kronStep_at (n := 8) (n2 := 16) rfl _ _ _ _ _ _ _ r ⟨((b0.val * 2 + b1.val) * 2 + b2.val), by omega⟩ b3 ⟨(((b0.val * 2 + b1.val) * 2 + b2.val) * 2 + b3.val), _⟩ rfl,
    kronStep_at (n := 4) (n2 := 8) rfl _ _ _ _ _ _ _ r ⟨(b0.val * 2 + b1.val), by omega⟩ b2 ⟨((b0.val * 2 + b1.val) * 2 + b2.val), _⟩ rfl,
    kronStep_at (n := 2) (n2 := 4) rfl _ _ _ _ _ _ _ r b0 b1 ⟨(b0.val * 2 + b1.val), _⟩ rfl,
    kron0_at]

/-- The state with one axis per qubit reads the amplitude at the position whose digits are the coordinates. -/
theorem state_at (x : Arr Ideal S262144x8) (i : S262144x2x2x2x2x2x2x2x2.Idx) (k : Fin 256)
    (hk : k.val = ((((((((i 1).val * 2 + (i 2).val) * 2 + (i 3).val) * 2 + (i 4).val) * 2 + (i 5).val) * 2 + (i 6).val) * 2
      + (i 7).val) * 2 + (i 8).val)) :
    state x i = amplitudes x (ix2 (i 0) k) := by
  unfold state
  refine shapeCast_apply _ _ i (ix2 (i 0) k) ?_
  rw [Shape.rowMajor_val_two, Cert.LibOuterProduct.rowMajor_val_nine]
  show (i 0).val * 256 + k.val = (((((((((i 0).val * 2 + (i 1).val) * 2 + (i 2).val) * 2 + (i 3).val) * 2 + (i 4).val) * 2
    + (i 5).val) * 2 + (i 6).val) * 2 + (i 7).val) * 2 + (i 8).val)
  omega

end Cert.ReferenceIdeal.SimRead

end
-- ==== Proof.Circuit.lean ====
/-
  The objects of the reference's simulation, over the reals, for one row of the input.

  A basis label of the eight-qubit register is the tail `(i 1, …, i 8)` of an index `i` of the array
  `[262144, 2, 2, 2, 2, 2, 2, 2, 2]` (axis 0 is the row of the input, axis `k + 1` is qubit `k`).  The product
  state has the amplitude `∏ₖ (if i (k+1) = 0 then c k else s k)` at label `i`, with `c k`, `s k` the cosine and the
  sine of half of qubit `k`'s rotation angle.  A controlled-NOT with control axis `a` and target axis `t` moves
  amplitudes between labels: the new amplitude at `i` is the old one at `cnot a t i`, which is `i` with its
  coordinate on axis `t` flipped when its coordinate on axis `a` is 1.  The chain `0→1, 1→2, …, 6→7, 7→0` applied
  in that order therefore reads the product state at `chain i`.
-/
import Mathlib.Data.Real.Basic
import Mathlib.Algebra.BigOperators.Fin
import Idealize.ShloMosaic.Shape

noncomputable section

namespace Cert.Circuit

open Idealize.ShloMosaic

/-- The shape of the state array: the row, then one axis of size 2 per qubit. -/
abbrev S9 : Shape := ⟨9, ![262144, 2, 2, 2, 2, 2, 2, 2, 2]⟩

/-- The label a controlled-NOT (control axis `a`, target axis `t`) reads at label `i`: the coordinate on `t` is
    mirrored when the coordinate on `a` is not 0. -/
def cnot (a t : Fin 9) (i : S9.Idx) : S9.Idx :=
  if (i a).val = 0 then i else Function.update i t (i t).rev

/-- The label the whole chain reads at label `i`: the last gate's map is applied first. -/
def chain (i : S9.Idx) : S9.Idx :=
  cnot 1 2 (cnot 2 3 (cnot 3 4 (cnot 4 5 (cnot 5 6 (cnot 6 7 (cnot 7 8 (cnot 8 1 i)))))))

/-- Qubit `k`'s amplitude of `|b⟩`: `c k` for `b = 0`, `s k` otherwise. -/
def amp1 (c s : Fin 8 → ℝ) (k : Fin 8) (b : ℕ) : ℝ := if b = 0 then c k else s k

/-- The product state's amplitude at label `i`, multiplied up in the order the reference does it (from 1). -/
def amp (c s : Fin 8 → ℝ) (i : S9.Idx) : ℝ :=
  1 * amp1 c s 0 (i 1).val * amp1 c s 1 (i 2).val * amp1 c s 2 (i 3).val * amp1 c s 3 (i 4).val
    * amp1 c s 4 (i 5).val * amp1 c s 5 (i 6).val * amp1 c s 6 (i 7).val * amp1 c s 7 (i 8).val

/-- The products of a per-qubit quantity `z` over the wires that reach wire `j` through the chain
    (`{1,…,7}` for wire 0, `{0,…,j}` for wire `j ≥ 1`), written in the kernel's order of multiplication. -/
def zprod (z : Fin 8 → ℝ) : Fin 8 → ℝ
  | ⟨0, _⟩ => z 1 * z 2 * z 3 * z 4 * z 5 * z 6 * z 7
  | ⟨1, _⟩ => z 0 * z 1
  | ⟨2, _⟩ => z 0 * z 1 * z 2
  | ⟨3, _⟩ => z 0 * z 1 * z 2 * z 3
  | ⟨4, _⟩ => z 0 * z 1 * z 2 * z 3 * z 4
  | ⟨5, _⟩ => z 0 * z 1 * z 2 * z 3 * z 4 * z 5
  | ⟨6, _⟩ => z 0 * z 1 * z 2 * z 3 * z 4 * z 5 * z 6
  | ⟨7, _⟩ => z 0 * z 1 * z 2 * z 3 * z 4 * z 5 * z 6 * z 7

end Cert.Circuit

end
-- ==== Proof.Angles.lean ====
/-
  The rotation angles over the reals.

  For a real input `t` the reference rotates a qubit by the half angle `(π/2)₃₂ · min 1 (max 0 t)` and the kernel takes
  the cosine of the full angle `π₃₂ · min 1 (max 0 t)`, where `(π/2)₃₂ = 13176795 / 2²³` and `π₃₂ = 13176795 / 2²²` are the
  binary values of the f32 words `0x3FC90FDB` and `0x40490FDB`: the second is exactly twice the first, so the full angle
  is twice the half angle and its cosine is `cos² − sin²` of the half angle.
-/
import Mathlib.Analysis.SpecialFunctions.Trigonometric.Basic

noncomputable section

namespace Cert.Angles

/-- The binary value of the f32 word `0x3FC90FDB`, the float nearest to `π/2`. -/
def halfPi32 : ℝ := 13176795 / 8388608

/-- The binary value of the f32 word `0x40490FDB`, the float nearest to `π`. -/
def pi32 : ℝ := 13176795 / 4194304

theorem pi32_eq : pi32 = 2 * halfPi32 := by unfold pi32 halfPi32; norm_num

/-- Half of a qubit's rotation angle, for the real input `t`. -/
def halfAngleR (t : ℝ) : ℝ := halfPi32 * min 1 (max 0 t)

/-- The cosines and the sines of the half angles of a row `t₀ … t₇`. -/
def cosHalf (xr : Fin 8 → ℝ) (k : Fin 8) : ℝ := Real.cos (halfAngleR (xr k))
def sinHalf (xr : Fin 8 → ℝ) (k : Fin 8) : ℝ := Real.sin (halfAngleR (xr k))

theorem cosHalf_sq_add_sinHalf_sq (xr : Fin 8 → ℝ) (k : Fin 8) : cosHalf xr k ^ 2 + sinHalf xr k ^ 2 = 1 :=
  Real.cos_sq_add_sin_sq _

/-- The cosine of the full angle is `cos² − sin²` of the half angle. -/
theorem cos_fullAngle (xr : Fin 8 → ℝ) (k : Fin 8) :
    Real.cos (pi32 * min 1 (max 0 (xr k))) = cosHalf xr k ^ 2 - sinHalf xr k ^ 2 := by
  unfold cosHalf sinHalf halfAngleR
  rw [← Real.cos_two_mul', pi32_eq, mul_assoc]

end Cert.Angles

end
-- ==== Proof.RefAmp.lean ====
/-
  The reference's state is real when the input row is, and its entries are the real amplitudes.

  If row `r` of the input holds the real numbers `t₀ … t₇`, the half angle of qubit `k` is the real number
  `(π/2)₃₂ · min 1 (max 0 tₖ)` (the binary value of the f32 word `0x3FC90FDB` is `13176795 / 2²³`), the qubit's pair is
  the real cosine and sine of it, and the state's entry at a label of row `r` is the product of the pairs' entries
  the label selects: the real amplitude `Circuit.amp` of the label, as an extended real.
-/
import proofs.«115797_j9835475108036_1_alg».proof.Proof.RefRead
import proofs.«115797_j9835475108036_1_alg».proof.Proof.Circuit
import proofs.«115797_j9835475108036_1_alg».proof.Proof.Angles
import Idealize.ShloMosaic.Lib.IdealHost
import Mathlib.Analysis.SpecialFunctions.Trigonometric.Basic

noncomputable section

namespace Cert.ReferenceIdeal.SimAmp

open Cert.ReferenceIdeal Cert.ReferenceIdeal.Gen Cert.ReferenceIdeal.Sim Cert.ReferenceIdeal.SimRead Cert.Circuit Cert.Angles
open Idealize.ShloMosaic Idealize.ShloMosaic.ValueIdx

theorem ofBits_halfPi32 : Ideal.ofBits .f32 0x3FC90FDB#32 = (halfPi32 : EReal) := by
  unfold halfPi32
  simp [Ideal.ofBits, Ideal.ieee, -EReal.coe_mul]; norm_num

/-- The coercion of the reals into the extended reals is monotone, so it commutes with clipping to `[0, 1]`. -/
theorem coe_clip (t : ℝ) : ((min 1 (max 0 t) : ℝ) : EReal) = min 1 (max 0 (t : EReal)) := by
  rw [EReal.coe_strictMono.monotone.map_min, EReal.coe_strictMono.monotone.map_max]
  rfl

/-- At a real entry the half angle is the real half angle. -/
theorem halfAngle_real (x : Arr Ideal S262144x8) (i : S262144x8.Idx) (t : ℝ) (h : x i = (t : EReal)) :
    halfAngle x i = (halfAngleR t : EReal) := by
  rw [halfAngle_at, h, ofBits_halfPi32, Ideal.ofBits_one_f32, Ideal.ofBits_zero_f32]
  unfold halfAngleR
  rw [EReal.coe_mul, coe_clip]

theorem qubit0_real (x : Arr Ideal S262144x8) (r : Fin 262144) (xr : Fin 8 → ℝ)
    (hx : ∀ k : Fin 8, x (ix2 r k) = (xr k : EReal)) (j : Fin 2) :
    qubit0 x (ix2 r j) = (amp1 (cosHalf xr) (sinHalf xr) 0 j.val : EReal) := by
  rw [qubit0_at, halfAngle_real x _ _ (hx 0)]
  unfold amp1 cosHalf sinHalf
  split <;> rfl

theorem qubit1_real (x : Arr Ideal S262144x8) (r : Fin 262144) (xr : Fin 8 → ℝ)
    (hx : ∀ k : Fin 8, x (ix2 r k) = (xr k : EReal)) (j : Fin 2) :
    qubit1 x (ix2 r j) = (amp1 (cosHalf xr) (sinHalf xr) 1 j.val : EReal) := by
  rw [qubit1_at, halfAngle_real x _ _ (hx 1)]
  unfold amp1 cosHalf sinHalf
  split <;> rfl

theorem qubit2_real (x : Arr Ideal S262144x8) (r : Fin 262144) (xr : Fin 8 → ℝ)
    (hx : ∀ k : Fin 8, x (ix2 r k) = (xr k : EReal)) (j : Fin 2) :
    qubit2 x (ix2 r j) = (amp1 (cosHalf xr) (sinHalf xr) 2 j.val : EReal) := by
  rw [qubit2_at, halfAngle_real x _ _ (hx 2)]
  unfold amp1 cosHalf sinHalf
  split <;> rfl

theorem qubit3_real (x : Arr Ideal S262144x8) (r : Fin 262144) (xr : Fin 8 → ℝ)
    (hx : ∀ k : Fin 8, x (ix2 r k) = (xr k : EReal)) (j : Fin 2) :
    qubit3 x (ix2 r j) = (amp1 (cosHalf xr) (sinHalf xr) 3 j.val : EReal) := by
  rw [qubit3_at, halfAngle_real x _ _ (hx 3)]
  unfold amp1 cosHalf sinHalf
  split <;> rfl

theorem qubit4_real (x : Arr Ideal S262144x8) (r : Fin 262144) (xr : Fin 8 → ℝ)
    (hx : ∀ k : Fin 8, x (ix2 r k) = (xr k : EReal)) (j : Fin 2) :
    qubit4 x (ix2 r j) = (amp1 (cosHalf xr) (sinHalf xr) 4 j.val : EReal) := by
  rw [qubit4_at, halfAngle_real x _ _ (hx 4)]
  unfold amp1 cosHalf sinHalf
  split <;> rfl

theorem qubit5_real (x : Arr Ideal S262144x8) (r : Fin 262144) (xr : Fin 8 → ℝ)
    (hx : ∀ k : Fin 8, x (ix2 r k) = (xr k : EReal)) (j : Fin 2) :
    qubit5 x (ix2 r j) = (amp1 (cosHalf xr) (sinHalf xr) 5 j.val : EReal) := by
  rw [qubit5_at, halfAngle_real x _ _ (hx 5)]
  unfold amp1 cosHalf sinHalf
  split <;> rfl

theorem qubit6_real (x : Arr Ideal S262144x8) (r : Fin 262144) (xr : Fin 8 → ℝ)
    (hx : ∀ k : Fin 8, x (ix2 r k) = (xr k : EReal)) (j : Fin 2) :
    qubit6 x (ix2 r j) = (amp1 (cosHalf xr) (sinHalf xr) 6 j.val : EReal) := by
  rw [qubit6_at, halfAngle_real x _ _ (hx 6)]
  unfold amp1 cosHalf sinHalf
  split <;> rfl

theorem qubit7_real (x : Arr Ideal S262144x8) (r : Fin 262144) (xr : Fin 8 → ℝ)
    (hx : ∀ k : Fin 8, x (ix2 r k) = (xr k : EReal)) (j : Fin 2) :
    qubit7 x (ix2 r j) = (amp1 (cosHalf xr) (sinHalf xr) 7 j.val : EReal) := by
  rw [qubit7_at, halfAngle_real x _ _ (hx 7)]
  unfold amp1 cosHalf sinHalf
  split <;> rfl

/-- The product of the eight qubits' selected entries, from the constant 1, is the coerced real product. -/
theorem product_real (x : Arr Ideal S262144x8) (r : Fin 262144) (xr : Fin 8 → ℝ)
    (hx : ∀ k : Fin 8, x (ix2 r k) = (xr k : EReal)) (b0 b1 b2 b3 b4 b5 b6 b7 : Fin 2) :
    Ideal.ofBits .f32 0x3F800000#32 * qubit0 x (ix2 r b0) * qubit1 x (ix2 r b1) * qubit2 x (ix2 r b2)
        * qubit3 x (ix2 r b3) * qubit4 x (ix2 r b4) * qubit5 x (ix2 r b5) * qubit6 x (ix2 r b6) * qubit7 x (ix2 r b7)
      = ((1 * amp1 (cosHalf xr) (sinHalf xr) 0 b0.val * amp1 (cosHalf xr) (sinHalf xr) 1 b1.val
          * amp1 (cosHalf xr) (sinHalf xr) 2 b2.val * amp1 (cosHalf xr) (sinHalf xr) 3 b3.val
          * amp1 (cosHalf xr) (sinHalf xr) 4 b4.val * amp1 (cosHalf xr) (sinHalf xr) 5 b5.val
          * amp1 (cosHalf xr) (sinHalf xr) 6 b6.val * amp1 (cosHalf xr) (sinHalf xr) 7 b7.val : ℝ) : EReal) := by
  rw [qubit0_real x r xr hx, qubit1_real x r xr hx, qubit2_real x r xr hx, qubit3_real x r xr hx,
    qubit4_real x r xr hx, qubit5_real x r xr hx, qubit6_real x r xr hx, qubit7_real x r xr hx,
    Ideal.ofBits_one_f32]
  norm_cast

/-- The state's entry at a label of a real row is the label's real amplitude. -/
theorem state_real (x : Arr Ideal S262144x8) (j : S262144x2x2x2x2x2x2x2x2.Idx) (xr : Fin 8 → ℝ)
    (hx : ∀ k : Fin 8, x (ix2 (j 0) k) = (xr k : EReal)) :
    state x j = (amp (cosHalf xr) (sinHalf xr) j : EReal) := by
  have h1 : (j 1).val < 2 := (j 1).isLt
  have h2 : (j 2).val < 2 := (j 2).isLt
  have h3 : (j 3).val < 2 := (j 3).isLt
  have h4 : (j 4).val < 2 := (j 4).isLt
  have h5 : (j 5).val < 2 := (j 5).isLt
  have h6 : (j 6).val < 2 := (j 6).isLt
  have h7 : (j 7).val < 2 := (j 7).isLt
  have h8 : (j 8).val < 2 := (j 8).isLt
  refine (state_at x j ⟨((((((((j 1).val * 2 + (j 2).val) * 2 + (j 3).val) * 2 + (j 4).val) * 2 + (j 5).val) * 2
      + (j 6).val) * 2 + (j 7).val) * 2 + (j 8).val), by omega⟩ rfl).trans ?_
  refine (amplitudes_at x (j 0) (j 1) (j 2) (j 3) (j 4) (j 5) (j 6) (j 7) (j 8) _ rfl).trans ?_
  exact product_real x (j 0) xr hx (j 1) (j 2) (j 3) (j 4) (j 5) (j 6) (j 7) (j 8)

end Cert.ReferenceIdeal.SimAmp

end
-- ==== Proof.RefTail.lean ====
/-
  The end of the reference read at an entry, on the extended reals: a wire's marginal distribution as a sum over the
  labels of the row with that wire's bit fixed, the expectation as the difference of the marginal's two entries, and
  the result's column `w` as wire `w`'s expectation.
-/
import proofs.«115797_j9835475108036_1_alg».proof.Proof.RefProgram
import proofs.«115797_j9835475108036_1_alg».proof.Proof.LibConcatAt
import proofs.«115797_j9835475108036_1_alg».proof.Proof.LibColumnVec
import Idealize.ShloMosaic.Lib.ValueIdx
import Idealize.ShloMosaic.Lib.IdealHost
import Idealize.ShloMosaic.PureOps.Ideal.Laws
import Idealize.ShloMosaic.PureOps.Reduce

noncomputable section

namespace Cert.ReferenceIdeal.SimTail

open Cert.ReferenceIdeal Cert.ReferenceIdeal.Gen Cert.ReferenceIdeal.Sim Idealize.ShloMosaic Idealize.ShloMosaic.ValueIdx

/-- A probability is the square of the amplitude. -/
theorem probs_at (x : Arr Ideal S262144x8) (i : S262144x2x2x2x2x2x2x2x2.Idx) : probs x i = evolved x i * evolved x i := rfl

/-- Wire 0's marginal at `(r, v)`: the probabilities of the labels of row `r` whose bit 0 is `v`, summed from 0. -/
theorem marginal0_at (p : Arr Ideal S262144x2x2x2x2x2x2x2x2) (r : Fin 262144) (v : Fin 2) :
    marginal0 p (ix2 r v) = Ideal.ofBits .f32 0x00000000#32
      + ∑ i ∈ Finset.univ.filter (fun i : S262144x2x2x2x2x2x2x2x2.Idx => (i 0).val = r.val ∧ (i 1).val = v.val), p i := by
  unfold marginal0
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d2_3_4_5_6_7_8 i 0 0
    have e1 := Shape.ReducesTo.drop_apply_val_of_eq reducesTo_S262144x2x2x2x2x2x2x2x2_S262144x2_d2_3_4_5_6_7_8 i 1 1
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d2_3_4_5_6_7_8 i 0 0).trans h0)
    | ⟨1, _⟩ => exact Fin.ext ((Shape.ReducesTo.drop_apply_val_of_eq reducesTo_S262144x2x2x2x2x2x2x2x2_S262144x2_d2_3_4_5_6_7_8 i 1 1).trans h1)

/-- Wire 1's marginal at `(r, v)`: the probabilities of the labels of row `r` whose bit 1 is `v`, summed from 0. -/
theorem marginal1_at (p : Arr Ideal S262144x2x2x2x2x2x2x2x2) (r : Fin 262144) (v : Fin 2) :
    marginal1 p (ix2 r v) = Ideal.ofBits .f32 0x00000000#32
      + ∑ i ∈ Finset.univ.filter (fun i : S262144x2x2x2x2x2x2x2x2.Idx => (i 0).val = r.val ∧ (i 2).val = v.val), p i := by
  unfold marginal1
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d1_3_4_5_6_7_8 i 0 0
    have e1 := Shape.ReducesTo.drop_apply_val_of_eq reducesTo_S262144x2x2x2x2x2x2x2x2_S262144x2_d1_3_4_5_6_7_8 i 1 2
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d1_3_4_5_6_7_8 i 0 0).trans h0)
    | ⟨1, _⟩ => exact Fin.ext ((Shape.ReducesTo.drop_apply_val_of_eq reducesTo_S262144x2x2x2x2x2x2x2x2_S262144x2_d1_3_4_5_6_7_8 i 1 2).trans h1)

/-- Wire 2's marginal at `(r, v)`: the probabilities of the labels of row `r` whose bit 2 is `v`, summed from 0. -/
theorem marginal2_at (p : Arr Ideal S262144x2x2x2x2x2x2x2x2) (r : Fin 262144) (v : Fin 2) :
    marginal2 p (ix2 r v) = Ideal.ofBits .f32 0x00000000#32
      + ∑ i ∈ Finset.univ.filter (fun i : S262144x2x2x2x2x2x2x2x2.Idx => (i 0).val = r.val ∧ (i 3).val = v.val), p i := by
  unfold marginal2
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d1_2_4_5_6_7_8 i 0 0
    have e1 := Shape.ReducesTo.drop_apply_val_of_eq reducesTo_S262144x2x2x2x2x2x2x2x2_S262144x2_d1_2_4_5_6_7_8 i 1 3
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d1_2_4_5_6_7_8 i 0 0).trans h0)
    | ⟨1, _⟩ => exact Fin.ext ((Shape.ReducesTo.drop_apply_val_of_eq reducesTo_S262144x2x2x2x2x2x2x2x2_S262144x2_d1_2_4_5_6_7_8 i 1 3).trans h1)

/-- Wire 3's marginal at `(r, v)`: the probabilities of the labels of row `r` whose bit 3 is `v`, summed from 0. -/
theorem marginal3_at (p : Arr Ideal S262144x2x2x2x2x2x2x2x2) (r : Fin 262144) (v : Fin 2) :
    marginal3 p (ix2 r v) = Ideal.ofBits .f32 0x00000000#32
      + ∑ i ∈ Finset.univ.filter (fun i : S262144x2x2x2x2x2x2x2x2.Idx => (i 0).val = r.val ∧ (i 4).val = v.val), p i := by
  unfold marginal3
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d1_2_3_5_6_7_8 i 0 0
    have e1 := Shape.ReducesTo.drop_apply_val_of_eq reducesTo_S262144x2x2x2x2x2x2x2x2_S262144x2_d1_2_3_5_6_7_8 i 1 4
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d1_2_3_5_6_7_8 i 0 0).trans h0)
    | ⟨1, _⟩ => exact Fin.ext ((Shape.ReducesTo.drop_apply_val_of_eq reducesTo_S262144x2x2x2x2x2x2x2x2_S262144x2_d1_2_3_5_6_7_8 i 1 4).trans h1)

/-- Wire 4's marginal at `(r, v)`: the probabilities of the labels of row `r` whose bit 4 is `v`, summed from 0. -/
theorem marginal4_at (p : Arr Ideal S262144x2x2x2x2x2x2x2x2) (r : Fin 262144) (v : Fin 2) :
    marginal4 p (ix2 r v) = Ideal.ofBits .f32 0x00000000#32
      + ∑ i ∈ Finset.univ.filter (fun i : S262144x2x2x2x2x2x2x2x2.Idx => (i 0).val = r.val ∧ (i 5).val = v.val), p i := by
  unfold marginal4
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d1_2_3_4_6_7_8 i 0 0
    have e1 := Shape.ReducesTo.drop_apply_val_of_eq reducesTo_S262144x2x2x2x2x2x2x2x2_S262144x2_d1_2_3_4_6_7_8 i 1 5
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d1_2_3_4_6_7_8 i 0 0).trans h0)
    | ⟨1, _⟩ => exact Fin.ext ((Shape.ReducesTo.drop_apply_val_of_eq reducesTo_S262144x2x2x2x2x2x2x2x2_S262144x2_d1_2_3_4_6_7_8 i 1 5).trans h1)

/-- Wire 5's marginal at `(r, v)`: the probabilities of the labels of row `r` whose bit 5 is `v`, summed from 0. -/
theorem marginal5_at (p : Arr Ideal S262144x2x2x2x2x2x2x2x2) (r : Fin 262144) (v : Fin 2) :
    marginal5 p (ix2 r v) = Ideal.ofBits .f32 0x00000000#32
      + ∑ i ∈ Finset.univ.filter (fun i : S262144x2x2x2x2x2x2x2x2.Idx => (i 0).val = r.val ∧ (i 6).val = v.val), p i := by
  unfold marginal5
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d1_2_3_4_5_7_8 i 0 0
    have e1 := Shape.ReducesTo.drop_apply_val_of_eq reducesTo_S262144x2x2x2x2x2x2x2x2_S262144x2_d1_2_3_4_5_7_8 i 1 6
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d1_2_3_4_5_7_8 i 0 0).trans h0)
    | ⟨1, _⟩ => exact Fin.ext ((Shape.ReducesTo.drop_apply_val_of_eq reducesTo_S262144x2x2x2x2x2x2x2x2_S262144x2_d1_2_3_4_5_7_8 i 1 6).trans h1)

/-- Wire 6's marginal at `(r, v)`: the probabilities of the labels of row `r` whose bit 6 is `v`, summed from 0. -/
theorem marginal6_at (p : Arr Ideal S262144x2x2x2x2x2x2x2x2) (r : Fin 262144) (v : Fin 2) :
    marginal6 p (ix2 r v) = Ideal.ofBits .f32 0x00000000#32
      + ∑ i ∈ Finset.univ.filter (fun i : S262144x2x2x2x2x2x2x2x2.Idx => (i 0).val = r.val ∧ (i 7).val = v.val), p i := by
  unfold marginal6
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d1_2_3_4_5_6_8 i 0 0
    have e1 := Shape.ReducesTo.drop_apply_val_of_eq reducesTo_S262144x2x2x2x2x2x2x2x2_S262144x2_d1_2_3_4_5_6_8 i 1 7
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d1_2_3_4_5_6_8 i 0 0).trans h0)
    | ⟨1, _⟩ => exact Fin.ext ((Shape.ReducesTo.drop_apply_val_of_eq reducesTo_S262144x2x2x2x2x2x2x2x2_S262144x2_d1_2_3_4_5_6_8 i 1 7).trans h1)

/-- Wire 7's marginal at `(r, v)`: the probabilities of the labels of row `r` whose bit 7 is `v`, summed from 0. -/
theorem marginal7_at (p : Arr Ideal S262144x2x2x2x2x2x2x2x2) (r : Fin 262144) (v : Fin 2) :
    marginal7 p (ix2 r v) = Ideal.ofBits .f32 0x00000000#32
      + ∑ i ∈ Finset.univ.filter (fun i : S262144x2x2x2x2x2x2x2x2.Idx => (i 0).val = r.val ∧ (i 8).val = v.val), p i := by
  unfold marginal7
  show Ideal.hostReduceAdd _ p _ (ix2 r v) = _
  unfold Ideal.hostReduceAdd
  refine congrArg₂ (· + ·) rfl (Finset.sum_congr (Finset.filter_congr fun i _ => ?_) fun _ _ => rfl)
  constructor
  · intro h
    have e0 := Shape.ReducesTo.drop_apply_val_of_eq reducesTo_S262144x2x2x2x2x2x2x2x2_S262144x2_d1_2_3_4_5_6_7 i 0 0
    have e1 := Shape.ReducesTo.drop_apply_val_of_eq reducesTo_S262144x2x2x2x2x2x2x2x2_S262144x2_d1_2_3_4_5_6_7 i 1 8
    rw [h] at e0 e1
    exact ⟨e0.symm, e1.symm⟩
  · rintro ⟨h0, h1⟩
    funext b
    match b with
    | ⟨0, _⟩ => exact Fin.ext ((Shape.ReducesTo.drop_apply_val_of_eq reducesTo_S262144x2x2x2x2x2x2x2x2_S262144x2_d1_2_3_4_5_6_7 i 0 0).trans h0)
    | ⟨1, _⟩ => exact Fin.ext ((Shape.ReducesTo.drop_apply_val_of_eq reducesTo_S262144x2x2x2x2x2x2x2x2_S262144x2_d1_2_3_4_5_6_7 i 1 8).trans h1)

/-- The expectation of `Z`: the marginal's entry 0 minus its entry 1. -/
theorem expectation_at (s : Arr Ideal S262144x2) (r : Fin 262144) :
    expectation s (ix2 r 0) = s (ix2 r 0) - s (ix2 r 1) := by
  unfold expectation
  refine (Cert.LibColumnVec.columnOfVector_at _ bcast_S262144_S262144x1_0 r).trans ?_
  show (shapeCast _ (extractStridedSlice S262144x1 ![0, 0] s slices_S262144x2_S262144x1_0_0) shapeCasts_S262144x1_S262144 (ix1 r) : EReal)
      - shapeCast _ (extractStridedSlice S262144x1 ![0, 1] s slices_S262144x2_S262144x1_0_1) shapeCasts_S262144x1_S262144 (ix1 r) = _
  rw [Cert.LibColumnVec.vectorOfColumn_at, Cert.LibColumnVec.vectorOfColumn_at, Cert.LibColumnVec.columnOfMatrix_at,
    Cert.LibColumnVec.columnOfMatrix_at]
  rfl

theorem out_at0 (x : Arr Ideal S262144x8) (r : Fin 262144) :
    out x (ix2 r 0) = expectation (marginal0 (probs x)) (ix2 r 0) := by
  unfold out
  exact Cert.LibConcatAt.columns_at _ _ r ⟨0, by decide⟩ _ rfl rfl

theorem out_at1 (x : Arr Ideal S262144x8) (r : Fin 262144) :
    out x (ix2 r 1) = expectation (marginal1 (probs x)) (ix2 r 0) := by
  unfold out
  exact Cert.LibConcatAt.columns_at _ _ r ⟨1, by decide⟩ _ rfl rfl

theorem out_at2 (x : Arr Ideal S262144x8) (r : Fin 262144) :
    out x (ix2 r 2) = expectation (marginal2 (probs x)) (ix2 r 0) := by
  unfold out
  exact Cert.LibConcatAt.columns_at _ _ r ⟨2, by decide⟩ _ rfl rfl

theorem out_at3 (x : Arr Ideal S262144x8) (r : Fin 262144) :
    out x (ix2 r 3) = expectation (marginal3 (probs x)) (ix2 r 0) := by
  unfold out
  exact Cert.LibConcatAt.columns_at _ _ r ⟨3, by decide⟩ _ rfl rfl

theorem out_at4 (x : Arr Ideal S262144x8) (r : Fin 262144) :
    out x (ix2 r 4) = expectation (marginal4 (probs x)) (ix2 r 0) := by
  unfold out
  exact Cert.LibConcatAt.columns_at _ _ r ⟨4, by decide⟩ _ rfl rfl

theorem out_at5 (x : Arr Ideal S262144x8) (r : Fin 262144) :
    out x (ix2 r 5) = expectation (marginal5 (probs x)) (ix2 r 0) := by
  unfold out
  exact Cert.LibConcatAt.columns_at _ _ r ⟨5, by decide⟩ _ rfl rfl

theorem out_at6 (x : Arr Ideal S262144x8) (r : Fin 262144) :
    out x (ix2 r 6) = expectation (marginal6 (probs x)) (ix2 r 0) := by
  unfold out
  exact Cert.LibConcatAt.columns_at _ _ r ⟨6, by decide⟩ _ rfl rfl

theorem out_at7 (x : Arr Ideal S262144x8) (r : Fin 262144) :
    out x (ix2 r 7) = expectation (marginal7 (probs x)) (ix2 r 0) := by
  unfold out
  exact Cert.LibConcatAt.columns_at _ _ r ⟨7, by decide⟩ _ rfl rfl

end Cert.ReferenceIdeal.SimTail

end
-- ==== Proof.RefGates.lean ====
/-
  The reference's eight controlled-NOT gates, and their chain, read at a label.

  The state is an array over labels `(row, b₁, …, b₈)`: axis 0 is the row of the input, axis `k` the bit of qubit
  `k - 1`.  The reference builds gate `k` (control axis `k`, target axis `t`) out of layout operations: it cuts the
  state along the control axis into the half with control bit 0 and the half with control bit 1 (two slices of extent
  1 on axis `k`), mirrors the second half along the target axis, and joins the two halves again along the control
  axis.  Read at a label `i` this is the state at `cnot k t i`: `i` itself where the control bit of `i` is 0, and
  `i` with its bit on axis `t` flipped where it is 1 (`gate<k>_at`).  A gate therefore only moves entries, and the
  chain of the eight gates reads the product state at `chain i`, the last gate's map applied first (`evolved_at`).

  A label's coordinates are taken as variables of their literal types (`ix9`, `eq_ix9`): the row in `Fin 262144`,
  each bit in `Fin 2`.  A half of the state has its own shape (extent 1 on the control axis), and the label of the
  half under a label of the state (`half<k>`) is built from the same variables, so that a coordinate of the one
  and a coordinate of the other are each compared with a variable, never with each other.
-/
import proofs.«115797_j9835475108036_1_alg».proof.Proof.RefProgram
import proofs.«115797_j9835475108036_1_alg».proof.Proof.Circuit
import Idealize.ShloMosaic.Lib.Pipeline.Value

noncomputable section

namespace Cert.ReferenceIdeal.SimGates

open Cert.ReferenceIdeal Cert.ReferenceIdeal.Gen Idealize.ShloMosaic
open Cert.Circuit (cnot chain)

variable {F : FTy → Type} [FloatOps F]

/-- Mirroring an array along ONE axis `t`: the entry at `j` is the operand's entry at `j` with its coordinate on
    `t` mirrored, the other coordinates as they are. -/
theorem reverse_single_apply {s : Shape} {α : Type} (t : Fin s.rank) (x : s.Idx → α) (j : s.Idx) :
    Host.reverse [t] x j = x (Function.update j t (j t).rev) := by
  show x (fun a => if a ∈ [t] then (j a).rev else j a) = _
  refine congrArg x (funext fun a => ?_)
  by_cases h : a = t
  · subst h
    rw [if_pos (List.mem_singleton.mpr rfl), Function.update_self]
  · rw [if_neg (fun hm => h (List.mem_singleton.mp hm)), Function.update_of_ne h]

/-! ## Labels from coordinates -/

/-- A label of the state array from its nine coordinates: the row, then one bit per qubit. -/
abbrev ix9 (r : Fin 262144) (b1 b2 b3 b4 b5 b6 b7 b8 : Fin 2) : S262144x2x2x2x2x2x2x2x2.Idx := fun a => match a with
  | ⟨0, _⟩ => r
  | ⟨1, _⟩ => b1
  | ⟨2, _⟩ => b2
  | ⟨3, _⟩ => b3
  | ⟨4, _⟩ => b4
  | ⟨5, _⟩ => b5
  | ⟨6, _⟩ => b6
  | ⟨7, _⟩ => b7
  | ⟨8, _⟩ => b8

/-- Every label is `ix9` of its coordinates. -/
theorem eq_ix9 (i : S262144x2x2x2x2x2x2x2x2.Idx) : i = ix9 (i 0) (i 1) (i 2) (i 3) (i 4) (i 5) (i 6) (i 7) (i 8) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-! ## Gate 1: control axis 1, target axis 2 -/

/-- The label of a half of the state (extent 1 on axis 1) under a label of the state: the same coordinates, 0 on axis 1. -/
abbrev half1 (r : Fin 262144) (b1 b2 b3 b4 b5 b6 b7 b8 : Fin 2) : S262144x1x2x2x2x2x2x2x2.Idx := fun a => match a with
  | ⟨0, _⟩ => r
  | ⟨1, _⟩ => (0 : Fin 1)
  | ⟨2, _⟩ => b2
  | ⟨3, _⟩ => b3
  | ⟨4, _⟩ => b4
  | ⟨5, _⟩ => b5
  | ⟨6, _⟩ => b6
  | ⟨7, _⟩ => b7
  | ⟨8, _⟩ => b8

/-- Gate 1 at a label: where the control bit is 0 the entry is kept (the first half, read in place); where it is 1
    the entry is the one with the bit on axis 2 flipped (the second half, mirrored along axis 2). -/
theorem gate1_at (y : Sim.Arr F S262144x2x2x2x2x2x2x2x2) (i : S262144x2x2x2x2x2x2x2x2.Idx) : Sim.gate1 y i = y (cnot 1 2 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b1.val < 2 := b1.isLt
  unfold Sim.gate1 Cert.Circuit.cnot
  split
  · next hc =>
    have hc' : b1.val = 0 := hc
    refine (concatenate_pair_apply_left (t := S262144x2x2x2x2x2x2x2x2) (s₁ := S262144x1x2x2x2x2x2x2x2) (s₂ := S262144x1x2x2x2x2x2x2x2) 1 _ _ _ (ix9 r b1 b2 b3 b4 b5 b6 b7 b8) rfl (half1 r b1 b2 b3 b4 b5 b6 b7 b8) (fun b => ?_)).trans ?_
    · match b with
      | ⟨0, _⟩ => show r.val = r.val; rfl
      | ⟨1, _⟩ => show 0 = b1.val; omega
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => show b8.val = b8.val; rfl
    · refine extractStridedSlice_apply _ y _ (half1 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + 0; omega
      | ⟨2, _⟩ => show b2.val = 0 + b2.val; omega
      | ⟨3, _⟩ => show b3.val = 0 + b3.val; omega
      | ⟨4, _⟩ => show b4.val = 0 + b4.val; omega
      | ⟨5, _⟩ => show b5.val = 0 + b5.val; omega
      | ⟨6, _⟩ => show b6.val = 0 + b6.val; omega
      | ⟨7, _⟩ => show b7.val = 0 + b7.val; omega
      | ⟨8, _⟩ => show b8.val = 0 + b8.val; omega
  · next hc =>
    have hc' : ¬ b1.val = 0 := hc
    refine (concatenate_pair_apply_right (t := S262144x2x2x2x2x2x2x2x2) (s₁ := S262144x1x2x2x2x2x2x2x2) (s₂ := S262144x1x2x2x2x2x2x2x2) 1 _ _ _ (ix9 r b1 b2 b3 b4 b5 b6 b7 b8) rfl rfl (half1 r b1 b2 b3 b4 b5 b6 b7 b8) (fun b hb => ?_) ?_).trans ?_
    · match b with
      | ⟨0, _⟩ => show r.val = r.val; rfl
      | ⟨1, _⟩ => exact absurd rfl hb
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => show b8.val = b8.val; rfl
    · show 0 + 1 = b1.val; omega
    · rw [reverse_single_apply]
      refine extractStridedSlice_apply _ y _ _ (Function.update (ix9 r b1 b2 b3 b4 b5 b6 b7 b8) 2 ((ix9 r b1 b2 b3 b4 b5 b6 b7 b8) 2).rev) (fun a => ?_)
      match a with
      | ⟨0, _⟩ =>
        show (Function.update (ix9 r b1 b2 b3 b4 b5 b6 b7 b8) 2 ((ix9 r b1 b2 b3 b4 b5 b6 b7 b8) 2).rev 0).val = 0 + (Function.update (half1 r b1 b2 b3 b4 b5 b6 b7 b8) 2 ((half1 r b1 b2 b3 b4 b5 b6 b7 b8) 2).rev 0).val
        rw [Function.update_of_ne (by decide), Function.update_of_ne (by decide)]
        show r.val = 0 + r.val; omega
      | ⟨1, _⟩ =>
        show (Function.update (ix9 r b1 b2 b3 b4 b5 b6 b7 b8) 2 ((ix9 r b1 b2 b3 b4 b5 b6 b7 b8) 2).rev 1).val = 1 + (Function.update (half1 r b1 b2 b3 b4 b5 b6 b7 b8) 2 ((half1 r b1 b2 b3 b4 b5 b6 b7 b8) 2).rev 1).val
        rw [Function.update_of_ne (by decide), Function.update_of_ne (by decide)]
        show b1.val = 1 + 0; omega
      | ⟨2, _⟩ =>
        show (Function.update (ix9 r b1 b2 b3 b4 b5 b6 b7 b8) 2 ((ix9 r b1 b2 b3 b4 b5 b6 b7 b8) 2).rev 2).val = 0 + (Function.update (half1 r b1 b2 b3 b4 b5 b6 b7 b8) 2 ((half1 r b1 b2 b3 b4 b5 b6 b7 b8) 2).rev 2).val
        rw [Function.update_self, Function.update_self]
        show (Fin.rev b2).val = 0 + (Fin.rev b2).val; omega
      | ⟨3, _⟩ =>
        show (Function.update (ix9 r b1 b2 b3 b4 b5 b6 b7 b8) 2 ((ix9 r b1 b2 b3 b4 b5 b6 b7 b8) 2).rev 3).val = 0 + (Function.update (half1 r b1 b2 b3 b4 b5 b6 b7 b8) 2 ((half1 r b1 b2 b3 b4 b5 b6 b7 b8) 2).rev 3).val
        rw [Function.update_of_ne (by decide), Function.update_of_ne (by decide)]
        show b3.val = 0 + b3.val; omega
      | ⟨4, _⟩ =>
        show (Function.update (ix9 r b1 b2 b3 b4 b5 b6 b7 b8) 2 ((ix9 r b1 b2 b3 b4 b5 b6 b7 b8) 2).rev 4).val = 0 + (Function.update (half1 r b1 b2 b3 b4 b5 b6 b7 b8) 2 ((half1 r b1 b2 b3 b4 b5 b6 b7 b8) 2).rev 4).val
        rw [Function.update_of_ne (by decide), Function.update_of_ne (by decide)]
        show b4.val = 0 + b4.val; omega
      | ⟨5, _⟩ =>
        show (Function.update (ix9 r b1 b2 b3 b4 b5 b6 b7 b8) 2 ((ix9 r b1 b2 b3 b4 b5 b6 b7 b8) 2).rev 5).val = 0 + (Function.update (half1 r b1 b2 b3 b4 b5 b6 b7 b8) 2 ((half1 r b1 b2 b3 b4 b5 b6 b7 b8) 2).rev 5).val
        rw [Function.update_of_ne (by decide), Function.update_of_ne (by decide)]
        show b5.val = 0 + b5.val; omega
      | ⟨6, _⟩ =>
        show (Function.update (ix9 r b1 b2 b3 b4 b5 b6 b7 b8) 2 ((ix9 r b1 b2 b3 b4 b5 b6 b7 b8) 2).rev 6).val = 0 + (Function.update (half1 r b1 b2 b3 b4 b5 b6 b7 b8) 2 ((half1 r b1 b2 b3 b4 b5 b6 b7 b8) 2).rev 6).val
        rw [Function.update_of_ne (by decide), Function.update_of_ne (by decide)]
        show b6.val = 0 + b6.val; omega
      | ⟨7, _⟩ =>
        show (Function.update (ix9 r b1 b2 b3 b4 b5 b6 b7 b8) 2 ((ix9 r b1 b2 b3 b4 b5 b6 b7 b8) 2).rev 7).val = 0 + (Function.update (half1 r b1 b2 b3 b4 b5 b6 b7 b8) 2 ((half1 r b1 b2 b3 b4 b5 b6 b7 b8) 2).rev 7).val
        rw [Function.update_of_ne (by decide), Function.update_of_ne (by decide)]
        show b7.val = 0 + b7.val; omega
      | ⟨8, _⟩ =>
        show (Function.update (ix9 r b1 b2 b3 b4 b5 b6 b7 b8) 2 ((ix9 r b1 b2 b3 b4 b5 b6 b7 b8) 2).rev 8).val = 0 + (Function.update (half1 r b1 b2 b3 b4 b5 b6 b7 b8) 2 ((half1 r b1 b2 b3 b4 b5 b6 b7 b8) 2).rev 8).val
        rw [Function.update_of_ne (by decide), Function.update_of_ne (by decide)]
        show b8.val = 0 + b8.val; omega

/-! ## Gate 2: control axis 2, target axis 3 -/

/-- The label of a half of the state (extent 1 on axis 2) under a label of the state: the same coordinates, 0 on axis 2. -/
abbrev half2 (r : Fin 262144) (b1 b2 b3 b4 b5 b6 b7 b8 : Fin 2) : S262144x2x1x2x2x2x2x2x2.Idx := fun a => match a with
  | ⟨0, _⟩ => r
  | ⟨1, _⟩ => b1
  | ⟨2, _⟩ => (0 : Fin 1)
  | ⟨3, _⟩ => b3
  | ⟨4, _⟩ => b4
  | ⟨5, _⟩ => b5
  | ⟨6, _⟩ => b6
  | ⟨7, _⟩ => b7
  | ⟨8, _⟩ => b8

/-- Gate 2 at a label: where the control bit is 0 the entry is kept (the first half, read in place); where it is 1
    the entry is the one with the bit on axis 3 flipped (the second half, mirrored along axis 3). -/
theorem gate2_at (y : Sim.Arr F S262144x2x2x2x2x2x2x2x2) (i : S262144x2x2x2x2x2x2x2x2.Idx) : Sim.gate2 y i = y (cnot 2 3 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b2.val < 2 := b2.isLt
  unfold Sim.gate2 Cert.Circuit.cnot
  split
  · next hc =>
    have hc' : b2.val = 0 := hc
    refine (concatenate_pair_apply_left (t := S262144x2x2x2x2x2x2x2x2) (s₁ := S262144x2x1x2x2x2x2x2x2) (s₂ := S262144x2x1x2x2x2x2x2x2) 2 _ _ _ (ix9 r b1 b2 b3 b4 b5 b6 b7 b8) rfl (half2 r b1 b2 b3 b4 b5 b6 b7 b8) (fun b => ?_)).trans ?_
    · match b with
      | ⟨0, _⟩ => show r.val = r.val; rfl
      | ⟨1, _⟩ => show b1.val = b1.val; rfl
      | ⟨2, _⟩ => show 0 = b2.val; omega
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => show b8.val = b8.val; rfl
    · refine extractStridedSlice_apply _ y _ (half2 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + b1.val; omega
      | ⟨2, _⟩ => show b2.val = 0 + 0; omega
      | ⟨3, _⟩ => show b3.val = 0 + b3.val; omega
      | ⟨4, _⟩ => show b4.val = 0 + b4.val; omega
      | ⟨5, _⟩ => show b5.val = 0 + b5.val; omega
      | ⟨6, _⟩ => show b6.val = 0 + b6.val; omega
      | ⟨7, _⟩ => show b7.val = 0 + b7.val; omega
      | ⟨8, _⟩ => show b8.val = 0 + b8.val; omega
  · next hc =>
    have hc' : ¬ b2.val = 0 := hc
    refine (concatenate_pair_apply_right (t := S262144x2x2x2x2x2x2x2x2) (s₁ := S262144x2x1x2x2x2x2x2x2) (s₂ := S262144x2x1x2x2x2x2x2x2) 2 _ _ _ (ix9 r b1 b2 b3 b4 b5 b6 b7 b8) rfl rfl (half2 r b1 b2 b3 b4 b5 b6 b7 b8) (fun b hb => ?_) ?_).trans ?_
    · match b with
      | ⟨0, _⟩ => show r.val = r.val; rfl
      | ⟨1, _⟩ => show b1.val = b1.val; rfl
      | ⟨2, _⟩ => exact absurd rfl hb
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => show b8.val = b8.val; rfl
    · show 0 + 1 = b2.val; omega
    · rw [reverse_single_apply]
      refine extractStridedSlice_apply _ y _ _ (Function.update (ix9 r b1 b2 b3 b4 b5 b6 b7 b8) 3 ((ix9 r b1 b2 b3 b4 b5 b6 b7 b8) 3).rev) (fun a => ?_)
      match a with
      | ⟨0, _⟩ =>
        show (Function.update (ix9 r b1 b2 b3 b4 b5 b6 b7 b8) 3 ((ix9 r b1 b2 b3 b4 b5 b6 b7 b8) 3).rev 0).val = 0 + (Function.update (half2 r b1 b2 b3 b4 b5 b6 b7 b8) 3 ((half2 r b1 b2 b3 b4 b5 b6 b7 b8) 3).rev 0).val
        rw [Function.update_of_ne (by decide), Function.update_of_ne (by decide)]
        show r.val = 0 + r.val; omega
      | ⟨1, _⟩ =>
        show (Function.update (ix9 r b1 b2 b3 b4 b5 b6 b7 b8) 3 ((ix9 r b1 b2 b3 b4 b5 b6 b7 b8) 3).rev 1).val = 0 + (Function.update (half2 r b1 b2 b3 b4 b5 b6 b7 b8) 3 ((half2 r b1 b2 b3 b4 b5 b6 b7 b8) 3).rev 1).val
        rw [Function.update_of_ne (by decide), Function.update_of_ne (by decide)]
        show b1.val = 0 + b1.val; omega
      | ⟨2, _⟩ =>
        show (Function.update (ix9 r b1 b2 b3 b4 b5 b6 b7 b8) 3 ((ix9 r b1 b2 b3 b4 b5 b6 b7 b8) 3).rev 2).val = 1 + (Function.update (half2 r b1 b2 b3 b4 b5 b6 b7 b8) 3 ((half2 r b1 b2 b3 b4 b5 b6 b7 b8) 3).rev 2).val
        rw [Function.update_of_ne (by decide), Function.update_of_ne (by decide)]
        show b2.val = 1 + 0; omega
      | ⟨3, _⟩ =>
        show (Function.update (ix9 r b1 b2 b3 b4 b5 b6 b7 b8) 3 ((ix9 r b1 b2 b3 b4 b5 b6 b7 b8) 3).rev 3).val = 0 + (Function.update (half2 r b1 b2 b3 b4 b5 b6 b7 b8) 3 ((half2 r b1 b2 b3 b4 b5 b6 b7 b8) 3).rev 3).val
        rw [Function.update_self, Function.update_self]
        show (Fin.rev b3).val = 0 + (Fin.rev b3).val; omega
      | ⟨4, _⟩ =>
        show (Function.update (ix9 r b1 b2 b3 b4 b5 b6 b7 b8) 3 ((ix9 r b1 b2 b3 b4 b5 b6 b7 b8) 3).rev 4).val = 0 + (Function.update (half2 r b1 b2 b3 b4 b5 b6 b7 b8) 3 ((half2 r b1 b2 b3 b4 b5 b6 b7 b8) 3).rev 4).val
        rw [Function.update_of_ne (by decide), Function.update_of_ne (by decide)]
        show b4.val = 0 + b4.val; omega
      | ⟨5, _⟩ =>
        show (Function.update (ix9 r b1 b2 b3 b4 b5 b6 b7 b8) 3 ((ix9 r b1 b2 b3 b4 b5 b6 b7 b8) 3).rev 5).val = 0 + (Function.update (half2 r b1 b2 b3 b4 b5 b6 b7 b8) 3 ((half2 r b1 b2 b3 b4 b5 b6 b7 b8) 3).rev 5).val
        rw [Function.update_of_ne (by decide), Function.update_of_ne (by decide)]
        show b5.val = 0 + b5.val; omega
      | ⟨6, _⟩ =>
        show (Function.update (ix9 r b1 b2 b3 b4 b5 b6 b7 b8) 3 ((ix9 r b1 b2 b3 b4 b5 b6 b7 b8) 3).rev 6).val = 0 + (Function.update (half2 r b1 b2 b3 b4 b5 b6 b7 b8) 3 ((half2 r b1 b2 b3 b4 b5 b6 b7 b8) 3).rev 6).val
        rw [Function.update_of_ne (by decide), Function.update_of_ne (by decide)]
        show b6.val = 0 + b6.val; omega
      | ⟨7, _⟩ =>
        show (Function.update (ix9 r b1 b2 b3 b4 b5 b6 b7 b8) 3 ((ix9 r b1 b2 b3 b4 b5 b6 b7 b8) 3).rev 7).val = 0 + (Function.update (half2 r b1 b2 b3 b4 b5 b6 b7 b8) 3 ((half2 r b1 b2 b3 b4 b5 b6 b7 b8) 3).rev 7).val
        rw [Function.update_of_ne (by decide), Function.update_of_ne (by decide)]
        show b7.val = 0 + b7.val; omega
      | ⟨8, _⟩ =>
        show (Function.update (ix9 r b1 b2 b3 b4 b5 b6 b7 b8) 3 ((ix9 r b1 b2 b3 b4 b5 b6 b7 b8) 3).rev 8).val = 0 + (Function.update (half2 r b1 b2 b3 b4 b5 b6 b7 b8) 3 ((half2 r b1 b2 b3 b4 b5 b6 b7 b8) 3).rev 8).val
        rw [Function.update_of_ne (by decide), Function.update_of_ne (by decide)]
        show b8.val = 0 + b8.val; omega

/-! ## Gate 3: control axis 3, target axis 4 -/

/-- The label of a half of the state (extent 1 on axis 3) under a label of the state: the same coordinates, 0 on axis 3. -/
abbrev half3 (r : Fin 262144) (b1 b2 b3 b4 b5 b6 b7 b8 : Fin 2) : S262144x2x2x1x2x2x2x2x2.Idx := fun a => match a with
  | ⟨0, _⟩ => r
  | ⟨1, _⟩ => b1
  | ⟨2, _⟩ => b2
  | ⟨3, _⟩ => (0 : Fin 1)
  | ⟨4, _⟩ => b4
  | ⟨5, _⟩ => b5
  | ⟨6, _⟩ => b6
  | ⟨7, _⟩ => b7
  | ⟨8, _⟩ => b8

/-- Gate 3 at a label: where the control bit is 0 the entry is kept (the first half, read in place); where it is 1
    the entry is the one with the bit on axis 4 flipped (the second half, mirrored along axis 4). -/
theorem gate3_at (y : Sim.Arr F S262144x2x2x2x2x2x2x2x2) (i : S262144x2x2x2x2x2x2x2x2.Idx) : Sim.gate3 y i = y (cnot 3 4 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b3.val < 2 := b3.isLt
  unfold Sim.gate3 Cert.Circuit.cnot
  split
  · next hc =>
    have hc' : b3.val = 0 := hc
    refine (concatenate_pair_apply_left (t := S262144x2x2x2x2x2x2x2x2) (s₁ := S262144x2x2x1x2x2x2x2x2) (s₂ := S262144x2x2x1x2x2x2x2x2) 3 _ _ _ (ix9 r b1 b2 b3 b4 b5 b6 b7 b8) rfl (half3 r b1 b2 b3 b4 b5 b6 b7 b8) (fun b => ?_)).trans ?_
    · match b with
      | ⟨0, _⟩ => show r.val = r.val; rfl
      | ⟨1, _⟩ => show b1.val = b1.val; rfl
      | ⟨2, _⟩ => show b2.val = b2.val; rfl
      | ⟨3, _⟩ => show 0 = b3.val; omega
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => show b8.val = b8.val; rfl
    · refine extractStridedSlice_apply _ y _ (half3 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + b1.val; omega
      | ⟨2, _⟩ => show b2.val = 0 + b2.val; omega
      | ⟨3, _⟩ => show b3.val = 0 + 0; omega
      | ⟨4, _⟩ => show b4.val = 0 + b4.val; omega
      | ⟨5, _⟩ => show b5.val = 0 + b5.val; omega
      | ⟨6, _⟩ => show b6.val = 0 + b6.val; omega
      | ⟨7, _⟩ => show b7.val = 0 + b7.val; omega
      | ⟨8, _⟩ => show b8.val = 0 + b8.val; omega
  · next hc =>
    have hc' : ¬ b3.val = 0 := hc
    refine (concatenate_pair_apply_right (t := S262144x2x2x2x2x2x2x2x2) (s₁ := S262144x2x2x1x2x2x2x2x2) (s₂ := S262144x2x2x1x2x2x2x2x2) 3 _ _ _ (ix9 r b1 b2 b3 b4 b5 b6 b7 b8) rfl rfl (half3 r b1 b2 b3 b4 b5 b6 b7 b8) (fun b hb => ?_) ?_).trans ?_
    · match b with
      | ⟨0, _⟩ => show r.val = r.val; rfl
      | ⟨1, _⟩ => show b1.val = b1.val; rfl
      | ⟨2, _⟩ => show b2.val = b2.val; rfl
      | ⟨3, _⟩ => exact absurd rfl hb
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => show b8.val = b8.val; rfl
    · show 0 + 1 = b3.val; omega
    · rw [reverse_single_apply]
      refine extractStridedSlice_apply _ y _ _ (Function.update (ix9 r b1 b2 b3 b4 b5 b6 b7 b8) 4 ((ix9 r b1 b2 b3 b4 b5 b6 b7 b8) 4).rev) (fun a => ?_)
      match a with
      | ⟨0, _⟩ =>
        show (Function.update (ix9 r b1 b2 b3 b4 b5 b6 b7 b8) 4 ((ix9 r b1 b2 b3 b4 b5 b6 b7 b8) 4).rev 0).val = 0 + (Function.update (half3 r b1 b2 b3 b4 b5 b6 b7 b8) 4 ((half3 r b1 b2 b3 b4 b5 b6 b7 b8) 4).rev 0).val
        rw [Function.update_of_ne (by decide), Function.update_of_ne (by decide)]
        show r.val = 0 + r.val; omega
      | ⟨1, _⟩ =>
        show (Function.update (ix9 r b1 b2 b3 b4 b5 b6 b7 b8) 4 ((ix9 r b1 b2 b3 b4 b5 b6 b7 b8) 4).rev 1).val = 0 + (Function.update (half3 r b1 b2 b3 b4 b5 b6 b7 b8) 4 ((half3 r b1 b2 b3 b4 b5 b6 b7 b8) 4).rev 1).val
        rw [Function.update_of_ne (by decide), Function.update_of_ne (by decide)]
        show b1.val = 0 + b1.val; omega
      | ⟨2, _⟩ =>
        show (Function.update (ix9 r b1 b2 b3 b4 b5 b6 b7 b8) 4 ((ix9 r b1 b2 b3 b4 b5 b6 b7 b8) 4).rev 2).val = 0 + (Function.update (half3 r b1 b2 b3 b4 b5 b6 b7 b8) 4 ((half3 r b1 b2 b3 b4 b5 b6 b7 b8) 4).rev 2).val
        rw [Function.update_of_ne (by decide), Function.update_of_ne (by decide)]
        show b2.val = 0 + b2.val; omega
      | ⟨3, _⟩ =>
        show (Function.update (ix9 r b1 b2 b3 b4 b5 b6 b7 b8) 4 ((ix9 r b1 b2 b3 b4 b5 b6 b7 b8) 4).rev 3).val = 1 + (Function.update (half3 r b1 b2 b3 b4 b5 b6 b7 b8) 4 ((half3 r b1 b2 b3 b4 b5 b6 b7 b8) 4).rev 3).val
        rw [Function.update_of_ne (by decide), Function.update_of_ne (by decide)]
        show b3.val = 1 + 0; omega
      | ⟨4, _⟩ =>
        show (Function.update (ix9 r b1 b2 b3 b4 b5 b6 b7 b8) 4 ((ix9 r b1 b2 b3 b4 b5 b6 b7 b8) 4).rev 4).val = 0 + (Function.update (half3 r b1 b2 b3 b4 b5 b6 b7 b8) 4 ((half3 r b1 b2 b3 b4 b5 b6 b7 b8) 4).rev 4).val
        rw [Function.update_self, Function.update_self]
        show (Fin.rev b4).val = 0 + (Fin.rev b4).val; omega
      | ⟨5, _⟩ =>
        show (Function.update (ix9 r b1 b2 b3 b4 b5 b6 b7 b8) 4 ((ix9 r b1 b2 b3 b4 b5 b6 b7 b8) 4).rev 5).val = 0 + (Function.update (half3 r b1 b2 b3 b4 b5 b6 b7 b8) 4 ((half3 r b1 b2 b3 b4 b5 b6 b7 b8) 4).rev 5).val
        rw [Function.update_of_ne (by decide), Function.update_of_ne (by decide)]
        show b5.val = 0 + b5.val; omega
      | ⟨6, _⟩ =>
        show (Function.update (ix9 r b1 b2 b3 b4 b5 b6 b7 b8) 4 ((ix9 r b1 b2 b3 b4 b5 b6 b7 b8) 4).rev 6).val = 0 + (Function.update (half3 r b1 b2 b3 b4 b5 b6 b7 b8) 4 ((half3 r b1 b2 b3 b4 b5 b6 b7 b8) 4).rev 6).val
        rw [Function.update_of_ne (by decide), Function.update_of_ne (by decide)]
        show b6.val = 0 + b6.val; omega
      | ⟨7, _⟩ =>
        show (Function.update (ix9 r b1 b2 b3 b4 b5 b6 b7 b8) 4 ((ix9 r b1 b2 b3 b4 b5 b6 b7 b8) 4).rev 7).val = 0 + (Function.update (half3 r b1 b2 b3 b4 b5 b6 b7 b8) 4 ((half3 r b1 b2 b3 b4 b5 b6 b7 b8) 4).rev 7).val
        rw [Function.update_of_ne (by decide), Function.update_of_ne (by decide)]
        show b7.val = 0 + b7.val; omega
      | ⟨8, _⟩ =>
        show (Function.update (ix9 r b1 b2 b3 b4 b5 b6 b7 b8) 4 ((ix9 r b1 b2 b3 b4 b5 b6 b7 b8) 4).rev 8).val = 0 + (Function.update (half3 r b1 b2 b3 b4 b5 b6 b7 b8) 4 ((half3 r b1 b2 b3 b4 b5 b6 b7 b8) 4).rev 8).val
        rw [Function.update_of_ne (by decide), Function.update_of_ne (by decide)]
        show b8.val = 0 + b8.val; omega

/-! ## Gate 4: control axis 4, target axis 5 -/

/-- The label of a half of the state (extent 1 on axis 4) under a label of the state: the same coordinates, 0 on axis 4. -/
abbrev half4 (r : Fin 262144) (b1 b2 b3 b4 b5 b6 b7 b8 : Fin 2) : S262144x2x2x2x1x2x2x2x2.Idx := fun a => match a with
  | ⟨0, _⟩ => r
  | ⟨1, _⟩ => b1
  | ⟨2, _⟩ => b2
  | ⟨3, _⟩ => b3
  | ⟨4, _⟩ => (0 : Fin 1)
  | ⟨5, _⟩ => b5
  | ⟨6, _⟩ => b6
  | ⟨7, _⟩ => b7
  | ⟨8, _⟩ => b8

/-- Gate 4 at a label: where the control bit is 0 the entry is kept (the first half, read in place); where it is 1
    the entry is the one with the bit on axis 5 flipped (the second half, mirrored along axis 5). -/
theorem gate4_at (y : Sim.Arr F S262144x2x2x2x2x2x2x2x2) (i : S262144x2x2x2x2x2x2x2x2.Idx) : Sim.gate4 y i = y (cnot 4 5 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b4.val < 2 := b4.isLt
  unfold Sim.gate4 Cert.Circuit.cnot
  split
  · next hc =>
    have hc' : b4.val = 0 := hc
    refine (concatenate_pair_apply_left (t := S262144x2x2x2x2x2x2x2x2) (s₁ := S262144x2x2x2x1x2x2x2x2) (s₂ := S262144x2x2x2x1x2x2x2x2) 4 _ _ _ (ix9 r b1 b2 b3 b4 b5 b6 b7 b8) rfl (half4 r b1 b2 b3 b4 b5 b6 b7 b8) (fun b => ?_)).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show 0 = b4.val; omega
      | ⟨5, _⟩ => show b5.val = b5.val; rfl
      | ⟨6, _⟩ => show b6.val = b6.val; rfl
      | ⟨7, _⟩ => show b7.val = b7.val; rfl
      | ⟨8, _⟩ => show b8.val = b8.val; rfl
    · refine extractStridedSlice_apply _ y _ (half4 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + b1.val; omega
      | ⟨2, _⟩ => show b2.val = 0 + b2.val; omega
      | ⟨3, _⟩ => show b3.val = 0 + b3.val; omega
      | ⟨4, _⟩ => show b4.val = 0 + 0; omega
      | ⟨5, _⟩ => show b5.val = 0 + b5.val; omega
      | ⟨6, _⟩ => show b6.val = 0 + b6.val; omega
      | ⟨7, _⟩ => show b7.val = 0 + b7.val; omega
      | ⟨8, _⟩ => show b8.val = 0 + b8.val; omega
  · next hc =>
    have hc' : ¬ b4.val = 0 := hc
    refine (concatenate_pair_apply_right (t := S262144x2x2x2x2x2x2x2x2) (s₁ := S262144x2x2x2x1x2x2x2x2) (s₂ := S262144x2x2x2x1x2x2x2x2) 4 _ _ _ (ix9 r b1 b2 b3 b4 b5 b6 b7 b8) rfl rfl (half4 r b1 b2 b3 b4 b5 b6 b7 b8) (fun b hb => ?_) ?_).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => exact absurd rfl hb
      | ⟨5, _⟩ => show b5.val = b5.val; rfl
      | ⟨6, _⟩ => show b6.val = b6.val; rfl
      | ⟨7, _⟩ => show b7.val = b7.val; rfl
      | ⟨8, _⟩ => show b8.val = b8.val; rfl
    · show 0 + 1 = b4.val; omega
    · rw [reverse_single_apply]
      refine extractStridedSlice_apply _ y _ _ (Function.update (ix9 r b1 b2 b3 b4 b5 b6 b7 b8) 5 ((ix9 r b1 b2 b3 b4 b5 b6 b7 b8) 5).rev) (fun a => ?_)
      match a with
      | ⟨0, _⟩ =>
        show (Function.update (ix9 r b1 b2 b3 b4 b5 b6 b7 b8) 5 ((ix9 r b1 b2 b3 b4 b5 b6 b7 b8) 5).rev 0).val = 0 + (Function.update (half4 r b1 b2 b3 b4 b5 b6 b7 b8) 5 ((half4 r b1 b2 b3 b4 b5 b6 b7 b8) 5).rev 0).val
        rw [Function.update_of_ne (by decide), Function.update_of_ne (by decide)]
        show r.val = 0 + r.val; omega
      | ⟨1, _⟩ =>
        show (Function.update (ix9 r b1 b2 b3 b4 b5 b6 b7 b8) 5 ((ix9 r b1 b2 b3 b4 b5 b6 b7 b8) 5).rev 1).val = 0 + (Function.update (half4 r b1 b2 b3 b4 b5 b6 b7 b8) 5 ((half4 r b1 b2 b3 b4 b5 b6 b7 b8) 5).rev 1).val
        rw [Function.update_of_ne (by decide), Function.update_of_ne (by decide)]
        show b1.val = 0 + b1.val; omega
      | ⟨2, _⟩ =>
        show (Function.update (ix9 r b1 b2 b3 b4 b5 b6 b7 b8) 5 ((ix9 r b1 b2 b3 b4 b5 b6 b7 b8) 5).rev 2).val = 0 + (Function.update (half4 r b1 b2 b3 b4 b5 b6 b7 b8) 5 ((half4 r b1 b2 b3 b4 b5 b6 b7 b8) 5).rev 2).val
        rw [Function.update_of_ne (by decide), Function.update_of_ne (by decide)]
        show b2.val = 0 + b2.val; omega
      | ⟨3, _⟩ =>
        show (Function.update (ix9 r b1 b2 b3 b4 b5 b6 b7 b8) 5 ((ix9 r b1 b2 b3 b4 b5 b6 b7 b8) 5).rev 3).val = 0 + (Function.update (half4 r b1 b2 b3 b4 b5 b6 b7 b8) 5 ((half4 r b1 b2 b3 b4 b5 b6 b7 b8) 5).rev 3).val
        rw [Function.update_of_ne (by decide), Function.update_of_ne (by decide)]
        show b3.val = 0 + b3.val; omega
      | ⟨4, _⟩ =>
        show (Function.update (ix9 r b1 b2 b3 b4 b5 b6 b7 b8) 5 ((ix9 r b1 b2 b3 b4 b5 b6 b7 b8) 5).rev 4).val = 1 + (Function.update (half4 r b1 b2 b3 b4 b5 b6 b7 b8) 5 ((half4 r b1 b2 b3 b4 b5 b6 b7 b8) 5).rev 4).val
        rw [Function.update_of_ne (by decide), Function.update_of_ne (by decide)]
        show b4.val = 1 + 0; omega
      | ⟨5, _⟩ =>
        show (Function.update (ix9 r b1 b2 b3 b4 b5 b6 b7 b8) 5 ((ix9 r b1 b2 b3 b4 b5 b6 b7 b8) 5).rev 5).val = 0 + (Function.update (half4 r b1 b2 b3 b4 b5 b6 b7 b8) 5 ((half4 r b1 b2 b3 b4 b5 b6 b7 b8) 5).rev 5).val
        rw [Function.update_self, Function.update_self]
        show (Fin.rev b5).val = 0 + (Fin.rev b5).val; omega
      | ⟨6, _⟩ =>
        show (Function.update (ix9 r b1 b2 b3 b4 b5 b6 b7 b8) 5 ((ix9 r b1 b2 b3 b4 b5 b6 b7 b8) 5).rev 6).val = 0 + (Function.update (half4 r b1 b2 b3 b4 b5 b6 b7 b8) 5 ((half4 r b1 b2 b3 b4 b5 b6 b7 b8) 5).rev 6).val
        rw [Function.update_of_ne (by decide), Function.update_of_ne (by decide)]
        show b6.val = 0 + b6.val; omega
      | ⟨7, _⟩ =>
        show (Function.update (ix9 r b1 b2 b3 b4 b5 b6 b7 b8) 5 ((ix9 r b1 b2 b3 b4 b5 b6 b7 b8) 5).rev 7).val = 0 + (Function.update (half4 r b1 b2 b3 b4 b5 b6 b7 b8) 5 ((half4 r b1 b2 b3 b4 b5 b6 b7 b8) 5).rev 7).val
        rw [Function.update_of_ne (by decide), Function.update_of_ne (by decide)]
        show b7.val = 0 + b7.val; omega
      | ⟨8, _⟩ =>
        show (Function.update (ix9 r b1 b2 b3 b4 b5 b6 b7 b8) 5 ((ix9 r b1 b2 b3 b4 b5 b6 b7 b8) 5).rev 8).val = 0 + (Function.update (half4 r b1 b2 b3 b4 b5 b6 b7 b8) 5 ((half4 r b1 b2 b3 b4 b5 b6 b7 b8) 5).rev 8).val
        rw [Function.update_of_ne (by decide), Function.update_of_ne (by decide)]
        show b8.val = 0 + b8.val; omega

/-! ## Gate 5: control axis 5, target axis 6 -/

/-- The label of a half of the state (extent 1 on axis 5) under a label of the state: the same coordinates, 0 on axis 5. -/
abbrev half5 (r : Fin 262144) (b1 b2 b3 b4 b5 b6 b7 b8 : Fin 2) : S262144x2x2x2x2x1x2x2x2.Idx := fun a => match a with
  | ⟨0, _⟩ => r
  | ⟨1, _⟩ => b1
  | ⟨2, _⟩ => b2
  | ⟨3, _⟩ => b3
  | ⟨4, _⟩ => b4
  | ⟨5, _⟩ => (0 : Fin 1)
  | ⟨6, _⟩ => b6
  | ⟨7, _⟩ => b7
  | ⟨8, _⟩ => b8

/-- Gate 5 at a label: where the control bit is 0 the entry is kept (the first half, read in place); where it is 1
    the entry is the one with the bit on axis 6 flipped (the second half, mirrored along axis 6). -/
theorem gate5_at (y : Sim.Arr F S262144x2x2x2x2x2x2x2x2) (i : S262144x2x2x2x2x2x2x2x2.Idx) : Sim.gate5 y i = y (cnot 5 6 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b5.val < 2 := b5.isLt
  unfold Sim.gate5 Cert.Circuit.cnot
  split
  · next hc =>
    have hc' : b5.val = 0 := hc
    refine (concatenate_pair_apply_left (t := S262144x2x2x2x2x2x2x2x2) (s₁ := S262144x2x2x2x2x1x2x2x2) (s₂ := S262144x2x2x2x2x1x2x2x2) 5 _ _ _ (ix9 r b1 b2 b3 b4 b5 b6 b7 b8) rfl (half5 r b1 b2 b3 b4 b5 b6 b7 b8) (fun b => ?_)).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => show 0 = b5.val; omega
      | ⟨6, _⟩ => show b6.val = b6.val; rfl
      | ⟨7, _⟩ => show b7.val = b7.val; rfl
      | ⟨8, _⟩ => show b8.val = b8.val; rfl
    · refine extractStridedSlice_apply _ y _ (half5 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + b1.val; omega
      | ⟨2, _⟩ => show b2.val = 0 + b2.val; omega
      | ⟨3, _⟩ => show b3.val = 0 + b3.val; omega
      | ⟨4, _⟩ => show b4.val = 0 + b4.val; omega
      | ⟨5, _⟩ => show b5.val = 0 + 0; omega
      | ⟨6, _⟩ => show b6.val = 0 + b6.val; omega
      | ⟨7, _⟩ => show b7.val = 0 + b7.val; omega
      | ⟨8, _⟩ => show b8.val = 0 + b8.val; omega
  · next hc =>
    have hc' : ¬ b5.val = 0 := hc
    refine (concatenate_pair_apply_right (t := S262144x2x2x2x2x2x2x2x2) (s₁ := S262144x2x2x2x2x1x2x2x2) (s₂ := S262144x2x2x2x2x1x2x2x2) 5 _ _ _ (ix9 r b1 b2 b3 b4 b5 b6 b7 b8) rfl rfl (half5 r b1 b2 b3 b4 b5 b6 b7 b8) (fun b hb => ?_) ?_).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => exact absurd rfl hb
      | ⟨6, _⟩ => show b6.val = b6.val; rfl
      | ⟨7, _⟩ => show b7.val = b7.val; rfl
      | ⟨8, _⟩ => show b8.val = b8.val; rfl
    · show 0 + 1 = b5.val; omega
    · rw [reverse_single_apply]
      refine extractStridedSlice_apply _ y _ _ (Function.update (ix9 r b1 b2 b3 b4 b5 b6 b7 b8) 6 ((ix9 r b1 b2 b3 b4 b5 b6 b7 b8) 6).rev) (fun a => ?_)
      match a with
      | ⟨0, _⟩ =>
        show (Function.update (ix9 r b1 b2 b3 b4 b5 b6 b7 b8) 6 ((ix9 r b1 b2 b3 b4 b5 b6 b7 b8) 6).rev 0).val = 0 + (Function.update (half5 r b1 b2 b3 b4 b5 b6 b7 b8) 6 ((half5 r b1 b2 b3 b4 b5 b6 b7 b8) 6).rev 0).val
        rw [Function.update_of_ne (by decide), Function.update_of_ne (by decide)]
        show r.val = 0 + r.val; omega
      | ⟨1, _⟩ =>
        show (Function.update (ix9 r b1 b2 b3 b4 b5 b6 b7 b8) 6 ((ix9 r b1 b2 b3 b4 b5 b6 b7 b8) 6).rev 1).val = 0 + (Function.update (half5 r b1 b2 b3 b4 b5 b6 b7 b8) 6 ((half5 r b1 b2 b3 b4 b5 b6 b7 b8) 6).rev 1).val
        rw [Function.update_of_ne (by decide), Function.update_of_ne (by decide)]
        show b1.val = 0 + b1.val; omega
      | ⟨2, _⟩ =>
        show (Function.update (ix9 r b1 b2 b3 b4 b5 b6 b7 b8) 6 ((ix9 r b1 b2 b3 b4 b5 b6 b7 b8) 6).rev 2).val = 0 + (Function.update (half5 r b1 b2 b3 b4 b5 b6 b7 b8) 6 ((half5 r b1 b2 b3 b4 b5 b6 b7 b8) 6).rev 2).val
        rw [Function.update_of_ne (by decide), Function.update_of_ne (by decide)]
        show b2.val = 0 + b2.val; omega
      | ⟨3, _⟩ =>
        show (Function.update (ix9 r b1 b2 b3 b4 b5 b6 b7 b8) 6 ((ix9 r b1 b2 b3 b4 b5 b6 b7 b8) 6).rev 3).val = 0 + (Function.update (half5 r b1 b2 b3 b4 b5 b6 b7 b8) 6 ((half5 r b1 b2 b3 b4 b5 b6 b7 b8) 6).rev 3).val
        rw [Function.update_of_ne (by decide), Function.update_of_ne (by decide)]
        show b3.val = 0 + b3.val; omega
      | ⟨4, _⟩ =>
        show (Function.update (ix9 r b1 b2 b3 b4 b5 b6 b7 b8) 6 ((ix9 r b1 b2 b3 b4 b5 b6 b7 b8) 6).rev 4).val = 0 + (Function.update (half5 r b1 b2 b3 b4 b5 b6 b7 b8) 6 ((half5 r b1 b2 b3 b4 b5 b6 b7 b8) 6).rev 4).val
        rw [Function.update_of_ne (by decide), Function.update_of_ne (by decide)]
        show b4.val = 0 + b4.val; omega
      | ⟨5, _⟩ =>
        show (Function.update (ix9 r b1 b2 b3 b4 b5 b6 b7 b8) 6 ((ix9 r b1 b2 b3 b4 b5 b6 b7 b8) 6).rev 5).val = 1 + (Function.update (half5 r b1 b2 b3 b4 b5 b6 b7 b8) 6 ((half5 r b1 b2 b3 b4 b5 b6 b7 b8) 6).rev 5).val
        rw [Function.update_of_ne (by decide), Function.update_of_ne (by decide)]
        show b5.val = 1 + 0; omega
      | ⟨6, _⟩ =>
        show (Function.update (ix9 r b1 b2 b3 b4 b5 b6 b7 b8) 6 ((ix9 r b1 b2 b3 b4 b5 b6 b7 b8) 6).rev 6).val = 0 + (Function.update (half5 r b1 b2 b3 b4 b5 b6 b7 b8) 6 ((half5 r b1 b2 b3 b4 b5 b6 b7 b8) 6).rev 6).val
        rw [Function.update_self, Function.update_self]
        show (Fin.rev b6).val = 0 + (Fin.rev b6).val; omega
      | ⟨7, _⟩ =>
        show (Function.update (ix9 r b1 b2 b3 b4 b5 b6 b7 b8) 6 ((ix9 r b1 b2 b3 b4 b5 b6 b7 b8) 6).rev 7).val = 0 + (Function.update (half5 r b1 b2 b3 b4 b5 b6 b7 b8) 6 ((half5 r b1 b2 b3 b4 b5 b6 b7 b8) 6).rev 7).val
        rw [Function.update_of_ne (by decide), Function.update_of_ne (by decide)]
        show b7.val = 0 + b7.val; omega
      | ⟨8, _⟩ =>
        show (Function.update (ix9 r b1 b2 b3 b4 b5 b6 b7 b8) 6 ((ix9 r b1 b2 b3 b4 b5 b6 b7 b8) 6).rev 8).val = 0 + (Function.update (half5 r b1 b2 b3 b4 b5 b6 b7 b8) 6 ((half5 r b1 b2 b3 b4 b5 b6 b7 b8) 6).rev 8).val
        rw [Function.update_of_ne (by decide), Function.update_of_ne (by decide)]
        show b8.val = 0 + b8.val; omega

/-! ## Gate 6: control axis 6, target axis 7 -/

/-- The label of a half of the state (extent 1 on axis 6) under a label of the state: the same coordinates, 0 on axis 6. -/
abbrev half6 (r : Fin 262144) (b1 b2 b3 b4 b5 b6 b7 b8 : Fin 2) : S262144x2x2x2x2x2x1x2x2.Idx := fun a => match a with
  | ⟨0, _⟩ => r
  | ⟨1, _⟩ => b1
  | ⟨2, _⟩ => b2
  | ⟨3, _⟩ => b3
  | ⟨4, _⟩ => b4
  | ⟨5, _⟩ => b5
  | ⟨6, _⟩ => (0 : Fin 1)
  | ⟨7, _⟩ => b7
  | ⟨8, _⟩ => b8

/-- Gate 6 at a label: where the control bit is 0 the entry is kept (the first half, read in place); where it is 1
    the entry is the one with the bit on axis 7 flipped (the second half, mirrored along axis 7). -/
theorem gate6_at (y : Sim.Arr F S262144x2x2x2x2x2x2x2x2) (i : S262144x2x2x2x2x2x2x2x2.Idx) : Sim.gate6 y i = y (cnot 6 7 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b6.val < 2 := b6.isLt
  unfold Sim.gate6 Cert.Circuit.cnot
  split
  · next hc =>
    have hc' : b6.val = 0 := hc
    refine (concatenate_pair_apply_left (t := S262144x2x2x2x2x2x2x2x2) (s₁ := S262144x2x2x2x2x2x1x2x2) (s₂ := S262144x2x2x2x2x2x1x2x2) 6 _ _ _ (ix9 r b1 b2 b3 b4 b5 b6 b7 b8) rfl (half6 r b1 b2 b3 b4 b5 b6 b7 b8) (fun b => ?_)).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => show 0 = b6.val; omega
      | ⟨7, _⟩ => show b7.val = b7.val; rfl
      | ⟨8, _⟩ => show b8.val = b8.val; rfl
    · refine extractStridedSlice_apply _ y _ (half6 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + b1.val; omega
      | ⟨2, _⟩ => show b2.val = 0 + b2.val; omega
      | ⟨3, _⟩ => show b3.val = 0 + b3.val; omega
      | ⟨4, _⟩ => show b4.val = 0 + b4.val; omega
      | ⟨5, _⟩ => show b5.val = 0 + b5.val; omega
      | ⟨6, _⟩ => show b6.val = 0 + 0; omega
      | ⟨7, _⟩ => show b7.val = 0 + b7.val; omega
      | ⟨8, _⟩ => show b8.val = 0 + b8.val; omega
  · next hc =>
    have hc' : ¬ b6.val = 0 := hc
    refine (concatenate_pair_apply_right (t := S262144x2x2x2x2x2x2x2x2) (s₁ := S262144x2x2x2x2x2x1x2x2) (s₂ := S262144x2x2x2x2x2x1x2x2) 6 _ _ _ (ix9 r b1 b2 b3 b4 b5 b6 b7 b8) rfl rfl (half6 r b1 b2 b3 b4 b5 b6 b7 b8) (fun b hb => ?_) ?_).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => exact absurd rfl hb
      | ⟨7, _⟩ => show b7.val = b7.val; rfl
      | ⟨8, _⟩ => show b8.val = b8.val; rfl
    · show 0 + 1 = b6.val; omega
    · rw [reverse_single_apply]
      refine extractStridedSlice_apply _ y _ _ (Function.update (ix9 r b1 b2 b3 b4 b5 b6 b7 b8) 7 ((ix9 r b1 b2 b3 b4 b5 b6 b7 b8) 7).rev) (fun a => ?_)
      match a with
      | ⟨0, _⟩ =>
        show (Function.update (ix9 r b1 b2 b3 b4 b5 b6 b7 b8) 7 ((ix9 r b1 b2 b3 b4 b5 b6 b7 b8) 7).rev 0).val = 0 + (Function.update (half6 r b1 b2 b3 b4 b5 b6 b7 b8) 7 ((half6 r b1 b2 b3 b4 b5 b6 b7 b8) 7).rev 0).val
        rw [Function.update_of_ne (by decide), Function.update_of_ne (by decide)]
        show r.val = 0 + r.val; omega
      | ⟨1, _⟩ =>
        show (Function.update (ix9 r b1 b2 b3 b4 b5 b6 b7 b8) 7 ((ix9 r b1 b2 b3 b4 b5 b6 b7 b8) 7).rev 1).val = 0 + (Function.update (half6 r b1 b2 b3 b4 b5 b6 b7 b8) 7 ((half6 r b1 b2 b3 b4 b5 b6 b7 b8) 7).rev 1).val
        rw [Function.update_of_ne (by decide), Function.update_of_ne (by decide)]
        show b1.val = 0 + b1.val; omega
      | ⟨2, _⟩ =>
        show (Function.update (ix9 r b1 b2 b3 b4 b5 b6 b7 b8) 7 ((ix9 r b1 b2 b3 b4 b5 b6 b7 b8) 7).rev 2).val = 0 + (Function.update (half6 r b1 b2 b3 b4 b5 b6 b7 b8) 7 ((half6 r b1 b2 b3 b4 b5 b6 b7 b8) 7).rev 2).val
        rw [Function.update_of_ne (by decide), Function.update_of_ne (by decide)]
        show b2.val = 0 + b2.val; omega
      | ⟨3, _⟩ =>
        show (Function.update (ix9 r b1 b2 b3 b4 b5 b6 b7 b8) 7 ((ix9 r b1 b2 b3 b4 b5 b6 b7 b8) 7).rev 3).val = 0 + (Function.update (half6 r b1 b2 b3 b4 b5 b6 b7 b8) 7 ((half6 r b1 b2 b3 b4 b5 b6 b7 b8) 7).rev 3).val
        rw [Function.update_of_ne (by decide), Function.update_of_ne (by decide)]
        show b3.val = 0 + b3.val; omega
      | ⟨4, _⟩ =>
        show (Function.update (ix9 r b1 b2 b3 b4 b5 b6 b7 b8) 7 ((ix9 r b1 b2 b3 b4 b5 b6 b7 b8) 7).rev 4).val = 0 + (Function.update (half6 r b1 b2 b3 b4 b5 b6 b7 b8) 7 ((half6 r b1 b2 b3 b4 b5 b6 b7 b8) 7).rev 4).val
        rw [Function.update_of_ne (by decide), Function.update_of_ne (by decide)]
        show b4.val = 0 + b4.val; omega
      | ⟨5, _⟩ =>
        show (Function.update (ix9 r b1 b2 b3 b4 b5 b6 b7 b8) 7 ((ix9 r b1 b2 b3 b4 b5 b6 b7 b8) 7).rev 5).val = 0 + (Function.update (half6 r b1 b2 b3 b4 b5 b6 b7 b8) 7 ((half6 r b1 b2 b3 b4 b5 b6 b7 b8) 7).rev 5).val
        rw [Function.update_of_ne (by decide), Function.update_of_ne (by decide)]
        show b5.val = 0 + b5.val; omega
      | ⟨6, _⟩ =>
        show (Function.update (ix9 r b1 b2 b3 b4 b5 b6 b7 b8) 7 ((ix9 r b1 b2 b3 b4 b5 b6 b7 b8) 7).rev 6).val = 1 + (Function.update (half6 r b1 b2 b3 b4 b5 b6 b7 b8) 7 ((half6 r b1 b2 b3 b4 b5 b6 b7 b8) 7).rev 6).val
        rw [Function.update_of_ne (by decide), Function.update_of_ne (by decide)]
        show b6.val = 1 + 0; omega
      | ⟨7, _⟩ =>
        show (Function.update (ix9 r b1 b2 b3 b4 b5 b6 b7 b8) 7 ((ix9 r b1 b2 b3 b4 b5 b6 b7 b8) 7).rev 7).val = 0 + (Function.update (half6 r b1 b2 b3 b4 b5 b6 b7 b8) 7 ((half6 r b1 b2 b3 b4 b5 b6 b7 b8) 7).rev 7).val
        rw [Function.update_self, Function.update_self]
        show (Fin.rev b7).val = 0 + (Fin.rev b7).val; omega
      | ⟨8, _⟩ =>
        show (Function.update (ix9 r b1 b2 b3 b4 b5 b6 b7 b8) 7 ((ix9 r b1 b2 b3 b4 b5 b6 b7 b8) 7).rev 8).val = 0 + (Function.update (half6 r b1 b2 b3 b4 b5 b6 b7 b8) 7 ((half6 r b1 b2 b3 b4 b5 b6 b7 b8) 7).rev 8).val
        rw [Function.update_of_ne (by decide), Function.update_of_ne (by decide)]
        show b8.val = 0 + b8.val; omega

/-! ## Gate 7: control axis 7, target axis 8 -/

/-- The label of a half of the state (extent 1 on axis 7) under a label of the state: the same coordinates, 0 on axis 7. -/
abbrev half7 (r : Fin 262144) (b1 b2 b3 b4 b5 b6 b7 b8 : Fin 2) : S262144x2x2x2x2x2x2x1x2.Idx := fun a => match a with
  | ⟨0, _⟩ => r
  | ⟨1, _⟩ => b1
  | ⟨2, _⟩ => b2
  | ⟨3, _⟩ => b3
  | ⟨4, _⟩ => b4
  | ⟨5, _⟩ => b5
  | ⟨6, _⟩ => b6
  | ⟨7, _⟩ => (0 : Fin 1)
  | ⟨8, _⟩ => b8

/-- Gate 7 at a label: where the control bit is 0 the entry is kept (the first half, read in place); where it is 1
    the entry is the one with the bit on axis 8 flipped (the second half, mirrored along axis 8). -/
theorem gate7_at (y : Sim.Arr F S262144x2x2x2x2x2x2x2x2) (i : S262144x2x2x2x2x2x2x2x2.Idx) : Sim.gate7 y i = y (cnot 7 8 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b7.val < 2 := b7.isLt
  unfold Sim.gate7 Cert.Circuit.cnot
  split
  · next hc =>
    have hc' : b7.val = 0 := hc
    refine (concatenate_pair_apply_left (t := S262144x2x2x2x2x2x2x2x2) (s₁ := S262144x2x2x2x2x2x2x1x2) (s₂ := S262144x2x2x2x2x2x2x1x2) 7 _ _ _ (ix9 r b1 b2 b3 b4 b5 b6 b7 b8) rfl (half7 r b1 b2 b3 b4 b5 b6 b7 b8) (fun b => ?_)).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => show 0 = b7.val; omega
      | ⟨8, _⟩ => show b8.val = b8.val; rfl
    · refine extractStridedSlice_apply _ y _ (half7 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + b1.val; omega
      | ⟨2, _⟩ => show b2.val = 0 + b2.val; omega
      | ⟨3, _⟩ => show b3.val = 0 + b3.val; omega
      | ⟨4, _⟩ => show b4.val = 0 + b4.val; omega
      | ⟨5, _⟩ => show b5.val = 0 + b5.val; omega
      | ⟨6, _⟩ => show b6.val = 0 + b6.val; omega
      | ⟨7, _⟩ => show b7.val = 0 + 0; omega
      | ⟨8, _⟩ => show b8.val = 0 + b8.val; omega
  · next hc =>
    have hc' : ¬ b7.val = 0 := hc
    refine (concatenate_pair_apply_right (t := S262144x2x2x2x2x2x2x2x2) (s₁ := S262144x2x2x2x2x2x2x1x2) (s₂ := S262144x2x2x2x2x2x2x1x2) 7 _ _ _ (ix9 r b1 b2 b3 b4 b5 b6 b7 b8) rfl rfl (half7 r b1 b2 b3 b4 b5 b6 b7 b8) (fun b hb => ?_) ?_).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => exact absurd rfl hb
      | ⟨8, _⟩ => show b8.val = b8.val; rfl
    · show 0 + 1 = b7.val; omega
    · rw [reverse_single_apply]
      refine extractStridedSlice_apply _ y _ _ (Function.update (ix9 r b1 b2 b3 b4 b5 b6 b7 b8) 8 ((ix9 r b1 b2 b3 b4 b5 b6 b7 b8) 8).rev) (fun a => ?_)
      match a with
      | ⟨0, _⟩ =>
        show (Function.update (ix9 r b1 b2 b3 b4 b5 b6 b7 b8) 8 ((ix9 r b1 b2 b3 b4 b5 b6 b7 b8) 8).rev 0).val = 0 + (Function.update (half7 r b1 b2 b3 b4 b5 b6 b7 b8) 8 ((half7 r b1 b2 b3 b4 b5 b6 b7 b8) 8).rev 0).val
        rw [Function.update_of_ne (by decide), Function.update_of_ne (by decide)]
        show r.val = 0 + r.val; omega
      | ⟨1, _⟩ =>
        show (Function.update (ix9 r b1 b2 b3 b4 b5 b6 b7 b8) 8 ((ix9 r b1 b2 b3 b4 b5 b6 b7 b8) 8).rev 1).val = 0 + (Function.update (half7 r b1 b2 b3 b4 b5 b6 b7 b8) 8 ((half7 r b1 b2 b3 b4 b5 b6 b7 b8) 8).rev 1).val
        rw [Function.update_of_ne (by decide), Function.update_of_ne (by decide)]
        show b1.val = 0 + b1.val; omega
      | ⟨2, _⟩ =>
        show (Function.update (ix9 r b1 b2 b3 b4 b5 b6 b7 b8) 8 ((ix9 r b1 b2 b3 b4 b5 b6 b7 b8) 8).rev 2).val = 0 + (Function.update (half7 r b1 b2 b3 b4 b5 b6 b7 b8) 8 ((half7 r b1 b2 b3 b4 b5 b6 b7 b8) 8).rev 2).val
        rw [Function.update_of_ne (by decide), Function.update_of_ne (by decide)]
        show b2.val = 0 + b2.val; omega
      | ⟨3, _⟩ =>
        show (Function.update (ix9 r b1 b2 b3 b4 b5 b6 b7 b8) 8 ((ix9 r b1 b2 b3 b4 b5 b6 b7 b8) 8).rev 3).val = 0 + (Function.update (half7 r b1 b2 b3 b4 b5 b6 b7 b8) 8 ((half7 r b1 b2 b3 b4 b5 b6 b7 b8) 8).rev 3).val
        rw [Function.update_of_ne (by decide), Function.update_of_ne (by decide)]
        show b3.val = 0 + b3.val; omega
      | ⟨4, _⟩ =>
        show (Function.update (ix9 r b1 b2 b3 b4 b5 b6 b7 b8) 8 ((ix9 r b1 b2 b3 b4 b5 b6 b7 b8) 8).rev 4).val = 0 + (Function.update (half7 r b1 b2 b3 b4 b5 b6 b7 b8) 8 ((half7 r b1 b2 b3 b4 b5 b6 b7 b8) 8).rev 4).val
        rw [Function.update_of_ne (by decide), Function.update_of_ne (by decide)]
        show b4.val = 0 + b4.val; omega
      | ⟨5, _⟩ =>
        show (Function.update (ix9 r b1 b2 b3 b4 b5 b6 b7 b8) 8 ((ix9 r b1 b2 b3 b4 b5 b6 b7 b8) 8).rev 5).val = 0 + (Function.update (half7 r b1 b2 b3 b4 b5 b6 b7 b8) 8 ((half7 r b1 b2 b3 b4 b5 b6 b7 b8) 8).rev 5).val
        rw [Function.update_of_ne (by decide), Function.update_of_ne (by decide)]
        show b5.val = 0 + b5.val; omega
      | ⟨6, _⟩ =>
        show (Function.update (ix9 r b1 b2 b3 b4 b5 b6 b7 b8) 8 ((ix9 r b1 b2 b3 b4 b5 b6 b7 b8) 8).rev 6).val = 0 + (Function.update (half7 r b1 b2 b3 b4 b5 b6 b7 b8) 8 ((half7 r b1 b2 b3 b4 b5 b6 b7 b8) 8).rev 6).val
        rw [Function.update_of_ne (by decide), Function.update_of_ne (by decide)]
        show b6.val = 0 + b6.val; omega
      | ⟨7, _⟩ =>
        show (Function.update (ix9 r b1 b2 b3 b4 b5 b6 b7 b8) 8 ((ix9 r b1 b2 b3 b4 b5 b6 b7 b8) 8).rev 7).val = 1 + (Function.update (half7 r b1 b2 b3 b4 b5 b6 b7 b8) 8 ((half7 r b1 b2 b3 b4 b5 b6 b7 b8) 8).rev 7).val
        rw [Function.update_of_ne (by decide), Function.update_of_ne (by decide)]
        show b7.val = 1 + 0; omega
      | ⟨8, _⟩ =>
        show (Function.update (ix9 r b1 b2 b3 b4 b5 b6 b7 b8) 8 ((ix9 r b1 b2 b3 b4 b5 b6 b7 b8) 8).rev 8).val = 0 + (Function.update (half7 r b1 b2 b3 b4 b5 b6 b7 b8) 8 ((half7 r b1 b2 b3 b4 b5 b6 b7 b8) 8).rev 8).val
        rw [Function.update_self, Function.update_self]
        show (Fin.rev b8).val = 0 + (Fin.rev b8).val; omega

/-! ## Gate 8: control axis 8, target axis 1 -/

/-- The label of a half of the state (extent 1 on axis 8) under a label of the state: the same coordinates, 0 on axis 8. -/
abbrev half8 (r : Fin 262144) (b1 b2 b3 b4 b5 b6 b7 b8 : Fin 2) : S262144x2x2x2x2x2x2x2x1.Idx := fun a => match a with
  | ⟨0, _⟩ => r
  | ⟨1, _⟩ => b1
  | ⟨2, _⟩ => b2
  | ⟨3, _⟩ => b3
  | ⟨4, _⟩ => b4
  | ⟨5, _⟩ => b5
  | ⟨6, _⟩ => b6
  | ⟨7, _⟩ => b7
  | ⟨8, _⟩ => (0 : Fin 1)

/-- Gate 8 at a label: where the control bit is 0 the entry is kept (the first half, read in place); where it is 1
    the entry is the one with the bit on axis 1 flipped (the second half, mirrored along axis 1). -/
theorem gate8_at (y : Sim.Arr F S262144x2x2x2x2x2x2x2x2) (i : S262144x2x2x2x2x2x2x2x2.Idx) : Sim.gate8 y i = y (cnot 8 1 i) := by
  obtain ⟨r, b1, b2, b3, b4, b5, b6, b7, b8, rfl⟩ : ∃ (r : Fin 262144) (b1 b2 b3 b4 b5 b6 b7 b8 : Fin 2), i = ix9 r b1 b2 b3 b4 b5 b6 b7 b8 :=
    ⟨i 0, i 1, i 2, i 3, i 4, i 5, i 6, i 7, i 8, eq_ix9 i⟩
  have hk : b8.val < 2 := b8.isLt
  unfold Sim.gate8 Cert.Circuit.cnot
  split
  · next hc =>
    have hc' : b8.val = 0 := hc
    refine (concatenate_pair_apply_left (t := S262144x2x2x2x2x2x2x2x2) (s₁ := S262144x2x2x2x2x2x2x2x1) (s₂ := S262144x2x2x2x2x2x2x2x1) 8 _ _ _ (ix9 r b1 b2 b3 b4 b5 b6 b7 b8) rfl (half8 r b1 b2 b3 b4 b5 b6 b7 b8) (fun b => ?_)).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => show 0 = b8.val; omega
    · refine extractStridedSlice_apply _ y _ (half8 r b1 b2 b3 b4 b5 b6 b7 b8) (ix9 r b1 b2 b3 b4 b5 b6 b7 b8) (fun a => ?_)
      match a with
      | ⟨0, _⟩ => show r.val = 0 + r.val; omega
      | ⟨1, _⟩ => show b1.val = 0 + b1.val; omega
      | ⟨2, _⟩ => show b2.val = 0 + b2.val; omega
      | ⟨3, _⟩ => show b3.val = 0 + b3.val; omega
      | ⟨4, _⟩ => show b4.val = 0 + b4.val; omega
      | ⟨5, _⟩ => show b5.val = 0 + b5.val; omega
      | ⟨6, _⟩ => show b6.val = 0 + b6.val; omega
      | ⟨7, _⟩ => show b7.val = 0 + b7.val; omega
      | ⟨8, _⟩ => show b8.val = 0 + 0; omega
  · next hc =>
    have hc' : ¬ b8.val = 0 := hc
    refine (concatenate_pair_apply_right (t := S262144x2x2x2x2x2x2x2x2) (s₁ := S262144x2x2x2x2x2x2x2x1) (s₂ := S262144x2x2x2x2x2x2x2x1) 8 _ _ _ (ix9 r b1 b2 b3 b4 b5 b6 b7 b8) rfl rfl (half8 r b1 b2 b3 b4 b5 b6 b7 b8) (fun b hb => ?_) ?_).trans ?_
    · match b with
      | ⟨0, _⟩ => show r.val = r.val; rfl
      | ⟨1, _⟩ => show b1.val = b1.val; rfl
      | ⟨2, _⟩ => show b2.val = b2.val; rfl
      | ⟨3, _⟩ => show b3.val = b3.val; rfl
      | ⟨4, _⟩ => show b4.val = b4.val; rfl
      | ⟨5, _⟩ => show b5.val = b5.val; rfl
      | ⟨6, _⟩ => show b6.val = b6.val; rfl
      | ⟨7, _⟩ => show b7.val = b7.val; rfl
      | ⟨8, _⟩ => exact absurd rfl hb
    · show 0 + 1 = b8.val; omega
    · rw [reverse_single_apply]
      refine extractStridedSlice_apply _ y _ _ (Function.update (ix9 r b1 b2 b3 b4 b5 b6 b7 b8) 1 ((ix9 r b1 b2 b3 b4 b5 b6 b7 b8) 1).rev) (fun a => ?_)
      match a with
      | ⟨0, _⟩ =>
        show (Function.update (ix9 r b1 b2 b3 b4 b5 b6 b7 b8) 1 ((ix9 r b1 b2 b3 b4 b5 b6 b7 b8) 1).rev 0).val = 0 + (Function.update (half8 r b1 b2 b3 b4 b5 b6 b7 b8) 1 ((half8 r b1 b2 b3 b4 b5 b6 b7 b8) 1).rev 0).val
        rw [Function.update_of_ne (by decide), Function.update_of_ne (by decide)]
        show r.val = 0 + r.val; omega
      | ⟨1, _⟩ =>
        show (Function.update (ix9 r b1 b2 b3 b4 b5 b6 b7 b8) 1 ((ix9 r b1 b2 b3 b4 b5 b6 b7 b8) 1).rev 1).val = 0 + (Function.update (half8 r b1 b2 b3 b4 b5 b6 b7 b8) 1 ((half8 r b1 b2 b3 b4 b5 b6 b7 b8) 1).rev 1).val
        rw [Function.update_self, Function.update_self]
        show (Fin.rev b1).val = 0 + (Fin.rev b1).val; omega
      | ⟨2, _⟩ =>
        show (Function.update (ix9 r b1 b2 b3 b4 b5 b6 b7 b8) 1 ((ix9 r b1 b2 b3 b4 b5 b6 b7 b8) 1).rev 2).val = 0 + (Function.update (half8 r b1 b2 b3 b4 b5 b6 b7 b8) 1 ((half8 r b1 b2 b3 b4 b5 b6 b7 b8) 1).rev 2).val
        rw [Function.update_of_ne (by decide), Function.update_of_ne (by decide)]
        show b2.val = 0 + b2.val; omega
      | ⟨3, _⟩ =>
        show (Function.update (ix9 r b1 b2 b3 b4 b5 b6 b7 b8) 1 ((ix9 r b1 b2 b3 b4 b5 b6 b7 b8) 1).rev 3).val = 0 + (Function.update (half8 r b1 b2 b3 b4 b5 b6 b7 b8) 1 ((half8 r b1 b2 b3 b4 b5 b6 b7 b8) 1).rev 3).val
        rw [Function.update_of_ne (by decide), Function.update_of_ne (by decide)]
        show b3.val = 0 + b3.val; omega
      | ⟨4, _⟩ =>
        show (Function.update (ix9 r b1 b2 b3 b4 b5 b6 b7 b8) 1 ((ix9 r b1 b2 b3 b4 b5 b6 b7 b8) 1).rev 4).val = 0 + (Function.update (half8 r b1 b2 b3 b4 b5 b6 b7 b8) 1 ((half8 r b1 b2 b3 b4 b5 b6 b7 b8) 1).rev 4).val
        rw [Function.update_of_ne (by decide), Function.update_of_ne (by decide)]
        show b4.val = 0 + b4.val; omega
      | ⟨5, _⟩ =>
        show (Function.update (ix9 r b1 b2 b3 b4 b5 b6 b7 b8) 1 ((ix9 r b1 b2 b3 b4 b5 b6 b7 b8) 1).rev 5).val = 0 + (Function.update (half8 r b1 b2 b3 b4 b5 b6 b7 b8) 1 ((half8 r b1 b2 b3 b4 b5 b6 b7 b8) 1).rev 5).val
        rw [Function.update_of_ne (by decide), Function.update_of_ne (by decide)]
        show b5.val = 0 + b5.val; omega
      | ⟨6, _⟩ =>
        show (Function.update (ix9 r b1 b2 b3 b4 b5 b6 b7 b8) 1 ((ix9 r b1 b2 b3 b4 b5 b6 b7 b8) 1).rev 6).val = 0 + (Function.update (half8 r b1 b2 b3 b4 b5 b6 b7 b8) 1 ((half8 r b1 b2 b3 b4 b5 b6 b7 b8) 1).rev 6).val
        rw [Function.update_of_ne (by decide), Function.update_of_ne (by decide)]
        show b6.val = 0 + b6.val; omega
      | ⟨7, _⟩ =>
        show (Function.update (ix9 r b1 b2 b3 b4 b5 b6 b7 b8) 1 ((ix9 r b1 b2 b3 b4 b5 b6 b7 b8) 1).rev 7).val = 0 + (Function.update (half8 r b1 b2 b3 b4 b5 b6 b7 b8) 1 ((half8 r b1 b2 b3 b4 b5 b6 b7 b8) 1).rev 7).val
        rw [Function.update_of_ne (by decide), Function.update_of_ne (by decide)]
        show b7.val = 0 + b7.val; omega
      | ⟨8, _⟩ =>
        show (Function.update (ix9 r b1 b2 b3 b4 b5 b6 b7 b8) 1 ((ix9 r b1 b2 b3 b4 b5 b6 b7 b8) 1).rev 8).val = 1 + (Function.update (half8 r b1 b2 b3 b4 b5 b6 b7 b8) 1 ((half8 r b1 b2 b3 b4 b5 b6 b7 b8) 1).rev 8).val
        rw [Function.update_of_ne (by decide), Function.update_of_ne (by decide)]
        show b8.val = 1 + 0; omega

/-! ## The chain -/

/-- THE STATE AFTER THE CHAIN at label `i` is the product state at `chain i`: each gate reads its operand at the
    gate's map of the label, the last gate's map applied first. -/
theorem evolved_at (x : Sim.Arr F S262144x8) (i : S262144x2x2x2x2x2x2x2x2.Idx) : Sim.evolved x i = Sim.state x (chain i) := by
  unfold Sim.evolved Cert.Circuit.chain
  rw [gate8_at, gate7_at, gate6_at, gate5_at, gate4_at, gate3_at, gate2_at, gate1_at]

end Cert.ReferenceIdeal.SimGates

end
-- ==== Proof.CircuitSum.lean ====
/-
  The expectation of `Z` on one wire after the chain of controlled-NOTs, as a sum over basis labels.

  For a row `r` and a wire `w`, the difference between the total squared amplitude on the labels whose bit `w`
  is 0 and on those whose bit `w` is 1 equals a product of the per-qubit quantities `c k ^ 2 - s k ^ 2` over the
  wires that reach `w` through the chain (`expect_eq`).

  The road.  Write `sg b` for the sign `(-1) ^ b` of a bit.  The difference of the two sums is the single signed
  sum `∑ i, [row i = r] * sg (bit w of i) * (amp (chain i)) ^ 2` (`diff_eq`).  Every controlled-NOT with distinct
  control and target is an involution of the labels (`cnot_involutive`), so `chain` is a bijection
  (`chainE`), with inverse the same gates in the opposite order (`chainInv`); re-indexing the sum by it
  (`sum_reindex`) moves the gates from the amplitude onto the sign.  A controlled-NOT multiplies the sign of its
  target bit by the sign of its control bit and leaves every other bit alone (`sg_cnot`), so the sign of bit `w` of
  `chainInv j` is the product of the signs of the bits of `j` on the wires `{1,…,7}` for `w = 0` and `{0,…,w}`
  for `w ≥ 1` (`sg_chainInv`; for `w = 0` the sign of bit 0 occurs twice and squares to 1).  The summand is then a
  product over the nine axes of a function of that axis's coordinate alone (`summand_eq`), and a sum over all
  labels of such a product is the product of the sums over each axis (`sum_fac`): the row axis contributes 1, a
  bit axis contributes `c k ^ 2 + s k ^ 2 = 1` or `c k ^ 2 - s k ^ 2`.
-/
import Mathlib.Data.Real.Basic
import Mathlib.Algebra.BigOperators.Fin
import Mathlib.Algebra.BigOperators.Ring.Finset
import Mathlib.Tactic
import Idealize.ShloMosaic.Shape
import proofs.«115797_j9835475108036_1_alg».proof.Proof.Circuit

noncomputable section

namespace Cert.Circuit

open Idealize.ShloMosaic

/-! ### Bits and their signs -/

/-- Every qubit axis has exactly two coordinates. -/
theorem size_succ (k : Fin 8) : S9.size k.succ = 2 := by
  fin_cases k <;> rfl

/-- The sign `(-1) ^ b` of a bit `b`: 1 at 0, -1 otherwise. -/
def sg (b : ℕ) : ℝ := if b = 0 then 1 else -1

theorem sg_zero : sg 0 = 1 := by simp [sg]

/-- A sign squares to 1. -/
theorem sg_mul_self (b : ℕ) : sg b * sg b = 1 := by unfold sg; split_ifs <;> norm_num

/-- Mirroring a coordinate of a two-point axis (`b ↦ 1 - b`) negates its sign. -/
theorem sg_rev {n : ℕ} (hn : n = 2) (b : Fin n) : sg b.rev.val = - sg b.val := by
  subst hn; fin_cases b <;> simp [sg, Fin.rev]

/-- A sum over a two-point axis of a function of the coordinate's value has the two terms at 0 and at 1. -/
theorem sum_bit {n : ℕ} (hn : n = 2) (g : ℕ → ℝ) : ∑ x : Fin n, g x.val = g 0 + g 1 := by
  subst hn; simp [Fin.sum_univ_two]

/-- The indicator of one row sums to 1 over the row axis. -/
theorem sum_row (r : Fin 262144) : ∑ x : Fin (S9.size 0), (if x.val = r.val then (1:ℝ) else 0) = 1 := by
  show ∑ x : Fin 262144, (if x.val = r.val then (1:ℝ) else 0) = 1
  simp only [Fin.val_inj]
  rw [Finset.sum_ite_eq']
  simp

/-! ### The chain is a bijection of the labels -/

/-- A controlled-NOT with distinct control and target is its own inverse: the control coordinate is untouched by
    the first application, so the second application mirrors the target back. -/
theorem cnot_involutive (a t : Fin 9) (h : a ≠ t) : Function.Involutive (cnot a t) := by
  intro i
  by_cases h0 : (i a).val = 0
  · simp [cnot, h0]
  · have h1 : (Function.update i t (i t).rev a) = i a := Function.update_of_ne h _ _
    have h2 : cnot a t i = Function.update i t (i t).rev := by simp [cnot, h0]
    rw [h2]
    unfold cnot
    rw [h1, if_neg h0, Function.update_self, Fin.rev_rev, Function.update_idem, Function.update_eq_self]

/-- The chain as a permutation of the labels: the composite of its eight involutions. -/
def chainE : S9.Idx ≃ S9.Idx :=
  (cnot_involutive 8 1 (by decide)).toPerm.trans <|
  (cnot_involutive 7 8 (by decide)).toPerm.trans <|
  (cnot_involutive 6 7 (by decide)).toPerm.trans <|
  (cnot_involutive 5 6 (by decide)).toPerm.trans <|
  (cnot_involutive 4 5 (by decide)).toPerm.trans <|
  (cnot_involutive 3 4 (by decide)).toPerm.trans <|
  (cnot_involutive 2 3 (by decide)).toPerm.trans <|
  (cnot_involutive 1 2 (by decide)).toPerm

/-- The inverse of `chain`: the same eight maps composed in the opposite order. -/
def chainInv (j : S9.Idx) : S9.Idx :=
  cnot 8 1 (cnot 7 8 (cnot 6 7 (cnot 5 6 (cnot 4 5 (cnot 3 4 (cnot 2 3 (cnot 1 2 j)))))))

theorem chainE_apply (i : S9.Idx) : chainE i = chain i := by
  simp only [chainE, Equiv.trans_apply, Function.Involutive.coe_toPerm, chain]

theorem chainE_symm_apply (j : S9.Idx) : chainE.symm j = chainInv j := by
  simp only [chainE, Equiv.symm_trans_apply, Function.Involutive.toPerm_symm,
    Function.Involutive.coe_toPerm, chainInv]

/-- Re-indexing a sum over all labels by the chain: `∑ i, G i * H (chain i) = ∑ j, G (chain⁻¹ j) * H j`. -/
theorem sum_reindex (G H : S9.Idx → ℝ) :
    ∑ i : S9.Idx, G i * H (chain i) = ∑ j : S9.Idx, G (chainInv j) * H j := by
  rw [← Equiv.sum_comp chainE.symm (fun i => G i * H (chain i))]
  refine Finset.sum_congr rfl fun j _ => ?_
  simp only [← chainE_apply, Equiv.apply_symm_apply]
  rw [chainE_symm_apply]

/-! ### The two filtered sums as one signed sum -/

/-- Splitting the labels of row `r` by the value of bit `w` and subtracting is the same as weighting every label
    by the indicator of the row and the sign of bit `w`. -/
theorem diff_eq (F : S9.Idx → ℝ) (r : ℕ) (w : Fin 8) :
    (∑ i ∈ Finset.univ.filter (fun i : S9.Idx => (i 0).val = r ∧ (i w.succ).val = 0), F i)
    - (∑ i ∈ Finset.univ.filter (fun i : S9.Idx => (i 0).val = r ∧ (i w.succ).val = 1), F i)
    = ∑ i : S9.Idx, ((if (i 0).val = r then 1 else 0) * sg (i w.succ).val) * F i := by
  rw [Finset.sum_filter, Finset.sum_filter, ← Finset.sum_sub_distrib]
  refine Finset.sum_congr rfl fun i _ => ?_
  have hlt : (i w.succ).val < 2 := lt_of_lt_of_eq (i w.succ).isLt (size_succ w)
  by_cases hr : (i 0).val = r
  · rcases (by omega : (i w.succ).val = 0 ∨ (i w.succ).val = 1) with h | h
    · simp [hr, h, sg]
    · simp [hr, h, sg]
  · simp [hr]

/-! ### What the inverse chain does to the row and to the signs of the bits -/

/-- A controlled-NOT whose target is not the row axis keeps the row. -/
theorem cnot_row (a t : Fin 9) (ht : t ≠ 0) (i : S9.Idx) : (cnot a t i) 0 = i 0 := by
  unfold cnot; split_ifs
  · rfl
  · exact Function.update_of_ne (Ne.symm ht) _ _

/-- A controlled-NOT onto a two-point axis multiplies the sign of the target bit by the sign of the control bit
    and keeps the sign of every other bit. -/
theorem sg_cnot (a t x : Fin 9) (ht : S9.size t = 2) (i : S9.Idx) :
    sg ((cnot a t i) x).val = if x = t then sg (i a).val * sg (i t).val else sg (i x).val := by
  unfold cnot
  by_cases h0 : (i a).val = 0
  · rw [if_pos h0, h0, sg_zero, one_mul]
    split_ifs with hx
    · rw [hx]
    · rfl
  · rw [if_neg h0]
    have ha : sg (i a).val = -1 := by simp [sg, h0]
    by_cases hx : x = t
    · subst hx
      rw [if_pos rfl, Function.update_self, sg_rev ht, ha]; ring
    · rw [if_neg hx, Function.update_of_ne hx]

/-- The inverse chain keeps the row. -/
theorem chainInv_row (j : S9.Idx) : (chainInv j) 0 = j 0 := by
  unfold chainInv
  rw [cnot_row 8 1 (by decide), cnot_row 7 8 (by decide), cnot_row 6 7 (by decide), cnot_row 5 6 (by decide),
    cnot_row 4 5 (by decide), cnot_row 3 4 (by decide), cnot_row 2 3 (by decide), cnot_row 1 2 (by decide)]

/-- Whether wire `k` reaches wire `w` through the chain: the wires `1,…,7` for `w = 0`, the wires `0,…,w`
    for `w ≥ 1`. -/
def pat (w k : Fin 8) : Bool := if w = 0 then decide (k ≠ 0) else decide (k ≤ w)

/-- `zprod z w` is the product of `z` over the wires that reach `w`. -/
theorem zprod_eq (z : Fin 8 → ℝ) (w : Fin 8) : zprod z w = ∏ k : Fin 8, if pat w k then z k else 1 := by
  fin_cases w <;> simp [zprod, pat, Fin.prod_univ_eight]

/-- The sign of bit `w` of `chainInv j` is the product of the signs of the bits of `j` on the wires that reach
    `w`.  The gates `0→1, …, 6→7` make bit `k` the sum of the bits `0,…,k`; the last gate `7→0` adds all eight to
    bit 0, where bit 0 then occurs twice and its sign squares to 1. -/
theorem sg_chainInv (w : Fin 8) (j : S9.Idx) :
    sg ((chainInv j) w.succ).val = ∏ k : Fin 8, if pat w k then sg (j k.succ).val else 1 := by
  fin_cases w
  · simp [chainInv, sg_cnot 8 1 _ rfl, sg_cnot 7 8 _ rfl, sg_cnot 6 7 _ rfl, sg_cnot 5 6 _ rfl,
      sg_cnot 4 5 _ rfl, sg_cnot 3 4 _ rfl, sg_cnot 2 3 _ rfl, sg_cnot 1 2 _ rfl, pat, Fin.prod_univ_eight]
    linear_combination (sg (j 2).val * sg (j 3).val * sg (j 4).val * sg (j 5).val * sg (j 6).val
      * sg (j 7).val * sg (j 8).val) * sg_mul_self (j 1).val
  all_goals
    simp [chainInv, sg_cnot 8 1 _ rfl, sg_cnot 7 8 _ rfl, sg_cnot 6 7 _ rfl, sg_cnot 5 6 _ rfl,
      sg_cnot 4 5 _ rfl, sg_cnot 3 4 _ rfl, sg_cnot 2 3 _ rfl, sg_cnot 1 2 _ rfl, pat, Fin.prod_univ_eight]

/-! ### The sum over all labels of a product of per-axis factors -/

/-- The factor of axis `a` at coordinate `x`: the indicator of row `r` on the row axis; on qubit `k`'s axis the
    squared amplitude of the bit, with the bit's sign where `ε k` holds. -/
def fac (c s : Fin 8 → ℝ) (r : ℕ) (ε : Fin 8 → Bool) : (a : Fin 9) → Fin (S9.size a) → ℝ :=
  Fin.cases (motive := fun a => Fin (S9.size a) → ℝ)
    (fun x => if x.val = r then 1 else 0)
    (fun k x => (if ε k then sg x.val else 1) * (amp1 c s k x.val * amp1 c s k x.val))

/-- The signed, row-restricted squared amplitude at label `j` is the product of the nine per-axis factors. -/
theorem summand_eq (c s : Fin 8 → ℝ) (r : ℕ) (ε : Fin 8 → Bool) (j : S9.Idx) :
    ∏ a, fac c s r ε a (j a)
      = ((if (j 0).val = r then 1 else 0) * ∏ k : Fin 8, if ε k then sg (j k.succ).val else 1)
        * (amp c s j * amp c s j) := by
  rw [Fin.prod_univ_succ]
  simp only [fac, Fin.cases_zero, Fin.cases_succ]
  rw [Finset.prod_mul_distrib, Finset.prod_mul_distrib]
  have h : ∏ k : Fin 8, amp1 c s k (j k.succ).val = amp c s j := by
    rw [Fin.prod_univ_eight, amp, one_mul]; rfl
  rw [h]; ring

/-- The set of all labels does not depend on which enumeration of the labels is used. -/
theorem univ_eq :
    (Finset.univ : Finset S9.Idx) = @Finset.univ ((a : Fin 9) → Fin (S9.size a)) Pi.instFintype := by
  ext x; simp

/-- The sum over all labels of the product of the per-axis factors is the product over the axes of the sum of
    each factor: 1 from the row axis, and from qubit `k`'s axis `c k ^ 2 - s k ^ 2` where `ε k` holds and
    `c k ^ 2 + s k ^ 2 = 1` where it does not. -/
theorem sum_fac (c s : Fin 8 → ℝ) (hcs : ∀ k, c k ^ 2 + s k ^ 2 = 1) (r : Fin 262144) (ε : Fin 8 → Bool) :
    ∑ j : S9.Idx, ∏ a, fac c s r.val ε a (j a) = ∏ k : Fin 8, if ε k then c k ^ 2 - s k ^ 2 else 1 := by
  rw [univ_eq]
  rw [← Fintype.prod_sum (fac c s r.val ε), Fin.prod_univ_succ]
  have h0 : ∑ x : Fin (S9.size 0), fac c s r.val ε 0 x = 1 := by
    simp only [fac, Fin.cases_zero]; exact sum_row r
  rw [h0, one_mul]
  refine Finset.prod_congr rfl fun k _ => ?_
  simp only [fac, Fin.cases_succ]
  rw [sum_bit (size_succ k) (fun b => (if ε k then sg b else 1) * (amp1 c s k b * amp1 c s k b))]
  have := hcs k
  cases ε k <;> simp [amp1, sg] <;> linarith

/-! ### The expectation -/

/-- On row `r`, the squared amplitudes read through the chain, summed over the labels with bit `w` equal to 0,
    minus the same sum over the labels with bit `w` equal to 1, is the product of `c k ^ 2 - s k ^ 2` over the
    wires that reach `w`. -/
theorem expect_eq (c s : Fin 8 → ℝ) (hcs : ∀ k, c k ^ 2 + s k ^ 2 = 1) (r : Fin 262144) (w : Fin 8) :
    (∑ i ∈ Finset.univ.filter (fun i : S9.Idx => (i 0).val = r.val ∧ (i w.succ).val = 0),
        amp c s (chain i) * amp c s (chain i))
    - (∑ i ∈ Finset.univ.filter (fun i : S9.Idx => (i 0).val = r.val ∧ (i w.succ).val = 1),
        amp c s (chain i) * amp c s (chain i))
    = zprod (fun k => c k ^ 2 - s k ^ 2) w := by
  rw [diff_eq (fun i => amp c s (chain i) * amp c s (chain i)) r.val w,
    sum_reindex (fun i => (if (i 0).val = r.val then 1 else 0) * sg (i w.succ).val)
      (fun j => amp c s j * amp c s j),
    zprod_eq, ← sum_fac c s hcs r (pat w)]
  refine Finset.sum_congr rfl fun j _ => ?_
  rw [summand_eq, chainInv_row, sg_chainInv]

end Cert.Circuit

end
-- ==== Proof.SpecReal.lean ====
/-
  The kernel's result at a row of real inputs.

  When the eight entries of row `r` of the input are the reals `xr 0, …, xr 7`, the cosine of qubit `i`'s full
  rotation angle is the real `cos (π₃₂ · min 1 (max 0 (xr i)))`: the three f32 words of its formula denote the reals
  `π₃₂ = 13176795 / 2²²`, 1 and 0, the embedding of the reals in the extended reals is monotone and multiplicative,
  so it commutes with `max`, `min` and the product, and the extended cosine of a real is the real cosine.  The full
  angle is twice the half angle, so that cosine is `cos² − sin²` of the half angle (`cosAngle_real`).  Entry
  `(r, w)` of the result is a product of such cosines over the wires that reach wire `w`, hence the embedded real
  product of the same quantities (`G_real`).
-/
import Idealize.ShloMosaic.Lib.IdealHost
import proofs.«115797_j9835475108036_1_alg».proof.Proof.Spec
import proofs.«115797_j9835475108036_1_alg».proof.Proof.Circuit
import proofs.«115797_j9835475108036_1_alg».proof.Proof.Angles

noncomputable section

namespace Cert.SpecReal

open Idealize.ShloMosaic Idealize.ShloMosaic.ValueIdx

/-- The f32 word `0x40490FDB` (exponent field 128, fraction field `0x490FDB`) denotes
    `(2²³ + 4788187) · 2⁻²² = 13176795 / 2²²`. -/
theorem ofBits_pi32 : Ideal.ofBits .f32 0x40490FDB#32 = ((Cert.Angles.pi32 : ℝ) : EReal) := by
  unfold Cert.Angles.pi32
  simp [Ideal.ofBits, Ideal.ieee, -EReal.coe_mul]; norm_num

/-- The f32 word `0x3FC90FDB` (exponent field 127, fraction field `0x490FDB`) denotes
    `(2²³ + 4788187) · 2⁻²³ = 13176795 / 2²³`. -/
theorem ofBits_halfPi32 : Ideal.ofBits .f32 0x3FC90FDB#32 = ((Cert.Angles.halfPi32 : ℝ) : EReal) := by
  unfold Cert.Angles.halfPi32
  simp [Ideal.ofBits, Ideal.ieee, -EReal.coe_mul]; norm_num

/-- The embedding of the reals in the extended reals is monotone, so it commutes with `max`. -/
theorem coe_max (a b : ℝ) : ((max a b : ℝ) : EReal) = max (a : EReal) (b : EReal) :=
  EReal.coe_strictMono.monotone.map_max

/-- The embedding of the reals in the extended reals is monotone, so it commutes with `min`. -/
theorem coe_min (a b : ℝ) : ((min a b : ℝ) : EReal) = min (a : EReal) (b : EReal) :=
  EReal.coe_strictMono.monotone.map_min

/-- At a row of real inputs the cosine of qubit `i`'s full angle is the real `cos² − sin²` of its half angle. -/
theorem cosAngle_real (x : Cert.Spec.SIO.Idx → EReal) (r : Fin 262144) (xr : Fin 8 → ℝ)
    (hx : ∀ k : Fin 8, x (ix2 r k) = (xr k : EReal)) (i : Fin 8) :
    Cert.Spec.cosAngle x r i
      = ((Cert.Angles.cosHalf xr i ^ 2 - Cert.Angles.sinHalf xr i ^ 2 : ℝ) : EReal) := by
  unfold Cert.Spec.cosAngle
  rw [hx i, ofBits_pi32, Ideal.ofBits_one_f32, Ideal.ofBits_zero_f32, ← EReal.coe_zero, ← EReal.coe_one,
    ← coe_max, ← coe_min, ← EReal.coe_mul, Ideal.cos_coe, Cert.Angles.cos_fullAngle]

/-- At a row of real inputs, entry `(r, w)` of the result is the embedded real product of `cos² − sin²` of the half
    angles over the wires that reach wire `w`: a product of embedded reals is the embedded product. -/
theorem G_real (x : Cert.Spec.SIO.Idx → EReal) (r : Fin 262144) (xr : Fin 8 → ℝ)
    (hx : ∀ k : Fin 8, x (ix2 r k) = (xr k : EReal)) (w : Fin 8) :
    Cert.Spec.G x (ix2 r w)
      = ((Cert.Circuit.zprod (fun k => Cert.Angles.cosHalf xr k ^ 2 - Cert.Angles.sinHalf xr k ^ 2) w : ℝ) : EReal) := by
  show Cert.Spec.expZ x r w = _
  fin_cases w <;>
    simp only [Cert.Spec.expZ, Cert.Circuit.zprod, cosAngle_real x r xr hx, EReal.coe_mul]

end Cert.SpecReal

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.Bridge.lean ====
/-
  The reference's result is the kernel's function of the input.

  In a row of real inputs every probability is the square of the real amplitude at the label the chain of gates
  reads, so a wire's two marginal sums are finite sums of reals, and their difference is the sum identity of the chain:
  the product, over the wires that reach the measured wire, of `cos² − sin²` of the half angle.  That is the cosine
  of the full angle, whose product the kernel forms directly.
-/
import proofs.«115797_j9835475108036_1_alg».proof.Proof.RefAmp
import proofs.«115797_j9835475108036_1_alg».proof.Proof.RefTail
import proofs.«115797_j9835475108036_1_alg».proof.Proof.RefGates
import proofs.«115797_j9835475108036_1_alg».proof.Proof.CircuitSum
import proofs.«115797_j9835475108036_1_alg».proof.Proof.SpecReal
import proofs.«115797_j9835475108036_1_alg».proof.Proof.LibReal

noncomputable section

namespace Cert.ReferenceIdeal.SimValue

open Cert.ReferenceIdeal Cert.ReferenceIdeal.Gen Cert.ReferenceIdeal.Sim Cert.ReferenceIdeal.SimRead Cert.ReferenceIdeal.SimTail
open Cert.ReferenceIdeal.SimAmp Cert.ReferenceIdeal.SimGates Cert.Circuit Cert.Angles
open Idealize.ShloMosaic Idealize.ShloMosaic.ValueIdx

/-- A gate whose target is not the row axis keeps the row. -/
theorem cnot_row (a t : Fin 9) (ht : t ≠ 0) (i : S9.Idx) : (cnot a t i) 0 = i 0 := by
  unfold cnot
  split
  · rfl
  · exact Function.update_of_ne (Ne.symm ht) _ _

/-- The chain keeps the row. -/
theorem chain_row (i : S9.Idx) : (chain i) 0 = i 0 := by
  unfold chain
  rw [cnot_row _ _ (by decide), cnot_row _ _ (by decide), cnot_row _ _ (by decide), cnot_row _ _ (by decide),
    cnot_row _ _ (by decide), cnot_row _ _ (by decide), cnot_row _ _ (by decide), cnot_row _ _ (by decide)]

/-- In a real row, the probability at a label is the square of the real amplitude the chain reads. -/
theorem prob_real (x : Arr Ideal S262144x8) (r : Fin 262144) (xr : Fin 8 → ℝ)
    (hx : ∀ k : Fin 8, x (ix2 r k) = (xr k : EReal)) (i : S262144x2x2x2x2x2x2x2x2.Idx) (hi : (i 0).val = r.val) :
    probs x i = ((amp (cosHalf xr) (sinHalf xr) (chain i) * amp (cosHalf xr) (sinHalf xr) (chain i) : ℝ) : EReal) := by
  have hrow : (chain i) 0 = r := (chain_row i).trans (Fin.ext hi)
  rw [probs_at, evolved_at, state_real x (chain i) xr fun k => (congrArg (fun z => x (ix2 z k)) hrow).trans (hx k),
    EReal.coe_mul]

theorem out_real0 (x : Arr Ideal S262144x8) (r : Fin 262144) (xr : Fin 8 → ℝ)
    (hx : ∀ k : Fin 8, x (ix2 r k) = (xr k : EReal)) :
    out x (ix2 r 0) = ((zprod (fun k => cosHalf xr k ^ 2 - sinHalf xr k ^ 2) 0 : ℝ) : EReal) := by
  rw [out_at0, expectation_at, marginal0_at, marginal0_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 0)

theorem out_real1 (x : Arr Ideal S262144x8) (r : Fin 262144) (xr : Fin 8 → ℝ)
    (hx : ∀ k : Fin 8, x (ix2 r k) = (xr k : EReal)) :
    out x (ix2 r 1) = ((zprod (fun k => cosHalf xr k ^ 2 - sinHalf xr k ^ 2) 1 : ℝ) : EReal) := by
  rw [out_at1, expectation_at, marginal1_at, marginal1_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 1)

theorem out_real2 (x : Arr Ideal S262144x8) (r : Fin 262144) (xr : Fin 8 → ℝ)
    (hx : ∀ k : Fin 8, x (ix2 r k) = (xr k : EReal)) :
    out x (ix2 r 2) = ((zprod (fun k => cosHalf xr k ^ 2 - sinHalf xr k ^ 2) 2 : ℝ) : EReal) := by
  rw [out_at2, expectation_at, marginal2_at, marginal2_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 2)

theorem out_real3 (x : Arr Ideal S262144x8) (r : Fin 262144) (xr : Fin 8 → ℝ)
    (hx : ∀ k : Fin 8, x (ix2 r k) = (xr k : EReal)) :
    out x (ix2 r 3) = ((zprod (fun k => cosHalf xr k ^ 2 - sinHalf xr k ^ 2) 3 : ℝ) : EReal) := by
  rw [out_at3, expectation_at, marginal3_at, marginal3_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 3)

theorem out_real4 (x : Arr Ideal S262144x8) (r : Fin 262144) (xr : Fin 8 → ℝ)
    (hx : ∀ k : Fin 8, x (ix2 r k) = (xr k : EReal)) :
    out x (ix2 r 4) = ((zprod (fun k => cosHalf xr k ^ 2 - sinHalf xr k ^ 2) 4 : ℝ) : EReal) := by
  rw [out_at4, expectation_at, marginal4_at, marginal4_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 4)

theorem out_real5 (x : Arr Ideal S262144x8) (r : Fin 262144) (xr : Fin 8 → ℝ)
    (hx : ∀ k : Fin 8, x (ix2 r k) = (xr k : EReal)) :
    out x (ix2 r 5) = ((zprod (fun k => cosHalf xr k ^ 2 - sinHalf xr k ^ 2) 5 : ℝ) : EReal) := by
  rw [out_at5, expectation_at, marginal5_at, marginal5_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 5)

theorem out_real6 (x : Arr Ideal S262144x8) (r : Fin 262144) (xr : Fin 8 → ℝ)
    (hx : ∀ k : Fin 8, x (ix2 r k) = (xr k : EReal)) :
    out x (ix2 r 6) = ((zprod (fun k => cosHalf xr k ^ 2 - sinHalf xr k ^ 2) 6 : ℝ) : EReal) := by
  rw [out_at6, expectation_at, marginal6_at, marginal6_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 6)

theorem out_real7 (x : Arr Ideal S262144x8) (r : Fin 262144) (xr : Fin 8 → ℝ)
    (hx : ∀ k : Fin 8, x (ix2 r k) = (xr k : EReal)) :
    out x (ix2 r 7) = ((zprod (fun k => cosHalf xr k ^ 2 - sinHalf xr k ^ 2) 7 : ℝ) : EReal) := by
  rw [out_at7, expectation_at, marginal7_at, marginal7_at, Ideal.ofBits_zero_f32,
    Finset.sum_congr rfl (fun i hi => prob_real x r xr hx i (Finset.mem_filter.mp hi).2.1),
    Finset.sum_congr rfl (fun i hi => prob_real x r xr hx i (Finset.mem_filter.mp hi).2.1),
    ← LibReal.coe_sum, ← LibReal.coe_sum, zero_add, zero_add, ← EReal.coe_sub]
  exact congrArg _ (expect_eq (cosHalf xr) (sinHalf xr) (cosHalf_sq_add_sinHalf_sq xr) r 7)

/-- For an input all of whose entries are real, the reference's result is the kernel's function `G`. -/
theorem out_eq_G (x : Arr Ideal S262144x8) (hreal : ∀ i, ∃ t : ℝ, x i = (t : EReal)) : out x = Cert.Spec.G x := by
  choose f hf using hreal
  funext j
  obtain ⟨p, q, rfl⟩ : ∃ (p : Fin 262144) (q : Fin 8), j = ix2 p q := ⟨j 0, j 1, eq_ix2 j⟩
  have hx : ∀ k : Fin 8, x (ix2 p k) = ((f (ix2 p k) : ℝ) : EReal) := fun k => hf _
  refine Eq.trans ?_ (Cert.SpecReal.G_real x p (fun k => f (ix2 p k)) hx q).symm
  match q with
  | ⟨0, _⟩ => exact out_real0 x p _ hx
  | ⟨1, _⟩ => exact out_real1 x p _ hx
  | ⟨2, _⟩ => exact out_real2 x p _ hx
  | ⟨3, _⟩ => exact out_real3 x p _ hx
  | ⟨4, _⟩ => exact out_real4 x p _ hx
  | ⟨5, _⟩ => exact out_real5 x p _ hx
  | ⟨6, _⟩ => exact out_real6 x p _ hx
  | ⟨7, _⟩ => exact out_real7 x p _ hx

end Cert.ReferenceIdeal.SimValue

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.lean ====
/-
  The certificate: a Pallas kernel that evaluates a layer of eight qubits in closed form against a reference that
  simulates the state vector.

  Every row `x` of the input `[262144, 8]` sets eight rotation angles `θ i = π₃₂ · min 1 (max 0 (x i))`.  The reference
  prepares `⊗ᵢ (cos (θ i / 2) |0⟩ + sin (θ i / 2) |1⟩)`, applies the chain of controlled-NOT gates `0→1, …, 6→7, 7→0`
  to the `2⁸` amplitudes, squares them and returns, for each wire `j`, the probability that bit `j` is 0 minus the
  probability that it is 1.  The gates permute the basis labels linearly over GF(2): after the chain, bit `j` is the
  sum mod 2 of the original bits in `S j` (`S 0 = {1,…,7}`, `S j = {0,…,j}`), so that difference factors over the
  qubits as `∏_{i ∈ S j} (cos² − sin²)(θ i / 2) · ∏_{i ∉ S j} (cos² + sin²)(θ i / 2) = ∏_{i ∈ S j} cos (θ i)`, which the
  kernel multiplies up directly.  The reference's constant `(π/2)₃₂` is exactly half of the kernel's `π₃₂` as binary
  values, so the half angles are exact; the algebra is over the reals, which is where the finiteness of the input is
  used.  The two word-level and idealized kernels run by their generated frames; the reference's run is read off its
  list of host operations.  The idealization rewrote nothing, so that conjunct is trivial.
-/
import proofs.«115797_j9835475108036_1_alg».proof.Defs
import proofs.«115797_j9835475108036_1_alg».proof.Proof.Gen.Kernel
import proofs.«115797_j9835475108036_1_alg».proof.Proof.Gen.Kernel.Skeleton
import proofs.«115797_j9835475108036_1_alg».proof.Proof.Gen.Kernel.Launch
import proofs.«115797_j9835475108036_1_alg».proof.Proof.Gen.Kernel.Points
import proofs.«115797_j9835475108036_1_alg».proof.Proof.Gen.Kernel.Frame
import proofs.«115797_j9835475108036_1_alg».proof.Proof.Gen.KernelIdeal
import proofs.«115797_j9835475108036_1_alg».proof.Proof.Gen.KernelIdeal.Skeleton
import proofs.«115797_j9835475108036_1_alg».proof.Proof.Gen.KernelIdeal.Launch
import proofs.«115797_j9835475108036_1_alg».proof.Proof.Gen.KernelIdeal.Points
import proofs.«115797_j9835475108036_1_alg».proof.Proof.Gen.KernelIdeal.Frame
import proofs.«115797_j9835475108036_1_alg».proof.Proof.Gen.ReferenceIdeal
import proofs.«115797_j9835475108036_1_alg».proof.Proof.Gen.KernelIdeal.Value
import proofs.«115797_j9835475108036_1_alg».proof.Proof.Gen.Pre_finite_inputs
import proofs.«115797_j9835475108036_1_alg».proof.Proof.KernelValue
import proofs.«115797_j9835475108036_1_alg».proof.Proof.RefRun
import proofs.«115797_j9835475108036_1_alg».proof.Proof.Bridge
import proofs.«115797_j9835475108036_1_alg».proof.Proof.LibFiniteEntries
import Idealize.ShloMosaic.Adequacy
import Idealize.ShloMosaic.Init

noncomputable section

namespace Cert.Proof

open Idealize.ShloMosaic Idealize.ShloMosaic.TcCoe Idealize.SL.Sem

/-- Under the precondition every entry of the idealized kernel's input is a real number: the precondition is the test
    `all (|x| < +∞)`, and an extended real whose absolute value is below `+∞` is real. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S262144x8.Idx) :
    ∃ t : ℝ, m ((c.tc : Thread Cert.KernelIdeal.nD Cert.KernelIdeal.τ).loc Cert.KernelIdeal.main_arg0) i = (t : EReal) :=
  Cert.LibFiniteEntries.real_of_all _ _ _ _ _ ValueIdx.ix0 (congrFun (h c) ValueIdx.ix0) i

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2)
      (Cert.ReferenceIdeal.HandRun.run (F := Ideal) m ρ)
  · -- equal results: the kernel's array is `G` of the input, the reference's is `out` of the same input, and the
    -- input is real under the precondition
    intro m ρ m' ρ' hpre hagree
    refine ⟨fun c => Cert.Spec.G (m ((c.tc : Thread Cert.KernelIdeal.nD Cert.KernelIdeal.τ).loc Cert.KernelIdeal.main_arg0)),
      Cert.KernelIdeal.KValue.run m ρ, ?_⟩
    refine (θ_run Cert.ReferenceIdeal.defs _ _).mono (fun _ h c => ⟨(h c).1.trans ?_, (h c).2⟩)
      (Cert.ReferenceIdeal.HandRun.run (F := Ideal) m' ρ')
    rw [hagree c]
    exact Cert.ReferenceIdeal.SimValue.out_eq_G _ (real_of_pre m hpre c)⟩

end Cert.Proof

end
